-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x768 : Shape := ⟨2, ![1, 768]⟩
abbrev S1 : Shape := ⟨1, ![1]⟩
abbrev S16384x768 : Shape := ⟨2, ![16384, 768]⟩
abbrev S16384x1024 : Shape := ⟨2, ![16384, 1024]⟩
abbrev S3072x1536 : Shape := ⟨2, ![3072, 1536]⟩
abbrev S3072x1024 : Shape := ⟨2, ![3072, 1024]⟩
abbrev S3072 : Shape := ⟨1, ![3072]⟩
abbrev S1x1792 : Shape := ⟨2, ![1, 1792]⟩
abbrev S_ : Shape := ⟨0, ![]⟩

class Facts : Prop where
  bcast_S_S1x768 : S_.BroadcastsInDim S1x768 (![] : Fin 0 → Fin S1x768.rank)
  reducesTo_S1x768_S_d0_1 : S1x768.ReducesTo [0, 1] S_
  h_S_ : 0 < S_.numel
  bcast_S_S1 : S_.BroadcastsInDim S1 (![] : Fin 0 → Fin S1.rank)
  reducesTo_S1_S_d0 : S1.ReducesTo [0] S_
  bcast_S_S16384x768 : S_.BroadcastsInDim S16384x768 (![] : Fin 0 → Fin S16384x768.rank)
  reducesTo_S16384x768_S_d0_1 : S16384x768.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S3072x1536 : S_.BroadcastsInDim S3072x1536 (![] : Fin 0 → Fin S3072x1536.rank)
  reducesTo_S3072x1536_S_d0_1 : S3072x1536.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1x1792 : S_.BroadcastsInDim S1x1792 (![] : Fin 0 → Fin S1x1792.rank)
  reducesTo_S1x1792_S_d0_1 : S1x1792.ReducesTo [0, 1] S_

variable [Facts]

def fn_part2 {F : FTy → Type} [FloatOps F] (main_arg7 : FVec F S3072 .f32) (main_arg8 : FVec F S1x1792 .f32) (main_arg9 : FVec F S1 .f32) (main_v33 : IVec S_ 1) : IVec S_ 1 :=
  let main_v34 : FVec F S3072 .f32 := Host.absf main_arg7
  let main_cst_12 : FVec F S_ .f32 := constant S_ .f32 0x7F800000#32
  let main_v35 : FVec F S3072 .f32 := broadcastInDim S3072 ![] bcast_S_S3072 main_cst_12
  let main_v36 : IVec S3072 1 := cmpf .olt main_v34 main_v35
  let main_c_13 : IVec S_ 1 := constantI S_ 1 1#1
  let main_v37 : IVec S_ 1 := (fun x v => Host.reduce IntOp.andi x v reducesTo_S3072_S_d0 h_S_) main_v36 main_c_13
  let main_v38 : IVec S_ 1 := andi main_v33 main_v37
  let main_v39 : FVec F S1x1792 .f32 := Host.absf main_arg8
  let main_cst_14 : FVec F S_ .f32 := constant S_ .f32 0x7F800000#32
  let main_v40 : FVec F S1x1792 .f32 := broadcastInDim S1x1792 ![] bcast_S_S1x1792 main_cst_14
  let main_v41 : IVec S1x1792 1 := cmpf .olt main_v39 main_v40
  let main_c_15 : IVec S_ 1 := constantI S_ 1 1#1
  let main_v42 : IVec S_ 1 := (fun x v => Host.reduce IntOp.andi x v reducesTo_S1x1792_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S3072x1536 .f32) (main_arg5 : FVec F S3072x1024 .f32) (main_arg6 : FVec F S3072 .f32) (main_arg7 : FVec F S3072 .f32) (main_arg8 : FVec F S1x1792 .f32) (main_arg9 : FVec F S1 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S3072x1536 .f32 := Host.absf main_arg4
  let main_cst_6 : FVec F S_ .f32 := constant S_ .f32 0x7F800000#32
  let main_v20 : FVec F S3072x1536 .f32 := broadcastInDim S3072x1536 ![] bcast_S_S3072x1536 main_cst_6
  let main_v21 : IVec S3072x1536 1 := cmpf .olt main_v19 main_v20
  let main_c_7 : IVec S_ 1 := constantI S_ 1 1#1
  let main_v22 : IVec S_ 1 := (fun x v => Host.reduce IntOp.andi x v reducesTo_S3072x1536_S_d0_1 h_S_) main_v21 main_c_7
  let main_v23 : IVec S_ 1 := andi main_v18 main_v22
  let main_v24 : FVec F S3072x1024 .f32 := Host.absf main_arg5
  let main_cst_8 : FVec F S_ .f32 := constant S_ .f32 0x7F800000#32
  let main_v25 : FVec F S3072x1024 .f32 := broadcastInDim S3072x1024 ![] bcast_S_S3072x1024 main_cst_8
  let main_v26 : IVec S3072x1024 1 := cmpf .olt main_v24 main_v25
  let main_c_9 : IVec S_ 1 := constantI S_ 1 1#1
  let main_v27 : IVec S_ 1 := (fun x v => Host.reduce IntOp.andi x v reducesTo_S3072x1024_S_d0_1 h_S_) main_v26 main_c_9
  let main_v28 : IVec S_ 1 := andi main_v23 main_v27
  let main_v29 : FVec F S3072 .f32 := Host.absf main_arg6
  let main_cst_10 : FVec F S_ .f32 := constant S_ .f32 0x7F800000#32
  let main_v30 : FVec F S3072 .f32 := broadcastInDim S3072 ![] bcast_S_S3072 main_cst_10
  let main_v31 : IVec S3072 1 := cmpf .olt main_v29 main_v30
  let main_c_11 : IVec S_ 1 := constantI S_ 1 1#1
  let main_v32 : IVec S_ 1 := (fun x v => Host.reduce IntOp.andi x v reducesTo_S3072_S_d0 h_S_) main_v31 main_c_11
  let main_v33 : IVec S_ 1 := andi main_v28 main_v32
  fn_part2 (F := F) main_arg7 main_arg8 main_arg9 main_v33

def fn {F : FTy → Type} [FloatOps F] (main_arg0 : FVec F S1x768 .f32) (main_arg1 : FVec F S1 .f32) (main_arg2 : FVec F S16384x768 .f32) (main_arg3 : FVec F S16384x1024 .f32) (main_arg4 : FVec F S3072x1536 .f32) (main_arg5 : FVec F S3072x1024 .f32) (main_arg6 : FVec F S3072 .f32) (main_arg7 : FVec F S3072 .f32) (main_arg8 : FVec F S1x1792 .f32) (main_arg9 : FVec F S1 .f32) : IVec S_ 1 :=
  let main_v0 : FVec F S1x768 .f32 := Host.absf main_arg0
  let main_cst : FVec F S_ .f32 := constant S_ .f32 0x7F800000#32
  let main_v1 : FVec F S1x768 .f32 := broadcastInDim S1x768 ![] bcast_S_S1x768 main_cst
  let main_v2 : IVec S1x768 1 := cmpf .olt main_v0 main_v1
  let main_c : IVec S_ 1 := constantI S_ 1 1#1
  let main_v3 : IVec S_ 1 := (fun x v => Host.reduce IntOp.andi x v reducesTo_S1x768_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S16384x768 .f32 := Host.absf main_arg2
  let main_cst_2 : FVec F S_ .f32 := constant S_ .f32 0x7F800000#32
  let main_v10 : FVec F S16384x768 .f32 := broadcastInDim S16384x768 ![] bcast_S_S16384x768 main_cst_2
  let main_v11 : IVec S16384x768 1 := cmpf .olt main_v9 main_v10
  let main_c_3 : IVec S_ 1 := constantI S_ 1 1#1
  let main_v12 : IVec S_ 1 := (fun x v => Host.reduce IntOp.andi x v reducesTo_S16384x768_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_arg6 main_arg7 main_arg8 main_arg9 main_v13 main_v16
-- ==== Kernel.lean ====
abbrev S1x768 : Shape := ⟨2, ![1, 768]⟩
abbrev S1 : Shape := ⟨1, ![1]⟩
abbrev S16384x768 : Shape := ⟨2, ![16384, 768]⟩
abbrev S16384x1024 : Shape := ⟨2, ![16384, 1024]⟩
abbrev S3072x1536 : Shape := ⟨2, ![3072, 1536]⟩
abbrev S3072x1024 : Shape := ⟨2, ![3072, 1024]⟩
abbrev S3072 : Shape := ⟨1, ![3072]⟩
abbrev S1x1792 : Shape := ⟨2, ![1, 1792]⟩
abbrev S1x1024 : Shape := ⟨2, ![1, 1024]⟩
abbrev S16x1024 : Shape := ⟨2, ![16, 1024]⟩
abbrev S16x128 : Shape := ⟨2, ![16, 128]⟩
abbrev S2048x768 : Shape := ⟨2, ![2048, 768]⟩
abbrev S2048x1024 : Shape := ⟨2, ![2048, 1024]⟩
abbrev S8x1024 : Shape := ⟨2, ![8, 1024]⟩
abbrev S8x128 : Shape := ⟨2, ![8, 128]⟩
abbrev S1x1 : Shape := ⟨2, ![1, 1]⟩
abbrev S1x2048 : Shape := ⟨2, ![1, 2048]⟩
abbrev S1024 : Shape := ⟨1, ![1024]⟩
abbrev S_ : Shape := ⟨0, ![]⟩
abbrev S1x3072 : Shape := ⟨2, ![1, 3072]⟩
abbrev S8x3072 : Shape := ⟨2, ![8, 3072]⟩
abbrev S1024x768 : Shape := ⟨2, ![1024, 768]⟩
abbrev S1024x1024 : Shape := ⟨2, ![1024, 1024]⟩
abbrev S1792x1 : Shape := ⟨2, ![1792, 1]⟩

abbrev nBuf : Space → Nat
  | .hbm => 95
  | .vmem => 28
  | .smem => 1
  | _ => 0

abbrev bufTy : (tb : Table) → Fin (tcTables nBuf tb) → BufTy
  | .hbm, ⟨0, _⟩ => ⟨S1x768, .f32⟩
  | .hbm, ⟨1, _⟩ => ⟨S1, .f32⟩
  | .hbm, ⟨2, _⟩ => ⟨S16384x768, .f32⟩
  | .hbm, ⟨3, _⟩ => ⟨S16384x1024, .f32⟩
  | .hbm, ⟨4, _⟩ => ⟨S3072x1536, .f32⟩
  | .hbm, ⟨5, _⟩ => ⟨S3072x1024, .f32⟩
  | .hbm, ⟨6, _⟩ => ⟨S3072, .f32⟩
  | .hbm, ⟨7, _⟩ => ⟨S3072, .f32⟩
  | .hbm, ⟨8, _⟩ => ⟨S1x1792, .f32⟩
  | .hbm, ⟨9, _⟩ => ⟨S1, .f32⟩
  | .hbm, ⟨10, _⟩ => ⟨S1x1024, .f32⟩
  | .hbm, ⟨11, _⟩ => ⟨S16x1024, .f32⟩
  | .hbm, ⟨12, _⟩ => ⟨S16x128, .f32⟩
  | .hbm, ⟨13, _⟩ => ⟨S16x128, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1, .f32⟩
  | .hbm, ⟨19, _⟩ => ⟨S_, .f32⟩
  | .hbm, ⟨20, _⟩ => ⟨S1x1, .f32⟩
  | .hbm, ⟨21, _⟩ => ⟨S_, .f32⟩
  | .hbm, ⟨22, _⟩ => ⟨S1x1, .f32⟩
  | .hbm, ⟨23, _⟩ => ⟨S_, .f32⟩
  | .hbm, ⟨24, _⟩ => ⟨S1x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1, .f32⟩
  | .hbm, ⟨44, _⟩ => ⟨S1, .i1⟩
  | .hbm, ⟨45, _⟩ => ⟨S_, .i32⟩
  | .hbm, ⟨46, _⟩ => ⟨S_, .i32⟩
  | .hbm, ⟨47, _⟩ => ⟨S1, .i32⟩
  | .hbm, ⟨48, _⟩ => ⟨S1, .i32⟩
  | .hbm, ⟨49, _⟩ => ⟨S1, .i32⟩
  | .hbm, ⟨50, _⟩ => ⟨S1x3072, .f32⟩
  | .hbm, ⟨51, _⟩ => ⟨S1x3072, .f32⟩
  | .hbm, ⟨52, _⟩ => ⟨S8x3072, .f32⟩
  | .hbm, ⟨53, _⟩ => ⟨S8x3072, .f32⟩
  | .hbm, ⟨54, _⟩ => ⟨S1x3072, .f32⟩
  | .hbm, ⟨55, _⟩ => ⟨S1x3072, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S_, .f32⟩
  | .hbm, ⟨66, _⟩ => ⟨S1x1024, .f32⟩
  | .hbm, ⟨67, _⟩ => ⟨S1x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S_, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1792, .f32⟩
  | .hbm, ⟨90, _⟩ => ⟨S1792x1, .f32⟩
  | .hbm, ⟨91, _⟩ => ⟨S1x1, .f32⟩
  | .hbm, ⟨92, _⟩ => ⟨S1x1, .f32⟩
  | .hbm, ⟨93, _⟩ => ⟨S1x1, .f32⟩
  | .hbm, ⟨94, _⟩ => ⟨S1, .f32⟩
  | .local _ .vmem, ⟨0, _⟩ => ⟨S1x768, .f32⟩
  | .local _ .vmem, ⟨1, _⟩ => ⟨S2048x768, .f32⟩
  | .local _ .vmem, ⟨2, _⟩ => ⟨S2048x768, .f32⟩
  | .local _ .vmem, ⟨3, _⟩ => ⟨S2048x1024, .f32⟩
  | .local _ .vmem, ⟨4, _⟩ => ⟨S2048x1024, .f32⟩
  | .local _ .vmem, ⟨5, _⟩ => ⟨S8x1024, .f32⟩
  | .local _ .vmem, ⟨6, _⟩ => ⟨S8x1024, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S1x1, .f32⟩
  | .local _ .vmem, ⟨12, _⟩ => ⟨S1x1, .f32⟩
  | .local _ .vmem, ⟨13, _⟩ => ⟨S1x1024, .f32⟩
  | .local _ .vmem, ⟨14, _⟩ => ⟨S1x768, .f32⟩
  | .local _ .vmem, ⟨15, _⟩ => ⟨S1x1024, .f32⟩
  | .local _ .vmem, ⟨16, _⟩ => ⟨S1024x768, .f32⟩
  | .local _ .vmem, ⟨17, _⟩ => ⟨S1024x768, .f32⟩
  | .local _ .vmem, ⟨18, _⟩ => ⟨S1024x1024, .f32⟩
  | .local _ .vmem, ⟨19, _⟩ => ⟨S1024x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S8x1024, .f32⟩
  | .local _ .vmem, ⟨25, _⟩ => ⟨S8x1024, .f32⟩
  | .local _ .vmem, ⟨26, _⟩ => ⟨S8x1024, .f32⟩
  | .local _ .vmem, ⟨27, _⟩ => ⟨S8x1024, .f32⟩
  | .local _ .smem, ⟨0, _⟩ => ⟨S1, .i32⟩
  | _, _ => ⟨S1x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_c : Ref sig .tc := ⟨.hbm, 45, rfl⟩
abbrev main_c_0 : Ref sig .tc := ⟨.hbm, 46, rfl⟩
abbrev main_call0_v0 : Ref sig .tc := ⟨.hbm, 47, rfl⟩
abbrev main_call0_v1 : Ref sig .tc := ⟨.hbm, 48, rfl⟩
abbrev main_v32 : Ref sig .tc := ⟨.hbm, 49, rfl⟩
abbrev main_v34 : Ref sig .tc := ⟨.hbm, 50, rfl⟩
abbrev main_v35 : Ref sig .tc := ⟨.hbm, 51, rfl⟩
abbrev main_v36_0 : Ref sig .tc := ⟨.hbm, 52, rfl⟩
abbrev main_v36_1 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_1 : Ref sig .tc := ⟨.hbm, 65, rfl⟩
abbrev main_v48 : Ref sig .tc := ⟨.hbm, 66, rfl⟩
abbrev main_v49 : Ref sig .tc := ⟨.hbm, 67, rfl⟩
abbrev main_cst_2 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_3 : Ref sig .tc := ⟨.hbm, 74, rfl⟩
abbrev main_v55 : Ref sig .tc := ⟨.hbm, 75, rfl⟩
abbrev main_v56 : Ref sig .tc := ⟨.hbm, 76, rfl⟩
abbrev main_cst_4 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_5 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v33 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![3], ![false]⟩

abbrev pre1 : Pipeline.Prefetch sig := ⟨1, ![main_v33.idx], fun | 0 => main_v33.names | ⟨_ + 1, h⟩ => absurd h (Nat.not_lt.2 (Nat.le_add_left _ _)), fun | 0 => rfl | ⟨_ + 1, h⟩ => absurd h (Nat.not_lt.2 (Nat.le_add_left _ _))⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (inb_S1_S1_0 : ∀ a, (![0] : Fin 1 → Nat) a + S1.size a ≤ S1.size a) (numel1_S1 : S1.numel = 1) (pf : pre1.Contents (Elt F)) (i : grid1.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S16384x1024_S1x1024_16383_0 : S16384x1024.Slices ![16383, 0] S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x768_S1x768_0_0 : ∀ a, (![0, 0] : Fin 2 → Nat) a + S1x768.size a ≤ S1x768.size a
  h_S1x768 : 0 < S1x768.numel
  bitsLt_bf16_f32 : FTy.bits .bf16 < FTy.bits .f32
  inb_S2048x768_S2048x768_0_0 : ∀ a, (![0, 0] : Fin 2 → Nat) a + S2048x768.size a ≤ S2048x768.size a
  h_S2048x768 : 0 < S2048x768.numel
  inb_S2048x1024_S2048x1024_0_0 : ∀ a, (![0, 0] : Fin 2 → Nat) a + S2048x1024.size a ≤ S2048x1024.size a
  h_S2048x1024 : 0 < S2048x1024.numel
  reduces_S1x2048_S1 : S1x2048.Reduces [1] S1
  shapeCasts_S1_S1x1 : S1.ShapeCasts S1x1
  broadcasts_S1x1_S1x2048 : S1x1.Broadcasts S1x2048
  broadcasts_S1x1_S1x1024 : S1x1.Broadcasts S1x1024
  broadcasts_S1x1024_S8x1024 : S1x1024.Broadcasts S8x1024
  inb_S8x1024_S8x1024_0_0 : ∀ a, (![0, 0] : Fin 2 → Nat) a + S8x1024.size a ≤ S8x1024.size a
  h_S8x1024 : 0 < S8x1024.numel
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x1024_S1x1024_0_0 : S16x1024.Slices ![0, 0] S1x1024
  shapeCasts_S1x1024_S1024 : S1x1024.ShapeCasts S1024
  slices_S16x1024_S1x1024_8_0 : S16x1024.Slices ![8, 0] S1x1024
  slices_S16x128_S1x1_0_0 : S16x128.Slices ![0, 0] S1x1
  shapeCasts_S1x1_S_ : S1x1.ShapeCasts S_
  slices_S16x128_S1x1_8_0 : S16x128.Slices ![8, 0] S1x1
  bcast_S_S1024 : S_.BroadcastsInDim S1024 (![] : Fin 0 → Fin S1024.rank)
  bcast_S1024_S1x1024_1 : S1024.BroadcastsInDim S1x1024 (![1] : Fin 1 → Fin S1x1024.rank)
  bcast_S_S1 : S_.BroadcastsInDim S1 (![] : Fin 0 → Fin S1.rank)
  shapeCasts_S3072_S1x3072 : S3072.ShapeCasts S1x3072
  inb_S1_S1_0 : ∀ a, (![0] : Fin 1 → Nat) a + S1.size a ≤ S1.size a
  numel1_S1 : S1.numel = 1
  inb_S1024x768_S1024x768_0_0 : ∀ a, (![0, 0] : Fin 2 → Nat) a + S1024x768.size a ≤ S1024x768.size a
  h_S1024x768 : 0 < S1024x768.numel
  inb_S1024x1024_S1024x1024_0_0 : ∀ a, (![0, 0] : Fin 2 → Nat) a + S1024x1024.size a ≤ S1024x1024.size a
  h_S1024x1024 : 0 < S1024x1024.numel
  slices_S8x3072_S1x3072_0_0 : S8x3072.Slices ![0, 0] S1x3072
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  bcast_S_S1x1024 : S_.BroadcastsInDim S1x1024 (![] : Fin 0 → Fin S1x1024.rank)
  concatenates_S1x768_S1x1024_S1x1792_d1 : Shape.Concatenates [S1x768, S1x1024] S1x1792 1
  transposes_S1x1792_S1792x1_1_0 : S1x1792.Transposes [1, 0] S1792x1
  bcast_S1_S1x1_1 : S1.BroadcastsInDim S1x1 (![1] : Fin 1 → Fin S1x1.rank)
  shapeCasts_S1x1_S1 : S1x1.ShapeCasts S1
  dot_S1x768_S2048x768_S1x2048_1_1_0_0_n_n_wf : DotDims.WF S1x768 S2048x768 S1x2048 [1] [1] [0] [0] [] []
  dot_S1x2048_S2048x1024_S1x1024_1_0_0_1_n_n_wf : DotDims.WF S1x2048 S2048x1024 S1x1024 [1] [0] [0] [1] [] []
  dot_S1x768_S1024x768_S1x1024_1_1_0_0_n_n_wf : DotDims.WF S1x768 S1024x768 S1x1024 [1] [1] [0] [0] [] []
  dot_S1x1024_S1024x1024_S1x1024_1_1_0_0_n_n_wf : DotDims.WF S1x1024 S1024x1024 S1x1024 [1] [1] [0] [0] [] []
  dot_S1x1792_S1792x1_S1x1_1_0_0_1_n_n_wf : DotDims.WF S1x1792 S1792x1 S1x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x768.size a ≤ S1x768.size a
  hwx0_0 : ∀ i : grid0.Coords, EltTy.bits .f32 = 32 ∨ (Rect.block (s := S1x768) S1x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S16384x768.size a
  hwx0_1 : ∀ i : grid0.Coords, EltTy.bits .f32 = 32 ∨ (Rect.block (s := S16384x768) S2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S16384x1024.size a
  hwx0_2 : ∀ i : grid0.Coords, EltTy.bits .f32 = 32 ∨ (Rect.block (s := S16384x1024) S2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S16x1024.size a
  hwx0_3 : ∀ i : grid0.Coords, EltTy.bits .f32 = 32 ∨ (Rect.block (s := S16x1024) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x768.size a ≤ S1x768.size a
  hwx1_0 : ∀ i : grid1.Coords, EltTy.bits .f32 = 32 ∨ (Rect.block (s := S1x768) S1x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 inb_S1_S1_0 numel1_S1 pf i = cc1_transform_2 inb_S1_S1_0 numel1_S1 pf i'
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S3072x1024.size a
  hwx1_3 : ∀ i : grid1.Coords, EltTy.bits .f32 = 32 ∨ (Rect.block (s := S3072x1024) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x3072.size a
  hwx1_4 : ∀ i : grid1.Coords, EltTy.bits .f32 = 32 ∨ (Rect.block (s := S1x3072) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x3072.size a
  hwx1_5 : ∀ i : grid1.Coords, EltTy.bits .f32 = 32 ∨ (Rect.block (s := S1x3072) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x1024.size a ≤ S8x3072.size a
  hwx1_6 : ∀ i : grid1.Coords, EltTy.bits .f32 = 32 ∨ (Rect.block (s := S8x3072) S8x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x1024.size a ≤ S8x3072.size a
  hwx1_7 : ∀ i : grid1.Coords, EltTy.bits .f32 = 32 ∨ (Rect.block (s := S8x3072) S8x1024.size (cc1_transform_7 i) (hinb1_7 i)).WholeWords (EltTy.packing .f32)

variable [Facts₀]

def dot_S1x768_S2048x768_S1x2048_1_1_0_0_n_n : DotDims S1x768 S2048x768 S1x2048 where
  lhsContracting := [1]
  rhsContracting := [1]
  lhsNonContracting := [0]
  rhsNonContracting := [0]
  lhsBatch := []
  rhsBatch := []
  wf := dot_S1x768_S2048x768_S1x2048_1_1_0_0_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x768_S1024x768_S1x1024_1_1_0_0_n_n : DotDims S1x768 S1024x768 S1x1024 where
  lhsContracting := [1]
  rhsContracting := [1]
  lhsNonContracting := [0]
  rhsNonContracting := [0]
  lhsBatch := []
  rhsBatch := []
  wf := dot_S1x768_S1024x768_S1x1024_1_1_0_0_n_n_wf
def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1792_S1792x1_S1x1_1_0_0_1_n_n : DotDims S1x1792 S1792x1 S1x1 where
  lhsContracting := [1]
  rhsContracting := [0]
  lhsNonContracting := [0]
  rhsNonContracting := [1]
  lhsBatch := []
  rhsBatch := []
  wf := dot_S1x1792_S1792x1_S1x1_1_0_0_1_n_n_wf

abbrev win0_0 : Pipeline.Window sig grid0 :=
  Pipeline.Window.ofSpec (Memref.whole main_arg0) S1x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S8x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

abbrev spec1_0 : Pipeline.WinSpec sig grid1.rank :=
  Pipeline.WinSpec.ofSpec (Memref.whole main_arg0) S1x768.size reads1_0 false true 1 stage1_0 sem1_0 nbuf1_0 hstage1_0

abbrev spec1_1 : Pipeline.WinSpec sig grid1.rank :=
  Pipeline.WinSpec.ofSpec (Memref.whole main_v0) S1x1024.size reads1_1 false true 1 stage1_1 sem1_1 nbuf1_1 hstage1_1

abbrev spec1_2 : Pipeline.WinSpec sig grid1.rank :=
  Pipeline.WinSpec.ofSpec (Memref.whole main_arg4) S1024x768.size reads1_2 false false 2 stage1_2 sem1_2 nbuf1_2 hstage1_2

abbrev spec1_3 : Pipeline.WinSpec sig grid1.rank :=
  Pipeline.WinSpec.ofSpec (Memref.whole main_arg5) S1024x1024.size reads1_3 false false 2 stage1_3 sem1_3 nbuf1_3 hstage1_3

abbrev spec1_4 : Pipeline.WinSpec sig grid1.rank :=
  Pipeline.WinSpec.ofSpec (Memref.whole main_v34) S1x1024.size reads1_4 false false 2 stage1_4 sem1_4 nbuf1_4 hstage1_4

abbrev spec1_5 : Pipeline.WinSpec sig grid1.rank :=
  Pipeline.WinSpec.ofSpec (Memref.whole main_v35) S1x1024.size reads1_5 false false 2 stage1_5 sem1_5 nbuf1_5 hstage1_5

abbrev spec1_6 : Pipeline.WinSpec sig grid1.rank :=
  Pipeline.WinSpec.ofSpec (Memref.whole main_v36_0) S8x1024.size reads1_6 true false 2 stage1_6 sem1_6 nbuf1_6 hstage1_6

abbrev spec1_7 : Pipeline.WinSpec sig grid1.rank :=
  Pipeline.WinSpec.ofSpec (Memref.whole main_v36_1) S8x1024.size reads1_7 true false 2 stage1_7 sem1_7 nbuf1_7 hstage1_7

abbrev spec1 : Fin 8 → Pipeline.WinSpec sig grid1.rank := fun | 0 => spec1_0 | 1 => spec1_1 | 2 => spec1_2 | 3 => spec1_3 | 4 => spec1_4 | 5 => spec1_5 | 6 => spec1_6 | 7 => spec1_7 | ⟨_ + 8, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | 5 => nbuf1_5 | 6 => nbuf1_6 | 7 => nbuf1_7 | ⟨_ + 8, h⟩ => absurd h (Nat.not_lt.2 (Nat.le_add_left _ _))
abbrev ix1 (pf : pre1.Contents (Elt F)) : (w : Fin 8) → grid1.Coords → Fin (spec1 w).shape.rank → Nat := fun | 0 => cc1_transform_0 | 1 => cc1_transform_1 | 2 => cc1_transform_2 inb_S1_S1_0 numel1_S1 pf | 3 => cc1_transform_3 | 4 => cc1_transform_4 | 5 => cc1_transform_5 | 6 => cc1_transform_6 | 7 => cc1_transform_7 | ⟨_ + 8, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 pf | 3 => hreads1_3 | 4 => hreads1_4 | 5 => hreads1_5 | 6 => hreads1_6 | 7 => hreads1_7 | ⟨_ + 8, h⟩ => absurd h (Nat.not_lt.2 (Nat.le_add_left _ _))
def ok1 (pf : pre1.Contents (Elt F)) : Prop :=
  (∀ i : grid1.Coords, ∃ h : (∀ a, (cc1_transform_2 inb_S1_S1_0 numel1_S1 pf i a + 1) * S1024x768.size a ≤ S3072x1536.size a), EltTy.bits .f32 = 32 ∨ (Rect.block (s := S3072x1536) S1024x768.size (cc1_transform_2 inb_S1_S1_0 numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => hinb1_0 | 1 => hinb1_1 | 2 => fun i a => (hok i).elim fun h _ => h a | 3 => hinb1_3 | 4 => hinb1_4 | 5 => hinb1_5 | 6 => hinb1_6 | 7 => hinb1_7 | ⟨_ + 8, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => hwx1_0 | 1 => hwx1_1 | 2 => fun i => (hok i).elim fun _ h => h | 3 => hwx1_3 | 4 => hwx1_4 | 5 => hwx1_5 | 6 => hwx1_6 | 7 => hwx1_7 | ⟨_ + 8, h⟩ => absurd h (Nat.not_lt.2 (Nat.le_add_left _ _))

class Facts : Prop extends Facts₀ where
  harr1 : ∀ w, (spec1 w).arr.IsWhole

variable [Facts]
-- ==== ReferenceIdeal.lean ====
abbrev S1x768 : Shape := ⟨2, ![1, 768]⟩
abbrev S1 : Shape := ⟨1, ![1]⟩
abbrev S16384x768 : Shape := ⟨2, ![16384, 768]⟩
abbrev S16384x1024 : Shape := ⟨2, ![16384, 1024]⟩
abbrev S3072x1536 : Shape := ⟨2, ![3072, 1536]⟩
abbrev S3072x1024 : Shape := ⟨2, ![3072, 1024]⟩
abbrev S3072 : Shape := ⟨1, ![3072]⟩
abbrev S1x1792 : Shape := ⟨2, ![1, 1792]⟩
abbrev S1x1024 : Shape := ⟨2, ![1, 1024]⟩
abbrev S768x1 : Shape := ⟨2, ![768, 1]⟩
abbrev S16384x1 : Shape := ⟨2, ![16384, 1]⟩
abbrev S_ : Shape := ⟨0, ![]⟩
abbrev S1x1 : Shape := ⟨2, ![1, 1]⟩
abbrev S1x16384 : Shape := ⟨2, ![1, 16384]⟩
abbrev S1792x1 : Shape := ⟨2, ![1792, 1]⟩
abbrev S1x1536 : Shape := ⟨2, ![1, 1536]⟩
abbrev S1536x3072 : Shape := ⟨2, ![1536, 3072]⟩
abbrev S1x3072 : Shape := ⟨2, ![1, 3072]⟩
abbrev S1024x3072 : Shape := ⟨2, ![1024, 3072]⟩

abbrev nBuf : Space → Nat
  | .hbm => 85
  | .vmem => 0
  | .smem => 0
  | _ => 0

abbrev bufTy : (tb : Table) → Fin (tcTables nBuf tb) → BufTy
  | .hbm, ⟨0, _⟩ => ⟨S1x768, .f32⟩
  | .hbm, ⟨1, _⟩ => ⟨S1, .f32⟩
  | .hbm, ⟨2, _⟩ => ⟨S16384x768, .f32⟩
  | .hbm, ⟨3, _⟩ => ⟨S16384x1024, .f32⟩
  | .hbm, ⟨4, _⟩ => ⟨S3072x1536, .f32⟩
  | .hbm, ⟨5, _⟩ => ⟨S3072x1024, .f32⟩
  | .hbm, ⟨6, _⟩ => ⟨S3072, .f32⟩
  | .hbm, ⟨7, _⟩ => ⟨S3072, .f32⟩
  | .hbm, ⟨8, _⟩ => ⟨S1x1792, .f32⟩
  | .hbm, ⟨9, _⟩ => ⟨S1, .f32⟩
  | .hbm, ⟨10, _⟩ => ⟨S1x1024, .f32⟩
  | .hbm, ⟨11, _⟩ => ⟨S768x1, .f32⟩
  | .hbm, ⟨12, _⟩ => ⟨S16384x1, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S1, .f32⟩
  | .hbm, ⟨18, _⟩ => ⟨S1x1, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S1, .f32⟩
  | .hbm, ⟨24, _⟩ => ⟨S1x1, .f32⟩
  | .hbm, ⟨25, _⟩ => ⟨S16384x1, .f32⟩
  | .hbm, ⟨26, _⟩ => ⟨S16384x1, .f32⟩
  | .hbm, ⟨27, _⟩ => ⟨S1x16384, .f32⟩
  | .hbm, ⟨28, _⟩ => ⟨S1x1024, .f32⟩
  | .hbm, ⟨29, _⟩ => ⟨S1x1792, .f32⟩
  | .hbm, ⟨30, _⟩ => ⟨S1792x1, .f32⟩
  | .hbm, ⟨31, _⟩ => ⟨S1x1, .f32⟩
  | .hbm, ⟨32, _⟩ => ⟨S1x1, .f32⟩
  | .hbm, ⟨33, _⟩ => ⟨S1x1, .f32⟩
  | .hbm, ⟨34, _⟩ => ⟨S_, .f32⟩
  | .hbm, ⟨35, _⟩ => ⟨S1x768, .f32⟩
  | .hbm, ⟨36, _⟩ => ⟨S_, .f32⟩
  | .hbm, ⟨37, _⟩ => ⟨S1, .f32⟩
  | .hbm, ⟨38, _⟩ => ⟨S1, .i1⟩
  | .hbm, ⟨39, _⟩ => ⟨S1x1536, .f32⟩
  | .hbm, ⟨40, _⟩ => ⟨S1x1536, .f32⟩
  | .hbm, ⟨41, _⟩ => ⟨S1x1536, .i1⟩
  | .hbm, ⟨42, _⟩ => ⟨S1x1536, .f32⟩
  | .hbm, ⟨43, _⟩ => ⟨S1536x3072, .f32⟩
  | .hbm, ⟨44, _⟩ => ⟨S1x3072, .f32⟩
  | .hbm, ⟨45, _⟩ => ⟨S1x3072, .f32⟩
  | .hbm, ⟨46, _⟩ => ⟨S1x3072, .f32⟩
  | .hbm, ⟨47, _⟩ => ⟨S1024x3072, .f32⟩
  | .hbm, ⟨48, _⟩ => ⟨S1x3072, .f32⟩
  | .hbm, ⟨49, _⟩ => ⟨S1x3072, .f32⟩
  | .hbm, ⟨50, _⟩ => ⟨S1x3072, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S1, .f32⟩
  | _, _ => ⟨S1x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_4 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]

class Facts₀ : Prop where
  slices_S16384x1024_S1x1024_16383_0 : S16384x1024.Slices ![16383, 0] S1x1024
  transposes_S1x768_S768x1_1_0 : S1x768.Transposes [1, 0] S768x1
  reducesTo_S16384x1_S1_d0 : S16384x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  transposes_S16384x1_S1x16384_1_0 : S16384x1.Transposes [1, 0] S1x16384
  concatenates_S1x768_S1x1024_S1x1792_d1 : Shape.Concatenates [S1x768, S1x1024] S1x1792 1
  transposes_S1x1792_S1792x1_1_0 : S1x1792.Transposes [1, 0] S1792x1
  bcast_S_S1x768 : S_.BroadcastsInDim S1x768 (![] : Fin 0 → Fin S1x768.rank)
  concatenates_S1x768_S1x768_S1x1536_d1 : Shape.Concatenates [S1x768, S1x768] S1x1536 1
  bcast_S1_S1x1536_1 : S1.BroadcastsInDim S1x1536 (![1] : Fin 1 → Fin S1x1536.rank)
  transposes_S3072x1536_S1536x3072_1_0 : S3072x1536.Transposes [1, 0] S1536x3072
  bcast_S3072_S1x3072_1 : S3072.BroadcastsInDim S1x3072 (![1] : Fin 1 → Fin S1x3072.rank)
  transposes_S3072x1024_S1024x3072_1_0 : S3072x1024.Transposes [1, 0] S1024x3072
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  bcast_S_S1x1024 : S_.BroadcastsInDim S1x1024 (![] : Fin 0 → Fin S1x1024.rank)
  shapeCasts_S1x1_S1 : S1x1.ShapeCasts S1
  dot_S16384x768_S768x1_S16384x1_1_0_0_1_n_n_wf : DotDims.WF S16384x768 S768x1 S16384x1 [1] [0] [0] [1] [] []
  dot_S1x16384_S16384x1024_S1x1024_1_0_0_1_n_n_wf : DotDims.WF S1x16384 S16384x1024 S1x1024 [1] [0] [0] [1] [] []
  dot_S1x1792_S1792x1_S1x1_1_0_0_1_n_n_wf : DotDims.WF S1x1792 S1792x1 S1x1 [1] [0] [0] [1] [] []
  dot_S1x1536_S1536x3072_S1x3072_1_0_0_1_n_n_wf : DotDims.WF S1x1536 S1536x3072 S1x3072 [1] [0] [0] [1] [] []
  dot_S1x1024_S1024x3072_S1x3072_1_0_0_1_n_n_wf : DotDims.WF S1x1024 S1024x3072 S1x3072 [1] [0] [0] [1] [] []

variable [Facts₀]

def dot_S16384x768_S768x1_S16384x1_1_0_0_1_n_n : DotDims S16384x768 S768x1 S16384x1 where
  lhsContracting := [1]
  rhsContracting := [0]
  lhsNonContracting := [0]
  rhsNonContracting := [1]
  lhsBatch := []
  rhsBatch := []
  wf := dot_S16384x768_S768x1_S16384x1_1_0_0_1_n_n_wf
def dot_S1x16384_S16384x1024_S1x1024_1_0_0_1_n_n : DotDims S1x16384 S16384x1024 S1x1024 where
  lhsContracting := [1]
  rhsContracting := [0]
  lhsNonContracting := [0]
  rhsNonContracting := [1]
  lhsBatch := []
  rhsBatch := []
  wf := dot_S1x16384_S16384x1024_S1x1024_1_0_0_1_n_n_wf
def dot_S1x1792_S1792x1_S1x1_1_0_0_1_n_n : DotDims S1x1792 S1792x1 S1x1 where
  lhsContracting := [1]
  rhsContracting := [0]
  lhsNonContracting := [0]
  rhsNonContracting := [1]
  lhsBatch := []
  rhsBatch := []
  wf := dot_S1x1792_S1792x1_S1x1_1_0_0_1_n_n_wf
def dot_S1x1536_S1536x3072_S1x3072_1_0_0_1_n_n : DotDims S1x1536 S1536x3072 S1x3072 where
  lhsContracting := [1]
  rhsContracting := [0]
  lhsNonContracting := [0]
  rhsNonContracting := [1]
  lhsBatch := []
  rhsBatch := []
  wf := dot_S1x1536_S1536x3072_S1x3072_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf

class Facts : Prop extends Facts₀ where

variable [Facts]
-- ==== Proof.KernelAttnGrid.lean ====
/-
  The attention region: the grid's points and windows.

  The region runs over a 2 × 4 grid, point t = 4·h + k being tile k of half h of the 16384 history rows.  Three windows
  are read (the query row, a tile of 2048 key rows, the matching tile of 2048 value rows) and three are written (the
  accumulator, the running maximum and the running sum of a half, each broadcast over 8 sublanes), and the body keeps
  the running maximum m, the running sum l and the running accumulator acc in three scratch buffers from one tile
  to the next.  It resets them at the first tile of a half (k = 0) and writes them out at the last (k = 3); at the
  other points the three output windows are left as they were found.
-/
import proofs.«146633_j61375082660584_2_alg».proof.Proof.Gen.Kernel.Launch
import proofs.«146633_j61375082660584_2_alg».proof.Proof.Gen.Kernel.Skeleton
import proofs.«146633_j61375082660584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the array's block at every grid point, whether the pipeline fetched it there
    or the block index did not move since the last fetch. -/
theorem in0_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1's staging buffer holds the array's block at every grid point, whether the pipeline fetched it there
    or the block index did not move since the last fetch. -/
theorem in1_of {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2's staging buffer holds the array's block at every grid point, whether the pipeline fetched it there
    or the block index did not move since the last fetch. -/
theorem in2_of {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-! ## The two branches of the body, decided over the grid -/

/-- The body's first branch is taken at the first tile of a half: the second grid coordinate is 0. -/
abbrev firstTile (i : grid0.Coords) : Prop :=
  (Scalar.cmpi .ne (Scalar.extui (Scalar.cmpi .eq (BitVec.ofNat 32 (i 1).val) 0#32)) 0#32) = 1#1
theorem firstTile_iff : ∀ t : Fin cfg0.N, firstTile (grid0.coords t) ↔ t.val % 4 = 0 :=
  (by decide +kernel : ∀ t : Fin grid0.N, firstTile (grid0.coords t) ↔ t.val % 4 = 0)

/-- Its second branch is taken at the last tile of a half: the second grid coordinate is 3. -/
abbrev lastTile (i : grid0.Coords) : Prop := k0_cond2 i = 1#1
theorem lastTile_iff : ∀ t : Fin cfg0.N, lastTile (grid0.coords t) ↔ t.val % 4 = 3 :=
  (by decide +kernel : ∀ t : Fin grid0.N, lastTile (grid0.coords t) ↔ t.val % 4 = 3)

/-! ## The output windows are idle except at a half's last tile, where they are written back -/

theorem idle3 : ∀ t : Fin cfg0.N, ¬ lastTile (grid0.coords t) → cfg0.idle 3 (grid0.coords t) = true := by decide +kernel
theorem noFlush3 : ∀ t : Fin cfg0.N, ¬ lastTile (grid0.coords t) → (cfg0.win 3).flush t = false := by decide +kernel
theorem live3 : ∀ t : Fin cfg0.N, lastTile (grid0.coords t) → cfg0.idle 3 (grid0.coords t) = false := by decide +kernel
theorem idle4 : ∀ t : Fin cfg0.N, ¬ lastTile (grid0.coords t) → cfg0.idle 4 (grid0.coords t) = true := by decide +kernel
theorem noFlush4 : ∀ t : Fin cfg0.N, ¬ lastTile (grid0.coords t) → (cfg0.win 4).flush t = false := by decide +kernel
theorem live4 : ∀ t : Fin cfg0.N, lastTile (grid0.coords t) → cfg0.idle 4 (grid0.coords t) = false := by decide +kernel
theorem idle5 : ∀ t : Fin cfg0.N, ¬ lastTile (grid0.coords t) → cfg0.idle 5 (grid0.coords t) = true := by decide +kernel
theorem noFlush5 : ∀ t : Fin cfg0.N, ¬ lastTile (grid0.coords t) → (cfg0.win 5).flush t = false := by decide +kernel
theorem live5 : ∀ t : Fin cfg0.N, lastTile (grid0.coords t) → cfg0.idle 5 (grid0.coords t) = false := by decide +kernel

end Cert.Kernel.Attn

end
-- ==== Proof.KernelAttnBody.lean ====
/-
  The attention region: what one call of the body does, by the tile's position in its half.

  With x0 the query row, x1 the tile's 2048 key rows, x2 its 2048 value rows and (m, l, acc) the running maximum, sum and
  accumulator the scratch buffers hold when the body starts, the body computes the tile's scores s = x0 · x1ᵀ, the new
  maximum m' = max(m, max s), the rescaling factor exp(m − m'), the weights p = exp(s − m'), and stores
      l' = exp(m − m') · l + Σ p,     acc' = exp(m − m') · acc + p · x2,     m'.
  At the first tile of a half it first overwrites (m, l, acc) with (−∞, 0, 0), so the new state does not depend on what
  the scratch held; at the last tile it then copies acc', m', l' (each broadcast over 8 sublanes) into the three output
  windows; at every other tile the output windows are not touched.  The new state is named by the program's own terms
  for these values (the payloads of its stores).
-/
import proofs.«146633_j61375082660584_2_alg».proof.Proof.Gen.Kernel.Launch
import proofs.«146633_j61375082660584_2_alg».proof.Proof.Gen.Kernel.Skeleton
import proofs.«146633_j61375082660584_2_alg».proof.Proof.Gen.Kernel.Points
import proofs.«146633_j61375082660584_2_alg».proof.Proof.KernelAttnGrid
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := by funext a; fin_cases a <;> rfl

/-- The state a first tile leaves: the update from (−∞, 0, 0). -/
abbrev mFirst (x0 : Vec F S1x768 .f32) (x1 : Vec F S2048x768 .f32) : Vec F S1x1 .f32 := k0_pay2 (k0_pay10 x0 x1 k0_pay6)
abbrev lFirst (x0 : Vec F S1x768 .f32) (x1 : Vec F S2048x768 .f32) : Vec F S1x1 .f32 := k0_pay13 x0 x1 k0_pay6 k0_pay7
abbrev accFirst (x0 : Vec F S1x768 .f32) (x1 : Vec F S2048x768 .f32) (x2 : Vec F S2048x1024 .f32) : Vec F S1x1024 .f32 := k0_pay1 (k0_pay14 x0 x1 x2 k0_pay6 k0_pay8)
/-- The state a later tile leaves from the state (m, l, acc) it finds. -/
abbrev mNext (x0 : Vec F S1x768 .f32) (x1 : Vec F S2048x768 .f32) (m : Vec F S1x1 .f32) : Vec F S1x1 .f32 := k0_pay2 (k0_pay10 x0 x1 m)
abbrev lNext (x0 : Vec F S1x768 .f32) (x1 : Vec F S2048x768 .f32) (m l : Vec F S1x1 .f32) : Vec F S1x1 .f32 := k0_pay13 x0 x1 m l
abbrev accNext (x0 : Vec F S1x768 .f32) (x1 : Vec F S2048x768 .f32) (x2 : Vec F S2048x1024 .f32) (m : Vec F S1x1 .f32) (acc : Vec F S1x1024 .f32) : Vec F S1x1024 .f32 := k0_pay1 (k0_pay14 x0 x1 x2 m acc)

end Cert.Kernel.Attn

end
-- ==== Proof.KernelAttnFirst.lean ====
/-
  The attention region's body at the first tile of a half: the running state is reset to (−∞, 0, 0) and updated by the tile.
-/
import proofs.«146633_j61375082660584_2_alg».proof.Proof.Gen.Kernel.Launch
import proofs.«146633_j61375082660584_2_alg».proof.Proof.Gen.Kernel.Skeleton
import proofs.«146633_j61375082660584_2_alg».proof.Proof.Gen.Kernel.Points
import proofs.«146633_j61375082660584_2_alg».proof.Proof.KernelAttnBody
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- A first tile: the scratch is reset and updated; inputs and output windows are as they were. -/
theorem body_first (c : Dev nD) (E : Set ℕ) (i : grid0.Coords) (hfst : firstTile i) (hlst : ¬ lastTile i)
    (a0 : Memref sig .tc .vmem S1x768 .f32) (h0 : a0.IsWhole) (a1 : Memref sig .tc .vmem S2048x768 .f32) (h1 : a1.IsWhole) (a2 : Memref sig .tc .vmem S2048x1024 .f32) (h2 : a2.IsWhole) (a3 : Memref sig .tc .vmem S8x1024 .f32) (h3 : a3.IsWhole) (a4 : Memref sig .tc .vmem S8x128 .f32) (h4 : a4.IsWhole) (a5 : Memref sig .tc .vmem S8x128 .f32) (h5 : a5.IsWhole)
    (am : Memref sig .tc .vmem S1x1 .f32) (hm : am.IsWhole) (al : Memref sig .tc .vmem S1x1 .f32) (hl : al.IsWhole) (aa : Memref sig .tc .vmem S1x1024 .f32) (ha : aa.IsWhole)
    (x0 : Vec F S1x768 .f32) (x1 : Vec F S2048x768 .f32) (x2 : Vec F S2048x1024 .f32)
    (y3 : Vec F S8x1024 .f32) (y4 y5 : Vec F S8x128 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare y3 ∗ owns (c : Thread nD τ) a4 fullShare y4 ∗ owns (c : Thread nD τ) a5 fullShare y5
        ∗ (∃ d, owns (c : Thread nD τ) am fullShare d) ∗ (∃ d, owns (c : Thread nD τ) al fullShare d) ∗ (∃ d, owns (c : Thread nD τ) aa fullShare d)
        ∗ (iprop(owns (c : Thread nD τ) a0 fullShare x0 ∗ owns (c : Thread nD τ) a1 fullShare x1 ∗ owns (c : Thread nD τ) a2 fullShare x2
            ∗ owns (c : Thread nD τ) a3 fullShare y3 ∗ owns (c : Thread nD τ) a4 fullShare y4 ∗ owns (c : Thread nD τ) a5 fullShare y5
            ∗ owns (c : Thread nD τ) am fullShare (mFirst x0 x1) ∗ owns (c : Thread nD τ) al fullShare (lFirst x0 x1) ∗ owns (c : Thread nD τ) aa fullShare (accFirst x0 x1 x2)) -∗ K ⟨⟩))
      ⊢ wp frame (wpE (defs₀ (F := F)) Variants.none c none) E (cc0__attn_kernel i a0 h0 a1 h1 a2 h2 a3 h3 a4 h4 a5 h5 am hm al hl aa ha) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dm, %fm, -, Hm⟩, ⟨%dl, %fl, -, Hl⟩, ⟨%da, %fa, -, Ha⟩, Hk⟩
  subst hf0 hf1 hf2 hf3 hf4 hf5
  sl_exec (disch := first | exact hfst | exact hlst)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [Hm]
  · iexists _; isplitr
    swap; · iexact Hm
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  isplitl [Hl]
  · iexists _; isplitr
    swap; · iexact Hl
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  iexists _; isplitr
  swap; · iexact Ha
  ipureintro
  (try sl_unfold_run_names)
  refine Eq.trans (View.read_writes_eq_canon _ _ _ ?_) ?_
  · intro y
    refine ⟨_, List.mem_cons_self, ?_⟩
    refine View.mem_set_unit_zero hz2 ?_ y
    all_goals (intro a; fin_cases a <;> decide)
  rw [View.canon_cons_unit_zero hz2]
  (try sl_unfold_run_names)
  simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
  try rfl

end Cert.Kernel.Attn

end
-- ==== Proof.KernelAttnMid.lean ====
/-
  The attention region's body at a middle tile of a half: the running state is updated by the tile.
-/
import proofs.«146633_j61375082660584_2_alg».proof.Proof.Gen.Kernel.Launch
import proofs.«146633_j61375082660584_2_alg».proof.Proof.Gen.Kernel.Skeleton
import proofs.«146633_j61375082660584_2_alg».proof.Proof.Gen.Kernel.Points
import proofs.«146633_j61375082660584_2_alg».proof.Proof.KernelAttnBody
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- A middle tile: the scratch is updated from what it held; inputs and output windows are as they were. -/
theorem body_mid (c : Dev nD) (E : Set ℕ) (i : grid0.Coords) (hfst : ¬ firstTile i) (hlst : ¬ lastTile i)
    (a0 : Memref sig .tc .vmem S1x768 .f32) (h0 : a0.IsWhole) (a1 : Memref sig .tc .vmem S2048x768 .f32) (h1 : a1.IsWhole) (a2 : Memref sig .tc .vmem S2048x1024 .f32) (h2 : a2.IsWhole) (a3 : Memref sig .tc .vmem S8x1024 .f32) (h3 : a3.IsWhole) (a4 : Memref sig .tc .vmem S8x128 .f32) (h4 : a4.IsWhole) (a5 : Memref sig .tc .vmem S8x128 .f32) (h5 : a5.IsWhole)
    (am : Memref sig .tc .vmem S1x1 .f32) (hm : am.IsWhole) (al : Memref sig .tc .vmem S1x1 .f32) (hl : al.IsWhole) (aa : Memref sig .tc .vmem S1x1024 .f32) (ha : aa.IsWhole)
    (x0 : Vec F S1x768 .f32) (x1 : Vec F S2048x768 .f32) (x2 : Vec F S2048x1024 .f32)
    (y3 : Vec F S8x1024 .f32) (y4 y5 : Vec F S8x128 .f32) (sm sl : Vec F S1x1 .f32) (sa : Vec F S1x1024 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare y3 ∗ owns (c : Thread nD τ) a4 fullShare y4 ∗ owns (c : Thread nD τ) a5 fullShare y5
        ∗ owns (c : Thread nD τ) am fullShare sm ∗ owns (c : Thread nD τ) al fullShare sl ∗ owns (c : Thread nD τ) aa fullShare sa
        ∗ (iprop(owns (c : Thread nD τ) a0 fullShare x0 ∗ owns (c : Thread nD τ) a1 fullShare x1 ∗ owns (c : Thread nD τ) a2 fullShare x2
            ∗ owns (c : Thread nD τ) a3 fullShare y3 ∗ owns (c : Thread nD τ) a4 fullShare y4 ∗ owns (c : Thread nD τ) a5 fullShare y5
            ∗ owns (c : Thread nD τ) am fullShare (mNext x0 x1 sm) ∗ owns (c : Thread nD τ) al fullShare (lNext x0 x1 sm sl) ∗ owns (c : Thread nD τ) aa fullShare (accNext x0 x1 x2 sm sa)) -∗ K ⟨⟩))
      ⊢ wp frame (wpE (defs₀ (F := F)) Variants.none c none) E (cc0__attn_kernel i a0 h0 a1 h1 a2 h2 a3 h3 a4 h4 a5 h5 am hm al hl aa ha) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fm, %hfm, Hm⟩, ⟨%fl, %hfl, Hl⟩, ⟨%fa, %hfa, Ha⟩, Hk⟩
  subst hf0 hf1 hf2 hf3 hf4 hf5 hfm hfl hfa
  sl_exec (disch := first | exact hfst | exact hlst)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [Hm]
  · iexists _; isplitr
    swap; · iexact Hm
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  isplitl [Hl]
  · iexists _; isplitr
    swap; · iexact Hl
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  iexists _; isplitr
  swap; · iexact Ha
  ipureintro
  (try sl_unfold_run_names)
  refine Eq.trans (View.read_writes_eq_canon _ _ _ ?_) ?_
  · intro y
    refine ⟨_, List.mem_cons_self, ?_⟩
    refine View.mem_set_unit_zero hz2 ?_ y
    all_goals (intro a; fin_cases a <;> decide)
  rw [View.canon_cons_unit_zero hz2]
  (try sl_unfold_run_names)
  simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
  try rfl

end Cert.Kernel.Attn

end
-- ==== Proof.KernelAttnLast.lean ====
/-
  The attention region's body at the last tile of a half: the running state is updated by the tile and copied, broadcast over 8 sublanes, into the three output windows.
-/
import proofs.«146633_j61375082660584_2_alg».proof.Proof.Gen.Kernel.Launch
import proofs.«146633_j61375082660584_2_alg».proof.Proof.Gen.Kernel.Skeleton
import proofs.«146633_j61375082660584_2_alg».proof.Proof.Gen.Kernel.Points
import proofs.«146633_j61375082660584_2_alg».proof.Proof.KernelAttnBody
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- A last tile: the scratch is updated from what it held, and the new accumulator, maximum and sum are copied, each
    broadcast over 8 sublanes, into the three output windows, whatever those held. -/
theorem body_last (c : Dev nD) (E : Set ℕ) (i : grid0.Coords) (hfst : ¬ firstTile i) (hlst : lastTile i)
    (a0 : Memref sig .tc .vmem S1x768 .f32) (h0 : a0.IsWhole) (a1 : Memref sig .tc .vmem S2048x768 .f32) (h1 : a1.IsWhole) (a2 : Memref sig .tc .vmem S2048x1024 .f32) (h2 : a2.IsWhole) (a3 : Memref sig .tc .vmem S8x1024 .f32) (h3 : a3.IsWhole) (a4 : Memref sig .tc .vmem S8x128 .f32) (h4 : a4.IsWhole) (a5 : Memref sig .tc .vmem S8x128 .f32) (h5 : a5.IsWhole)
    (am : Memref sig .tc .vmem S1x1 .f32) (hm : am.IsWhole) (al : Memref sig .tc .vmem S1x1 .f32) (hl : al.IsWhole) (aa : Memref sig .tc .vmem S1x1024 .f32) (ha : aa.IsWhole)
    (x0 : Vec F S1x768 .f32) (x1 : Vec F S2048x768 .f32) (x2 : Vec F S2048x1024 .f32)
    (sm sl : Vec F S1x1 .f32) (sa : Vec F S1x1024 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ (∃ d, owns (c : Thread nD τ) a4 fullShare d) ∗ (∃ d, owns (c : Thread nD τ) a5 fullShare d)
        ∗ owns (c : Thread nD τ) am fullShare sm ∗ owns (c : Thread nD τ) al fullShare sl ∗ owns (c : Thread nD τ) aa fullShare sa
        ∗ (iprop(owns (c : Thread nD τ) a0 fullShare x0 ∗ owns (c : Thread nD τ) a1 fullShare x1 ∗ owns (c : Thread nD τ) a2 fullShare x2
            ∗ owns (c : Thread nD τ) a3 fullShare (k0_pay3 (accNext x0 x1 x2 sm sa)) ∗ owns (c : Thread nD τ) a4 fullShare (k0_pay4 (mNext x0 x1 sm)) ∗ owns (c : Thread nD τ) a5 fullShare (k0_pay5 (lNext x0 x1 sm sl))
            ∗ owns (c : Thread nD τ) am fullShare (mNext x0 x1 sm) ∗ owns (c : Thread nD τ) al fullShare (lNext x0 x1 sm sl) ∗ owns (c : Thread nD τ) aa fullShare (accNext x0 x1 x2 sm sa)) -∗ K ⟨⟩))
      ⊢ wp frame (wpE (defs₀ (F := F)) Variants.none c none) E (cc0__attn_kernel i a0 h0 a1 h1 a2 h2 a3 h3 a4 h4 a5 h5 am hm al hl aa ha) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fm, %hfm, Hm⟩, ⟨%fl, %hfl, Hl⟩, ⟨%fa, %hfa, Ha⟩, Hk⟩
  subst hf0 hf1 hf2 hfm hfl hfa
  sl_exec (disch := first | exact hfst | exact hlst)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    swap; · iexact H3
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  isplitl [H4]
  · iexists _; isplitr
    swap; · iexact H4
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  isplitl [H5]
  · iexists _; isplitr
    swap; · iexact H5
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  isplitl [Hm]
  · iexists _; isplitr
    swap; · iexact Hm
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  isplitl [Hl]
  · iexists _; isplitr
    swap; · iexact Hl
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  iexists _; isplitr
  swap; · iexact Ha
  ipureintro
  (try sl_unfold_run_names)
  refine Eq.trans (View.read_writes_eq_canon _ _ _ ?_) ?_
  · intro y
    refine ⟨_, List.mem_cons_self, ?_⟩
    refine View.mem_set_unit_zero hz2 ?_ y
    all_goals (intro a; fin_cases a <;> decide)
  rw [View.canon_cons_unit_zero hz2]
  (try sl_unfold_run_names)
  simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
  try rfl

end Cert.Kernel.Attn

end
-- ==== Proof.KernelAttnData.lean ====
/-
  The attention region: the running state at every grid point, and the region's proof data.

  The state (m, l, acc) the scratch buffers hold after the body at grid point n is defined by recursion on n: at the
  first tile of a half (n ≡ 0 mod 4) it is the update of (−∞, 0, 0) by that tile, otherwise the update by tile n of the
  state after point n − 1.  After the last tile of half h (n = 4h + 3) the three output windows hold acc, m and l
  broadcast over 8 sublanes, and the pipeline writes them to rows 8h … 8h + 7 of the three result arrays.
  The region's invariant is: before the first point every scratch buffer holds anything; before point n + 1 the three
  scratch buffers hold the state after point n; the other region's staging buffers and the random-number register are
  carried along untouched.
-/
import proofs.«146633_j61375082660584_2_alg».proof.Proof.Gen.Kernel.Launch
import proofs.«146633_j61375082660584_2_alg».proof.Proof.Gen.Kernel.Skeleton
import proofs.«146633_j61375082660584_2_alg».proof.Proof.Gen.Kernel.Points
import proofs.«146633_j61375082660584_2_alg».proof.Proof.KernelAttnFirst
import proofs.«146633_j61375082660584_2_alg».proof.Proof.KernelAttnMid
import proofs.«146633_j61375082660584_2_alg».proof.Proof.KernelAttnLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running state -/

/-- The running maximum, sum and accumulator after the body at grid point `n`. -/
def stateAfter (c : Dev nD) : (n : ℕ) → n < cfg0.N → Vec F S1x1 .f32 × Vec F S1x1 .f32 × Vec F S1x1024 .f32
  | 0, hn => (mFirst (tile V c 0 ⟨0, hn⟩) (tile V c 1 ⟨0, hn⟩), lFirst (tile V c 0 ⟨0, hn⟩) (tile V c 1 ⟨0, hn⟩), accFirst (tile V c 0 ⟨0, hn⟩) (tile V c 1 ⟨0, hn⟩) (tile V c 2 ⟨0, hn⟩))
  | n + 1, hn =>
    if (n + 1) % 4 = 0 then
      (mFirst (tile V c 0 ⟨n + 1, hn⟩) (tile V c 1 ⟨n + 1, hn⟩), lFirst (tile V c 0 ⟨n + 1, hn⟩) (tile V c 1 ⟨n + 1, hn⟩), accFirst (tile V c 0 ⟨n + 1, hn⟩) (tile V c 1 ⟨n + 1, hn⟩) (tile V c 2 ⟨n + 1, hn⟩))
    else
      (mNext (tile V c 0 ⟨n + 1, hn⟩) (tile V c 1 ⟨n + 1, hn⟩) (stateAfter c n (Nat.lt_of_succ_lt hn)).1,
       lNext (tile V c 0 ⟨n + 1, hn⟩) (tile V c 1 ⟨n + 1, hn⟩) (stateAfter c n (Nat.lt_of_succ_lt hn)).1 (stateAfter c n (Nat.lt_of_succ_lt hn)).2.1,
       accNext (tile V c 0 ⟨n + 1, hn⟩) (tile V c 1 ⟨n + 1, hn⟩) (tile V c 2 ⟨n + 1, hn⟩) (stateAfter c n (Nat.lt_of_succ_lt hn)).1 (stateAfter c n (Nat.lt_of_succ_lt hn)).2.2)

/-- At the first tile of a half the state is the update of (−∞, 0, 0). -/
theorem stateAfter_first (c : Dev nD) (t : Fin cfg0.N) (h : t.val % 4 = 0) :
    stateAfter V c t.val t.isLt = (mFirst (tile V c 0 t) (tile V c 1 t), lFirst (tile V c 0 t) (tile V c 1 t), accFirst (tile V c 0 t) (tile V c 1 t) (tile V c 2 t)) := by
  obtain ⟨n, hn⟩ := t
  cases n with
  | zero => rfl
  | succ n => exact if_pos h

/-- At a later tile it is the update of the state after the point before. -/
theorem stateAfter_next (c : Dev nD) (t : Fin cfg0.N) (h : ¬ t.val % 4 = 0) :
    stateAfter V c t.val t.isLt
      = (mNext (tile V c 0 t) (tile V c 1 t) (stateAfter V c (t.val - 1) (Nat.lt_of_le_of_lt (Nat.sub_le _ _) t.isLt)).1,
         lNext (tile V c 0 t) (tile V c 1 t) (stateAfter V c (t.val - 1) (Nat.lt_of_le_of_lt (Nat.sub_le _ _) t.isLt)).1 (stateAfter V c (t.val - 1) (Nat.lt_of_le_of_lt (Nat.sub_le _ _) t.isLt)).2.1,
         accNext (tile V c 0 t) (tile V c 1 t) (tile V c 2 t) (stateAfter V c (t.val - 1) (Nat.lt_of_le_of_lt (Nat.sub_le _ _) t.isLt)).1 (stateAfter V c (t.val - 1) (Nat.lt_of_le_of_lt (Nat.sub_le _ _) t.isLt)).2.2) := by
  obtain ⟨n, hn⟩ := t
  cases n with
  | zero => exact absurd (Nat.zero_mod _) h
  | succ n => exact if_neg h

/-! ## The scratch buffers and the invariant -/

/-- The three scratch buffers, as whole memrefs: the running maximum, the running sum, the running accumulator. -/
abbrev maxRef : Memref sig .tc .vmem S1x1 .f32 := Memref.whole cc0_scratch0
abbrev sumRef : Memref sig .tc .vmem S1x1 .f32 := Memref.whole cc0_scratch1
abbrev accRef : Memref sig .tc .vmem S1x1024 .f32 := Memref.whole cc0_scratch2

/-- The other region's staging buffers, each whole at some contents: this region never touches them. -/
abbrev otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- Before any point: every scratch buffer at anything. -/
theorem entryInv_eq (c : Dev nD) :
    (Pipeline.ΦA spec0 c : sProp 𝕄)
      = iprop(iprop((∃ d, owns (c : Thread nD τ) maxRef fullShare d) ∗ (∃ d, owns (c : Thread nD τ) sumRef fullShare d)
          ∗ (∃ d, owns (c : Thread nD τ) accRef fullShare d) ∗ otherStaging c) ∗ (∃ r, prngReg c r)) := by
  unfold Pipeline.ΦA; rw [scopedRest0_eq]; simp only [maxRef, sumRef, accRef, owns_whole]; try rfl

/-- The invariant before position `n`. -/
def inv (c : Dev nD) : (n : ℕ) → n ≤ cfg0.N → sProp 𝕄
  | 0, _ => Pipeline.ΦA spec0 c
  | n + 1, hn => iprop(iprop(owns (c : Thread nD τ) maxRef fullShare (stateAfter V c n hn).1 ∗ owns (c : Thread nD τ) sumRef fullShare (stateAfter V c n hn).2.1
      ∗ owns (c : Thread nD τ) accRef fullShare (stateAfter V c n hn).2.2 ∗ otherStaging c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(iprop(owns (c : Thread nD τ) maxRef fullShare (stateAfter V c n hn).1 ∗ owns (c : Thread nD τ) sumRef fullShare (stateAfter V c n hn).2.1
      ∗ owns (c : Thread nD τ) accRef fullShare (stateAfter V c n hn).2.2 ∗ otherStaging c) ∗ (∃ r, prngReg c r)) := rfl
theorem inv_pos (c : Dev nD) (n : ℕ) (h : n ≤ cfg0.N) (hz : n ≠ 0) :
    inv V c n h = iprop(iprop(owns (c : Thread nD τ) maxRef fullShare (stateAfter V c (n - 1) (by omega)).1 ∗ owns (c : Thread nD τ) sumRef fullShare (stateAfter V c (n - 1) (by omega)).2.1
      ∗ owns (c : Thread nD τ) accRef fullShare (stateAfter V c (n - 1) (by omega)).2.2 ∗ otherStaging c) ∗ (∃ r, prngReg c r)) := by
  cases n with
  | zero => exact absurd rfl hz
  | succ n => rfl

/-! ## The proof data -/

/-- The region's proof data on core `c`: the arrays as the region finds them; after the body each input's staging
    buffer holds its block, and the three outputs' hold the accumulator, the maximum and the sum after that point, each
    broadcast over 8 sublanes (read only where the body stored them: at a half's last tile); the invariant above;
    nothing owed; full shares. -/
def attnDat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => k0_pay3 (stateAfter V c t.val t.isLt).2.2
    | ⟨4, _⟩ => k0_pay4 (stateAfter V c t.val t.isLt).1
    | ⟨5, _⟩ => k0_pay5 (stateAfter V c t.val t.isLt).2.1
  Φ t := inv V c t.val (Nat.le_of_lt_succ t.isLt)
  q _ := fullShare
  owed _ := 0

theorem A_eq (c : Dev nD) (w : Fin cfg0.W) : (attnDat V c).A w = V c (Pipeline.arrRef spec0 w) := by
  dsimp only [attnDat]
theorem inv_castSucc (c : Dev nD) (t : Fin cfg0.N) : (attnDat V c).Φ t.castSucc = inv V c t.val (Nat.le_of_lt t.isLt) := by
  dsimp only [attnDat]; simp only [Fin.coe_castSucc]
theorem after_0 (c : Dev nD) (t : Fin cfg0.N) : (attnDat V c).after 0 t = tile V c 0 t := by dsimp only [attnDat]
theorem after_1 (c : Dev nD) (t : Fin cfg0.N) : (attnDat V c).after 1 t = tile V c 1 t := by dsimp only [attnDat]
theorem after_2 (c : Dev nD) (t : Fin cfg0.N) : (attnDat V c).after 2 t = tile V c 2 t := by dsimp only [attnDat]
theorem after_3 (c : Dev nD) (t : Fin cfg0.N) : (attnDat V c).after 3 t = k0_pay3 (stateAfter V c t.val t.isLt).2.2 := by dsimp only [attnDat]
theorem after_4 (c : Dev nD) (t : Fin cfg0.N) : (attnDat V c).after 4 t = k0_pay4 (stateAfter V c t.val t.isLt).1 := by dsimp only [attnDat]
theorem after_5 (c : Dev nD) (t : Fin cfg0.N) : (attnDat V c).after 5 t = k0_pay5 (stateAfter V c t.val t.isLt).2.1 := by dsimp only [attnDat]
theorem before_0 (c : Dev nD) (t : Fin cfg0.N) (d) : (attnDat V c).before 0 t d = tile V c 0 t := in0_of V (attnDat V c) (A_eq V c 0) (after_0 V c) t d
theorem before_1 (c : Dev nD) (t : Fin cfg0.N) (d) : (attnDat V c).before 1 t d = tile V c 1 t := in1_of V (attnDat V c) (A_eq V c 1) (after_1 V c) t d
theorem before_2 (c : Dev nD) (t : Fin cfg0.N) (d) : (attnDat V c).before 2 t d = tile V c 2 t := in2_of V (attnDat V c) (A_eq V c 2) (after_2 V c) t d

end Cert.Kernel.Attn

end
-- ==== Proof.KernelAttnOblig.lean ====
/-
  The attention region: the body meets its obligation at every grid point.

  At point t the pipeline hands the body the three input windows at their blocks, the three output windows at whatever
  they hold, and the invariant before t.  By the tile's position in its half (first, middle, last) the body leaves the
  invariant before t + 1: the scratch at the state after t.  An output window is handed back as it was found except at
  a half's last tile, where it holds the broadcast state that the pipeline then writes back.
-/
import proofs.«146633_j61375082660584_2_alg».proof.Proof.Gen.Kernel.Launch
import proofs.«146633_j61375082660584_2_alg».proof.Proof.Gen.Kernel.Skeleton
import proofs.«146633_j61375082660584_2_alg».proof.Proof.Gen.Kernel.Points
import proofs.«146633_j61375082660584_2_alg».proof.Proof.KernelAttnData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`: the invariant, what the core owes (nothing), each window's buffer. -/
def bodyPre (c : Dev nD) (t : Fin cfg0.N) : sProp 𝕄 :=
  iprop((attnDat V c).Φ t.castSucc ∗ (attnDat V c).owesAt () t.castSucc
    ∗ (∃ d, owns (c : Thread nD τ) (st0_0 t) fullShare ((attnDat V c).before 0 t d))
    ∗ (∃ d, owns (c : Thread nD τ) (st0_1 t) fullShare ((attnDat V c).before 1 t d))
    ∗ (∃ d, owns (c : Thread nD τ) (st0_2 t) fullShare ((attnDat V c).before 2 t d))
    ∗ (∃ d, owns (c : Thread nD τ) (st0_3 t) fullShare ((attnDat V c).before 3 t d))
    ∗ (∃ d, owns (c : Thread nD τ) (st0_4 t) fullShare ((attnDat V c).before 4 t d))
    ∗ (∃ d, owns (c : Thread nD τ) (st0_5 t) fullShare ((attnDat V c).before 5 t d)))

/-- What it returns. -/
def bodyPost (c : Dev nD) (t : Fin cfg0.N) : sProp 𝕄 :=
  iprop((attnDat V c).Φ t.succ ∗ (attnDat V c).owesAt () t.succ
    ∗ (attnDat V c).leavesExact 0 t ∗ (attnDat V c).leavesExact 1 t ∗ (attnDat V c).leavesExact 2 t ∗ (attnDat V c).leavesExact 3 t ∗ (attnDat V c).leavesExact 4 t ∗ (attnDat V c).leavesExact 5 t)

set_option maxHeartbeats 4000000 in
theorem body_sound (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (attnDat V c).owesAt () t.succ = (attnDat V c).owesAt () t.castSucc from rfl]
  rw [show (attnDat V c).Φ t.succ = inv V c (t.val + 1) t.isLt from rfl, inv_succ, inv_castSucc]
  rw [show (attnDat V c).leavesExact 0 t = owns (c : Thread nD τ) (st0_0 t) fullShare ((attnDat V c).after 0 t) from by
    unfold Dat.leavesExact; rw [show cfg0.idle 0 (grid0.coords t) = false from rfl], after_0]
  rw [show (attnDat V c).leavesExact 1 t = owns (c : Thread nD τ) (st0_1 t) fullShare ((attnDat V c).after 1 t) from by
    unfold Dat.leavesExact; rw [show cfg0.idle 1 (grid0.coords t) = false from rfl], after_1]
  rw [show (attnDat V c).leavesExact 2 t = owns (c : Thread nD τ) (st0_2 t) fullShare ((attnDat V c).after 2 t) from by
    unfold Dat.leavesExact; rw [show cfg0.idle 2 (grid0.coords t) = false from rfl], after_2]
  have hN : t.val < 8 := lt_of_lt_of_eq t.isLt (show cfg0.N = 8 from N_0)
  by_cases h0 : t.val % 4 = 0
  · -- the first tile of a half
    have hf : firstTile (grid0.coords t) := (firstTile_iff t).mpr h0
    have hl : ¬ lastTile (grid0.coords t) := fun h => by have := (lastTile_iff t).mp h; omega
    rw [Dat.leavesExact_idle (attnDat V c) 3 t (idle3 t hl) (noFlush3 t hl)]
    rw [Dat.leavesExact_idle (attnDat V c) 4 t (idle4 t hl) (noFlush4 t hl)]
    rw [Dat.leavesExact_idle (attnDat V c) 5 t (idle5 t hl) (noFlush5 t hl)]
    rw [stateAfter_first V c t h0]; dsimp only
    by_cases hz : t.val = 0
    · rw [inv_zero V c _ _ hz, entryInv_eq]
      iintro ⟨⟨⟨Hm, Hl, Ha, Hrest⟩, Hg⟩, Ho, ⟨%d0, H0⟩, ⟨%d1, H1⟩, ⟨%d2, H2⟩, ⟨%d3, H3⟩, ⟨%d4, H4⟩, ⟨%d5, H5⟩⟩
      iapply (body_first c Set.univ (grid0.coords t) hf hl _ _ _ _ _ _ _ _ _ _ _ _ _ _ _ _ _ _ (tile V c 0 t) (tile V c 1 t) (tile V c 2 t) _ _ _ _)
      isplitl [H0]; · iexact H0
      isplitl [H1]; · iexact H1
      isplitl [H2]; · iexact H2
      isplitl [H3]; · iexact H3
      isplitl [H4]; · iexact H4
      isplitl [H5]; · iexact H5
      isplitl [Hm]; · iexact Hm
      isplitl [Hl]; · iexact Hl
      isplitl [Ha]; · iexact Ha
      iintro ⟨H0, H1, H2, H3, H4, H5, Hm, Hl, Ha⟩
      isplitl [Hm Hl Ha Hrest Hg]
      · isplitr [Hg]
        · isplitl [Hm]; · iexact Hm
          isplitl [Hl]; · iexact Hl
          isplitl [Ha]; · iexact Ha
          iexact Hrest
        · iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · rw [inv_pos V c _ _ hz]
      iintro ⟨⟨⟨Hm, Hl, Ha, Hrest⟩, Hg⟩, Ho, ⟨%d0, H0⟩, ⟨%d1, H1⟩, ⟨%d2, H2⟩, ⟨%d3, H3⟩, ⟨%d4, H4⟩, ⟨%d5, H5⟩⟩
      iapply (body_first c Set.univ (grid0.coords t) hf hl _ _ _ _ _ _ _ _ _ _ _ _ _ _ _ _ _ _ (tile V c 0 t) (tile V c 1 t) (tile V c 2 t) _ _ _ _)
      isplitl [H0]; · iexact H0
      isplitl [H1]; · iexact H1
      isplitl [H2]; · iexact H2
      isplitl [H3]; · iexact H3
      isplitl [H4]; · iexact H4
      isplitl [H5]; · iexact H5
      isplitl [Hm]; · iexists _; iexact Hm
      isplitl [Hl]; · iexists _; iexact Hl
      isplitl [Ha]; · iexists _; iexact Ha
      iintro ⟨H0, H1, H2, H3, H4, H5, Hm, Hl, Ha⟩
      isplitl [Hm Hl Ha Hrest Hg]
      · isplitr [Hg]
        · isplitl [Hm]; · iexact Hm
          isplitl [Hl]; · iexact Hl
          isplitl [Ha]; · iexact Ha
          iexact Hrest
        · iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
  · have hf : ¬ firstTile (grid0.coords t) := fun h => h0 ((firstTile_iff t).mp h)
    have hz : t.val ≠ 0 := fun h => h0 (by rw [h])
    rw [stateAfter_next V c t h0, inv_pos V c _ _ hz]; dsimp only
    by_cases h3 : t.val % 4 = 3
    · -- the last tile of a half
      have hl : lastTile (grid0.coords t) := (lastTile_iff t).mpr h3
      rw [show (attnDat V c).leavesExact 3 t = owns (c : Thread nD τ) (st0_3 t) fullShare ((attnDat V c).after 3 t) from by
        unfold Dat.leavesExact; rw [live3 t hl], after_3]
      rw [show (attnDat V c).leavesExact 4 t = owns (c : Thread nD τ) (st0_4 t) fullShare ((attnDat V c).after 4 t) from by
        unfold Dat.leavesExact; rw [live4 t hl], after_4]
      rw [show (attnDat V c).leavesExact 5 t = owns (c : Thread nD τ) (st0_5 t) fullShare ((attnDat V c).after 5 t) from by
        unfold Dat.leavesExact; rw [live5 t hl], after_5]
      rw [stateAfter_next V c t h0]; dsimp only
      iintro ⟨⟨⟨Hm, Hl, Ha, Hrest⟩, Hg⟩, Ho, ⟨%d0, H0⟩, ⟨%d1, H1⟩, ⟨%d2, H2⟩, ⟨%d3, H3⟩, ⟨%d4, H4⟩, ⟨%d5, H5⟩⟩
      iapply (body_last c Set.univ (grid0.coords t) hf hl _ _ _ _ _ _ _ _ _ _ _ _ _ _ _ _ _ _ (tile V c 0 t) (tile V c 1 t) (tile V c 2 t) _ _ _ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [Hm]; · iexact Hm
      isplitl [Hl]; · iexact Hl
      isplitl [Ha]; · iexact Ha
      iintro ⟨H0, H1, H2, H3, H4, H5, Hm, Hl, Ha⟩
      isplitl [Hm Hl Ha Hrest Hg]
      · isplitr [Hg]
        · isplitl [Hm]; · iexact Hm
          isplitl [Hl]; · iexact Hl
          isplitl [Ha]; · iexact Ha
          iexact Hrest
        · iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle tile
      have hl : ¬ lastTile (grid0.coords t) := fun h => h3 ((lastTile_iff t).mp h)
      rw [Dat.leavesExact_idle (attnDat V c) 3 t (idle3 t hl) (noFlush3 t hl)]
      rw [Dat.leavesExact_idle (attnDat V c) 4 t (idle4 t hl) (noFlush4 t hl)]
      rw [Dat.leavesExact_idle (attnDat V c) 5 t (idle5 t hl) (noFlush5 t hl)]
      iintro ⟨⟨⟨Hm, Hl, Ha, Hrest⟩, Hg⟩, Ho, ⟨%d0, H0⟩, ⟨%d1, H1⟩, ⟨%d2, H2⟩, ⟨%d3, H3⟩, ⟨%d4, H4⟩, ⟨%d5, H5⟩⟩
      iapply (body_mid c Set.univ (grid0.coords t) hf hl _ _ _ _ _ _ _ _ _ _ _ _ _ _ _ _ _ _ (tile V c 0 t) (tile V c 1 t) (tile V c 2 t) _ _ _ _ _ _ _)
      isplitl [H0]; · iexact H0
      isplitl [H1]; · iexact H1
      isplitl [H2]; · iexact H2
      isplitl [H3]; · iexact H3
      isplitl [H4]; · iexact H4
      isplitl [H5]; · iexact H5
      isplitl [Hm]; · iexact Hm
      isplitl [Hl]; · iexact Hl
      isplitl [Ha]; · iexact Ha
      iintro ⟨H0, H1, H2, H3, H4, H5, Hm, Hl, Ha⟩
      isplitl [Hm Hl Ha Hrest Hg]
      · isplitr [Hg]
        · isplitl [Hm]; · iexact Hm
          isplitl [Hl]; · iexact Hl
          isplitl [Ha]; · iexact Ha
          iexact Hrest
        · iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The region's body obligation, at every point. -/
theorem attn_body_obligation (c : Dev nD) : BodyObligation (attnDat (F := F) V c) (defs₀ (F := F)) Variants.none () Set.univ := fun t => by
  rw [bigSep_W0, bigSep_W0]
  exact body_sound V c t

end Cert.Kernel.Attn

end
-- ==== Proof.KernelGates.lean ====
/-
  The gate-row region of the kernel: its second pallas_call, a grid of three blocks of 1024 gate rows (reset, update,
  candidate). At block `g` the body takes the text vector `x` (1 × 768), the last hidden state `h` (1 × 1024), the
  1024 × 768 block of the input-side weights whose rows are the gate rows `g` and whose columns are the half the
  prefetched selector word picks, the 1024 × 1024 block of the hidden-side weights at the same rows, and the two bias
  blocks, and leaves in its two output windows the rows `x · Wᵀ + b` and `h · Uᵀ + c`, each repeated over 8 sublanes.

  This module is that region's half of the program's frame: each window's block at a grid point as a function of the
  buffer contents `V` the region is entered with; what the body leaves in the two output buffers as a closed function of
  the input blocks; the body's triple; the pipeline's proof data; and the body obligation at every grid point. The
  selector word is a parameter throughout (`a`, the table's admissible contents): nothing here evaluates it. The body
  never loads the selector; the table's buffer rides through the invariant untouched, held whole.
-/
import proofs.«146633_j61375082660584_2_alg».proof.Proof.Gen.Kernel.Launch
import proofs.«146633_j61375082660584_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 8 × 1024 entries: the structural check recurses once per coordinate of the long axis
set_option maxRecDepth 16384

noncomputable section

namespace Cert.Kernel.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the contents of every buffer of a core when the region is entered, and the selector table's admissible contents
variable (V : (c : Dev nD) → (b : Ref sig .tc) → Buf (Elt F) ((c : Thread nD τ).loc b))
variable (a : (pcfg1 (F := F)).Adm)

/-! ## The windows' blocks -/

/-- Window `w`'s block at grid point `t`, read off its array as the region finds it (`V`). For the input-side weights
    (window 2) the block's column half is the selector word's, a function of `a`. -/
def gateBlk (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- Input window 0 — the text vector (one block, fetched once) — is found in its current staging buffer at every grid point, whether the
    pipeline fetched it there or not, by any proof data whose array is `V`'s and whose body leaves the block in place:
    where it is not fetched the block index has not moved since the previous point. -/
theorem gate_before_0_of {c : Dev nD} (dat : Dat τ (Elt F) Unit ℕ (UR sig nD τ) ℕ (cfg1 a) c) (hA : dat.A 0 = V c (Pipeline.arrRef spec1 0))
    (hafter : ∀ t, dat.after 0 t = gateBlk V a c 0 t) (t : Fin (cfg1 a).N) (d) : dat.before 0 t d = gateBlk V a c 0 t :=
  (dat.before_in_eq_fetched 0 rfl (fun _ => rfl) (fun _ _ _ => rfl) (fun t => by rw [hafter]; unfold Dat.blockOf gateBlk; rw [hA]; try rfl) t d).trans
    (by unfold Dat.fetched Dat.blockOf gateBlk; rw [hA]; try rfl)
/-- Input window 1 — the last hidden state (one block, fetched once) — is found in its current staging buffer at every grid point, whether the
    pipeline fetched it there or not, by any proof data whose array is `V`'s and whose body leaves the block in place:
    where it is not fetched the block index has not moved since the previous point. -/
theorem gate_before_1_of {c : Dev nD} (dat : Dat τ (Elt F) Unit ℕ (UR sig nD τ) ℕ (cfg1 a) c) (hA : dat.A 1 = V c (Pipeline.arrRef spec1 1))
    (hafter : ∀ t, dat.after 1 t = gateBlk V a c 1 t) (t : Fin (cfg1 a).N) (d) : dat.before 1 t d = gateBlk V a c 1 t :=
  (dat.before_in_eq_fetched 1 rfl (fun _ => rfl) (fun _ _ _ => rfl) (fun t => by rw [hafter]; unfold Dat.blockOf gateBlk; rw [hA]; try rfl) t d).trans
    (by unfold Dat.fetched Dat.blockOf gateBlk; rw [hA]; try rfl)
/-- Input window 2 — the input-side weights: at block `g` the 1024 gate rows `g`, and of their 1536 columns the 768 the selector word picks — is found in its current staging buffer at every grid point, whether the
    pipeline fetched it there or not, by any proof data whose array is `V`'s and whose body leaves the block in place:
    where it is not fetched the block index has not moved since the previous point. -/
theorem gate_before_2_of {c : Dev nD} (dat : Dat τ (Elt F) Unit ℕ (UR sig nD τ) ℕ (cfg1 a) c) (hA : dat.A 2 = V c (Pipeline.arrRef spec1 2))
    (hafter : ∀ t, dat.after 2 t = gateBlk V a c 2 t) (t : Fin (cfg1 a).N) (d) : dat.before 2 t d = gateBlk V a c 2 t :=
  (dat.before_in_eq_fetched 2 rfl (fun _ => rfl) (fun _ _ _ => rfl) (fun t => by rw [hafter]; unfold Dat.blockOf gateBlk; rw [hA]; try rfl) t d).trans
    (by unfold Dat.fetched Dat.blockOf gateBlk; rw [hA]; try rfl)
/-- Input window 3 — the hidden-side weights: at block `g` the 1024 gate rows `g` — is found in its current staging buffer at every grid point, whether the
    pipeline fetched it there or not, by any proof data whose array is `V`'s and whose body leaves the block in place:
    where it is not fetched the block index has not moved since the previous point. -/
theorem gate_before_3_of {c : Dev nD} (dat : Dat τ (Elt F) Unit ℕ (UR sig nD τ) ℕ (cfg1 a) c) (hA : dat.A 3 = V c (Pipeline.arrRef spec1 3))
    (hafter : ∀ t, dat.after 3 t = gateBlk V a c 3 t) (t : Fin (cfg1 a).N) (d) : dat.before 3 t d = gateBlk V a c 3 t :=
  (dat.before_in_eq_fetched 3 rfl (fun _ => rfl) (fun _ _ _ => rfl) (fun t => by rw [hafter]; unfold Dat.blockOf gateBlk; rw [hA]; try rfl) t d).trans
    (by unfold Dat.fetched Dat.blockOf gateBlk; rw [hA]; try rfl)
/-- Input window 4 — the input-side bias: at block `g` its 1024 entries `g` — is found in its current staging buffer at every grid point, whether the
    pipeline fetched it there or not, by any proof data whose array is `V`'s and whose body leaves the block in place:
    where it is not fetched the block index has not moved since the previous point. -/
theorem gate_before_4_of {c : Dev nD} (dat : Dat τ (Elt F) Unit ℕ (UR sig nD τ) ℕ (cfg1 a) c) (hA : dat.A 4 = V c (Pipeline.arrRef spec1 4))
    (hafter : ∀ t, dat.after 4 t = gateBlk V a c 4 t) (t : Fin (cfg1 a).N) (d) : dat.before 4 t d = gateBlk V a c 4 t :=
  (dat.before_in_eq_fetched 4 rfl (fun _ => rfl) (fun _ _ _ => rfl) (fun t => by rw [hafter]; unfold Dat.blockOf gateBlk; rw [hA]; try rfl) t d).trans
    (by unfold Dat.fetched Dat.blockOf gateBlk; rw [hA]; try rfl)
/-- Input window 5 — the hidden-side bias: at block `g` its 1024 entries `g` — is found in its current staging buffer at every grid point, whether the
    pipeline fetched it there or not, by any proof data whose array is `V`'s and whose body leaves the block in place:
    where it is not fetched the block index has not moved since the previous point. -/
theorem gate_before_5_of {c : Dev nD} (dat : Dat τ (Elt F) Unit ℕ (UR sig nD τ) ℕ (cfg1 a) c) (hA : dat.A 5 = V c (Pipeline.arrRef spec1 5))
    (hafter : ∀ t, dat.after 5 t = gateBlk V a c 5 t) (t : Fin (cfg1 a).N) (d) : dat.before 5 t d = gateBlk V a c 5 t :=
  (dat.before_in_eq_fetched 5 rfl (fun _ => rfl) (fun _ _ _ => rfl) (fun t => by rw [hafter]; unfold Dat.blockOf gateBlk; rw [hA]; try rfl) t d).trans
    (by unfold Dat.fetched Dat.blockOf gateBlk; rw [hA]; try rfl)
/-! ## The body's accesses: every load and store is of a whole staging buffer -/

abbrev rText : Rect S1x768 := Rect.unit (s := S1x768) ![0, 0] S1x768.size inb_S1x768_S1x768_0_0
abbrev rRow : Rect S1x1024 := Rect.unit (s := S1x1024) ![0, 0] S1x1024.size inb_S1x1024_S1x1024_0_0
abbrev rWin : Rect S1024x768 := Rect.unit (s := S1024x768) ![0, 0] S1024x768.size inb_S1024x768_S1024x768_0_0
abbrev rWhid : Rect S1024x1024 := Rect.unit (s := S1024x1024) ![0, 0] S1024x1024.size inb_S1024x1024_S1024x1024_0_0
abbrev rOut : Rect S8x1024 := Rect.unit (s := S8x1024) ![0, 0] S8x1024.size inb_S8x1024_S8x1024_0_0

/-! ## What the body leaves in the two output buffers -/

/-- The input-side gate rows: what the body leaves in output window 6's staging buffer, from the text vector `x`, the
    selected weight block `w` and the bias block `b` — its one store, of the whole buffer, of `x · wᵀ + b` repeated over
    the 8 sublanes (the skeleton's payload of that store). -/
def giRows (x : Vec F S1x768 .f32) (w : Vec F S1024x768 .f32) (b : Vec F S1x1024 .f32) : Vec F S8x1024 .f32 :=
  View.canon [⟨rOut, k1_pay1 (View.ld x rText) (View.ld w rWin) (View.ld b rRow)⟩]

/-- The hidden-side gate rows: what the body leaves in output window 7's staging buffer, from the last hidden state `h`,
    the weight block `u` and the bias block `b` — its one store, of the whole buffer, of `h · uᵀ + b` repeated over the 8
    sublanes. -/
def ghRows (h : Vec F S1x1024 .f32) (u : Vec F S1024x1024 .f32) (b : Vec F S1x1024 .f32) : Vec F S8x1024 .f32 :=
  View.canon [⟨rOut, k1_pay2 (View.ld h rRow) (View.ld u rWhid) (View.ld b rRow)⟩]

/-- One store of the whole 8 × 1024 buffer covers it. -/
theorem gateRows_cover (p : Vec F S8x1024 .f32) (y : S8x1024.Idx) :
    ∃ pc ∈ ([⟨rOut, p⟩] : List (View.Piece (Elt F) S8x1024 .f32)), y ∈ pc.1.set :=
  View.cover_of_tiled [⟨rOut, p⟩] S8x1024.size (by rfl) y

/-! ## The body's triple -/

set_option maxHeartbeats 1000000 in
/-- The body on whole staging memrefs — the six inputs' at read contents, the two outputs' at anything — runs to the
    continuation holding the inputs' as they were and the outputs' at `giRows` and `ghRows` of the inputs. It loads each
    output buffer once before storing it (the loaded values are never used) and never touches the selector's memref
    `arg1`, of which nothing is asked. -/
theorem gate_kernel_sound (c : Dev nD) (E : Set ℕ) (i : grid1.Coords) (arg1 : Memref sig .tc .smem S1 .i32) (harg1 : arg1.IsWhole)
    (arg2 : Memref sig .tc .vmem S1x768 .f32) (harg2 : arg2.IsWhole) (arg3 : Memref sig .tc .vmem S1x1024 .f32) (harg3 : arg3.IsWhole)
    (arg4 : Memref sig .tc .vmem S1024x768 .f32) (harg4 : arg4.IsWhole) (arg5 : Memref sig .tc .vmem S1024x1024 .f32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S8x1024 .f32) (harg8 : arg8.IsWhole) (arg9 : Memref sig .tc .vmem S8x1024 .f32) (harg9 : arg9.IsWhole)
    (x : Vec F S1x768 .f32) (h : Vec F S1x1024 .f32) (w : Vec F S1024x768 .f32) (u : Vec F S1024x1024 .f32)
    (bi bh : Vec F S1x1024 .f32) (K : PUnit → sProp 𝕄) :
    iprop(owns (c : Thread nD τ) arg2 fullShare x ∗ owns (c : Thread nD τ) arg3 fullShare h ∗ owns (c : Thread nD τ) arg4 fullShare w
        ∗ owns (c : Thread nD τ) arg5 fullShare u ∗ owns (c : Thread nD τ) arg6 fullShare bi ∗ owns (c : Thread nD τ) arg7 fullShare bh
        ∗ (∃ d, owns (c : Thread nD τ) arg8 fullShare d) ∗ (∃ d, owns (c : Thread nD τ) arg9 fullShare d)
        ∗ (iprop(owns (c : Thread nD τ) arg2 fullShare x ∗ owns (c : Thread nD τ) arg3 fullShare h ∗ owns (c : Thread nD τ) arg4 fullShare w
            ∗ owns (c : Thread nD τ) arg5 fullShare u ∗ owns (c : Thread nD τ) arg6 fullShare bi ∗ owns (c : Thread nD τ) arg7 fullShare bh
            ∗ owns (c : Thread nD τ) arg8 fullShare (giRows x w bi) ∗ owns (c : Thread nD τ) arg9 fullShare (ghRows h u bh)) -∗ K ⟨⟩))
      ⊢ wp frame (wpE (defs₀ (F := F)) Variants.none c none) E
          (cc1__gru_gate_kernel i arg1 harg1 arg2 harg2 arg3 harg3 arg4 harg4 arg5 harg5 arg6 harg6 arg7 harg7 arg8 harg8 arg9 harg9) K := by
  simp only [cc1__gru_gate_kernel_eq_skeleton]; unfold cc1__gru_gate_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf2 hf3 hf4 hf5 hf6 hf7
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (gateRows_cover _)
  iexists _; isplitr
  swap; · iexact H9
  ipureintro
  exact View.read_writes_eq_canon _ _ _ (gateRows_cover _)

/-! ## The pipeline's proof data -/

/-- The selector table on core `c`, its buffer held whole at the contents `a.1`: how the table rides through the region's
    invariant. The body never reads it; the pipeline's index map of the input-side weights does, through `a`. -/
abbrev gateTable (c : Dev nD) : sProp 𝕄 :=
  Pipeline.prefHeld (Ix := Unit) (Name := ℕ) (U := UR sig nD τ) (Lvl := ℕ) pre1 c (fun _ => fullShare) a.1

/-- The proof data of the gate-row pipeline on core `c`: the arrays as the region finds them (`V`); after the body at
    block `t` each input's staging buffer at its block, the two outputs' at the input-side and hidden-side gate rows of
    the input blocks; the invariant: the scoped buffers the region does not stage and the generator register, at
    anything, and the selector table held whole at `a.1`; nothing owed; full shares. -/
def gateDat (c : Dev nD) : Dat τ (Elt F) Unit ℕ (UR sig nD τ) ℕ (cfg1 a) c where
  A w := V c (Pipeline.arrRef spec1 w)
  after w t := match w with
    | ⟨0, _⟩ => gateBlk V a c 0 t
    | ⟨1, _⟩ => gateBlk V a c 1 t
    | ⟨2, _⟩ => gateBlk V a c 2 t
    | ⟨3, _⟩ => gateBlk V a c 3 t
    | ⟨4, _⟩ => gateBlk V a c 4 t
    | ⟨5, _⟩ => gateBlk V a c 5 t
    | ⟨6, _⟩ => giRows (gateBlk V a c 0 t) (gateBlk V a c 2 t) (gateBlk V a c 4 t)
    | ⟨7, _⟩ => ghRows (gateBlk V a c 1 t) (gateBlk V a c 3 t) (gateBlk V a c 5 t)
  Φ _ := iprop(Pipeline.ΦA spec1 c ∗ gateTable a c)
  q _ := fullShare
  owed _ := 0

/-- The proof data's arrays are the region-entry contents. -/
theorem gateDat_A (c : Dev nD) (w : Fin (cfg1 a).W) : (gateDat V a c).A w = V c (Pipeline.arrRef spec1 w) := by
  dsimp only [gateDat]

/-- The invariant is the same at every point. -/
theorem gateDat_Φ (c : Dev nD) (t : Fin ((cfg1 a).N + 1)) : (gateDat V a c).Φ t = iprop(Pipeline.ΦA spec1 c ∗ gateTable a c) := rfl

/-- What the body leaves, window by window. -/
theorem gateDat_after_0 (c : Dev nD) (t : Fin (cfg1 a).N) : (gateDat V a c).after 0 t = gateBlk V a c 0 t := by dsimp only [gateDat]; try rfl
theorem gateDat_after_1 (c : Dev nD) (t : Fin (cfg1 a).N) : (gateDat V a c).after 1 t = gateBlk V a c 1 t := by dsimp only [gateDat]; try rfl
theorem gateDat_after_2 (c : Dev nD) (t : Fin (cfg1 a).N) : (gateDat V a c).after 2 t = gateBlk V a c 2 t := by dsimp only [gateDat]; try rfl
theorem gateDat_after_3 (c : Dev nD) (t : Fin (cfg1 a).N) : (gateDat V a c).after 3 t = gateBlk V a c 3 t := by dsimp only [gateDat]; try rfl
theorem gateDat_after_4 (c : Dev nD) (t : Fin (cfg1 a).N) : (gateDat V a c).after 4 t = gateBlk V a c 4 t := by dsimp only [gateDat]; try rfl
theorem gateDat_after_5 (c : Dev nD) (t : Fin (cfg1 a).N) : (gateDat V a c).after 5 t = gateBlk V a c 5 t := by dsimp only [gateDat]; try rfl
theorem gateDat_after_6 (c : Dev nD) (t : Fin (cfg1 a).N) :
    (gateDat V a c).after 6 t = giRows (gateBlk V a c 0 t) (gateBlk V a c 2 t) (gateBlk V a c 4 t) := by dsimp only [gateDat]; try rfl
theorem gateDat_after_7 (c : Dev nD) (t : Fin (cfg1 a).N) :
    (gateDat V a c).after 7 t = ghRows (gateBlk V a c 1 t) (gateBlk V a c 3 t) (gateBlk V a c 5 t) := by dsimp only [gateDat]; try rfl

/-- Each input's current staging buffer holds its block at every grid point, fetched there or not: the text vector and
    the hidden state are fetched once, the weight and bias blocks at every point; the weight block the selector picks
    has a block index that reads the table, at the parameter `a`. -/
theorem gateDat_before_0 (c : Dev nD) (t : Fin (cfg1 a).N) (d) : (gateDat V a c).before 0 t d = gateBlk V a c 0 t :=
  gate_before_0_of V a (gateDat V a c) (gateDat_A V a c 0) (gateDat_after_0 V a c) t d
theorem gateDat_before_1 (c : Dev nD) (t : Fin (cfg1 a).N) (d) : (gateDat V a c).before 1 t d = gateBlk V a c 1 t :=
  gate_before_1_of V a (gateDat V a c) (gateDat_A V a c 1) (gateDat_after_1 V a c) t d
theorem gateDat_before_2 (c : Dev nD) (t : Fin (cfg1 a).N) (d) : (gateDat V a c).before 2 t d = gateBlk V a c 2 t :=
  gate_before_2_of V a (gateDat V a c) (gateDat_A V a c 2) (gateDat_after_2 V a c) t d
theorem gateDat_before_3 (c : Dev nD) (t : Fin (cfg1 a).N) (d) : (gateDat V a c).before 3 t d = gateBlk V a c 3 t :=
  gate_before_3_of V a (gateDat V a c) (gateDat_A V a c 3) (gateDat_after_3 V a c) t d
theorem gateDat_before_4 (c : Dev nD) (t : Fin (cfg1 a).N) (d) : (gateDat V a c).before 4 t d = gateBlk V a c 4 t :=
  gate_before_4_of V a (gateDat V a c) (gateDat_A V a c 4) (gateDat_after_4 V a c) t d
theorem gateDat_before_5 (c : Dev nD) (t : Fin (cfg1 a).N) (d) : (gateDat V a c).before 5 t d = gateBlk V a c 5 t :=
  gate_before_5_of V a (gateDat V a c) (gateDat_A V a c 5) (gateDat_after_5 V a c) t d

/-! ## The body obligation, at a generic grid point -/

/-- Each window's current staging memref at point `t`, as the pipeline passes it to the body. -/
abbrev gateSt0 (t : Fin (cfg1 a).N) : Memref sig .tc .vmem S1x768 .f32 := spec1_0.stage ((cfg1 a).slots t 0)
abbrev gateSt1 (t : Fin (cfg1 a).N) : Memref sig .tc .vmem S1x1024 .f32 := spec1_1.stage ((cfg1 a).slots t 1)
abbrev gateSt2 (t : Fin (cfg1 a).N) : Memref sig .tc .vmem S1024x768 .f32 := spec1_2.stage ((cfg1 a).slots t 2)
abbrev gateSt3 (t : Fin (cfg1 a).N) : Memref sig .tc .vmem S1024x1024 .f32 := spec1_3.stage ((cfg1 a).slots t 3)
abbrev gateSt4 (t : Fin (cfg1 a).N) : Memref sig .tc .vmem S1x1024 .f32 := spec1_4.stage ((cfg1 a).slots t 4)
abbrev gateSt5 (t : Fin (cfg1 a).N) : Memref sig .tc .vmem S1x1024 .f32 := spec1_5.stage ((cfg1 a).slots t 5)
abbrev gateSt6 (t : Fin (cfg1 a).N) : Memref sig .tc .vmem S8x1024 .f32 := spec1_6.stage ((cfg1 a).slots t 6)
abbrev gateSt7 (t : Fin (cfg1 a).N) : Memref sig .tc .vmem S8x1024 .f32 := spec1_7.stage ((cfg1 a).slots t 7)

/-- The body at grid point `t`, on what the pipeline calls it with: the selector's whole buffer as its first memref, then
    each window's current staging buffer. -/
abbrev gateBodyAt (t : Fin (cfg1 a).N) : Prog (TpuEff nD τ sig (Elt F) Λ₀ .tc) PUnit :=
  cc1__gru_gate_kernel (grid1.coords t) (Memref.whole main_v33) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6)) (spec1_7.stage ((cfg1 a).slots t 7)) (hstage1_7 (((cfg1 a).slots t 7).cast nbuf1_7))

/-- What the body is called with at point `t` (the windows one by one), -/
def gateBodyPre (c : Dev nD) (t : Fin (cfg1 a).N) : sProp 𝕄 :=
  iprop((gateDat V a c).Φ t.castSucc ∗ (gateDat V a c).owesAt () t.castSucc
    ∗ (∃ d, owns (c : Thread nD τ) (gateSt0 a t) fullShare ((gateDat V a c).before 0 t d))
    ∗ (∃ d, owns (c : Thread nD τ) (gateSt1 a t) fullShare ((gateDat V a c).before 1 t d))
    ∗ (∃ d, owns (c : Thread nD τ) (gateSt2 a t) fullShare ((gateDat V a c).before 2 t d))
    ∗ (∃ d, owns (c : Thread nD τ) (gateSt3 a t) fullShare ((gateDat V a c).before 3 t d))
    ∗ (∃ d, owns (c : Thread nD τ) (gateSt4 a t) fullShare ((gateDat V a c).before 4 t d))
    ∗ (∃ d, owns (c : Thread nD τ) (gateSt5 a t) fullShare ((gateDat V a c).before 5 t d))
    ∗ (∃ d, owns (c : Thread nD τ) (gateSt6 a t) fullShare ((gateDat V a c).before 6 t d))
    ∗ (∃ d, owns (c : Thread nD τ) (gateSt7 a t) fullShare ((gateDat V a c).before 7 t d)))

/-- and what it returns. -/
def gateBodyPost (c : Dev nD) (t : Fin (cfg1 a).N) : sProp 𝕄 :=
  iprop((gateDat V a c).Φ t.succ ∗ (gateDat V a c).owesAt () t.succ
    ∗ owns (c : Thread nD τ) (gateSt0 a t) fullShare ((gateDat V a c).after 0 t)
    ∗ owns (c : Thread nD τ) (gateSt1 a t) fullShare ((gateDat V a c).after 1 t)
    ∗ owns (c : Thread nD τ) (gateSt2 a t) fullShare ((gateDat V a c).after 2 t)
    ∗ owns (c : Thread nD τ) (gateSt3 a t) fullShare ((gateDat V a c).after 3 t)
    ∗ owns (c : Thread nD τ) (gateSt4 a t) fullShare ((gateDat V a c).after 4 t)
    ∗ owns (c : Thread nD τ) (gateSt5 a t) fullShare ((gateDat V a c).after 5 t)
    ∗ owns (c : Thread nD τ) (gateSt6 a t) fullShare ((gateDat V a c).after 6 t)
    ∗ owns (c : Thread nD τ) (gateSt7 a t) fullShare ((gateDat V a c).after 7 t))

/-- The body at any grid point: the inputs' staging buffers hold their blocks, so the body's triple applies; the
    invariant — the selector table in it — and the core's dues pass through unread. -/
theorem gate_body_sound (c : Dev nD) (t : Fin (cfg1 a).N) :
    gateBodyPre V a c t ⊢ wp frame (wpE (defs₀ (F := F)) Variants.none c none) Set.univ (gateBodyAt a t) (fun _ => gateBodyPost V a c t) := by
  unfold gateBodyPre gateBodyPost gateBodyAt
  simp only [gateDat_before_0, gateDat_before_1, gateDat_before_2, gateDat_before_3, gateDat_before_4, gateDat_before_5]
  rw [show (gateDat V a c).Φ t.succ = (gateDat V a c).Φ t.castSucc from rfl,
    show (gateDat V a c).owesAt () t.succ = (gateDat V a c).owesAt () t.castSucc from rfl,
    gateDat_after_0, gateDat_after_1, gateDat_after_2, gateDat_after_3, gateDat_after_4, gateDat_after_5, gateDat_after_6, gateDat_after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (gate_kernel_sound c Set.univ _ _ _ _ _ _ _ _ _ _ _ _ _ _ _ _ _ _ _ (gateBlk V a c 0 t) (gateBlk V a c 1 t) (gateBlk V a c 2 t)
    (gateBlk V a c 3 t) (gateBlk V a c 4 t) (gateBlk V a c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every grid point. -/
theorem gate_body_obligation (c : Dev nD) : BodyObligation (gateDat (F := F) V a c) (defs₀ (F := F)) Variants.none () Set.univ := fun t => by
  rw [bigSep_W1, bigSep_W1]
  exact gate_body_sound V a c t

end Cert.Kernel.Gates

end
-- ==== Proof.KernelGatesSeg.lean ====
/-
  The gate-row region as a segment of the whole program's run: the region is entered holding every buffer of the core
  that outlives a region, at an entry valuation, and leaves them at an exit valuation that differs from it only at the
  two output arrays. At entry the region's eight arrays and the selector table are taken out of those buffers; the
  table is held whole through the region's invariant and comes back with it; at exit the arrays, the table and the
  untouched rest are put together again. The selector table's contents are the entry valuation's at the table's buffer.
-/
import proofs.«146633_j61375082660584_2_alg».proof.Proof.KernelGates

set_option maxRecDepth 16384

noncomputable section

namespace Cert.Kernel.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- What rides beside the buffers through the region: the core's generator register at some state (the invariant
    takes it in and gives it back) and its dues, at nothing. -/
abbrev gateRide (c : Dev nD) : sProp 𝕄 :=
  iprop((∃ r, prngReg c r) ∗ ∃ W, owes (c : Thread nD τ) (0 : CellTallies nD τ sig Unit) W)

/-- No core owes another anything: no level is assigned. -/
abbrev noLevels : GSem nD τ sig → Finset Unit := fun _ => ∅
abbrev noLevel : GSem nD τ sig → Unit → ℕ := fun _ _ => 0

variable (adm : (p : Fin 2) → (pcfgs (F := F) p).Adm)
  (pdats : (p : Fin 2) → (c : Dev nD) → Dat τ (Elt F) Unit ℕ (UR sig nD τ) ℕ (Pipeline.pin (pcfgs (F := F)) adm p) c)
  (Win Wout : Dev nD → Valuation τ sig (Elt F))

/-! ## The exit valuation: the entry valuation but at the two output arrays -/

section Exit

/-- The six input arrays are not the two output arrays. -/
theorem gate_in_ne_out : ∀ w : Fin 8, w.val < 6 → Pipeline.arrRef spec1 w ≠ main_v36_0 ∧ Pipeline.arrRef spec1 w ≠ main_v36_1 := by decide

variable (V : (c : Dev nD) → (b : Ref sig .tc) → Buf (Elt F) ((c : Thread nD τ).loc b)) (a : (pcfg1 (F := F)).Adm)

/-- A valuation that holds at the two output arrays what the region's write-backs leave there, and elsewhere what the
    region was entered with, holds at EVERY array of the region what the pipeline leaves: an input array is never
    written. -/
theorem gate_exit_arrays (c : Dev nD) (Vout : (b : Ref sig .tc) → Buf (Elt F) ((c : Thread nD τ).loc b))
    (h6 : Vout main_v36_0 = (gateDat V a c).arrAt 6 (cfg1 a).N) (h7 : Vout main_v36_1 = (gateDat V a c).arrAt 7 (cfg1 a).N)
    (hoff : ∀ b : Ref sig .tc, b ≠ main_v36_0 → b ≠ main_v36_1 → Vout b = V c b) :
    ∀ w : Fin (cfg1 a).W, (gateDat V a c).arrAt w (cfg1 a).N = Vout (Pipeline.arrRef spec1 w)
  | ⟨0, _⟩ => ((gateDat V a c).arrAt_in 0 rfl _).trans ((gateDat_A V a c 0).trans (hoff _ (gate_in_ne_out 0 (by decide)).1 (gate_in_ne_out 0 (by decide)).2).symm)
  | ⟨1, _⟩ => ((gateDat V a c).arrAt_in 1 rfl _).trans ((gateDat_A V a c 1).trans (hoff _ (gate_in_ne_out 1 (by decide)).1 (gate_in_ne_out 1 (by decide)).2).symm)
  | ⟨2, _⟩ => ((gateDat V a c).arrAt_in 2 rfl _).trans ((gateDat_A V a c 2).trans (hoff _ (gate_in_ne_out 2 (by decide)).1 (gate_in_ne_out 2 (by decide)).2).symm)
  | ⟨3, _⟩ => ((gateDat V a c).arrAt_in 3 rfl _).trans ((gateDat_A V a c 3).trans (hoff _ (gate_in_ne_out 3 (by decide)).1 (gate_in_ne_out 3 (by decide)).2).symm)
  | ⟨4, _⟩ => ((gateDat V a c).arrAt_in 4 rfl _).trans ((gateDat_A V a c 4).trans (hoff _ (gate_in_ne_out 4 (by decide)).1 (gate_in_ne_out 4 (by decide)).2).symm)
  | ⟨5, _⟩ => ((gateDat V a c).arrAt_in 5 rfl _).trans ((gateDat_A V a c 5).trans (hoff _ (gate_in_ne_out 5 (by decide)).1 (gate_in_ne_out 5 (by decide)).2).symm)
  | ⟨6, _⟩ => h6.symm
  | ⟨7, _⟩ => h7.symm

/-- Such a valuation agrees with the entry contents off the region's arrays. -/
theorem gate_exit_rest (c : Dev nD) (Vout : (b : Ref sig .tc) → Buf (Elt F) ((c : Thread nD τ).loc b))
    (hoff : ∀ b : Ref sig .tc, b ≠ main_v36_0 → b ≠ main_v36_1 → Vout b = V c b) :
    ∀ b : Ref sig .tc, b ∉ Finset.univ.image (Pipeline.arrRef spec1) → Vout b = V c b := fun b hb =>
  hoff b (fun e => hb (Finset.mem_image.mpr ⟨6, Finset.mem_univ _, e.symm⟩)) (fun e => hb (Finset.mem_image.mpr ⟨7, Finset.mem_univ _, e.symm⟩))

end Exit

set_option backward.isDefEq.respectTransparency.types false in
/-- The gate-row region over the thread state: entered from every unscoped buffer at `Win`, left at `Wout`. -/
def gateSeg
    (hdat : ∀ c, pdats 1 c = gateDat (fun c b => Win c b) (adm 1) c)
    (hpf : ∀ c k, Win c (pre1.ref k) = (adm 1).1 k)
    (hF : ∀ c w, (pdats 1 c).arrAt w (Pipeline.pin (pcfgs (F := F)) adm 1).N = Wout c (Pipeline.arrRef spec1 w))
    (hrest : ∀ c (b : Ref sig .tc), b ∉ Finset.univ.image (Pipeline.arrRef spec1) → Wout c b = Win c b) :
    Pipeline.RegionSeg (pcfgs (F := F)) adm pdats () defs₀ Variants.none noLevels noLevel 1 where
  win := (launch1 (F := F)).win.to₀
  block_pos := (launch1 (F := F)).block_pos
  stage_whole := (launch1 (F := F)).stage_whole
  K := PEmpty
  osem k := k.elim
  ho := Pipeline.OwnSemFacts.none _
  hbody c := by rw [hdat c]; exact (gate_body_obligation (fun c b => Win c b) (adm 1) c).loose
  hwaits := Pipeline.hwaits_of_owed_zero _ _ _ _ noLevels noLevel 1 fun c t => by rw [hdat c]; rfl
  pre c := iprop(StableHlo.held (c : Thread nD τ) (Pipeline.ucRefs τ sig) (Win c) ∗ gateRide c)
  post c := iprop(StableHlo.held (c : Thread nD τ) (Pipeline.ucRefs τ sig) (Wout c) ∗ gateRide c)
  X c := iprop(∃ r, prngReg c r)
  Y c := iprop((∃ r, prngReg c r) ∗ gateTable (adm 1) c)
  Z c := Pipeline.unscopedRestP (Ix := Unit) (Name := ℕ) (U := UR sig nD τ) (Lvl := ℕ) pre1 spec1 c (fun b => Win c b)
  hentry c := by
    rw [Pipeline.ownSems0_none]
    have htab : (fun k => Win c (pre1.ref k)) = (adm 1).1 := funext (hpf c)
    have hsplit : (StableHlo.held (c : Thread nD τ) (Pipeline.ucRefs τ sig) (Win c) : sProp 𝕄)
        ⊢ iprop((pdats 1 c).arrays ((pdats 1 c).arrAt · 0) ∗ gateTable (adm 1) c
            ∗ Pipeline.unscopedRestP (Ix := Unit) (Name := ℕ) (U := UR sig nD τ) (Lvl := ℕ) pre1 spec1 c (fun b => Win c b)) := by
      have h := Pipeline.arrays_of_unscopedBufs (p := 1) (pcfgs (F := F)) adm pdats (launch1 (F := F)).win (launch1 (F := F)).arr_whole c
        ((pdats 1 c).share_full fun w => by rw [hdat c]; rfl) (fun b => Win c b) fun w => by rw [hdat c]; rfl
      rw [Pipeline.unscopedBufs_held] at h
      refine h.trans (sep_mono .rfl (Entails.of_eq ?_))
      unfold gateTable; rw [← htab]
      exact Pipeline.unscopedRest_split (preFacts1) c (fun b => Win c b)
    have howed : (pdats 1 c).owed 0 = 0 := by rw [hdat c]; rfl
    have hrec : (pdats 1 c).recorded 0 = Set.univ := by rw [hdat c]; rfl
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl (by rw [hrec]; trivial)
      rw [howed]; iexact HO
    isplitl [Hp]; · iexact Hp
    iexact Hrest
  hin c := by
    rw [show (pdats 1 c).Φ 0 = iprop(Pipeline.ΦA spec1 c ∗ gateTable (adm 1) c) from by rw [hdat c]; rfl]; unfold Pipeline.ΦA
    iintro ⟨Hp, Ht, Hr⟩
    isplitl [Hr Hp]
    · isplitl [Hr]; · iexact Hr
      iexact Hp
    iexact Ht
  hout c := by
    rw [Pipeline.ownSems0_none, show (pdats 1 c).Φ (Fin.last _) = iprop(Pipeline.ΦA spec1 c ∗ gateTable (adm 1) c) from by rw [hdat c]; rfl]
    unfold Pipeline.ΦA
    iintro ⟨⟨Hr, Hp⟩, Ht⟩
    isplitl [Hp Ht]
    · isplitl [Hp]; · iexact Hp
      iexact Ht
    isplitr; · iempintro
    iexact Hr
  hexit c := by
    have htab : (fun k => Win c (pre1.ref k)) = (adm 1).1 := funext (hpf c)
    have hjoin : iprop((pdats 1 c).arrays ((pdats 1 c).arrAt · (Pipeline.pin (pcfgs (F := F)) adm 1).N) ∗ gateTable (adm 1) c
          ∗ Pipeline.unscopedRestP (Ix := Unit) (Name := ℕ) (U := UR sig nD τ) (Lvl := ℕ) pre1 spec1 c (fun b => Win c b))
        ⊢ (StableHlo.held (c : Thread nD τ) (Pipeline.ucRefs τ sig) (Wout c) : sProp 𝕄) := by
      have h := Pipeline.unscopedBufs_of_arrays (p := 1) (pcfgs (F := F)) adm (Ix := Unit) (Name := ℕ) (U := UR sig nD τ) (Lvl := ℕ)
        (launch1 (F := F)).win (launch1 (F := F)).arr_whole c pdats ((pdats 1 c).share_full fun w => by rw [hdat c]; rfl)
        (fun b => Win c b) (fun b => Wout c b) ((pdats 1 c).arrAt · (Pipeline.pin (pcfgs (F := F)) adm 1).N) (hF c) (hrest c)
      rw [Pipeline.unscopedBufs_held] at h
      refine (sep_mono .rfl (Entails.of_eq ?_)).trans h
      unfold gateTable; rw [← htab]
      exact (Pipeline.unscopedRest_split (preFacts1) c (fun b => Win c b)).symm
    have howed : (pdats 1 c).owed (Fin.last _) = 0 := by rw [hdat c]; rfl
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; rw [howed]; iexact HO

end Cert.Kernel.Gates

end
-- ==== Proof.KernelRunFold.lean ====
/-
  The buffer contents at every boundary of the program's run. The program is seven stretches in order: the slice of the
  last hidden state; the attention region; the host combination of the two halves of the online softmax and the
  selector's predicate; the selector word (0 when the result is at least one half, else 1); the selector's copy and
  the two bias rows reshaped; the gate-row region; the gates and the score on the host. Between two stretches every
  buffer that outlives a region holds a definite function of the launch memory: after a host stretch, that stretch
  applied; after a region, its arrays at what its write-backs leave and every other buffer as the region found it.
  The selector word the gate-row region reads is 0 or 1 whatever the inputs, so the weight block it selects lies inside
  the weight matrix: the region's side condition holds of every launch memory.
-/
import proofs.«146633_j61375082660584_2_alg».proof.Proof.Gen.Kernel.Regions
import proofs.«146633_j61375082660584_2_alg».proof.Proof.KernelAttnOblig
import proofs.«146633_j61375082660584_2_alg».proof.Proof.KernelGatesSeg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel
open Cert.Kernel.Gen hiding V0 V1 V2 V3 V4 V5 V6 V7 segs seg0 seg2 seg3 seg4 seg6

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
/-- After the slice of the last hidden state: the attention region's entry. -/
abbrev W1 : Dev nD → Valuation τ sig (Elt F) := fun c => StableHlo.after hostOps0 (W0 m ρ c)
/-- The same read at the TensorCore's references. -/
abbrev T1 : (c : Dev nD) → (b : Ref sig .tc) → Buf (Elt F) ((c : Thread nD τ).loc b) := fun c b => W1 m ρ c b
/-- At the attention region's exit: its arrays at what its write-backs leave, every other buffer as entered. -/
def W2 (c : Dev nD) : Valuation τ sig (Elt F) :=
  Pipeline.withArrays spec0 c (W1 m ρ c) fun w => (Attn.attnDat (T1 m ρ) c).arrAt w cfg0.N
theorem W2_arr (c : Dev nD) (w : Fin cfg0.W) :
    W2 m ρ c (Proc.devRef .tc (Pipeline.arrRef spec0 w)) = (Attn.attnDat (T1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev T2 : (c : Dev nD) → (b : Ref sig .tc) → Buf (Elt F) ((c : Thread nD τ).loc b) := fun c b => W2 m ρ c b
/-- After the host combination of the two halves. -/
abbrev W3 : Dev nD → Valuation τ sig (Elt F) := fun c => StableHlo.after hostOps1 (W2 m ρ c)
/-- After the selector word is chosen. -/
abbrev W4 : Dev nD → Valuation τ sig (Elt F) := fun c => StableHlo.after hostOps1_1 (W3 m ρ c)
/-- After the selector's copy and the bias rows' reshapes: the gate-row region's entry. -/
abbrev W5 : Dev nD → Valuation τ sig (Elt F) := fun c => StableHlo.after hostOps1_2 (W4 m ρ c)
abbrev T5 : (c : Dev nD) → (b : Ref sig .tc) → Buf (Elt F) ((c : Thread nD τ).loc b) := fun c b => W5 m ρ c b

/-! ## The selector word -/

/-- The selector table as the gate-row region finds it (the program runs on one device). -/
def selTable : pre1.Contents (Elt F) := fun k => T5 m ρ (0 : Dev nD) (pre1.ref k)
theorem T5_pre (c : Dev nD) (k : Fin pre1.K) : T5 m ρ c (pre1.ref k) = selTable m ρ k := by
  obtain rfl : c = 0 := Subsingleton.elim _ _; rfl

/-- A choice between the constant 0 and the constant 1 is 0 or 1, whatever the predicate. -/
theorem select_zero_one {s : Shape} (p : IVec s 1) (A B : s.Idx → BitVec 32) (hA : ∀ j, A j = 0#32) (hB : ∀ j, B j = 1#32) (j : s.Idx) :
    select p A B j = 0#32 ∨ select p A B j = 1#32 := by
  unfold select Scalar.select
  split
  · exact Or.inl (hA j)
  · exact Or.inr (hB j)

set_option maxHeartbeats 400000 in
/-- The selector word after the three host stretches before the gate-row region, from ANY contents before them: the
    choice between the constants 0 and 1 by the predicate "the result is at least one half", copied. -/
theorem sel_word_cases (W : Valuation τ sig (Elt F)) (j : S1.Idx) :
    StableHlo.after hostOps1_2 (StableHlo.after hostOps1_1 (StableHlo.after hostOps1 W)) (Proc.devRef .tc main_v33) j = 0#32
      ∨ StableHlo.after hostOps1_2 (StableHlo.after hostOps1_1 (StableHlo.after hostOps1 W)) (Proc.devRef .tc main_v33) j = 1#32 := by
  after_results
  exact select_zero_one _ _ _ (fun _ => rfl) (fun _ => rfl) j

/-! ## The gate-row region's side condition holds of every launch memory -/

/-- The gate-row region's side condition at the selector table: for each of the three row blocks, the block of 1024
    gate rows and the 768 columns the selector word picks lie inside the 3072 × 1536 weight matrix — the word is 0 or 1. -/
theorem sel_ok : ok1 (F := F) (selTable m ρ) := by
  intro i
  have hw := sel_word_cases (W2 m ρ 0) ((Rect.unit (s := S1) ![0] S1.size inb_S1_S1_0).emb (Shape.Idx.first (numel1_S1.symm ▸ Nat.one_pos)))
  refine ⟨fun a => ?_, Or.inl rfl⟩
  generalize hx : StableHlo.after hostOps1_2 (StableHlo.after hostOps1_1 (StableHlo.after hostOps1 (W2 m ρ 0)))
        (Proc.devRef .tc main_v33) ((Rect.unit (s := S1) ![0] S1.size inb_S1_S1_0).emb (Shape.Idx.first (numel1_S1.symm ▸ Nat.one_pos))) = x at hw
  have e : cc1_transform_2 inb_S1_S1_0 numel1_S1 (selTable m ρ) i = ![(BitVec.ofNat 32 (i 0).val).toNat, x.toNat] := by
    rw [← hx]; rfl
  rw [e]
  have hi : (i 0).val < 3 := (i 0).isLt
  match a with
  | ⟨0, _⟩ =>
    show ((BitVec.ofNat 32 (i 0).val).toNat + 1) * 1024 ≤ 3072
    rw [BitVec.toNat_ofNat, Nat.mod_eq_of_lt (by omega)]; omega
  | ⟨1, _⟩ =>
    show (x.toNat + 1) * 768 ≤ 1536
    rcases hw with h | h <;> rw [h] <;> decide

/-- The selector table as admissible contents of the gate-row pipeline's tables. -/
def selAdm : (pcfg1 (F := F)).Adm := ⟨selTable m ρ, sel_ok m ρ⟩

/-- The tables' admissible contents, pipeline by pipeline: the attention region prefetches nothing. -/
def adm : (p : Fin 2) → (pcfgs (F := F) p).Adm
  | ⟨0, _⟩ => cfg0.toPCfg_adm
  | ⟨1, _⟩ => selAdm m ρ

/-- Every pipeline's proof data, each at its region's entry contents. -/
def pdats : (p : Fin 2) → (c : Dev nD) → Dat τ (Elt F) Unit ℕ (UR sig nD τ) ℕ (Pipeline.pin (pcfgs (F := F)) (adm m ρ) p) c
  | ⟨0, _⟩ => fun c => Attn.attnDat (T1 m ρ) c
  | ⟨1, _⟩ => fun c => Gates.gateDat (T5 m ρ) (selAdm m ρ) c

/-- At the gate-row region's exit: its arrays at what its write-backs leave, every other buffer as entered. -/
def W6 (c : Dev nD) : Valuation τ sig (Elt F) :=
  Pipeline.withArrays spec1 c (W5 m ρ c) fun w => (Gates.gateDat (T5 m ρ) (selAdm m ρ) c).arrAt w (cfg1 (selAdm m ρ)).N
theorem W6_arr (c : Dev nD) (w : Fin (cfg1 (selAdm m ρ)).W) :
    W6 m ρ c (Proc.devRef .tc (Pipeline.arrRef spec1 w)) = (Gates.gateDat (T5 m ρ) (selAdm m ρ) c).arrAt w (cfg1 (selAdm m ρ)).N := by
  unfold W6; exact Pipeline.withArrays_arr spec1 (launch1 (F := F)).win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev T6 : (c : Dev nD) → (b : Ref sig .tc) → Buf (Elt F) ((c : Thread nD τ).loc b) := fun c b => W6 m ρ c b
/-- After the gates and the score on the host: the program's end. -/
abbrev W7 : Dev nD → Valuation τ sig (Elt F) := fun c => StableHlo.after hostOps2 (W6 m ρ c)

end Cert.Kernel.Run

end
-- ==== Proof.KernelRunAttnSeg.lean ====
/-
  The attention region as a segment of the whole program's run: entered holding every buffer that outlives a region at
  an entry valuation, left at an exit valuation that differs from it only at the three partial-result arrays. The region
  prefetches no table. Its invariant starts as "every scratch buffer holds anything" and ends, after the eighth tile,
  as "the three scratch buffers hold the last running state": forgetting that state gives back the scratch buffers at
  anything, which is what the region returns.
-/
import proofs.«146633_j61375082660584_2_alg».proof.Proof.Gen.Kernel.Regions
import proofs.«146633_j61375082660584_2_alg».proof.Proof.KernelAttnOblig
import proofs.«146633_j61375082660584_2_alg».proof.Proof.KernelGatesSeg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel
open Cert.Kernel.Gen hiding V0 V1 V2 V3 V4 V5 V6 V7 segs seg0 seg2 seg3 seg4 seg6

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (adm : (p : Fin 2) → (pcfgs (F := F) p).Adm)
  (pdats : (p : Fin 2) → (c : Dev nD) → Dat τ (Elt F) Unit ℕ (UR sig nD τ) ℕ (Pipeline.pin (pcfgs (F := F)) adm p) c)
  (Win Wout : Dev nD → Valuation τ sig (Elt F))

/-- After the last tile the invariant gives back the region's entry invariant: the running state is forgotten. -/
theorem attn_inv_last (V : (c : Dev nD) → (b : Ref sig .tc) → Buf (Elt F) ((c : Thread nD τ).loc b)) (c : Dev nD)
    (n : ℕ) (h : n ≤ cfg0.N) (hz : n ≠ 0) : Attn.inv V c n h ⊢ (Pipeline.ΦA spec0 c : sProp 𝕄) := by
  rw [Attn.inv_pos V c n h hz, Attn.entryInv_eq]
  iintro ⟨⟨Hm, Hl, Ha, Hrest⟩, Hg⟩
  isplitr [Hg]
  · isplitl [Hm]; · iexists _; iexact Hm
    isplitl [Hl]; · iexists _; iexact Hl
    isplitl [Ha]; · iexists _; iexact Ha
    iexact Hrest
  · iexact Hg

set_option backward.isDefEq.respectTransparency.types false in
/-- The attention region over the thread state: entered from every unscoped buffer at `Win`, left at `Wout`. -/
def attnSeg
    (hdat : ∀ c, pdats 0 c = Attn.attnDat (fun c b => Win c b) c)
    (hF : ∀ c w, (pdats 0 c).arrAt w (Pipeline.pin (pcfgs (F := F)) adm 0).N = Wout c (Pipeline.arrRef spec0 w))
    (hrest : ∀ c (b : Ref sig .tc), b ∉ Finset.univ.image (Pipeline.arrRef spec0) → Wout c b = Win c b) :
    Pipeline.RegionSeg (pcfgs (F := F)) adm pdats () defs₀ Variants.none Gates.noLevels Gates.noLevel 0 where
  win := (launch0 (F := F)).win.to₀
  block_pos := (launch0 (F := F)).block_pos
  stage_whole := (launch0 (F := F)).stage_whole
  K := PEmpty
  osem k := k.elim
  ho := Pipeline.OwnSemFacts.none _
  hbody c := by rw [hdat c]; exact (Attn.attn_body_obligation (fun c b => Win c b) c).loose
  hwaits := Pipeline.hwaits_of_owed_zero _ _ _ _ Gates.noLevels Gates.noLevel 0 fun c t => by rw [hdat c]; rfl
  pre c := iprop(StableHlo.held (c : Thread nD τ) (Pipeline.ucRefs τ sig) (Win c) ∗ Gates.gateRide c)
  post c := iprop(StableHlo.held (c : Thread nD τ) (Pipeline.ucRefs τ sig) (Wout c) ∗ Gates.gateRide c)
  X c := iprop(∃ r, prngReg c r)
  Y c := iprop(∃ r, prngReg c r)
  Z c := Pipeline.unscopedRest (Ix := Unit) (Name := ℕ) (U := UR sig nD τ) (Lvl := ℕ) spec0 c (fun b => Win c b)
  hentry c := by
    rw [Pipeline.ownSems0_none]
    have hsplit := Pipeline.arrays_of_unscopedBufs (p := 0) (pcfgs (F := F)) adm pdats (launch0 (F := F)).win (launch0 (F := F)).arr_whole c
      ((pdats 0 c).share_full fun w => by rw [hdat c]; rfl) (fun b => Win c b) fun w => by rw [hdat c]; rfl
    rw [Pipeline.unscopedBufs_held] at hsplit
    have howed : (pdats 0 c).owed 0 = 0 := by rw [hdat c]; rfl
    have hrec : (pdats 0 c).recorded 0 = Set.univ := by rw [hdat c]; rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hrec]; trivial)
      rw [howed]; iexact HO
    isplitl [Hp]; · iexact Hp
    iexact Hrest
  hin c := by
    rw [show (pdats 0 c).Φ 0 = Pipeline.ΦA spec0 c from by rw [hdat c]; rfl]; unfold Pipeline.ΦA
    iintro ⟨Hp, -, Hr⟩
    isplitl [Hr]; · iexact Hr
    iexact Hp
  hout c := by
    rw [Pipeline.ownSems0_none]
    have hlast : (pdats 0 c).Φ (Fin.last (Pipeline.pin (pcfgs (F := F)) adm 0).N) ⊢ (Pipeline.ΦA spec0 c : sProp 𝕄) := by
      have e : (Attn.attnDat (fun c b => Win c b) c).Φ (Fin.last cfg0.N) = Attn.inv (fun c b => Win c b) c cfg0.N le_rfl := rfl
      rw [hdat c]
      exact (Entails.of_eq e).trans (attn_inv_last (fun c b => Win c b) c cfg0.N le_rfl (by show grid0.N ≠ 0; rw [N_0]; decide))
    refine hlast.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c pdats ((pdats 0 c).share_full fun w => by rw [hdat c]; rfl)
      (fun b => Win c b) (fun b => Wout c b) ((pdats 0 c).arrAt · (Pipeline.pin (pcfgs (F := F)) adm 0).N) (hF c) (hrest c)
    rw [Pipeline.unscopedBufs_held] at hjoin
    have howed : (pdats 0 c).owed (Fin.last _) = 0 := by rw [hdat c]; rfl
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [howed]; iexact HO

end Cert.Kernel.Run

end
-- ==== Proof.KernelRunArgs.lean ====
/-
  No stretch of the program changes an argument array: a host stretch writes only its own results, the attention region
  reads the text vector and the two history arrays through input windows, the gate-row region the text vector and the
  two weight matrices, and a region's write-backs touch output arrays only. So the last boundary's contents at each of
  the ten arguments are the launch contents.
-/
import proofs.«146633_j61375082660584_2_alg».proof.Proof.KernelRunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel
open Cert.Kernel.Gen hiding V0 V1 V2 V3 V4 V5 V6 V7 segs seg0 seg2 seg3 seg4 seg6

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (by decide)
    _ = W5 m ρ c (Proc.devRef .tc main_arg0) := (W6_arr m ρ c 0).trans (((Gates.gateDat (T5 m ρ) (selAdm m ρ) c).arrAt_in 0 rfl _).trans (Gates.gateDat_A (T5 m ρ) (selAdm m ρ) c 0))
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := (W2_arr m ρ c 0).trans (((Attn.attnDat (T1 m ρ) c).arrAt_in 0 rfl _).trans (Attn.A_eq (T1 m ρ) c 0))
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := (W2_arr m ρ c 1).trans (((Attn.attnDat (T1 m ρ) c).arrAt_in 1 rfl _).trans (Attn.A_eq (T1 m ρ) c 1))
    _ = W0 m ρ c (Proc.devRef .tc main_arg2) := StableHlo.after_of_writes_sub hostOps0 _ hostOps0_writes (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1_2 _ hostOps1_2_writes (by decide)
    _ = W3 m ρ c (Proc.devRef .tc main_arg3) := StableHlo.after_of_writes_sub hostOps1_1 _ hostOps1_1_writes (by decide)
    _ = W2 m ρ c (Proc.devRef .tc main_arg3) := StableHlo.after_of_writes_sub hostOps1 _ hostOps1_writes (by decide)
    _ = W1 m ρ c (Proc.devRef .tc main_arg3) := (W2_arr m ρ c 2).trans (((Attn.attnDat (T1 m ρ) c).arrAt_in 2 rfl _).trans (Attn.A_eq (T1 m ρ) c 2))
    _ = W0 m ρ c (Proc.devRef .tc main_arg3) := StableHlo.after_of_writes_sub hostOps0 _ hostOps0_writes (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2 _ hostOps2_writes (by decide)
    _ = W5 m ρ c (Proc.devRef .tc main_arg4) := (W6_arr m ρ c 2).trans (((Gates.gateDat (T5 m ρ) (selAdm m ρ) c).arrAt_in 2 rfl _).trans (Gates.gateDat_A (T5 m ρ) (selAdm m ρ) c 2))
    _ = W4 m ρ c (Proc.devRef .tc main_arg4) := StableHlo.after_of_writes_sub hostOps1_2 _ hostOps1_2_writes (by decide)
    _ = W3 m ρ c (Proc.devRef .tc main_arg4) := StableHlo.after_of_writes_sub hostOps1_1 _ hostOps1_1_writes (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps2 _ hostOps2_writes (by decide)
    _ = W5 m ρ c (Proc.devRef .tc main_arg5) := (W6_arr m ρ c 3).trans (((Gates.gateDat (T5 m ρ) (selAdm m ρ) c).arrAt_in 3 rfl _).trans (Gates.gateDat_A (T5 m ρ) (selAdm m ρ) c 3))
    _ = W4 m ρ c (Proc.devRef .tc main_arg5) := StableHlo.after_of_writes_sub hostOps1_2 _ hostOps1_2_writes (by decide)
    _ = W3 m ρ c (Proc.devRef .tc main_arg5) := StableHlo.after_of_writes_sub hostOps1_1 _ hostOps1_1_writes (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps2 _ hostOps2_writes (by decide)
    _ = W5 m ρ c (Proc.devRef .tc main_arg6) := W6_of_ne m ρ c main_arg6 (by decide)
    _ = W4 m ρ c (Proc.devRef .tc main_arg6) := StableHlo.after_of_writes_sub hostOps1_2 _ hostOps1_2_writes (by decide)
    _ = W3 m ρ c (Proc.devRef .tc main_arg6) := StableHlo.after_of_writes_sub hostOps1_1 _ hostOps1_1_writes (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps2 _ hostOps2_writes (by decide)
    _ = W5 m ρ c (Proc.devRef .tc main_arg7) := W6_of_ne m ρ c main_arg7 (by decide)
    _ = W4 m ρ c (Proc.devRef .tc main_arg7) := StableHlo.after_of_writes_sub hostOps1_2 _ hostOps1_2_writes (by decide)
    _ = W3 m ρ c (Proc.devRef .tc main_arg7) := StableHlo.after_of_writes_sub hostOps1_1 _ hostOps1_1_writes (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps2 _ hostOps2_writes (by decide)
    _ = W5 m ρ c (Proc.devRef .tc main_arg8) := W6_of_ne m ρ c main_arg8 (by decide)
    _ = W4 m ρ c (Proc.devRef .tc main_arg8) := StableHlo.after_of_writes_sub hostOps1_2 _ hostOps1_2_writes (by decide)
    _ = W3 m ρ c (Proc.devRef .tc main_arg8) := StableHlo.after_of_writes_sub hostOps1_1 _ hostOps1_1_writes (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps2 _ hostOps2_writes (by decide)
    _ = W5 m ρ c (Proc.devRef .tc main_arg9) := W6_of_ne m ρ c main_arg9 (by decide)
    _ = W4 m ρ c (Proc.devRef .tc main_arg9) := StableHlo.after_of_writes_sub hostOps1_2 _ hostOps1_2_writes (by decide)
    _ = W3 m ρ c (Proc.devRef .tc main_arg9) := StableHlo.after_of_writes_sub hostOps1_1 _ hostOps1_1_writes (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

end Cert.Kernel.Run

end
-- ==== Proof.KernelRun.lean ====
/-
  The run of the whole program. The seven stretches are run in order from the launch memory: each host stretch over all
  the buffers that outlive a region, each region entered from the contents the stretch before it leaves and left at
  its arrays' final contents. Every weakly fair execution terminates, nothing faults, and at the end every such buffer
  holds the last boundary's contents — a definite function of the launch memory. Read at the ten argument arrays, which
  no stretch writes and no region changes (a region reads an argument through an input window, or does not touch it),
  those contents are the launch contents: the frame. Read at the two result buffers they are the last host stretch
  applied to what the gate-row region leaves.
-/
import proofs.«146633_j61375082660584_2_alg».proof.Proof.KernelRunFold
import proofs.«146633_j61375082660584_2_alg».proof.Proof.KernelRunAttnSeg
import proofs.«146633_j61375082660584_2_alg».proof.Proof.KernelRunArgs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel
open Cert.Kernel.Gen hiding V0 V1 V2 V3 V4 V5 V6 V7 segs seg0 seg2 seg3 seg4 seg6

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments, at the fold's contents -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The attention region, entered at `W1` and left at `W2`. -/
def reg0 : Pipeline.RegionSeg (pcfgs (F := F)) (adm m ρ) (pdats m ρ) () defs₀ Variants.none Gates.noLevels Gates.noLevel 0 :=
  attnSeg (adm m ρ) (pdats m ρ) (W1 m ρ) (W2 m ρ) (fun _ => rfl)
    (fun c w => (W2_arr m ρ c w).symm)
    (fun c b hb => W2_of_ne m ρ c b fun w e => hb (Finset.mem_image.mpr ⟨w, Finset.mem_univ _, e⟩))

/-- The gate-row region, entered at `W5` and left at `W6`, its selector table the entry contents' word. -/
def reg1 : Pipeline.RegionSeg (pcfgs (F := F)) (adm m ρ) (pdats m ρ) () defs₀ Variants.none Gates.noLevels Gates.noLevel 1 :=
  Gates.gateSeg (adm m ρ) (pdats m ρ) (W5 m ρ) (W6 m ρ) (fun _ => rfl)
    (fun c k => T5_pre m ρ c k)
    (fun c w => (W6_arr m ρ c w).symm)
    (fun c b hb => W6_of_ne m ρ c b fun w e => hb (Finset.mem_image.mpr ⟨w, Finset.mem_univ _, e⟩))

/-- A host stretch as a segment over all the unscoped buffers from the contents `W`, the generator register and the
    core's dues riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Gates.noLevels Gates.noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Gates.gateRide

/-- The program's seven stretches in order. -/
abbrev segs : List (Pipeline.Seg (pcfgs (F := F)) (adm m ρ) (pdats m ρ) () defs₀ Variants.none Gates.noLevels Gates.noLevel) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

/-! ## The launch -/

set_option backward.isDefEq.respectTransparency.types false in
/-- From any memory with zero counters, every weakly fair execution of the program terminates, nothing faulting, and
    every final state holds, at every buffer that outlives a region, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) (adm m ρ) (pdats m ρ) () (cellOf_inj (adm m ρ)) emb₁ defs₀ Variants.none Gates.noLevels Gates.noLevel m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Gates.gateRide c))
    (Tₙ := fun c => StableHlo.held (c : Thread nD τ) (Pipeline.ucRefs τ sig) (W7 m ρ c))
    (hch := ⟨fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach Gates.noLevels Gates.noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨Hh, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-! ## The frame, and the results -/

/-- The two results at the end: the last host stretch applied to what the gate-row region leaves. -/
theorem W7_v72 (c : Dev nD) : W7 m ρ c (Proc.devRef .tc main_v72) = StableHlo.after hostOps2 (W6 m ρ c) (Proc.devRef .tc main_v72) := rfl
theorem W7_v66 (c : Dev nD) : W7 m ρ c (Proc.devRef .tc main_v66) = StableHlo.after hostOps2 (W6 m ρ c) (Proc.devRef .tc main_v66) := rfl

/-- THE FRAME: every weakly fair execution terminates, nothing faulting, and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c)⟩) (run_all m ρ)

/-- The run with its two results named: the score and the new hidden state end at the last boundary's contents, the
    arguments as launched. -/
theorem run_values : θ_run defs (onTc (τ := τ) (main (F := F))) ⟨m, fun _ => 0, ρ⟩ (fun r => ∀ c : Dev nD,
      r.2.mem ((c.tc : Thread nD τ).loc main_v72) = W7 m ρ c (Proc.devRef .tc main_v72)
      ∧ r.2.mem ((c.tc : Thread nD τ).loc main_v66) = W7 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h c _ (mem_uc main_v72 (by decide)), h c _ (mem_uc main_v66 (by decide)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c)⟩) (run_all m ρ)

end Cert.Kernel.Run

end
-- ==== Proof.IdealAttnGrid.lean ====
/-
  The attention region: the grid's points and windows.

  The region runs over a 2 × 4 grid, point t = 4·h + k being tile k of half h of the 16384 history rows.  Three windows
  are read (the query row, a tile of 2048 key rows, the matching tile of 2048 value rows) and three are written (the
  accumulator, the running maximum and the running sum of a half, each broadcast over 8 sublanes), and the body keeps
  the running maximum m, the running sum l and the running accumulator acc in three scratch buffers from one tile
  to the next.  It resets them at the first tile of a half (k = 0) and writes them out at the last (k = 3); at the
  other points the three output windows are left as they were found.
-/
import proofs.«146633_j61375082660584_2_alg».proof.Proof.Gen.KernelIdeal.Launch
import proofs.«146633_j61375082660584_2_alg».proof.Proof.Gen.KernelIdeal.Skeleton
import proofs.«146633_j61375082660584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the array's block at every grid point, whether the pipeline fetched it there
    or the block index did not move since the last fetch. -/
theorem in0_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1's staging buffer holds the array's block at every grid point, whether the pipeline fetched it there
    or the block index did not move since the last fetch. -/
theorem in1_of {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2's staging buffer holds the array's block at every grid point, whether the pipeline fetched it there
    or the block index did not move since the last fetch. -/
theorem in2_of {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-! ## The two branches of the body, decided over the grid -/

/-- The body's first branch is taken at the first tile of a half: the second grid coordinate is 0. -/
abbrev firstTile (i : grid0.Coords) : Prop :=
  (Scalar.cmpi .ne (Scalar.extui (Scalar.cmpi .eq (BitVec.ofNat 32 (i 1).val) 0#32)) 0#32) = 1#1
theorem firstTile_iff : ∀ t : Fin cfg0.N, firstTile (grid0.coords t) ↔ t.val % 4 = 0 :=
  (by decide +kernel : ∀ t : Fin grid0.N, firstTile (grid0.coords t) ↔ t.val % 4 = 0)

/-- Its second branch is taken at the last tile of a half: the second grid coordinate is 3. -/
abbrev lastTile (i : grid0.Coords) : Prop := k0_cond2 i = 1#1
theorem lastTile_iff : ∀ t : Fin cfg0.N, lastTile (grid0.coords t) ↔ t.val % 4 = 3 :=
  (by decide +kernel : ∀ t : Fin grid0.N, lastTile (grid0.coords t) ↔ t.val % 4 = 3)

/-! ## The output windows are idle except at a half's last tile, where they are written back -/

theorem idle3 : ∀ t : Fin cfg0.N, ¬ lastTile (grid0.coords t) → cfg0.idle 3 (grid0.coords t) = true := by decide +kernel
theorem noFlush3 : ∀ t : Fin cfg0.N, ¬ lastTile (grid0.coords t) → (cfg0.win 3).flush t = false := by decide +kernel
theorem live3 : ∀ t : Fin cfg0.N, lastTile (grid0.coords t) → cfg0.idle 3 (grid0.coords t) = false := by decide +kernel
theorem idle4 : ∀ t : Fin cfg0.N, ¬ lastTile (grid0.coords t) → cfg0.idle 4 (grid0.coords t) = true := by decide +kernel
theorem noFlush4 : ∀ t : Fin cfg0.N, ¬ lastTile (grid0.coords t) → (cfg0.win 4).flush t = false := by decide +kernel
theorem live4 : ∀ t : Fin cfg0.N, lastTile (grid0.coords t) → cfg0.idle 4 (grid0.coords t) = false := by decide +kernel
theorem idle5 : ∀ t : Fin cfg0.N, ¬ lastTile (grid0.coords t) → cfg0.idle 5 (grid0.coords t) = true := by decide +kernel
theorem noFlush5 : ∀ t : Fin cfg0.N, ¬ lastTile (grid0.coords t) → (cfg0.win 5).flush t = false := by decide +kernel
theorem live5 : ∀ t : Fin cfg0.N, lastTile (grid0.coords t) → cfg0.idle 5 (grid0.coords t) = false := by decide +kernel

end Cert.KernelIdeal.Attn

end
-- ==== Proof.IdealAttnBody.lean ====
/-
  The attention region: what one call of the body does, by the tile's position in its half.

  With x0 the query row, x1 the tile's 2048 key rows, x2 its 2048 value rows and (m, l, acc) the running maximum, sum and
  accumulator the scratch buffers hold when the body starts, the body computes the tile's scores s = x0 · x1ᵀ, the new
  maximum m' = max(m, max s), the rescaling factor exp(m − m'), the weights p = exp(s − m'), and stores
      l' = exp(m − m') · l + Σ p,     acc' = exp(m − m') · acc + p · x2,     m'.
  At the first tile of a half it first overwrites (m, l, acc) with (−∞, 0, 0), so the new state does not depend on what
  the scratch held; at the last tile it then copies acc', m', l' (each broadcast over 8 sublanes) into the three output
  windows; at every other tile the output windows are not touched.  The new state is named by the program's own terms
  for these values (the payloads of its stores).
-/
import proofs.«146633_j61375082660584_2_alg».proof.Proof.Gen.KernelIdeal.Launch
import proofs.«146633_j61375082660584_2_alg».proof.Proof.Gen.KernelIdeal.Skeleton
import proofs.«146633_j61375082660584_2_alg».proof.Proof.Gen.KernelIdeal.Points
import proofs.«146633_j61375082660584_2_alg».proof.Proof.IdealAttnGrid
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := by funext a; fin_cases a <;> rfl

/-- The state a first tile leaves: the update from (−∞, 0, 0). -/
abbrev mFirst (x0 : Vec F S1x768 .f32) (x1 : Vec F S2048x768 .f32) : Vec F S1x1 .f32 := k0_pay2 (k0_pay10 x0 x1 k0_pay6)
abbrev lFirst (x0 : Vec F S1x768 .f32) (x1 : Vec F S2048x768 .f32) : Vec F S1x1 .f32 := k0_pay13 x0 x1 k0_pay6 k0_pay7
abbrev accFirst (x0 : Vec F S1x768 .f32) (x1 : Vec F S2048x768 .f32) (x2 : Vec F S2048x1024 .f32) : Vec F S1x1024 .f32 := k0_pay1 (k0_pay14 x0 x1 x2 k0_pay6 k0_pay8)
/-- The state a later tile leaves from the state (m, l, acc) it finds. -/
abbrev mNext (x0 : Vec F S1x768 .f32) (x1 : Vec F S2048x768 .f32) (m : Vec F S1x1 .f32) : Vec F S1x1 .f32 := k0_pay2 (k0_pay10 x0 x1 m)
abbrev lNext (x0 : Vec F S1x768 .f32) (x1 : Vec F S2048x768 .f32) (m l : Vec F S1x1 .f32) : Vec F S1x1 .f32 := k0_pay13 x0 x1 m l
abbrev accNext (x0 : Vec F S1x768 .f32) (x1 : Vec F S2048x768 .f32) (x2 : Vec F S2048x1024 .f32) (m : Vec F S1x1 .f32) (acc : Vec F S1x1024 .f32) : Vec F S1x1024 .f32 := k0_pay1 (k0_pay14 x0 x1 x2 m acc)

end Cert.KernelIdeal.Attn

end
-- ==== Proof.IdealAttnFirst.lean ====
/-
  The attention region's body at the first tile of a half: the running state is reset to (−∞, 0, 0) and updated by the tile.
-/
import proofs.«146633_j61375082660584_2_alg».proof.Proof.Gen.KernelIdeal.Launch
import proofs.«146633_j61375082660584_2_alg».proof.Proof.Gen.KernelIdeal.Skeleton
import proofs.«146633_j61375082660584_2_alg».proof.Proof.Gen.KernelIdeal.Points
import proofs.«146633_j61375082660584_2_alg».proof.Proof.IdealAttnBody
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- A first tile: the scratch is reset and updated; inputs and output windows are as they were. -/
theorem body_first (c : Dev nD) (E : Set ℕ) (i : grid0.Coords) (hfst : firstTile i) (hlst : ¬ lastTile i)
    (a0 : Memref sig .tc .vmem S1x768 .f32) (h0 : a0.IsWhole) (a1 : Memref sig .tc .vmem S2048x768 .f32) (h1 : a1.IsWhole) (a2 : Memref sig .tc .vmem S2048x1024 .f32) (h2 : a2.IsWhole) (a3 : Memref sig .tc .vmem S8x1024 .f32) (h3 : a3.IsWhole) (a4 : Memref sig .tc .vmem S8x128 .f32) (h4 : a4.IsWhole) (a5 : Memref sig .tc .vmem S8x128 .f32) (h5 : a5.IsWhole)
    (am : Memref sig .tc .vmem S1x1 .f32) (hm : am.IsWhole) (al : Memref sig .tc .vmem S1x1 .f32) (hl : al.IsWhole) (aa : Memref sig .tc .vmem S1x1024 .f32) (ha : aa.IsWhole)
    (x0 : Vec F S1x768 .f32) (x1 : Vec F S2048x768 .f32) (x2 : Vec F S2048x1024 .f32)
    (y3 : Vec F S8x1024 .f32) (y4 y5 : Vec F S8x128 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare y3 ∗ owns (c : Thread nD τ) a4 fullShare y4 ∗ owns (c : Thread nD τ) a5 fullShare y5
        ∗ (∃ d, owns (c : Thread nD τ) am fullShare d) ∗ (∃ d, owns (c : Thread nD τ) al fullShare d) ∗ (∃ d, owns (c : Thread nD τ) aa fullShare d)
        ∗ (iprop(owns (c : Thread nD τ) a0 fullShare x0 ∗ owns (c : Thread nD τ) a1 fullShare x1 ∗ owns (c : Thread nD τ) a2 fullShare x2
            ∗ owns (c : Thread nD τ) a3 fullShare y3 ∗ owns (c : Thread nD τ) a4 fullShare y4 ∗ owns (c : Thread nD τ) a5 fullShare y5
            ∗ owns (c : Thread nD τ) am fullShare (mFirst x0 x1) ∗ owns (c : Thread nD τ) al fullShare (lFirst x0 x1) ∗ owns (c : Thread nD τ) aa fullShare (accFirst x0 x1 x2)) -∗ K ⟨⟩))
      ⊢ wp frame (wpE (defs₀ (F := F)) Variants.none c none) E (cc0__attn_kernel i a0 h0 a1 h1 a2 h2 a3 h3 a4 h4 a5 h5 am hm al hl aa ha) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dm, %fm, -, Hm⟩, ⟨%dl, %fl, -, Hl⟩, ⟨%da, %fa, -, Ha⟩, Hk⟩
  subst hf0 hf1 hf2 hf3 hf4 hf5
  sl_exec (disch := first | exact hfst | exact hlst)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [Hm]
  · iexists _; isplitr
    swap; · iexact Hm
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  isplitl [Hl]
  · iexists _; isplitr
    swap; · iexact Hl
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  iexists _; isplitr
  swap; · iexact Ha
  ipureintro
  (try sl_unfold_run_names)
  refine Eq.trans (View.read_writes_eq_canon _ _ _ ?_) ?_
  · intro y
    refine ⟨_, List.mem_cons_self, ?_⟩
    refine View.mem_set_unit_zero hz2 ?_ y
    all_goals (intro a; fin_cases a <;> decide)
  rw [View.canon_cons_unit_zero hz2]
  (try sl_unfold_run_names)
  simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
  try rfl

end Cert.KernelIdeal.Attn

end
-- ==== Proof.IdealAttnMid.lean ====
/-
  The attention region's body at a middle tile of a half: the running state is updated by the tile.
-/
import proofs.«146633_j61375082660584_2_alg».proof.Proof.Gen.KernelIdeal.Launch
import proofs.«146633_j61375082660584_2_alg».proof.Proof.Gen.KernelIdeal.Skeleton
import proofs.«146633_j61375082660584_2_alg».proof.Proof.Gen.KernelIdeal.Points
import proofs.«146633_j61375082660584_2_alg».proof.Proof.IdealAttnBody
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- A middle tile: the scratch is updated from what it held; inputs and output windows are as they were. -/
theorem body_mid (c : Dev nD) (E : Set ℕ) (i : grid0.Coords) (hfst : ¬ firstTile i) (hlst : ¬ lastTile i)
    (a0 : Memref sig .tc .vmem S1x768 .f32) (h0 : a0.IsWhole) (a1 : Memref sig .tc .vmem S2048x768 .f32) (h1 : a1.IsWhole) (a2 : Memref sig .tc .vmem S2048x1024 .f32) (h2 : a2.IsWhole) (a3 : Memref sig .tc .vmem S8x1024 .f32) (h3 : a3.IsWhole) (a4 : Memref sig .tc .vmem S8x128 .f32) (h4 : a4.IsWhole) (a5 : Memref sig .tc .vmem S8x128 .f32) (h5 : a5.IsWhole)
    (am : Memref sig .tc .vmem S1x1 .f32) (hm : am.IsWhole) (al : Memref sig .tc .vmem S1x1 .f32) (hl : al.IsWhole) (aa : Memref sig .tc .vmem S1x1024 .f32) (ha : aa.IsWhole)
    (x0 : Vec F S1x768 .f32) (x1 : Vec F S2048x768 .f32) (x2 : Vec F S2048x1024 .f32)
    (y3 : Vec F S8x1024 .f32) (y4 y5 : Vec F S8x128 .f32) (sm sl : Vec F S1x1 .f32) (sa : Vec F S1x1024 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare y3 ∗ owns (c : Thread nD τ) a4 fullShare y4 ∗ owns (c : Thread nD τ) a5 fullShare y5
        ∗ owns (c : Thread nD τ) am fullShare sm ∗ owns (c : Thread nD τ) al fullShare sl ∗ owns (c : Thread nD τ) aa fullShare sa
        ∗ (iprop(owns (c : Thread nD τ) a0 fullShare x0 ∗ owns (c : Thread nD τ) a1 fullShare x1 ∗ owns (c : Thread nD τ) a2 fullShare x2
            ∗ owns (c : Thread nD τ) a3 fullShare y3 ∗ owns (c : Thread nD τ) a4 fullShare y4 ∗ owns (c : Thread nD τ) a5 fullShare y5
            ∗ owns (c : Thread nD τ) am fullShare (mNext x0 x1 sm) ∗ owns (c : Thread nD τ) al fullShare (lNext x0 x1 sm sl) ∗ owns (c : Thread nD τ) aa fullShare (accNext x0 x1 x2 sm sa)) -∗ K ⟨⟩))
      ⊢ wp frame (wpE (defs₀ (F := F)) Variants.none c none) E (cc0__attn_kernel i a0 h0 a1 h1 a2 h2 a3 h3 a4 h4 a5 h5 am hm al hl aa ha) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fm, %hfm, Hm⟩, ⟨%fl, %hfl, Hl⟩, ⟨%fa, %hfa, Ha⟩, Hk⟩
  subst hf0 hf1 hf2 hf3 hf4 hf5 hfm hfl hfa
  sl_exec (disch := first | exact hfst | exact hlst)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [Hm]
  · iexists _; isplitr
    swap; · iexact Hm
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  isplitl [Hl]
  · iexists _; isplitr
    swap; · iexact Hl
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  iexists _; isplitr
  swap; · iexact Ha
  ipureintro
  (try sl_unfold_run_names)
  refine Eq.trans (View.read_writes_eq_canon _ _ _ ?_) ?_
  · intro y
    refine ⟨_, List.mem_cons_self, ?_⟩
    refine View.mem_set_unit_zero hz2 ?_ y
    all_goals (intro a; fin_cases a <;> decide)
  rw [View.canon_cons_unit_zero hz2]
  (try sl_unfold_run_names)
  simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
  try rfl

end Cert.KernelIdeal.Attn

end
-- ==== Proof.IdealAttnLast.lean ====
/-
  The attention region's body at the last tile of a half: the running state is updated by the tile and copied, broadcast over 8 sublanes, into the three output windows.
-/
import proofs.«146633_j61375082660584_2_alg».proof.Proof.Gen.KernelIdeal.Launch
import proofs.«146633_j61375082660584_2_alg».proof.Proof.Gen.KernelIdeal.Skeleton
import proofs.«146633_j61375082660584_2_alg».proof.Proof.Gen.KernelIdeal.Points
import proofs.«146633_j61375082660584_2_alg».proof.Proof.IdealAttnBody
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- A last tile: the scratch is updated from what it held, and the new accumulator, maximum and sum are copied, each
    broadcast over 8 sublanes, into the three output windows, whatever those held. -/
theorem body_last (c : Dev nD) (E : Set ℕ) (i : grid0.Coords) (hfst : ¬ firstTile i) (hlst : lastTile i)
    (a0 : Memref sig .tc .vmem S1x768 .f32) (h0 : a0.IsWhole) (a1 : Memref sig .tc .vmem S2048x768 .f32) (h1 : a1.IsWhole) (a2 : Memref sig .tc .vmem S2048x1024 .f32) (h2 : a2.IsWhole) (a3 : Memref sig .tc .vmem S8x1024 .f32) (h3 : a3.IsWhole) (a4 : Memref sig .tc .vmem S8x128 .f32) (h4 : a4.IsWhole) (a5 : Memref sig .tc .vmem S8x128 .f32) (h5 : a5.IsWhole)
    (am : Memref sig .tc .vmem S1x1 .f32) (hm : am.IsWhole) (al : Memref sig .tc .vmem S1x1 .f32) (hl : al.IsWhole) (aa : Memref sig .tc .vmem S1x1024 .f32) (ha : aa.IsWhole)
    (x0 : Vec F S1x768 .f32) (x1 : Vec F S2048x768 .f32) (x2 : Vec F S2048x1024 .f32)
    (sm sl : Vec F S1x1 .f32) (sa : Vec F S1x1024 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ (∃ d, owns (c : Thread nD τ) a4 fullShare d) ∗ (∃ d, owns (c : Thread nD τ) a5 fullShare d)
        ∗ owns (c : Thread nD τ) am fullShare sm ∗ owns (c : Thread nD τ) al fullShare sl ∗ owns (c : Thread nD τ) aa fullShare sa
        ∗ (iprop(owns (c : Thread nD τ) a0 fullShare x0 ∗ owns (c : Thread nD τ) a1 fullShare x1 ∗ owns (c : Thread nD τ) a2 fullShare x2
            ∗ owns (c : Thread nD τ) a3 fullShare (k0_pay3 (accNext x0 x1 x2 sm sa)) ∗ owns (c : Thread nD τ) a4 fullShare (k0_pay4 (mNext x0 x1 sm)) ∗ owns (c : Thread nD τ) a5 fullShare (k0_pay5 (lNext x0 x1 sm sl))
            ∗ owns (c : Thread nD τ) am fullShare (mNext x0 x1 sm) ∗ owns (c : Thread nD τ) al fullShare (lNext x0 x1 sm sl) ∗ owns (c : Thread nD τ) aa fullShare (accNext x0 x1 x2 sm sa)) -∗ K ⟨⟩))
      ⊢ wp frame (wpE (defs₀ (F := F)) Variants.none c none) E (cc0__attn_kernel i a0 h0 a1 h1 a2 h2 a3 h3 a4 h4 a5 h5 am hm al hl aa ha) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fm, %hfm, Hm⟩, ⟨%fl, %hfl, Hl⟩, ⟨%fa, %hfa, Ha⟩, Hk⟩
  subst hf0 hf1 hf2 hfm hfl hfa
  sl_exec (disch := first | exact hfst | exact hlst)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    swap; · iexact H3
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  isplitl [H4]
  · iexists _; isplitr
    swap; · iexact H4
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  isplitl [H5]
  · iexists _; isplitr
    swap; · iexact H5
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  isplitl [Hm]
  · iexists _; isplitr
    swap; · iexact Hm
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  isplitl [Hl]
  · iexists _; isplitr
    swap; · iexact Hl
    ipureintro
    (try sl_unfold_run_names)
    refine Eq.trans (View.read_writes_eq_canon _ _ _ ?_) ?_
    · intro y
      refine ⟨_, List.mem_cons_self, ?_⟩
      refine View.mem_set_unit_zero hz2 ?_ y
      all_goals (intro a; fin_cases a <;> decide)
    rw [View.canon_cons_unit_zero hz2]
    (try sl_unfold_run_names)
    simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
    try rfl
  iexists _; isplitr
  swap; · iexact Ha
  ipureintro
  (try sl_unfold_run_names)
  refine Eq.trans (View.read_writes_eq_canon _ _ _ ?_) ?_
  · intro y
    refine ⟨_, List.mem_cons_self, ?_⟩
    refine View.mem_set_unit_zero hz2 ?_ y
    all_goals (intro a; fin_cases a <;> decide)
  rw [View.canon_cons_unit_zero hz2]
  (try sl_unfold_run_names)
  simp only [View.readAt_eq_ld, View.ld_unit_zero (S := S1x768) hz2, View.ld_unit_zero (S := S2048x768) hz2, View.ld_unit_zero (S := S2048x1024) hz2, View.ld_unit_zero (S := S1x1) hz2, View.ld_unit_zero (S := S1x1024) hz2, View.ld_unit_zero (S := S8x1024) hz2, View.ld_unit_zero (S := S8x128) hz2, View.readCov_unit_zero (S := S1x1) _ hz2, View.readCov_unit_zero (S := S1x1024) _ hz2]
  try rfl

end Cert.KernelIdeal.Attn

end
-- ==== Proof.IdealAttnData.lean ====
/-
  The attention region: the running state at every grid point, and the region's proof data.

  The state (m, l, acc) the scratch buffers hold after the body at grid point n is defined by recursion on n: at the
  first tile of a half (n ≡ 0 mod 4) it is the update of (−∞, 0, 0) by that tile, otherwise the update by tile n of the
  state after point n − 1.  After the last tile of half h (n = 4h + 3) the three output windows hold acc, m and l
  broadcast over 8 sublanes, and the pipeline writes them to rows 8h … 8h + 7 of the three result arrays.
  The region's invariant is: before the first point every scratch buffer holds anything; before point n + 1 the three
  scratch buffers hold the state after point n; the other region's staging buffers and the random-number register are
  carried along untouched.
-/
import proofs.«146633_j61375082660584_2_alg».proof.Proof.Gen.KernelIdeal.Launch
import proofs.«146633_j61375082660584_2_alg».proof.Proof.Gen.KernelIdeal.Skeleton
import proofs.«146633_j61375082660584_2_alg».proof.Proof.Gen.KernelIdeal.Points
import proofs.«146633_j61375082660584_2_alg».proof.Proof.IdealAttnFirst
import proofs.«146633_j61375082660584_2_alg».proof.Proof.IdealAttnMid
import proofs.«146633_j61375082660584_2_alg».proof.Proof.IdealAttnLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running state -/

/-- The running maximum, sum and accumulator after the body at grid point `n`. -/
def stateAfter (c : Dev nD) : (n : ℕ) → n < cfg0.N → Vec F S1x1 .f32 × Vec F S1x1 .f32 × Vec F S1x1024 .f32
  | 0, hn => (mFirst (tile V c 0 ⟨0, hn⟩) (tile V c 1 ⟨0, hn⟩), lFirst (tile V c 0 ⟨0, hn⟩) (tile V c 1 ⟨0, hn⟩), accFirst (tile V c 0 ⟨0, hn⟩) (tile V c 1 ⟨0, hn⟩) (tile V c 2 ⟨0, hn⟩))
  | n + 1, hn =>
    if (n + 1) % 4 = 0 then
      (mFirst (tile V c 0 ⟨n + 1, hn⟩) (tile V c 1 ⟨n + 1, hn⟩), lFirst (tile V c 0 ⟨n + 1, hn⟩) (tile V c 1 ⟨n + 1, hn⟩), accFirst (tile V c 0 ⟨n + 1, hn⟩) (tile V c 1 ⟨n + 1, hn⟩) (tile V c 2 ⟨n + 1, hn⟩))
    else
      (mNext (tile V c 0 ⟨n + 1, hn⟩) (tile V c 1 ⟨n + 1, hn⟩) (stateAfter c n (Nat.lt_of_succ_lt hn)).1,
       lNext (tile V c 0 ⟨n + 1, hn⟩) (tile V c 1 ⟨n + 1, hn⟩) (stateAfter c n (Nat.lt_of_succ_lt hn)).1 (stateAfter c n (Nat.lt_of_succ_lt hn)).2.1,
       accNext (tile V c 0 ⟨n + 1, hn⟩) (tile V c 1 ⟨n + 1, hn⟩) (tile V c 2 ⟨n + 1, hn⟩) (stateAfter c n (Nat.lt_of_succ_lt hn)).1 (stateAfter c n (Nat.lt_of_succ_lt hn)).2.2)

/-- At the first tile of a half the state is the update of (−∞, 0, 0). -/
theorem stateAfter_first (c : Dev nD) (t : Fin cfg0.N) (h : t.val % 4 = 0) :
    stateAfter V c t.val t.isLt = (mFirst (tile V c 0 t) (tile V c 1 t), lFirst (tile V c 0 t) (tile V c 1 t), accFirst (tile V c 0 t) (tile V c 1 t) (tile V c 2 t)) := by
  obtain ⟨n, hn⟩ := t
  cases n with
  | zero => rfl
  | succ n => exact if_pos h

/-- At a later tile it is the update of the state after the point before. -/
theorem stateAfter_next (c : Dev nD) (t : Fin cfg0.N) (h : ¬ t.val % 4 = 0) :
    stateAfter V c t.val t.isLt
      = (mNext (tile V c 0 t) (tile V c 1 t) (stateAfter V c (t.val - 1) (Nat.lt_of_le_of_lt (Nat.sub_le _ _) t.isLt)).1,
         lNext (tile V c 0 t) (tile V c 1 t) (stateAfter V c (t.val - 1) (Nat.lt_of_le_of_lt (Nat.sub_le _ _) t.isLt)).1 (stateAfter V c (t.val - 1) (Nat.lt_of_le_of_lt (Nat.sub_le _ _) t.isLt)).2.1,
         accNext (tile V c 0 t) (tile V c 1 t) (tile V c 2 t) (stateAfter V c (t.val - 1) (Nat.lt_of_le_of_lt (Nat.sub_le _ _) t.isLt)).1 (stateAfter V c (t.val - 1) (Nat.lt_of_le_of_lt (Nat.sub_le _ _) t.isLt)).2.2) := by
  obtain ⟨n, hn⟩ := t
  cases n with
  | zero => exact absurd (Nat.zero_mod _) h
  | succ n => exact if_neg h

/-! ## The scratch buffers and the invariant -/

/-- The three scratch buffers, as whole memrefs: the running maximum, the running sum, the running accumulator. -/
abbrev maxRef : Memref sig .tc .vmem S1x1 .f32 := Memref.whole cc0_scratch0
abbrev sumRef : Memref sig .tc .vmem S1x1 .f32 := Memref.whole cc0_scratch1
abbrev accRef : Memref sig .tc .vmem S1x1024 .f32 := Memref.whole cc0_scratch2

/-- The other region's staging buffers, each whole at some contents: this region never touches them. -/
abbrev otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- Before any point: every scratch buffer at anything. -/
theorem entryInv_eq (c : Dev nD) :
    (Pipeline.ΦA spec0 c : sProp 𝕄)
      = iprop(iprop((∃ d, owns (c : Thread nD τ) maxRef fullShare d) ∗ (∃ d, owns (c : Thread nD τ) sumRef fullShare d)
          ∗ (∃ d, owns (c : Thread nD τ) accRef fullShare d) ∗ otherStaging c) ∗ (∃ r, prngReg c r)) := by
  unfold Pipeline.ΦA; rw [scopedRest0_eq]; simp only [maxRef, sumRef, accRef, owns_whole]; try rfl

/-- The invariant before position `n`. -/
def inv (c : Dev nD) : (n : ℕ) → n ≤ cfg0.N → sProp 𝕄
  | 0, _ => Pipeline.ΦA spec0 c
  | n + 1, hn => iprop(iprop(owns (c : Thread nD τ) maxRef fullShare (stateAfter V c n hn).1 ∗ owns (c : Thread nD τ) sumRef fullShare (stateAfter V c n hn).2.1
      ∗ owns (c : Thread nD τ) accRef fullShare (stateAfter V c n hn).2.2 ∗ otherStaging c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(iprop(owns (c : Thread nD τ) maxRef fullShare (stateAfter V c n hn).1 ∗ owns (c : Thread nD τ) sumRef fullShare (stateAfter V c n hn).2.1
      ∗ owns (c : Thread nD τ) accRef fullShare (stateAfter V c n hn).2.2 ∗ otherStaging c) ∗ (∃ r, prngReg c r)) := rfl
theorem inv_pos (c : Dev nD) (n : ℕ) (h : n ≤ cfg0.N) (hz : n ≠ 0) :
    inv V c n h = iprop(iprop(owns (c : Thread nD τ) maxRef fullShare (stateAfter V c (n - 1) (by omega)).1 ∗ owns (c : Thread nD τ) sumRef fullShare (stateAfter V c (n - 1) (by omega)).2.1
      ∗ owns (c : Thread nD τ) accRef fullShare (stateAfter V c (n - 1) (by omega)).2.2 ∗ otherStaging c) ∗ (∃ r, prngReg c r)) := by
  cases n with
  | zero => exact absurd rfl hz
  | succ n => rfl

/-! ## The proof data -/

/-- The region's proof data on core `c`: the arrays as the region finds them; after the body each input's staging
    buffer holds its block, and the three outputs' hold the accumulator, the maximum and the sum after that point, each
    broadcast over 8 sublanes (read only where the body stored them: at a half's last tile); the invariant above;
    nothing owed; full shares. -/
def attnDat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => k0_pay3 (stateAfter V c t.val t.isLt).2.2
    | ⟨4, _⟩ => k0_pay4 (stateAfter V c t.val t.isLt).1
    | ⟨5, _⟩ => k0_pay5 (stateAfter V c t.val t.isLt).2.1
  Φ t := inv V c t.val (Nat.le_of_lt_succ t.isLt)
  q _ := fullShare
  owed _ := 0

theorem A_eq (c : Dev nD) (w : Fin cfg0.W) : (attnDat V c).A w = V c (Pipeline.arrRef spec0 w) := by
  dsimp only [attnDat]
theorem inv_castSucc (c : Dev nD) (t : Fin cfg0.N) : (attnDat V c).Φ t.castSucc = inv V c t.val (Nat.le_of_lt t.isLt) := by
  dsimp only [attnDat]; simp only [Fin.coe_castSucc]
theorem after_0 (c : Dev nD) (t : Fin cfg0.N) : (attnDat V c).after 0 t = tile V c 0 t := by dsimp only [attnDat]
theorem after_1 (c : Dev nD) (t : Fin cfg0.N) : (attnDat V c).after 1 t = tile V c 1 t := by dsimp only [attnDat]
theorem after_2 (c : Dev nD) (t : Fin cfg0.N) : (attnDat V c).after 2 t = tile V c 2 t := by dsimp only [attnDat]
theorem after_3 (c : Dev nD) (t : Fin cfg0.N) : (attnDat V c).after 3 t = k0_pay3 (stateAfter V c t.val t.isLt).2.2 := by dsimp only [attnDat]
theorem after_4 (c : Dev nD) (t : Fin cfg0.N) : (attnDat V c).after 4 t = k0_pay4 (stateAfter V c t.val t.isLt).1 := by dsimp only [attnDat]
theorem after_5 (c : Dev nD) (t : Fin cfg0.N) : (attnDat V c).after 5 t = k0_pay5 (stateAfter V c t.val t.isLt).2.1 := by dsimp only [attnDat]
theorem before_0 (c : Dev nD) (t : Fin cfg0.N) (d) : (attnDat V c).before 0 t d = tile V c 0 t := in0_of V (attnDat V c) (A_eq V c 0) (after_0 V c) t d
theorem before_1 (c : Dev nD) (t : Fin cfg0.N) (d) : (attnDat V c).before 1 t d = tile V c 1 t := in1_of V (attnDat V c) (A_eq V c 1) (after_1 V c) t d
theorem before_2 (c : Dev nD) (t : Fin cfg0.N) (d) : (attnDat V c).before 2 t d = tile V c 2 t := in2_of V (attnDat V c) (A_eq V c 2) (after_2 V c) t d

end Cert.KernelIdeal.Attn

end
-- ==== Proof.IdealAttnOblig.lean ====
/-
  The attention region: the body meets its obligation at every grid point.

  At point t the pipeline hands the body the three input windows at their blocks, the three output windows at whatever
  they hold, and the invariant before t.  By the tile's position in its half (first, middle, last) the body leaves the
  invariant before t + 1: the scratch at the state after t.  An output window is handed back as it was found except at
  a half's last tile, where it holds the broadcast state that the pipeline then writes back.
-/
import proofs.«146633_j61375082660584_2_alg».proof.Proof.Gen.KernelIdeal.Launch
import proofs.«146633_j61375082660584_2_alg».proof.Proof.Gen.KernelIdeal.Skeleton
import proofs.«146633_j61375082660584_2_alg».proof.Proof.Gen.KernelIdeal.Points
import proofs.«146633_j61375082660584_2_alg».proof.Proof.IdealAttnData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`: the invariant, what the core owes (nothing), each window's buffer. -/
def bodyPre (c : Dev nD) (t : Fin cfg0.N) : sProp 𝕄 :=
  iprop((attnDat V c).Φ t.castSucc ∗ (attnDat V c).owesAt () t.castSucc
    ∗ (∃ d, owns (c : Thread nD τ) (st0_0 t) fullShare ((attnDat V c).before 0 t d))
    ∗ (∃ d, owns (c : Thread nD τ) (st0_1 t) fullShare ((attnDat V c).before 1 t d))
    ∗ (∃ d, owns (c : Thread nD τ) (st0_2 t) fullShare ((attnDat V c).before 2 t d))
    ∗ (∃ d, owns (c : Thread nD τ) (st0_3 t) fullShare ((attnDat V c).before 3 t d))
    ∗ (∃ d, owns (c : Thread nD τ) (st0_4 t) fullShare ((attnDat V c).before 4 t d))
    ∗ (∃ d, owns (c : Thread nD τ) (st0_5 t) fullShare ((attnDat V c).before 5 t d)))

/-- What it returns. -/
def bodyPost (c : Dev nD) (t : Fin cfg0.N) : sProp 𝕄 :=
  iprop((attnDat V c).Φ t.succ ∗ (attnDat V c).owesAt () t.succ
    ∗ (attnDat V c).leavesExact 0 t ∗ (attnDat V c).leavesExact 1 t ∗ (attnDat V c).leavesExact 2 t ∗ (attnDat V c).leavesExact 3 t ∗ (attnDat V c).leavesExact 4 t ∗ (attnDat V c).leavesExact 5 t)

set_option maxHeartbeats 4000000 in
theorem body_sound (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (attnDat V c).owesAt () t.succ = (attnDat V c).owesAt () t.castSucc from rfl]
  rw [show (attnDat V c).Φ t.succ = inv V c (t.val + 1) t.isLt from rfl, inv_succ, inv_castSucc]
  rw [show (attnDat V c).leavesExact 0 t = owns (c : Thread nD τ) (st0_0 t) fullShare ((attnDat V c).after 0 t) from by
    unfold Dat.leavesExact; rw [show cfg0.idle 0 (grid0.coords t) = false from rfl], after_0]
  rw [show (attnDat V c).leavesExact 1 t = owns (c : Thread nD τ) (st0_1 t) fullShare ((attnDat V c).after 1 t) from by
    unfold Dat.leavesExact; rw [show cfg0.idle 1 (grid0.coords t) = false from rfl], after_1]
  rw [show (attnDat V c).leavesExact 2 t = owns (c : Thread nD τ) (st0_2 t) fullShare ((attnDat V c).after 2 t) from by
    unfold Dat.leavesExact; rw [show cfg0.idle 2 (grid0.coords t) = false from rfl], after_2]
  have hN : t.val < 8 := lt_of_lt_of_eq t.isLt (show cfg0.N = 8 from N_0)
  by_cases h0 : t.val % 4 = 0
  · -- the first tile of a half
    have hf : firstTile (grid0.coords t) := (firstTile_iff t).mpr h0
    have hl : ¬ lastTile (grid0.coords t) := fun h => by have := (lastTile_iff t).mp h; omega
    rw [Dat.leavesExact_idle (attnDat V c) 3 t (idle3 t hl) (noFlush3 t hl)]
    rw [Dat.leavesExact_idle (attnDat V c) 4 t (idle4 t hl) (noFlush4 t hl)]
    rw [Dat.leavesExact_idle (attnDat V c) 5 t (idle5 t hl) (noFlush5 t hl)]
    rw [stateAfter_first V c t h0]; dsimp only
    by_cases hz : t.val = 0
    · rw [inv_zero V c _ _ hz, entryInv_eq]
      iintro ⟨⟨⟨Hm, Hl, Ha, Hrest⟩, Hg⟩, Ho, ⟨%d0, H0⟩, ⟨%d1, H1⟩, ⟨%d2, H2⟩, ⟨%d3, H3⟩, ⟨%d4, H4⟩, ⟨%d5, H5⟩⟩
      iapply (body_first c Set.univ (grid0.coords t) hf hl _ _ _ _ _ _ _ _ _ _ _ _ _ _ _ _ _ _ (tile V c 0 t) (tile V c 1 t) (tile V c 2 t) _ _ _ _)
      isplitl [H0]; · iexact H0
      isplitl [H1]; · iexact H1
      isplitl [H2]; · iexact H2
      isplitl [H3]; · iexact H3
      isplitl [H4]; · iexact H4
      isplitl [H5]; · iexact H5
      isplitl [Hm]; · iexact Hm
      isplitl [Hl]; · iexact Hl
      isplitl [Ha]; · iexact Ha
      iintro ⟨H0, H1, H2, H3, H4, H5, Hm, Hl, Ha⟩
      isplitl [Hm Hl Ha Hrest Hg]
      · isplitr [Hg]
        · isplitl [Hm]; · iexact Hm
          isplitl [Hl]; · iexact Hl
          isplitl [Ha]; · iexact Ha
          iexact Hrest
        · iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · rw [inv_pos V c _ _ hz]
      iintro ⟨⟨⟨Hm, Hl, Ha, Hrest⟩, Hg⟩, Ho, ⟨%d0, H0⟩, ⟨%d1, H1⟩, ⟨%d2, H2⟩, ⟨%d3, H3⟩, ⟨%d4, H4⟩, ⟨%d5, H5⟩⟩
      iapply (body_first c Set.univ (grid0.coords t) hf hl _ _ _ _ _ _ _ _ _ _ _ _ _ _ _ _ _ _ (tile V c 0 t) (tile V c 1 t) (tile V c 2 t) _ _ _ _)
      isplitl [H0]; · iexact H0
      isplitl [H1]; · iexact H1
      isplitl [H2]; · iexact H2
      isplitl [H3]; · iexact H3
      isplitl [H4]; · iexact H4
      isplitl [H5]; · iexact H5
      isplitl [Hm]; · iexists _; iexact Hm
      isplitl [Hl]; · iexists _; iexact Hl
      isplitl [Ha]; · iexists _; iexact Ha
      iintro ⟨H0, H1, H2, H3, H4, H5, Hm, Hl, Ha⟩
      isplitl [Hm Hl Ha Hrest Hg]
      · isplitr [Hg]
        · isplitl [Hm]; · iexact Hm
          isplitl [Hl]; · iexact Hl
          isplitl [Ha]; · iexact Ha
          iexact Hrest
        · iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
  · have hf : ¬ firstTile (grid0.coords t) := fun h => h0 ((firstTile_iff t).mp h)
    have hz : t.val ≠ 0 := fun h => h0 (by rw [h])
    rw [stateAfter_next V c t h0, inv_pos V c _ _ hz]; dsimp only
    by_cases h3 : t.val % 4 = 3
    · -- the last tile of a half
      have hl : lastTile (grid0.coords t) := (lastTile_iff t).mpr h3
      rw [show (attnDat V c).leavesExact 3 t = owns (c : Thread nD τ) (st0_3 t) fullShare ((attnDat V c).after 3 t) from by
        unfold Dat.leavesExact; rw [live3 t hl], after_3]
      rw [show (attnDat V c).leavesExact 4 t = owns (c : Thread nD τ) (st0_4 t) fullShare ((attnDat V c).after 4 t) from by
        unfold Dat.leavesExact; rw [live4 t hl], after_4]
      rw [show (attnDat V c).leavesExact 5 t = owns (c : Thread nD τ) (st0_5 t) fullShare ((attnDat V c).after 5 t) from by
        unfold Dat.leavesExact; rw [live5 t hl], after_5]
      rw [stateAfter_next V c t h0]; dsimp only
      iintro ⟨⟨⟨Hm, Hl, Ha, Hrest⟩, Hg⟩, Ho, ⟨%d0, H0⟩, ⟨%d1, H1⟩, ⟨%d2, H2⟩, ⟨%d3, H3⟩, ⟨%d4, H4⟩, ⟨%d5, H5⟩⟩
      iapply (body_last c Set.univ (grid0.coords t) hf hl _ _ _ _ _ _ _ _ _ _ _ _ _ _ _ _ _ _ (tile V c 0 t) (tile V c 1 t) (tile V c 2 t) _ _ _ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [Hm]; · iexact Hm
      isplitl [Hl]; · iexact Hl
      isplitl [Ha]; · iexact Ha
      iintro ⟨H0, H1, H2, H3, H4, H5, Hm, Hl, Ha⟩
      isplitl [Hm Hl Ha Hrest Hg]
      · isplitr [Hg]
        · isplitl [Hm]; · iexact Hm
          isplitl [Hl]; · iexact Hl
          isplitl [Ha]; · iexact Ha
          iexact Hrest
        · iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle tile
      have hl : ¬ lastTile (grid0.coords t) := fun h => h3 ((lastTile_iff t).mp h)
      rw [Dat.leavesExact_idle (attnDat V c) 3 t (idle3 t hl) (noFlush3 t hl)]
      rw [Dat.leavesExact_idle (attnDat V c) 4 t (idle4 t hl) (noFlush4 t hl)]
      rw [Dat.leavesExact_idle (attnDat V c) 5 t (idle5 t hl) (noFlush5 t hl)]
      iintro ⟨⟨⟨Hm, Hl, Ha, Hrest⟩, Hg⟩, Ho, ⟨%d0, H0⟩, ⟨%d1, H1⟩, ⟨%d2, H2⟩, ⟨%d3, H3⟩, ⟨%d4, H4⟩, ⟨%d5, H5⟩⟩
      iapply (body_mid c Set.univ (grid0.coords t) hf hl _ _ _ _ _ _ _ _ _ _ _ _ _ _ _ _ _ _ (tile V c 0 t) (tile V c 1 t) (tile V c 2 t) _ _ _ _ _ _ _)
      isplitl [H0]; · iexact H0
      isplitl [H1]; · iexact H1
      isplitl [H2]; · iexact H2
      isplitl [H3]; · iexact H3
      isplitl [H4]; · iexact H4
      isplitl [H5]; · iexact H5
      isplitl [Hm]; · iexact Hm
      isplitl [Hl]; · iexact Hl
      isplitl [Ha]; · iexact Ha
      iintro ⟨H0, H1, H2, H3, H4, H5, Hm, Hl, Ha⟩
      isplitl [Hm Hl Ha Hrest Hg]
      · isplitr [Hg]
        · isplitl [Hm]; · iexact Hm
          isplitl [Hl]; · iexact Hl
          isplitl [Ha]; · iexact Ha
          iexact Hrest
        · iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The region's body obligation, at every point. -/
theorem attn_body_obligation (c : Dev nD) : BodyObligation (attnDat (F := F) V c) (defs₀ (F := F)) Variants.none () Set.univ := fun t => by
  rw [bigSep_W0, bigSep_W0]
  exact body_sound V c t

end Cert.KernelIdeal.Attn

end
-- ==== Proof.IdealGates.lean ====
/-
  The gate-row region of the kernel: its second pallas_call, a grid of three blocks of 1024 gate rows (reset, update,
  candidate). At block `g` the body takes the text vector `x` (1 × 768), the last hidden state `h` (1 × 1024), the
  1024 × 768 block of the input-side weights whose rows are the gate rows `g` and whose columns are the half the
  prefetched selector word picks, the 1024 × 1024 block of the hidden-side weights at the same rows, and the two bias
  blocks, and leaves in its two output windows the rows `x · Wᵀ + b` and `h · Uᵀ + c`, each repeated over 8 sublanes.

  This module is that region's half of the program's frame: each window's block at a grid point as a function of the
  buffer contents `V` the region is entered with; what the body leaves in the two output buffers as a closed function of
  the input blocks; the body's triple; the pipeline's proof data; and the body obligation at every grid point. The
  selector word is a parameter throughout (`a`, the table's admissible contents): nothing here evaluates it. The body
  never loads the selector; the table's buffer rides through the invariant untouched, held whole.
-/
import proofs.«146633_j61375082660584_2_alg».proof.Proof.Gen.KernelIdeal.Launch
import proofs.«146633_j61375082660584_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 8 × 1024 entries: the structural check recurses once per coordinate of the long axis
set_option maxRecDepth 16384

noncomputable section

namespace Cert.KernelIdeal.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the contents of every buffer of a core when the region is entered, and the selector table's admissible contents
variable (V : (c : Dev nD) → (b : Ref sig .tc) → Buf (Elt F) ((c : Thread nD τ).loc b))
variable (a : (pcfg1 (F := F)).Adm)

/-! ## The windows' blocks -/

/-- Window `w`'s block at grid point `t`, read off its array as the region finds it (`V`). For the input-side weights
    (window 2) the block's column half is the selector word's, a function of `a`. -/
def gateBlk (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- Input window 0 — the text vector (one block, fetched once) — is found in its current staging buffer at every grid point, whether the
    pipeline fetched it there or not, by any proof data whose array is `V`'s and whose body leaves the block in place:
    where it is not fetched the block index has not moved since the previous point. -/
theorem gate_before_0_of {c : Dev nD} (dat : Dat τ (Elt F) Unit ℕ (UR sig nD τ) ℕ (cfg1 a) c) (hA : dat.A 0 = V c (Pipeline.arrRef spec1 0))
    (hafter : ∀ t, dat.after 0 t = gateBlk V a c 0 t) (t : Fin (cfg1 a).N) (d) : dat.before 0 t d = gateBlk V a c 0 t :=
  (dat.before_in_eq_fetched 0 rfl (fun _ => rfl) (fun _ _ _ => rfl) (fun t => by rw [hafter]; unfold Dat.blockOf gateBlk; rw [hA]; try rfl) t d).trans
    (by unfold Dat.fetched Dat.blockOf gateBlk; rw [hA]; try rfl)
/-- Input window 1 — the last hidden state (one block, fetched once) — is found in its current staging buffer at every grid point, whether the
    pipeline fetched it there or not, by any proof data whose array is `V`'s and whose body leaves the block in place:
    where it is not fetched the block index has not moved since the previous point. -/
theorem gate_before_1_of {c : Dev nD} (dat : Dat τ (Elt F) Unit ℕ (UR sig nD τ) ℕ (cfg1 a) c) (hA : dat.A 1 = V c (Pipeline.arrRef spec1 1))
    (hafter : ∀ t, dat.after 1 t = gateBlk V a c 1 t) (t : Fin (cfg1 a).N) (d) : dat.before 1 t d = gateBlk V a c 1 t :=
  (dat.before_in_eq_fetched 1 rfl (fun _ => rfl) (fun _ _ _ => rfl) (fun t => by rw [hafter]; unfold Dat.blockOf gateBlk; rw [hA]; try rfl) t d).trans
    (by unfold Dat.fetched Dat.blockOf gateBlk; rw [hA]; try rfl)
/-- Input window 2 — the input-side weights: at block `g` the 1024 gate rows `g`, and of their 1536 columns the 768 the selector word picks — is found in its current staging buffer at every grid point, whether the
    pipeline fetched it there or not, by any proof data whose array is `V`'s and whose body leaves the block in place:
    where it is not fetched the block index has not moved since the previous point. -/
theorem gate_before_2_of {c : Dev nD} (dat : Dat τ (Elt F) Unit ℕ (UR sig nD τ) ℕ (cfg1 a) c) (hA : dat.A 2 = V c (Pipeline.arrRef spec1 2))
    (hafter : ∀ t, dat.after 2 t = gateBlk V a c 2 t) (t : Fin (cfg1 a).N) (d) : dat.before 2 t d = gateBlk V a c 2 t :=
  (dat.before_in_eq_fetched 2 rfl (fun _ => rfl) (fun _ _ _ => rfl) (fun t => by rw [hafter]; unfold Dat.blockOf gateBlk; rw [hA]; try rfl) t d).trans
    (by unfold Dat.fetched Dat.blockOf gateBlk; rw [hA]; try rfl)
/-- Input window 3 — the hidden-side weights: at block `g` the 1024 gate rows `g` — is found in its current staging buffer at every grid point, whether the
    pipeline fetched it there or not, by any proof data whose array is `V`'s and whose body leaves the block in place:
    where it is not fetched the block index has not moved since the previous point. -/
theorem gate_before_3_of {c : Dev nD} (dat : Dat τ (Elt F) Unit ℕ (UR sig nD τ) ℕ (cfg1 a) c) (hA : dat.A 3 = V c (Pipeline.arrRef spec1 3))
    (hafter : ∀ t, dat.after 3 t = gateBlk V a c 3 t) (t : Fin (cfg1 a).N) (d) : dat.before 3 t d = gateBlk V a c 3 t :=
  (dat.before_in_eq_fetched 3 rfl (fun _ => rfl) (fun _ _ _ => rfl) (fun t => by rw [hafter]; unfold Dat.blockOf gateBlk; rw [hA]; try rfl) t d).trans
    (by unfold Dat.fetched Dat.blockOf gateBlk; rw [hA]; try rfl)
/-- Input window 4 — the input-side bias: at block `g` its 1024 entries `g` — is found in its current staging buffer at every grid point, whether the
    pipeline fetched it there or not, by any proof data whose array is `V`'s and whose body leaves the block in place:
    where it is not fetched the block index has not moved since the previous point. -/
theorem gate_before_4_of {c : Dev nD} (dat : Dat τ (Elt F) Unit ℕ (UR sig nD τ) ℕ (cfg1 a) c) (hA : dat.A 4 = V c (Pipeline.arrRef spec1 4))
    (hafter : ∀ t, dat.after 4 t = gateBlk V a c 4 t) (t : Fin (cfg1 a).N) (d) : dat.before 4 t d = gateBlk V a c 4 t :=
  (dat.before_in_eq_fetched 4 rfl (fun _ => rfl) (fun _ _ _ => rfl) (fun t => by rw [hafter]; unfold Dat.blockOf gateBlk; rw [hA]; try rfl) t d).trans
    (by unfold Dat.fetched Dat.blockOf gateBlk; rw [hA]; try rfl)
/-- Input window 5 — the hidden-side bias: at block `g` its 1024 entries `g` — is found in its current staging buffer at every grid point, whether the
    pipeline fetched it there or not, by any proof data whose array is `V`'s and whose body leaves the block in place:
    where it is not fetched the block index has not moved since the previous point. -/
theorem gate_before_5_of {c : Dev nD} (dat : Dat τ (Elt F) Unit ℕ (UR sig nD τ) ℕ (cfg1 a) c) (hA : dat.A 5 = V c (Pipeline.arrRef spec1 5))
    (hafter : ∀ t, dat.after 5 t = gateBlk V a c 5 t) (t : Fin (cfg1 a).N) (d) : dat.before 5 t d = gateBlk V a c 5 t :=
  (dat.before_in_eq_fetched 5 rfl (fun _ => rfl) (fun _ _ _ => rfl) (fun t => by rw [hafter]; unfold Dat.blockOf gateBlk; rw [hA]; try rfl) t d).trans
    (by unfold Dat.fetched Dat.blockOf gateBlk; rw [hA]; try rfl)
/-! ## The body's accesses: every load and store is of a whole staging buffer -/

abbrev rText : Rect S1x768 := Rect.unit (s := S1x768) ![0, 0] S1x768.size inb_S1x768_S1x768_0_0
abbrev rRow : Rect S1x1024 := Rect.unit (s := S1x1024) ![0, 0] S1x1024.size inb_S1x1024_S1x1024_0_0
abbrev rWin : Rect S1024x768 := Rect.unit (s := S1024x768) ![0, 0] S1024x768.size inb_S1024x768_S1024x768_0_0
abbrev rWhid : Rect S1024x1024 := Rect.unit (s := S1024x1024) ![0, 0] S1024x1024.size inb_S1024x1024_S1024x1024_0_0
abbrev rOut : Rect S8x1024 := Rect.unit (s := S8x1024) ![0, 0] S8x1024.size inb_S8x1024_S8x1024_0_0

/-! ## What the body leaves in the two output buffers -/

/-- The input-side gate rows: what the body leaves in output window 6's staging buffer, from the text vector `x`, the
    selected weight block `w` and the bias block `b` — its one store, of the whole buffer, of `x · wᵀ + b` repeated over
    the 8 sublanes (the skeleton's payload of that store). -/
def giRows (x : Vec F S1x768 .f32) (w : Vec F S1024x768 .f32) (b : Vec F S1x1024 .f32) : Vec F S8x1024 .f32 :=
  View.canon [⟨rOut, k1_pay1 (View.ld x rText) (View.ld w rWin) (View.ld b rRow)⟩]

/-- The hidden-side gate rows: what the body leaves in output window 7's staging buffer, from the last hidden state `h`,
    the weight block `u` and the bias block `b` — its one store, of the whole buffer, of `h · uᵀ + b` repeated over the 8
    sublanes. -/
def ghRows (h : Vec F S1x1024 .f32) (u : Vec F S1024x1024 .f32) (b : Vec F S1x1024 .f32) : Vec F S8x1024 .f32 :=
  View.canon [⟨rOut, k1_pay2 (View.ld h rRow) (View.ld u rWhid) (View.ld b rRow)⟩]

/-- One store of the whole 8 × 1024 buffer covers it. -/
theorem gateRows_cover (p : Vec F S8x1024 .f32) (y : S8x1024.Idx) :
    ∃ pc ∈ ([⟨rOut, p⟩] : List (View.Piece (Elt F) S8x1024 .f32)), y ∈ pc.1.set :=
  View.cover_of_tiled [⟨rOut, p⟩] S8x1024.size (by rfl) y

/-! ## The body's triple -/

set_option maxHeartbeats 1000000 in
/-- The body on whole staging memrefs — the six inputs' at read contents, the two outputs' at anything — runs to the
    continuation holding the inputs' as they were and the outputs' at `giRows` and `ghRows` of the inputs. It loads each
    output buffer once before storing it (the loaded values are never used) and never touches the selector's memref
    `arg1`, of which nothing is asked. -/
theorem gate_kernel_sound (c : Dev nD) (E : Set ℕ) (i : grid1.Coords) (arg1 : Memref sig .tc .smem S1 .i32) (harg1 : arg1.IsWhole)
    (arg2 : Memref sig .tc .vmem S1x768 .f32) (harg2 : arg2.IsWhole) (arg3 : Memref sig .tc .vmem S1x1024 .f32) (harg3 : arg3.IsWhole)
    (arg4 : Memref sig .tc .vmem S1024x768 .f32) (harg4 : arg4.IsWhole) (arg5 : Memref sig .tc .vmem S1024x1024 .f32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S8x1024 .f32) (harg8 : arg8.IsWhole) (arg9 : Memref sig .tc .vmem S8x1024 .f32) (harg9 : arg9.IsWhole)
    (x : Vec F S1x768 .f32) (h : Vec F S1x1024 .f32) (w : Vec F S1024x768 .f32) (u : Vec F S1024x1024 .f32)
    (bi bh : Vec F S1x1024 .f32) (K : PUnit → sProp 𝕄) :
    iprop(owns (c : Thread nD τ) arg2 fullShare x ∗ owns (c : Thread nD τ) arg3 fullShare h ∗ owns (c : Thread nD τ) arg4 fullShare w
        ∗ owns (c : Thread nD τ) arg5 fullShare u ∗ owns (c : Thread nD τ) arg6 fullShare bi ∗ owns (c : Thread nD τ) arg7 fullShare bh
        ∗ (∃ d, owns (c : Thread nD τ) arg8 fullShare d) ∗ (∃ d, owns (c : Thread nD τ) arg9 fullShare d)
        ∗ (iprop(owns (c : Thread nD τ) arg2 fullShare x ∗ owns (c : Thread nD τ) arg3 fullShare h ∗ owns (c : Thread nD τ) arg4 fullShare w
            ∗ owns (c : Thread nD τ) arg5 fullShare u ∗ owns (c : Thread nD τ) arg6 fullShare bi ∗ owns (c : Thread nD τ) arg7 fullShare bh
            ∗ owns (c : Thread nD τ) arg8 fullShare (giRows x w bi) ∗ owns (c : Thread nD τ) arg9 fullShare (ghRows h u bh)) -∗ K ⟨⟩))
      ⊢ wp frame (wpE (defs₀ (F := F)) Variants.none c none) E
          (cc1__gru_gate_kernel i arg1 harg1 arg2 harg2 arg3 harg3 arg4 harg4 arg5 harg5 arg6 harg6 arg7 harg7 arg8 harg8 arg9 harg9) K := by
  simp only [cc1__gru_gate_kernel_eq_skeleton]; unfold cc1__gru_gate_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf2 hf3 hf4 hf5 hf6 hf7
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (gateRows_cover _)
  iexists _; isplitr
  swap; · iexact H9
  ipureintro
  exact View.read_writes_eq_canon _ _ _ (gateRows_cover _)

/-! ## The pipeline's proof data -/

/-- The selector table on core `c`, its buffer held whole at the contents `a.1`: how the table rides through the region's
    invariant. The body never reads it; the pipeline's index map of the input-side weights does, through `a`. -/
abbrev gateTable (c : Dev nD) : sProp 𝕄 :=
  Pipeline.prefHeld (Ix := Unit) (Name := ℕ) (U := UR sig nD τ) (Lvl := ℕ) pre1 c (fun _ => fullShare) a.1

/-- The proof data of the gate-row pipeline on core `c`: the arrays as the region finds them (`V`); after the body at
    block `t` each input's staging buffer at its block, the two outputs' at the input-side and hidden-side gate rows of
    the input blocks; the invariant: the scoped buffers the region does not stage and the generator register, at
    anything, and the selector table held whole at `a.1`; nothing owed; full shares. -/
def gateDat (c : Dev nD) : Dat τ (Elt F) Unit ℕ (UR sig nD τ) ℕ (cfg1 a) c where
  A w := V c (Pipeline.arrRef spec1 w)
  after w t := match w with
    | ⟨0, _⟩ => gateBlk V a c 0 t
    | ⟨1, _⟩ => gateBlk V a c 1 t
    | ⟨2, _⟩ => gateBlk V a c 2 t
    | ⟨3, _⟩ => gateBlk V a c 3 t
    | ⟨4, _⟩ => gateBlk V a c 4 t
    | ⟨5, _⟩ => gateBlk V a c 5 t
    | ⟨6, _⟩ => giRows (gateBlk V a c 0 t) (gateBlk V a c 2 t) (gateBlk V a c 4 t)
    | ⟨7, _⟩ => ghRows (gateBlk V a c 1 t) (gateBlk V a c 3 t) (gateBlk V a c 5 t)
  Φ _ := iprop(Pipeline.ΦA spec1 c ∗ gateTable a c)
  q _ := fullShare
  owed _ := 0

/-- The proof data's arrays are the region-entry contents. -/
theorem gateDat_A (c : Dev nD) (w : Fin (cfg1 a).W) : (gateDat V a c).A w = V c (Pipeline.arrRef spec1 w) := by
  dsimp only [gateDat]

/-- The invariant is the same at every point. -/
theorem gateDat_Φ (c : Dev nD) (t : Fin ((cfg1 a).N + 1)) : (gateDat V a c).Φ t = iprop(Pipeline.ΦA spec1 c ∗ gateTable a c) := rfl

/-- What the body leaves, window by window. -/
theorem gateDat_after_0 (c : Dev nD) (t : Fin (cfg1 a).N) : (gateDat V a c).after 0 t = gateBlk V a c 0 t := by dsimp only [gateDat]; try rfl
theorem gateDat_after_1 (c : Dev nD) (t : Fin (cfg1 a).N) : (gateDat V a c).after 1 t = gateBlk V a c 1 t := by dsimp only [gateDat]; try rfl
theorem gateDat_after_2 (c : Dev nD) (t : Fin (cfg1 a).N) : (gateDat V a c).after 2 t = gateBlk V a c 2 t := by dsimp only [gateDat]; try rfl
theorem gateDat_after_3 (c : Dev nD) (t : Fin (cfg1 a).N) : (gateDat V a c).after 3 t = gateBlk V a c 3 t := by dsimp only [gateDat]; try rfl
theorem gateDat_after_4 (c : Dev nD) (t : Fin (cfg1 a).N) : (gateDat V a c).after 4 t = gateBlk V a c 4 t := by dsimp only [gateDat]; try rfl
theorem gateDat_after_5 (c : Dev nD) (t : Fin (cfg1 a).N) : (gateDat V a c).after 5 t = gateBlk V a c 5 t := by dsimp only [gateDat]; try rfl
theorem gateDat_after_6 (c : Dev nD) (t : Fin (cfg1 a).N) :
    (gateDat V a c).after 6 t = giRows (gateBlk V a c 0 t) (gateBlk V a c 2 t) (gateBlk V a c 4 t) := by dsimp only [gateDat]; try rfl
theorem gateDat_after_7 (c : Dev nD) (t : Fin (cfg1 a).N) :
    (gateDat V a c).after 7 t = ghRows (gateBlk V a c 1 t) (gateBlk V a c 3 t) (gateBlk V a c 5 t) := by dsimp only [gateDat]; try rfl

/-- Each input's current staging buffer holds its block at every grid point, fetched there or not: the text vector and
    the hidden state are fetched once, the weight and bias blocks at every point; the weight block the selector picks
    has a block index that reads the table, at the parameter `a`. -/
theorem gateDat_before_0 (c : Dev nD) (t : Fin (cfg1 a).N) (d) : (gateDat V a c).before 0 t d = gateBlk V a c 0 t :=
  gate_before_0_of V a (gateDat V a c) (gateDat_A V a c 0) (gateDat_after_0 V a c) t d
theorem gateDat_before_1 (c : Dev nD) (t : Fin (cfg1 a).N) (d) : (gateDat V a c).before 1 t d = gateBlk V a c 1 t :=
  gate_before_1_of V a (gateDat V a c) (gateDat_A V a c 1) (gateDat_after_1 V a c) t d
theorem gateDat_before_2 (c : Dev nD) (t : Fin (cfg1 a).N) (d) : (gateDat V a c).before 2 t d = gateBlk V a c 2 t :=
  gate_before_2_of V a (gateDat V a c) (gateDat_A V a c 2) (gateDat_after_2 V a c) t d
theorem gateDat_before_3 (c : Dev nD) (t : Fin (cfg1 a).N) (d) : (gateDat V a c).before 3 t d = gateBlk V a c 3 t :=
  gate_before_3_of V a (gateDat V a c) (gateDat_A V a c 3) (gateDat_after_3 V a c) t d
theorem gateDat_before_4 (c : Dev nD) (t : Fin (cfg1 a).N) (d) : (gateDat V a c).before 4 t d = gateBlk V a c 4 t :=
  gate_before_4_of V a (gateDat V a c) (gateDat_A V a c 4) (gateDat_after_4 V a c) t d
theorem gateDat_before_5 (c : Dev nD) (t : Fin (cfg1 a).N) (d) : (gateDat V a c).before 5 t d = gateBlk V a c 5 t :=
  gate_before_5_of V a (gateDat V a c) (gateDat_A V a c 5) (gateDat_after_5 V a c) t d

/-! ## The body obligation, at a generic grid point -/

/-- Each window's current staging memref at point `t`, as the pipeline passes it to the body. -/
abbrev gateSt0 (t : Fin (cfg1 a).N) : Memref sig .tc .vmem S1x768 .f32 := spec1_0.stage ((cfg1 a).slots t 0)
abbrev gateSt1 (t : Fin (cfg1 a).N) : Memref sig .tc .vmem S1x1024 .f32 := spec1_1.stage ((cfg1 a).slots t 1)
abbrev gateSt2 (t : Fin (cfg1 a).N) : Memref sig .tc .vmem S1024x768 .f32 := spec1_2.stage ((cfg1 a).slots t 2)
abbrev gateSt3 (t : Fin (cfg1 a).N) : Memref sig .tc .vmem S1024x1024 .f32 := spec1_3.stage ((cfg1 a).slots t 3)
abbrev gateSt4 (t : Fin (cfg1 a).N) : Memref sig .tc .vmem S1x1024 .f32 := spec1_4.stage ((cfg1 a).slots t 4)
abbrev gateSt5 (t : Fin (cfg1 a).N) : Memref sig .tc .vmem S1x1024 .f32 := spec1_5.stage ((cfg1 a).slots t 5)
abbrev gateSt6 (t : Fin (cfg1 a).N) : Memref sig .tc .vmem S8x1024 .f32 := spec1_6.stage ((cfg1 a).slots t 6)
abbrev gateSt7 (t : Fin (cfg1 a).N) : Memref sig .tc .vmem S8x1024 .f32 := spec1_7.stage ((cfg1 a).slots t 7)

/-- The body at grid point `t`, on what the pipeline calls it with: the selector's whole buffer as its first memref, then
    each window's current staging buffer. -/
abbrev gateBodyAt (t : Fin (cfg1 a).N) : Prog (TpuEff nD τ sig (Elt F) Λ₀ .tc) PUnit :=
  cc1__gru_gate_kernel (grid1.coords t) (Memref.whole main_v33) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6)) (spec1_7.stage ((cfg1 a).slots t 7)) (hstage1_7 (((cfg1 a).slots t 7).cast nbuf1_7))

/-- What the body is called with at point `t` (the windows one by one), -/
def gateBodyPre (c : Dev nD) (t : Fin (cfg1 a).N) : sProp 𝕄 :=
  iprop((gateDat V a c).Φ t.castSucc ∗ (gateDat V a c).owesAt () t.castSucc
    ∗ (∃ d, owns (c : Thread nD τ) (gateSt0 a t) fullShare ((gateDat V a c).before 0 t d))
    ∗ (∃ d, owns (c : Thread nD τ) (gateSt1 a t) fullShare ((gateDat V a c).before 1 t d))
    ∗ (∃ d, owns (c : Thread nD τ) (gateSt2 a t) fullShare ((gateDat V a c).before 2 t d))
    ∗ (∃ d, owns (c : Thread nD τ) (gateSt3 a t) fullShare ((gateDat V a c).before 3 t d))
    ∗ (∃ d, owns (c : Thread nD τ) (gateSt4 a t) fullShare ((gateDat V a c).before 4 t d))
    ∗ (∃ d, owns (c : Thread nD τ) (gateSt5 a t) fullShare ((gateDat V a c).before 5 t d))
    ∗ (∃ d, owns (c : Thread nD τ) (gateSt6 a t) fullShare ((gateDat V a c).before 6 t d))
    ∗ (∃ d, owns (c : Thread nD τ) (gateSt7 a t) fullShare ((gateDat V a c).before 7 t d)))

/-- and what it returns. -/
def gateBodyPost (c : Dev nD) (t : Fin (cfg1 a).N) : sProp 𝕄 :=
  iprop((gateDat V a c).Φ t.succ ∗ (gateDat V a c).owesAt () t.succ
    ∗ owns (c : Thread nD τ) (gateSt0 a t) fullShare ((gateDat V a c).after 0 t)
    ∗ owns (c : Thread nD τ) (gateSt1 a t) fullShare ((gateDat V a c).after 1 t)
    ∗ owns (c : Thread nD τ) (gateSt2 a t) fullShare ((gateDat V a c).after 2 t)
    ∗ owns (c : Thread nD τ) (gateSt3 a t) fullShare ((gateDat V a c).after 3 t)
    ∗ owns (c : Thread nD τ) (gateSt4 a t) fullShare ((gateDat V a c).after 4 t)
    ∗ owns (c : Thread nD τ) (gateSt5 a t) fullShare ((gateDat V a c).after 5 t)
    ∗ owns (c : Thread nD τ) (gateSt6 a t) fullShare ((gateDat V a c).after 6 t)
    ∗ owns (c : Thread nD τ) (gateSt7 a t) fullShare ((gateDat V a c).after 7 t))

/-- The body at any grid point: the inputs' staging buffers hold their blocks, so the body's triple applies; the
    invariant — the selector table in it — and the core's dues pass through unread. -/
theorem gate_body_sound (c : Dev nD) (t : Fin (cfg1 a).N) :
    gateBodyPre V a c t ⊢ wp frame (wpE (defs₀ (F := F)) Variants.none c none) Set.univ (gateBodyAt a t) (fun _ => gateBodyPost V a c t) := by
  unfold gateBodyPre gateBodyPost gateBodyAt
  simp only [gateDat_before_0, gateDat_before_1, gateDat_before_2, gateDat_before_3, gateDat_before_4, gateDat_before_5]
  rw [show (gateDat V a c).Φ t.succ = (gateDat V a c).Φ t.castSucc from rfl,
    show (gateDat V a c).owesAt () t.succ = (gateDat V a c).owesAt () t.castSucc from rfl,
    gateDat_after_0, gateDat_after_1, gateDat_after_2, gateDat_after_3, gateDat_after_4, gateDat_after_5, gateDat_after_6, gateDat_after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (gate_kernel_sound c Set.univ _ _ _ _ _ _ _ _ _ _ _ _ _ _ _ _ _ _ _ (gateBlk V a c 0 t) (gateBlk V a c 1 t) (gateBlk V a c 2 t)
    (gateBlk V a c 3 t) (gateBlk V a c 4 t) (gateBlk V a c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every grid point. -/
theorem gate_body_obligation (c : Dev nD) : BodyObligation (gateDat (F := F) V a c) (defs₀ (F := F)) Variants.none () Set.univ := fun t => by
  rw [bigSep_W1, bigSep_W1]
  exact gate_body_sound V a c t

end Cert.KernelIdeal.Gates

end
-- ==== Proof.IdealGatesSeg.lean ====
/-
  The gate-row region as a segment of the whole program's run: the region is entered holding every buffer of the core
  that outlives a region, at an entry valuation, and leaves them at an exit valuation that differs from it only at the
  two output arrays. At entry the region's eight arrays and the selector table are taken out of those buffers; the
  table is held whole through the region's invariant and comes back with it; at exit the arrays, the table and the
  untouched rest are put together again. The selector table's contents are the entry valuation's at the table's buffer.
-/
import proofs.«146633_j61375082660584_2_alg».proof.Proof.IdealGates

set_option maxRecDepth 16384

noncomputable section

namespace Cert.KernelIdeal.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What rides beside the buffers through the region: the core's generator register at some state (the invariant
    takes it in and gives it back) and its dues, at nothing. -/
abbrev gateRide (c : Dev nD) : sProp 𝕄 :=
  iprop((∃ r, prngReg c r) ∗ ∃ W, owes (c : Thread nD τ) (0 : CellTallies nD τ sig Unit) W)

/-- No core owes another anything: no level is assigned. -/
abbrev noLevels : GSem nD τ sig → Finset Unit := fun _ => ∅
abbrev noLevel : GSem nD τ sig → Unit → ℕ := fun _ _ => 0

variable (adm : (p : Fin 2) → (pcfgs (F := F) p).Adm)
  (pdats : (p : Fin 2) → (c : Dev nD) → Dat τ (Elt F) Unit ℕ (UR sig nD τ) ℕ (Pipeline.pin (pcfgs (F := F)) adm p) c)
  (Win Wout : Dev nD → Valuation τ sig (Elt F))

/-! ## The exit valuation: the entry valuation but at the two output arrays -/

section Exit

/-- The six input arrays are not the two output arrays. -/
theorem gate_in_ne_out : ∀ w : Fin 8, w.val < 6 → Pipeline.arrRef spec1 w ≠ main_v36_0 ∧ Pipeline.arrRef spec1 w ≠ main_v36_1 := by decide

variable (V : (c : Dev nD) → (b : Ref sig .tc) → Buf (Elt F) ((c : Thread nD τ).loc b)) (a : (pcfg1 (F := F)).Adm)

/-- A valuation that holds at the two output arrays what the region's write-backs leave there, and elsewhere what the
    region was entered with, holds at EVERY array of the region what the pipeline leaves: an input array is never
    written. -/
theorem gate_exit_arrays (c : Dev nD) (Vout : (b : Ref sig .tc) → Buf (Elt F) ((c : Thread nD τ).loc b))
    (h6 : Vout main_v36_0 = (gateDat V a c).arrAt 6 (cfg1 a).N) (h7 : Vout main_v36_1 = (gateDat V a c).arrAt 7 (cfg1 a).N)
    (hoff : ∀ b : Ref sig .tc, b ≠ main_v36_0 → b ≠ main_v36_1 → Vout b = V c b) :
    ∀ w : Fin (cfg1 a).W, (gateDat V a c).arrAt w (cfg1 a).N = Vout (Pipeline.arrRef spec1 w)
  | ⟨0, _⟩ => ((gateDat V a c).arrAt_in 0 rfl _).trans ((gateDat_A V a c 0).trans (hoff _ (gate_in_ne_out 0 (by decide)).1 (gate_in_ne_out 0 (by decide)).2).symm)
  | ⟨1, _⟩ => ((gateDat V a c).arrAt_in 1 rfl _).trans ((gateDat_A V a c 1).trans (hoff _ (gate_in_ne_out 1 (by decide)).1 (gate_in_ne_out 1 (by decide)).2).symm)
  | ⟨2, _⟩ => ((gateDat V a c).arrAt_in 2 rfl _).trans ((gateDat_A V a c 2).trans (hoff _ (gate_in_ne_out 2 (by decide)).1 (gate_in_ne_out 2 (by decide)).2).symm)
  | ⟨3, _⟩ => ((gateDat V a c).arrAt_in 3 rfl _).trans ((gateDat_A V a c 3).trans (hoff _ (gate_in_ne_out 3 (by decide)).1 (gate_in_ne_out 3 (by decide)).2).symm)
  | ⟨4, _⟩ => ((gateDat V a c).arrAt_in 4 rfl _).trans ((gateDat_A V a c 4).trans (hoff _ (gate_in_ne_out 4 (by decide)).1 (gate_in_ne_out 4 (by decide)).2).symm)
  | ⟨5, _⟩ => ((gateDat V a c).arrAt_in 5 rfl _).trans ((gateDat_A V a c 5).trans (hoff _ (gate_in_ne_out 5 (by decide)).1 (gate_in_ne_out 5 (by decide)).2).symm)
  | ⟨6, _⟩ => h6.symm
  | ⟨7, _⟩ => h7.symm

/-- Such a valuation agrees with the entry contents off the region's arrays. -/
theorem gate_exit_rest (c : Dev nD) (Vout : (b : Ref sig .tc) → Buf (Elt F) ((c : Thread nD τ).loc b))
    (hoff : ∀ b : Ref sig .tc, b ≠ main_v36_0 → b ≠ main_v36_1 → Vout b = V c b) :
    ∀ b : Ref sig .tc, b ∉ Finset.univ.image (Pipeline.arrRef spec1) → Vout b = V c b := fun b hb =>
  hoff b (fun e => hb (Finset.mem_image.mpr ⟨6, Finset.mem_univ _, e.symm⟩)) (fun e => hb (Finset.mem_image.mpr ⟨7, Finset.mem_univ _, e.symm⟩))

end Exit

set_option backward.isDefEq.respectTransparency.types false in
/-- The gate-row region over the thread state: entered from every unscoped buffer at `Win`, left at `Wout`. -/
def gateSeg
    (hdat : ∀ c, pdats 1 c = gateDat (fun c b => Win c b) (adm 1) c)
    (hpf : ∀ c k, Win c (pre1.ref k) = (adm 1).1 k)
    (hF : ∀ c w, (pdats 1 c).arrAt w (Pipeline.pin (pcfgs (F := F)) adm 1).N = Wout c (Pipeline.arrRef spec1 w))
    (hrest : ∀ c (b : Ref sig .tc), b ∉ Finset.univ.image (Pipeline.arrRef spec1) → Wout c b = Win c b) :
    Pipeline.RegionSeg (pcfgs (F := F)) adm pdats () defs₀ Variants.none noLevels noLevel 1 where
  win := (launch1 (F := F)).win.to₀
  block_pos := (launch1 (F := F)).block_pos
  stage_whole := (launch1 (F := F)).stage_whole
  K := PEmpty
  osem k := k.elim
  ho := Pipeline.OwnSemFacts.none _
  hbody c := by rw [hdat c]; exact (gate_body_obligation (fun c b => Win c b) (adm 1) c).loose
  hwaits := Pipeline.hwaits_of_owed_zero _ _ _ _ noLevels noLevel 1 fun c t => by rw [hdat c]; rfl
  pre c := iprop(StableHlo.held (c : Thread nD τ) (Pipeline.ucRefs τ sig) (Win c) ∗ gateRide c)
  post c := iprop(StableHlo.held (c : Thread nD τ) (Pipeline.ucRefs τ sig) (Wout c) ∗ gateRide c)
  X c := iprop(∃ r, prngReg c r)
  Y c := iprop((∃ r, prngReg c r) ∗ gateTable (adm 1) c)
  Z c := Pipeline.unscopedRestP (Ix := Unit) (Name := ℕ) (U := UR sig nD τ) (Lvl := ℕ) pre1 spec1 c (fun b => Win c b)
  hentry c := by
    rw [Pipeline.ownSems0_none]
    have htab : (fun k => Win c (pre1.ref k)) = (adm 1).1 := funext (hpf c)
    have hsplit : (StableHlo.held (c : Thread nD τ) (Pipeline.ucRefs τ sig) (Win c) : sProp 𝕄)
        ⊢ iprop((pdats 1 c).arrays ((pdats 1 c).arrAt · 0) ∗ gateTable (adm 1) c
            ∗ Pipeline.unscopedRestP (Ix := Unit) (Name := ℕ) (U := UR sig nD τ) (Lvl := ℕ) pre1 spec1 c (fun b => Win c b)) := by
      have h := Pipeline.arrays_of_unscopedBufs (p := 1) (pcfgs (F := F)) adm pdats (launch1 (F := F)).win (launch1 (F := F)).arr_whole c
        ((pdats 1 c).share_full fun w => by rw [hdat c]; rfl) (fun b => Win c b) fun w => by rw [hdat c]; rfl
      rw [Pipeline.unscopedBufs_held] at h
      refine h.trans (sep_mono .rfl (Entails.of_eq ?_))
      unfold gateTable; rw [← htab]
      exact Pipeline.unscopedRest_split (preFacts1) c (fun b => Win c b)
    have howed : (pdats 1 c).owed 0 = 0 := by rw [hdat c]; rfl
    have hrec : (pdats 1 c).recorded 0 = Set.univ := by rw [hdat c]; rfl
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl (by rw [hrec]; trivial)
      rw [howed]; iexact HO
    isplitl [Hp]; · iexact Hp
    iexact Hrest
  hin c := by
    rw [show (pdats 1 c).Φ 0 = iprop(Pipeline.ΦA spec1 c ∗ gateTable (adm 1) c) from by rw [hdat c]; rfl]; unfold Pipeline.ΦA
    iintro ⟨Hp, Ht, Hr⟩
    isplitl [Hr Hp]
    · isplitl [Hr]; · iexact Hr
      iexact Hp
    iexact Ht
  hout c := by
    rw [Pipeline.ownSems0_none, show (pdats 1 c).Φ (Fin.last _) = iprop(Pipeline.ΦA spec1 c ∗ gateTable (adm 1) c) from by rw [hdat c]; rfl]
    unfold Pipeline.ΦA
    iintro ⟨⟨Hr, Hp⟩, Ht⟩
    isplitl [Hp Ht]
    · isplitl [Hp]; · iexact Hp
      iexact Ht
    isplitr; · iempintro
    iexact Hr
  hexit c := by
    have htab : (fun k => Win c (pre1.ref k)) = (adm 1).1 := funext (hpf c)
    have hjoin : iprop((pdats 1 c).arrays ((pdats 1 c).arrAt · (Pipeline.pin (pcfgs (F := F)) adm 1).N) ∗ gateTable (adm 1) c
          ∗ Pipeline.unscopedRestP (Ix := Unit) (Name := ℕ) (U := UR sig nD τ) (Lvl := ℕ) pre1 spec1 c (fun b => Win c b))
        ⊢ (StableHlo.held (c : Thread nD τ) (Pipeline.ucRefs τ sig) (Wout c) : sProp 𝕄) := by
      have h := Pipeline.unscopedBufs_of_arrays (p := 1) (pcfgs (F := F)) adm (Ix := Unit) (Name := ℕ) (U := UR sig nD τ) (Lvl := ℕ)
        (launch1 (F := F)).win (launch1 (F := F)).arr_whole c pdats ((pdats 1 c).share_full fun w => by rw [hdat c]; rfl)
        (fun b => Win c b) (fun b => Wout c b) ((pdats 1 c).arrAt · (Pipeline.pin (pcfgs (F := F)) adm 1).N) (hF c) (hrest c)
      rw [Pipeline.unscopedBufs_held] at h
      refine (sep_mono .rfl (Entails.of_eq ?_)).trans h
      unfold gateTable; rw [← htab]
      exact (Pipeline.unscopedRest_split (preFacts1) c (fun b => Win c b)).symm
    have howed : (pdats 1 c).owed (Fin.last _) = 0 := by rw [hdat c]; rfl
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; rw [howed]; iexact HO

end Cert.KernelIdeal.Gates

end
-- ==== Proof.IdealRunFold.lean ====
/-
  The buffer contents at every boundary of the program's run. The program is seven stretches in order: the slice of the
  last hidden state; the attention region; the host combination of the two halves of the online softmax and the
  selector's predicate; the selector word (0 when the result is at least one half, else 1); the selector's copy and
  the two bias rows reshaped; the gate-row region; the gates and the score on the host. Between two stretches every
  buffer that outlives a region holds a definite function of the launch memory: after a host stretch, that stretch
  applied; after a region, its arrays at what its write-backs leave and every other buffer as the region found it.
  The selector word the gate-row region reads is 0 or 1 whatever the inputs, so the weight block it selects lies inside
  the weight matrix: the region's side condition holds of every launch memory.
-/
import proofs.«146633_j61375082660584_2_alg».proof.Proof.Gen.KernelIdeal.Regions
import proofs.«146633_j61375082660584_2_alg».proof.Proof.IdealAttnOblig
import proofs.«146633_j61375082660584_2_alg».proof.Proof.IdealGatesSeg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal
open Cert.KernelIdeal.Gen hiding V0 V1 V2 V3 V4 V5 V6 V7 segs seg0 seg2 seg3 seg4 seg6

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
/-- After the slice of the last hidden state: the attention region's entry. -/
abbrev W1 : Dev nD → Valuation τ sig (Elt F) := fun c => StableHlo.after hostOps0 (W0 m ρ c)
/-- The same read at the TensorCore's references. -/
abbrev T1 : (c : Dev nD) → (b : Ref sig .tc) → Buf (Elt F) ((c : Thread nD τ).loc b) := fun c b => W1 m ρ c b
/-- At the attention region's exit: its arrays at what its write-backs leave, every other buffer as entered. -/
def W2 (c : Dev nD) : Valuation τ sig (Elt F) :=
  Pipeline.withArrays spec0 c (W1 m ρ c) fun w => (Attn.attnDat (T1 m ρ) c).arrAt w cfg0.N
theorem W2_arr (c : Dev nD) (w : Fin cfg0.W) :
    W2 m ρ c (Proc.devRef .tc (Pipeline.arrRef spec0 w)) = (Attn.attnDat (T1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev T2 : (c : Dev nD) → (b : Ref sig .tc) → Buf (Elt F) ((c : Thread nD τ).loc b) := fun c b => W2 m ρ c b
/-- After the host combination of the two halves. -/
abbrev W3 : Dev nD → Valuation τ sig (Elt F) := fun c => StableHlo.after hostOps1 (W2 m ρ c)
/-- After the selector word is chosen. -/
abbrev W4 : Dev nD → Valuation τ sig (Elt F) := fun c => StableHlo.after hostOps1_1 (W3 m ρ c)
/-- After the selector's copy and the bias rows' reshapes: the gate-row region's entry. -/
abbrev W5 : Dev nD → Valuation τ sig (Elt F) := fun c => StableHlo.after hostOps1_2 (W4 m ρ c)
abbrev T5 : (c : Dev nD) → (b : Ref sig .tc) → Buf (Elt F) ((c : Thread nD τ).loc b) := fun c b => W5 m ρ c b

/-! ## The selector word -/

/-- The selector table as the gate-row region finds it (the program runs on one device). -/
def selTable : pre1.Contents (Elt F) := fun k => T5 m ρ (0 : Dev nD) (pre1.ref k)
theorem T5_pre (c : Dev nD) (k : Fin pre1.K) : T5 m ρ c (pre1.ref k) = selTable m ρ k := by
  obtain rfl : c = 0 := Subsingleton.elim _ _; rfl

/-- A choice between the constant 0 and the constant 1 is 0 or 1, whatever the predicate. -/
theorem select_zero_one {s : Shape} (p : IVec s 1) (A B : s.Idx → BitVec 32) (hA : ∀ j, A j = 0#32) (hB : ∀ j, B j = 1#32) (j : s.Idx) :
    select p A B j = 0#32 ∨ select p A B j = 1#32 := by
  unfold select Scalar.select
  split
  · exact Or.inl (hA j)
  · exact Or.inr (hB j)

set_option maxHeartbeats 400000 in
/-- The selector word after the three host stretches before the gate-row region, from ANY contents before them: the
    choice between the constants 0 and 1 by the predicate "the result is at least one half", copied. -/
theorem sel_word_cases (W : Valuation τ sig (Elt F)) (j : S1.Idx) :
    StableHlo.after hostOps1_2 (StableHlo.after hostOps1_1 (StableHlo.after hostOps1 W)) (Proc.devRef .tc main_v33) j = 0#32
      ∨ StableHlo.after hostOps1_2 (StableHlo.after hostOps1_1 (StableHlo.after hostOps1 W)) (Proc.devRef .tc main_v33) j = 1#32 := by
  after_results
  exact select_zero_one _ _ _ (fun _ => rfl) (fun _ => rfl) j

/-! ## The gate-row region's side condition holds of every launch memory -/

/-- The gate-row region's side condition at the selector table: for each of the three row blocks, the block of 1024
    gate rows and the 768 columns the selector word picks lie inside the 3072 × 1536 weight matrix — the word is 0 or 1. -/
theorem sel_ok : ok1 (F := F) (selTable m ρ) := by
  intro i
  have hw := sel_word_cases (W2 m ρ 0) ((Rect.unit (s := S1) ![0] S1.size inb_S1_S1_0).emb (Shape.Idx.first (numel1_S1.symm ▸ Nat.one_pos)))
  refine ⟨fun a => ?_, Or.inl rfl⟩
  generalize hx : StableHlo.after hostOps1_2 (StableHlo.after hostOps1_1 (StableHlo.after hostOps1 (W2 m ρ 0)))
        (Proc.devRef .tc main_v33) ((Rect.unit (s := S1) ![0] S1.size inb_S1_S1_0).emb (Shape.Idx.first (numel1_S1.symm ▸ Nat.one_pos))) = x at hw
  have e : cc1_transform_2 inb_S1_S1_0 numel1_S1 (selTable m ρ) i = ![(BitVec.ofNat 32 (i 0).val).toNat, x.toNat] := by
    rw [← hx]; rfl
  rw [e]
  have hi : (i 0).val < 3 := (i 0).isLt
  match a with
  | ⟨0, _⟩ =>
    show ((BitVec.ofNat 32 (i 0).val).toNat + 1) * 1024 ≤ 3072
    rw [BitVec.toNat_ofNat, Nat.mod_eq_of_lt (by omega)]; omega
  | ⟨1, _⟩ =>
    show (x.toNat + 1) * 768 ≤ 1536
    rcases hw with h | h <;> rw [h] <;> decide

/-- The selector table as admissible contents of the gate-row pipeline's tables. -/
def selAdm : (pcfg1 (F := F)).Adm := ⟨selTable m ρ, sel_ok m ρ⟩

/-- The tables' admissible contents, pipeline by pipeline: the attention region prefetches nothing. -/
def adm : (p : Fin 2) → (pcfgs (F := F) p).Adm
  | ⟨0, _⟩ => cfg0.toPCfg_adm
  | ⟨1, _⟩ => selAdm m ρ

/-- Every pipeline's proof data, each at its region's entry contents. -/
def pdats : (p : Fin 2) → (c : Dev nD) → Dat τ (Elt F) Unit ℕ (UR sig nD τ) ℕ (Pipeline.pin (pcfgs (F := F)) (adm m ρ) p) c
  | ⟨0, _⟩ => fun c => Attn.attnDat (T1 m ρ) c
  | ⟨1, _⟩ => fun c => Gates.gateDat (T5 m ρ) (selAdm m ρ) c

/-- At the gate-row region's exit: its arrays at what its write-backs leave, every other buffer as entered. -/
def W6 (c : Dev nD) : Valuation τ sig (Elt F) :=
  Pipeline.withArrays spec1 c (W5 m ρ c) fun w => (Gates.gateDat (T5 m ρ) (selAdm m ρ) c).arrAt w (cfg1 (selAdm m ρ)).N
theorem W6_arr (c : Dev nD) (w : Fin (cfg1 (selAdm m ρ)).W) :
    W6 m ρ c (Proc.devRef .tc (Pipeline.arrRef spec1 w)) = (Gates.gateDat (T5 m ρ) (selAdm m ρ) c).arrAt w (cfg1 (selAdm m ρ)).N := by
  unfold W6; exact Pipeline.withArrays_arr spec1 (launch1 (F := F)).win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev T6 : (c : Dev nD) → (b : Ref sig .tc) → Buf (Elt F) ((c : Thread nD τ).loc b) := fun c b => W6 m ρ c b
/-- After the gates and the score on the host: the program's end. -/
abbrev W7 : Dev nD → Valuation τ sig (Elt F) := fun c => StableHlo.after hostOps2 (W6 m ρ c)

end Cert.KernelIdeal.Run

end
-- ==== Proof.IdealRunAttnSeg.lean ====
/-
  The attention region as a segment of the whole program's run: entered holding every buffer that outlives a region at
  an entry valuation, left at an exit valuation that differs from it only at the three partial-result arrays. The region
  prefetches no table. Its invariant starts as "every scratch buffer holds anything" and ends, after the eighth tile,
  as "the three scratch buffers hold the last running state": forgetting that state gives back the scratch buffers at
  anything, which is what the region returns.
-/
import proofs.«146633_j61375082660584_2_alg».proof.Proof.Gen.KernelIdeal.Regions
import proofs.«146633_j61375082660584_2_alg».proof.Proof.IdealAttnOblig
import proofs.«146633_j61375082660584_2_alg».proof.Proof.IdealGatesSeg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal
open Cert.KernelIdeal.Gen hiding V0 V1 V2 V3 V4 V5 V6 V7 segs seg0 seg2 seg3 seg4 seg6

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (adm : (p : Fin 2) → (pcfgs (F := F) p).Adm)
  (pdats : (p : Fin 2) → (c : Dev nD) → Dat τ (Elt F) Unit ℕ (UR sig nD τ) ℕ (Pipeline.pin (pcfgs (F := F)) adm p) c)
  (Win Wout : Dev nD → Valuation τ sig (Elt F))

/-- After the last tile the invariant gives back the region's entry invariant: the running state is forgotten. -/
theorem attn_inv_last (V : (c : Dev nD) → (b : Ref sig .tc) → Buf (Elt F) ((c : Thread nD τ).loc b)) (c : Dev nD)
    (n : ℕ) (h : n ≤ cfg0.N) (hz : n ≠ 0) : Attn.inv V c n h ⊢ (Pipeline.ΦA spec0 c : sProp 𝕄) := by
  rw [Attn.inv_pos V c n h hz, Attn.entryInv_eq]
  iintro ⟨⟨Hm, Hl, Ha, Hrest⟩, Hg⟩
  isplitr [Hg]
  · isplitl [Hm]; · iexists _; iexact Hm
    isplitl [Hl]; · iexists _; iexact Hl
    isplitl [Ha]; · iexists _; iexact Ha
    iexact Hrest
  · iexact Hg

set_option backward.isDefEq.respectTransparency.types false in
/-- The attention region over the thread state: entered from every unscoped buffer at `Win`, left at `Wout`. -/
def attnSeg
    (hdat : ∀ c, pdats 0 c = Attn.attnDat (fun c b => Win c b) c)
    (hF : ∀ c w, (pdats 0 c).arrAt w (Pipeline.pin (pcfgs (F := F)) adm 0).N = Wout c (Pipeline.arrRef spec0 w))
    (hrest : ∀ c (b : Ref sig .tc), b ∉ Finset.univ.image (Pipeline.arrRef spec0) → Wout c b = Win c b) :
    Pipeline.RegionSeg (pcfgs (F := F)) adm pdats () defs₀ Variants.none Gates.noLevels Gates.noLevel 0 where
  win := (launch0 (F := F)).win.to₀
  block_pos := (launch0 (F := F)).block_pos
  stage_whole := (launch0 (F := F)).stage_whole
  K := PEmpty
  osem k := k.elim
  ho := Pipeline.OwnSemFacts.none _
  hbody c := by rw [hdat c]; exact (Attn.attn_body_obligation (fun c b => Win c b) c).loose
  hwaits := Pipeline.hwaits_of_owed_zero _ _ _ _ Gates.noLevels Gates.noLevel 0 fun c t => by rw [hdat c]; rfl
  pre c := iprop(StableHlo.held (c : Thread nD τ) (Pipeline.ucRefs τ sig) (Win c) ∗ Gates.gateRide c)
  post c := iprop(StableHlo.held (c : Thread nD τ) (Pipeline.ucRefs τ sig) (Wout c) ∗ Gates.gateRide c)
  X c := iprop(∃ r, prngReg c r)
  Y c := iprop(∃ r, prngReg c r)
  Z c := Pipeline.unscopedRest (Ix := Unit) (Name := ℕ) (U := UR sig nD τ) (Lvl := ℕ) spec0 c (fun b => Win c b)
  hentry c := by
    rw [Pipeline.ownSems0_none]
    have hsplit := Pipeline.arrays_of_unscopedBufs (p := 0) (pcfgs (F := F)) adm pdats (launch0 (F := F)).win (launch0 (F := F)).arr_whole c
      ((pdats 0 c).share_full fun w => by rw [hdat c]; rfl) (fun b => Win c b) fun w => by rw [hdat c]; rfl
    rw [Pipeline.unscopedBufs_held] at hsplit
    have howed : (pdats 0 c).owed 0 = 0 := by rw [hdat c]; rfl
    have hrec : (pdats 0 c).recorded 0 = Set.univ := by rw [hdat c]; rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hrec]; trivial)
      rw [howed]; iexact HO
    isplitl [Hp]; · iexact Hp
    iexact Hrest
  hin c := by
    rw [show (pdats 0 c).Φ 0 = Pipeline.ΦA spec0 c from by rw [hdat c]; rfl]; unfold Pipeline.ΦA
    iintro ⟨Hp, -, Hr⟩
    isplitl [Hr]; · iexact Hr
    iexact Hp
  hout c := by
    rw [Pipeline.ownSems0_none]
    have hlast : (pdats 0 c).Φ (Fin.last (Pipeline.pin (pcfgs (F := F)) adm 0).N) ⊢ (Pipeline.ΦA spec0 c : sProp 𝕄) := by
      have e : (Attn.attnDat (fun c b => Win c b) c).Φ (Fin.last cfg0.N) = Attn.inv (fun c b => Win c b) c cfg0.N le_rfl := rfl
      rw [hdat c]
      exact (Entails.of_eq e).trans (attn_inv_last (fun c b => Win c b) c cfg0.N le_rfl (by show grid0.N ≠ 0; rw [N_0]; decide))
    refine hlast.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c pdats ((pdats 0 c).share_full fun w => by rw [hdat c]; rfl)
      (fun b => Win c b) (fun b => Wout c b) ((pdats 0 c).arrAt · (Pipeline.pin (pcfgs (F := F)) adm 0).N) (hF c) (hrest c)
    rw [Pipeline.unscopedBufs_held] at hjoin
    have howed : (pdats 0 c).owed (Fin.last _) = 0 := by rw [hdat c]; rfl
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [howed]; iexact HO

end Cert.KernelIdeal.Run

end
-- ==== Proof.IdealRunArgs.lean ====
/-
  No stretch of the program changes an argument array: a host stretch writes only its own results, the attention region
  reads the text vector and the two history arrays through input windows, the gate-row region the text vector and the
  two weight matrices, and a region's write-backs touch output arrays only. So the last boundary's contents at each of
  the ten arguments are the launch contents.
-/
import proofs.«146633_j61375082660584_2_alg».proof.Proof.IdealRunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal
open Cert.KernelIdeal.Gen hiding V0 V1 V2 V3 V4 V5 V6 V7 segs seg0 seg2 seg3 seg4 seg6

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (by decide)
    _ = W5 m ρ c (Proc.devRef .tc main_arg0) := (W6_arr m ρ c 0).trans (((Gates.gateDat (T5 m ρ) (selAdm m ρ) c).arrAt_in 0 rfl _).trans (Gates.gateDat_A (T5 m ρ) (selAdm m ρ) c 0))
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := (W2_arr m ρ c 0).trans (((Attn.attnDat (T1 m ρ) c).arrAt_in 0 rfl _).trans (Attn.A_eq (T1 m ρ) c 0))
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := (W2_arr m ρ c 1).trans (((Attn.attnDat (T1 m ρ) c).arrAt_in 1 rfl _).trans (Attn.A_eq (T1 m ρ) c 1))
    _ = W0 m ρ c (Proc.devRef .tc main_arg2) := StableHlo.after_of_writes_sub hostOps0 _ hostOps0_writes (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1_2 _ hostOps1_2_writes (by decide)
    _ = W3 m ρ c (Proc.devRef .tc main_arg3) := StableHlo.after_of_writes_sub hostOps1_1 _ hostOps1_1_writes (by decide)
    _ = W2 m ρ c (Proc.devRef .tc main_arg3) := StableHlo.after_of_writes_sub hostOps1 _ hostOps1_writes (by decide)
    _ = W1 m ρ c (Proc.devRef .tc main_arg3) := (W2_arr m ρ c 2).trans (((Attn.attnDat (T1 m ρ) c).arrAt_in 2 rfl _).trans (Attn.A_eq (T1 m ρ) c 2))
    _ = W0 m ρ c (Proc.devRef .tc main_arg3) := StableHlo.after_of_writes_sub hostOps0 _ hostOps0_writes (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2 _ hostOps2_writes (by decide)
    _ = W5 m ρ c (Proc.devRef .tc main_arg4) := (W6_arr m ρ c 2).trans (((Gates.gateDat (T5 m ρ) (selAdm m ρ) c).arrAt_in 2 rfl _).trans (Gates.gateDat_A (T5 m ρ) (selAdm m ρ) c 2))
    _ = W4 m ρ c (Proc.devRef .tc main_arg4) := StableHlo.after_of_writes_sub hostOps1_2 _ hostOps1_2_writes (by decide)
    _ = W3 m ρ c (Proc.devRef .tc main_arg4) := StableHlo.after_of_writes_sub hostOps1_1 _ hostOps1_1_writes (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps2 _ hostOps2_writes (by decide)
    _ = W5 m ρ c (Proc.devRef .tc main_arg5) := (W6_arr m ρ c 3).trans (((Gates.gateDat (T5 m ρ) (selAdm m ρ) c).arrAt_in 3 rfl _).trans (Gates.gateDat_A (T5 m ρ) (selAdm m ρ) c 3))
    _ = W4 m ρ c (Proc.devRef .tc main_arg5) := StableHlo.after_of_writes_sub hostOps1_2 _ hostOps1_2_writes (by decide)
    _ = W3 m ρ c (Proc.devRef .tc main_arg5) := StableHlo.after_of_writes_sub hostOps1_1 _ hostOps1_1_writes (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps2 _ hostOps2_writes (by decide)
    _ = W5 m ρ c (Proc.devRef .tc main_arg6) := W6_of_ne m ρ c main_arg6 (by decide)
    _ = W4 m ρ c (Proc.devRef .tc main_arg6) := StableHlo.after_of_writes_sub hostOps1_2 _ hostOps1_2_writes (by decide)
    _ = W3 m ρ c (Proc.devRef .tc main_arg6) := StableHlo.after_of_writes_sub hostOps1_1 _ hostOps1_1_writes (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps2 _ hostOps2_writes (by decide)
    _ = W5 m ρ c (Proc.devRef .tc main_arg7) := W6_of_ne m ρ c main_arg7 (by decide)
    _ = W4 m ρ c (Proc.devRef .tc main_arg7) := StableHlo.after_of_writes_sub hostOps1_2 _ hostOps1_2_writes (by decide)
    _ = W3 m ρ c (Proc.devRef .tc main_arg7) := StableHlo.after_of_writes_sub hostOps1_1 _ hostOps1_1_writes (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps2 _ hostOps2_writes (by decide)
    _ = W5 m ρ c (Proc.devRef .tc main_arg8) := W6_of_ne m ρ c main_arg8 (by decide)
    _ = W4 m ρ c (Proc.devRef .tc main_arg8) := StableHlo.after_of_writes_sub hostOps1_2 _ hostOps1_2_writes (by decide)
    _ = W3 m ρ c (Proc.devRef .tc main_arg8) := StableHlo.after_of_writes_sub hostOps1_1 _ hostOps1_1_writes (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps2 _ hostOps2_writes (by decide)
    _ = W5 m ρ c (Proc.devRef .tc main_arg9) := W6_of_ne m ρ c main_arg9 (by decide)
    _ = W4 m ρ c (Proc.devRef .tc main_arg9) := StableHlo.after_of_writes_sub hostOps1_2 _ hostOps1_2_writes (by decide)
    _ = W3 m ρ c (Proc.devRef .tc main_arg9) := StableHlo.after_of_writes_sub hostOps1_1 _ hostOps1_1_writes (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

end Cert.KernelIdeal.Run

end
-- ==== Proof.IdealRun.lean ====
/-
  The run of the whole program. The seven stretches are run in order from the launch memory: each host stretch over all
  the buffers that outlive a region, each region entered from the contents the stretch before it leaves and left at
  its arrays' final contents. Every weakly fair execution terminates, nothing faults, and at the end every such buffer
  holds the last boundary's contents — a definite function of the launch memory. Read at the ten argument arrays, which
  no stretch writes and no region changes (a region reads an argument through an input window, or does not touch it),
  those contents are the launch contents: the frame. Read at the two result buffers they are the last host stretch
  applied to what the gate-row region leaves.
-/
import proofs.«146633_j61375082660584_2_alg».proof.Proof.IdealRunFold
import proofs.«146633_j61375082660584_2_alg».proof.Proof.IdealRunAttnSeg
import proofs.«146633_j61375082660584_2_alg».proof.Proof.IdealRunArgs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal
open Cert.KernelIdeal.Gen hiding V0 V1 V2 V3 V4 V5 V6 V7 segs seg0 seg2 seg3 seg4 seg6

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments, at the fold's contents -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The attention region, entered at `W1` and left at `W2`. -/
def reg0 : Pipeline.RegionSeg (pcfgs (F := F)) (adm m ρ) (pdats m ρ) () defs₀ Variants.none Gates.noLevels Gates.noLevel 0 :=
  attnSeg (adm m ρ) (pdats m ρ) (W1 m ρ) (W2 m ρ) (fun _ => rfl)
    (fun c w => (W2_arr m ρ c w).symm)
    (fun c b hb => W2_of_ne m ρ c b fun w e => hb (Finset.mem_image.mpr ⟨w, Finset.mem_univ _, e⟩))

/-- The gate-row region, entered at `W5` and left at `W6`, its selector table the entry contents' word. -/
def reg1 : Pipeline.RegionSeg (pcfgs (F := F)) (adm m ρ) (pdats m ρ) () defs₀ Variants.none Gates.noLevels Gates.noLevel 1 :=
  Gates.gateSeg (adm m ρ) (pdats m ρ) (W5 m ρ) (W6 m ρ) (fun _ => rfl)
    (fun c k => T5_pre m ρ c k)
    (fun c w => (W6_arr m ρ c w).symm)
    (fun c b hb => W6_of_ne m ρ c b fun w e => hb (Finset.mem_image.mpr ⟨w, Finset.mem_univ _, e⟩))

/-- A host stretch as a segment over all the unscoped buffers from the contents `W`, the generator register and the
    core's dues riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Gates.noLevels Gates.noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Gates.gateRide

/-- The program's seven stretches in order. -/
abbrev segs : List (Pipeline.Seg (pcfgs (F := F)) (adm m ρ) (pdats m ρ) () defs₀ Variants.none Gates.noLevels Gates.noLevel) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

/-! ## The launch -/

set_option backward.isDefEq.respectTransparency.types false in
/-- From any memory with zero counters, every weakly fair execution of the program terminates, nothing faulting, and
    every final state holds, at every buffer that outlives a region, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) (adm m ρ) (pdats m ρ) () (cellOf_inj (adm m ρ)) emb₁ defs₀ Variants.none Gates.noLevels Gates.noLevel m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Gates.gateRide c))
    (Tₙ := fun c => StableHlo.held (c : Thread nD τ) (Pipeline.ucRefs τ sig) (W7 m ρ c))
    (hch := ⟨fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach Gates.noLevels Gates.noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨Hh, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-! ## The frame, and the results -/

/-- The two results at the end: the last host stretch applied to what the gate-row region leaves. -/
theorem W7_v72 (c : Dev nD) : W7 m ρ c (Proc.devRef .tc main_v72) = StableHlo.after hostOps2 (W6 m ρ c) (Proc.devRef .tc main_v72) := rfl
theorem W7_v66 (c : Dev nD) : W7 m ρ c (Proc.devRef .tc main_v66) = StableHlo.after hostOps2 (W6 m ρ c) (Proc.devRef .tc main_v66) := rfl

/-- THE FRAME: every weakly fair execution terminates, nothing faulting, and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c)⟩) (run_all m ρ)

/-- The run with its two results named: the score and the new hidden state end at the last boundary's contents, the
    arguments as launched. -/
theorem run_values : θ_run defs (onTc (τ := τ) (main (F := F))) ⟨m, fun _ => 0, ρ⟩ (fun r => ∀ c : Dev nD,
      r.2.mem ((c.tc : Thread nD τ).loc main_v72) = W7 m ρ c (Proc.devRef .tc main_v72)
      ∧ r.2.mem ((c.tc : Thread nD τ).loc main_v66) = W7 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h c _ (mem_uc main_v72 (by decide)), h c _ (mem_uc main_v66 (by decide)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c)⟩) (run_all m ρ)

end Cert.KernelIdeal.Run

end
-- ==== Proof.RefRun.lean ====
import proofs.«146633_j61375082660584_2_alg».proof.Proof.Gen.ReferenceIdeal
import Idealize.ShloMosaic.Lib.StableHlo.Run
import Idealize.ShloMosaic.PureOps.Ideal

/-!
# The reference program's run

The reference's `@main` is a straight line of 75 host operations (the two operations of the
outlined `_where` stand at its call site, over the call's own buffers).  This module lists them,
shows `@main` is that line, and reads the line's run back: every weakly fair execution
terminates, and every buffer of the device ends at the fold of the operations' results over the
launch contents.  The fold is left folded: what a buffer holds is read off it one operation at a
time elsewhere.  The ten argument buffers are written by no operation, so they end as they
started; that is the reference's frame.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- `@main`'s 75 operations, in program order. -/
abbrev ops : List (HloOp τ sig (Elt F)) :=
  [ unary main_arg3 main_v0 ((extractStridedSlice S1x1024 ![16383, 0] · slices_S16384x1024_S1x1024_16383_0) : (⟨S16384x1024, .f32⟩ : BufTy).Contents (Elt F) → (⟨S1x1024, .f32⟩ : BufTy).Contents (Elt F)),
    unary main_arg0 main_v1 ((transpose S768x1 [1, 0] · transposes_S1x768_S768x1_1_0) : (⟨S1x768, .f32⟩ : BufTy).Contents (Elt F) → (⟨S768x1, .f32⟩ : BufTy).Contents (Elt F)),
    binary main_arg2 main_v1 main_v2 ((fun l r => Host.dotGeneral dot_S16384x768_S768x1_S16384x1_1_0_0_1_n_n none l r) : (⟨S16384x768, .f32⟩ : BufTy).Contents (Elt F) → (⟨S768x1, .f32⟩ : BufTy).Contents (Elt F) → (⟨S16384x1, .f32⟩ : BufTy).Contents (Elt F)),
    nullary main_cst (constant S_ .f32 0xFF800000#32),
    binary main_v2 main_cst main_v3 ((fun x v => Host.reduce FloatOps.maximumf x v reducesTo_S16384x1_S1_d0 h_S_) : (⟨S16384x1, .f32⟩ : BufTy).Contents (Elt F) → (⟨S_, .f32⟩ : BufTy).Contents (Elt F) → (⟨S1, .f32⟩ : BufTy).Contents (Elt F)),
    nullary main_cst_0 (constant S_ .f32 0xFF800000#32),
    unary main_cst_0 main_v4 (broadcastInDim S1 ![] bcast_S_S1 : (⟨S_, .f32⟩ : BufTy).Contents (Elt F) → (⟨S1, .f32⟩ : BufTy).Contents (Elt F)),
    binary main_v4 main_v3 main_v5 (maximumf : (⟨S1, .f32⟩ : BufTy).Contents (Elt F) → (⟨S1, .f32⟩ : BufTy).Contents (Elt F) → (⟨S1, .f32⟩ : BufTy).Contents (Elt F)),
    unary main_v5 main_v6 (broadcastInDim S1x1 ![1] bcast_S1_S1x1_1 : (⟨S1, .f32⟩ : BufTy).Contents (Elt F) → (⟨S1x1, .f32⟩ : BufTy).Contents (Elt F)),
    unary main_v6 main_v7 (broadcastInDim S16384x1 ![0, 1] bcast_S1x1_S16384x1_0_1 : (⟨S1x1, .f32⟩ : BufTy).Contents (Elt F) → (⟨S16384x1, .f32⟩ : BufTy).Contents (Elt F)),
    binary main_v2 main_v7 main_v8 (subf : (⟨S16384x1, .f32⟩ : BufTy).Contents (Elt F) → (⟨S16384x1, .f32⟩ : BufTy).Contents (Elt F) → (⟨S16384x1, .f32⟩ : BufTy).Contents (Elt F)),
    unary main_v8 main_v9 (Host.exp : (⟨S16384x1, .f32⟩ : BufTy).Contents (Elt F) → (⟨S16384x1, .f32⟩ : BufTy).Contents (Elt F)),
    nullary main_cst_1 (constant S_ .f32 0x00000000#32),
    binary main_v9 main_cst_1 main_v10 ((fun x v => Host.reduceAdd x v reducesTo_S16384x1_S1_d0 h_S_) : (⟨S16384x1, .f32⟩ : BufTy).Contents (Elt F) → (⟨S_, .f32⟩ : BufTy).Contents (Elt F) → (⟨S1, .f32⟩ : BufTy).Contents (Elt F)),
    unary main_v10 main_v11 (broadcastInDim S1x1 ![1] bcast_S1_S1x1_1 : (⟨S1, .f32⟩ : BufTy).Contents (Elt F) → (⟨S1x1, .f32⟩ : BufTy).Contents (Elt F)),
    unary main_v11 main_v12 (broadcastInDim S16384x1 ![0, 1] bcast_S1x1_S16384x1_0_1 : (⟨S1x1, .f32⟩ : BufTy).Contents (Elt F) → (⟨S16384x1, .f32⟩ : BufTy).Contents (Elt F)),
    binary main_v9 main_v12 main_v13 (Host.divf : (⟨S16384x1, .f32⟩ : BufTy).Contents (Elt F) → (⟨S16384x1, .f32⟩ : BufTy).Contents (Elt F) → (⟨S16384x1, .f32⟩ : BufTy).Contents (Elt F)),
    unary main_v13 main_v14 ((transpose S1x16384 [1, 0] · transposes_S16384x1_S1x16384_1_0) : (⟨S16384x1, .f32⟩ : BufTy).Contents (Elt F) → (⟨S1x16384, .f32⟩ : BufTy).Contents (Elt F)),
    binary main_v14 main_arg3 main_v15 ((fun l r => Host.dotGeneral dot_S1x16384_S16384x1024_S1x1024_1_0_0_1_n_n none l r) : (⟨S1x16384, .f32⟩ : BufTy).Contents (Elt F) → (⟨S16384x1024, .f32⟩ : BufTy).Contents (Elt F) → (⟨S1x1024, .f32⟩ : BufTy).Contents (Elt F)),
    binary main_arg0 main_v15 main_v16 ((fun a b => concatenate S1x1792 1 [⟨S1x768, a⟩, ⟨S1x1024, b⟩] concatenates_S1x768_S1x1024_S1x1792_d1) : (⟨S1x768, .f32⟩ : BufTy).Contents (Elt F) → (⟨S1x1024, .f32⟩ : BufTy).Contents (Elt F) → (⟨S1x1792, .f32⟩ : BufTy).Contents (Elt F)),
    unary main_arg8 main_v17 ((transpose S1792x1 [1, 0] · transposes_S1x1792_S1792x1_1_0) : (⟨S1x1792, .f32⟩ : BufTy).Contents (Elt F) → (⟨S1792x1, .f32⟩ : BufTy).Contents (Elt F)),
    binary main_v16 main_v17 main_v18 ((fun l r => Host.dotGeneral dot_S1x1792_S1792x1_S1x1_1_0_0_1_n_n none l r) : (⟨S1x1792, .f32⟩ : BufTy).Contents (Elt F) → (⟨S1792x1, .f32⟩ : BufTy).Contents (Elt F) → (⟨S1x1, .f32⟩ : BufTy).Contents (Elt F)),
    unary main_arg9 main_v19 (broadcastInDim S1x1 ![1] bcast_S1_S1x1_1 : (⟨S1, .f32⟩ : BufTy).Contents (Elt F) → (⟨S1x1, .f32⟩ : BufTy).Contents (Elt F)),
    binary main_v18 main_v19 main_v20 (addf : (⟨S1x1, .f32⟩ : BufTy).Contents (Elt F) → (⟨S1x1, .f32⟩ : BufTy).Contents (Elt F) → (⟨S1x1, .f32⟩ : BufTy).Contents (Elt F)),
    nullary main_cst_2 (constant S_ .f32 0x00000000#32),
    unary main_cst_2 main_v21 (broadcastInDim S1x768 ![] bcast_S_S1x768 : (⟨S_, .f32⟩ : BufTy).Contents (Elt F) → (⟨S1x768, .f32⟩ : BufTy).Contents (Elt F)),
    nullary main_cst_3 (constant S_ .f32 0x3F000000#32),
    unary main_cst_3 main_v22 (broadcastInDim S1 ![] bcast_S_S1 : (⟨S_, .f32⟩ : BufTy).Contents (Elt F) → (⟨S1, .f32⟩ : BufTy).Contents (Elt F)),
    binary main_arg1 main_v22 main_v23 (cmpf .oge : (⟨S1, .f32⟩ : BufTy).Contents (Elt F) → (⟨S1, .f32⟩ : BufTy).Contents (Elt F) → (⟨S1, .i1⟩ : BufTy).Contents (Elt F)),
    binary main_arg0 main_v21 main_v24 ((fun a b => concatenate S1x1536 1 [⟨S1x768, a⟩, ⟨S1x768, b⟩] concatenates_S1x768_S1x768_S1x1536_d1) : (⟨S1x768, .f32⟩ : BufTy).Contents (Elt F) → (⟨S1x768, .f32⟩ : BufTy).Contents (Elt F) → (⟨S1x1536, .f32⟩ : BufTy).Contents (Elt F)),
    binary main_v21 main_arg0 main_v25 ((fun a b => concatenate S1x1536 1 [⟨S1x768, a⟩, ⟨S1x768, b⟩] concatenates_S1x768_S1x768_S1x1536_d1) : (⟨S1x768, .f32⟩ : BufTy).Contents (Elt F) → (⟨S1x768, .f32⟩ : BufTy).Contents (Elt F) → (⟨S1x1536, .f32⟩ : BufTy).Contents (Elt F)),
    TRef.unary (TRef.of (T := ⟨S1, .i1⟩) main_v23) main_call0.v0 (broadcastInDim S1x1536 ![1] bcast_S1_S1x1536_1),
    TRef.ternary main_call0.v0 (TRef.of (T := ⟨S1x1536, .f32⟩) main_v24) (TRef.of (T := ⟨S1x1536, .f32⟩) main_v25) main_call0.v1 select,
    unary main_arg4 main_v27 ((transpose S1536x3072 [1, 0] · transposes_S3072x1536_S1536x3072_1_0) : (⟨S3072x1536, .f32⟩ : BufTy).Contents (Elt F) → (⟨S1536x3072, .f32⟩ : BufTy).Contents (Elt F)),
    binary main_v26 main_v27 main_v28 ((fun l r => Host.dotGeneral dot_S1x1536_S1536x3072_S1x3072_1_0_0_1_n_n none l r) : (⟨S1x1536, .f32⟩ : BufTy).Contents (Elt F) → (⟨S1536x3072, .f32⟩ : BufTy).Contents (Elt F) → (⟨S1x3072, .f32⟩ : BufTy).Contents (Elt F)),
    unary main_arg6 main_v29 (broadcastInDim S1x3072 ![1] bcast_S3072_S1x3072_1 : (⟨S3072, .f32⟩ : BufTy).Contents (Elt F) → (⟨S1x3072, .f32⟩ : BufTy).Contents (Elt F)),
    binary main_v28 main_v29 main_v30 (addf : (⟨S1x3072, .f32⟩ : BufTy).Contents (Elt F) → (⟨S1x3072, .f32⟩ : BufTy).Contents (Elt F) → (⟨S1x3072, .f32⟩ : BufTy).Contents (Elt F)),
    unary main_arg5 main_v31 ((transpose S1024x3072 [1, 0] · transposes_S3072x1024_S1024x3072_1_0) : (⟨S3072x1024, .f32⟩ : BufTy).Contents (Elt F) → (⟨S1024x3072, .f32⟩ : BufTy).Contents (Elt F)),
    binary main_v0 main_v31 main_v32 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg7 main_v33 (broadcastInDim S1x3072 ![1] bcast_S3072_S1x3072_1 : (⟨S3072, .f32⟩ : BufTy).Contents (Elt F) → (⟨S1x3072, .f32⟩ : BufTy).Contents (Elt F)),
    binary main_v32 main_v33 main_v34 (addf : (⟨S1x3072, .f32⟩ : BufTy).Contents (Elt F) → (⟨S1x3072, .f32⟩ : BufTy).Contents (Elt F) → (⟨S1x3072, .f32⟩ : BufTy).Contents (Elt F)),
    unary main_v30 main_v35 ((extractStridedSlice S1x1024 ![0, 0] · slices_S1x3072_S1x1024_0_0) : (⟨S1x3072, .f32⟩ : BufTy).Contents (Elt F) → (⟨S1x1024, .f32⟩ : BufTy).Contents (Elt F)),
    unary main_v30 main_v36 ((extractStridedSlice S1x1024 ![0, 1024] · slices_S1x3072_S1x1024_0_1024) : (⟨S1x3072, .f32⟩ : BufTy).Contents (Elt F) → (⟨S1x1024, .f32⟩ : BufTy).Contents (Elt F)),
    unary main_v30 main_v37 ((extractStridedSlice S1x1024 ![0, 2048] · slices_S1x3072_S1x1024_0_2048) : (⟨S1x3072, .f32⟩ : BufTy).Contents (Elt F) → (⟨S1x1024, .f32⟩ : BufTy).Contents (Elt F)),
    unary main_v34 main_v38 ((extractStridedSlice S1x1024 ![0, 0] · slices_S1x3072_S1x1024_0_0) : (⟨S1x3072, .f32⟩ : BufTy).Contents (Elt F) → (⟨S1x1024, .f32⟩ : BufTy).Contents (Elt F)),
    unary main_v34 main_v39 ((extractStridedSlice S1x1024 ![0, 1024] · slices_S1x3072_S1x1024_0_1024) : (⟨S1x3072, .f32⟩ : BufTy).Contents (Elt F) → (⟨S1x1024, .f32⟩ : BufTy).Contents (Elt F)),
    unary main_v34 main_v40 ((extractStridedSlice S1x1024 ![0, 2048] · slices_S1x3072_S1x1024_0_2048) : (⟨S1x3072, .f32⟩ : BufTy).Contents (Elt F) → (⟨S1x1024, .f32⟩ : BufTy).Contents (Elt F)),
    binary main_v35 main_v38 main_v41 (addf : (⟨S1x1024, .f32⟩ : BufTy).Contents (Elt F) → (⟨S1x1024, .f32⟩ : BufTy).Contents (Elt F) → (⟨S1x1024, .f32⟩ : BufTy).Contents (Elt F)),
    unary main_v41 main_v42 (Host.negf : (⟨S1x1024, .f32⟩ : BufTy).Contents (Elt F) → (⟨S1x1024, .f32⟩ : BufTy).Contents (Elt F)),
    unary main_v42 main_v43 (Host.exp : (⟨S1x1024, .f32⟩ : BufTy).Contents (Elt F) → (⟨S1x1024, .f32⟩ : BufTy).Contents (Elt F)),
    nullary main_cst_4 (constant S_ .f32 0x3F800000#32),
    unary main_cst_4 main_v44 (broadcastInDim S1x1024 ![] bcast_S_S1x1024 : (⟨S_, .f32⟩ : BufTy).Contents (Elt F) → (⟨S1x1024, .f32⟩ : BufTy).Contents (Elt F)),
    binary main_v44 main_v43 main_v45 (addf : (⟨S1x1024, .f32⟩ : BufTy).Contents (Elt F) → (⟨S1x1024, .f32⟩ : BufTy).Contents (Elt F) → (⟨S1x1024, .f32⟩ : BufTy).Contents (Elt F)),
    nullary main_cst_5 (constant S_ .f32 0x3F800000#32),
    unary main_cst_5 main_v46 (broadcastInDim S1x1024 ![] bcast_S_S1x1024 : (⟨S_, .f32⟩ : BufTy).Contents (Elt F) → (⟨S1x1024, .f32⟩ : BufTy).Contents (Elt F)),
    binary main_v46 main_v45 main_v47 (Host.divf : (⟨S1x1024, .f32⟩ : BufTy).Contents (Elt F) → (⟨S1x1024, .f32⟩ : BufTy).Contents (Elt F) → (⟨S1x1024, .f32⟩ : BufTy).Contents (Elt F)),
    binary main_v36 main_v39 main_v48 (addf : (⟨S1x1024, .f32⟩ : BufTy).Contents (Elt F) → (⟨S1x1024, .f32⟩ : BufTy).Contents (Elt F) → (⟨S1x1024, .f32⟩ : BufTy).Contents (Elt F)),
    unary main_v48 main_v49 (Host.negf : (⟨S1x1024, .f32⟩ : BufTy).Contents (Elt F) → (⟨S1x1024, .f32⟩ : BufTy).Contents (Elt F)),
    unary main_v49 main_v50 (Host.exp : (⟨S1x1024, .f32⟩ : BufTy).Contents (Elt F) → (⟨S1x1024, .f32⟩ : BufTy).Contents (Elt F)),
    nullary main_cst_6 (constant S_ .f32 0x3F800000#32),
    unary main_cst_6 main_v51 (broadcastInDim S1x1024 ![] bcast_S_S1x1024 : (⟨S_, .f32⟩ : BufTy).Contents (Elt F) → (⟨S1x1024, .f32⟩ : BufTy).Contents (Elt F)),
    binary main_v51 main_v50 main_v52 (addf : (⟨S1x1024, .f32⟩ : BufTy).Contents (Elt F) → (⟨S1x1024, .f32⟩ : BufTy).Contents (Elt F) → (⟨S1x1024, .f32⟩ : BufTy).Contents (Elt F)),
    nullary main_cst_7 (constant S_ .f32 0x3F800000#32),
    unary main_cst_7 main_v53 (broadcastInDim S1x1024 ![] bcast_S_S1x1024 : (⟨S_, .f32⟩ : BufTy).Contents (Elt F) → (⟨S1x1024, .f32⟩ : BufTy).Contents (Elt F)),
    binary main_v53 main_v52 main_v54 (Host.divf : (⟨S1x1024, .f32⟩ : BufTy).Contents (Elt F) → (⟨S1x1024, .f32⟩ : BufTy).Contents (Elt F) → (⟨S1x1024, .f32⟩ : BufTy).Contents (Elt F)),
    binary main_v47 main_v40 main_v55 (mulf : (⟨S1x1024, .f32⟩ : BufTy).Contents (Elt F) → (⟨S1x1024, .f32⟩ : BufTy).Contents (Elt F) → (⟨S1x1024, .f32⟩ : BufTy).Contents (Elt F)),
    binary main_v37 main_v55 main_v56 (addf : (⟨S1x1024, .f32⟩ : BufTy).Contents (Elt F) → (⟨S1x1024, .f32⟩ : BufTy).Contents (Elt F) → (⟨S1x1024, .f32⟩ : BufTy).Contents (Elt F)),
    unary main_v56 main_v57 (Host.tanh : (⟨S1x1024, .f32⟩ : BufTy).Contents (Elt F) → (⟨S1x1024, .f32⟩ : BufTy).Contents (Elt F)),
    nullary main_cst_8 (constant S_ .f32 0x3F800000#32),
    unary main_cst_8 main_v58 (broadcastInDim S1x1024 ![] bcast_S_S1x1024 : (⟨S_, .f32⟩ : BufTy).Contents (Elt F) → (⟨S1x1024, .f32⟩ : BufTy).Contents (Elt F)),
    binary main_v58 main_v54 main_v59 (subf : (⟨S1x1024, .f32⟩ : BufTy).Contents (Elt F) → (⟨S1x1024, .f32⟩ : BufTy).Contents (Elt F) → (⟨S1x1024, .f32⟩ : BufTy).Contents (Elt F)),
    binary main_v59 main_v57 main_v60 (mulf : (⟨S1x1024, .f32⟩ : BufTy).Contents (Elt F) → (⟨S1x1024, .f32⟩ : BufTy).Contents (Elt F) → (⟨S1x1024, .f32⟩ : BufTy).Contents (Elt F)),
    binary main_v54 main_v0 main_v61 (mulf : (⟨S1x1024, .f32⟩ : BufTy).Contents (Elt F) → (⟨S1x1024, .f32⟩ : BufTy).Contents (Elt F) → (⟨S1x1024, .f32⟩ : BufTy).Contents (Elt F)),
    binary main_v60 main_v61 main_v62 (addf : (⟨S1x1024, .f32⟩ : BufTy).Contents (Elt F) → (⟨S1x1024, .f32⟩ : BufTy).Contents (Elt F) → (⟨S1x1024, .f32⟩ : BufTy).Contents (Elt F)),
    reshape main_v20 main_v63 rfl shapeCasts_S1x1_S1 ]

set_option maxRecDepth 65536 in
set_option maxHeartbeats 8000000 in
/-- `@main` is the line of its operations. -/
theorem main_eq (c : Dev nD) : main (F := F) c = seq ops := rfl

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 65536 in
/-- Every operation touches TensorCore references only. -/
theorem ops_sub : (ops : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., binary_bufs_sub .., unary_bufs_sub .., binary_bufs_sub .., unary_bufs_sub .., binary_bufs_sub .., nullary_bufs_sub .., unary_bufs_sub .., nullary_bufs_sub .., unary_bufs_sub .., binary_bufs_sub .., binary_bufs_sub .., binary_bufs_sub .., unary_bufs_sub .., ternary_bufs_sub .., unary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., reshape_bufs_sub ..⟩

set_option maxRecDepth 65536 in
set_option maxHeartbeats 8000000 in
/-- From any memory with zero counters every weakly fair execution of `@main` terminates, and each
    buffer `b` of device `c` ends at the fold of the operations' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

/-! ## The arguments are written by no operation -/

set_option maxRecDepth 65536 in
set_option maxHeartbeats 4000000 in
theorem after_arg0 (V : Valuation τ sig (Elt F)) :
    after ops V (Proc.devRef .tc main_arg0) = V (Proc.devRef .tc main_arg0) := by
  after_results_simp

set_option maxRecDepth 65536 in
set_option maxHeartbeats 4000000 in
theorem after_arg1 (V : Valuation τ sig (Elt F)) :
    after ops V (Proc.devRef .tc main_arg1) = V (Proc.devRef .tc main_arg1) := by
  after_results_simp

set_option maxRecDepth 65536 in
set_option maxHeartbeats 4000000 in
theorem after_arg2 (V : Valuation τ sig (Elt F)) :
    after ops V (Proc.devRef .tc main_arg2) = V (Proc.devRef .tc main_arg2) := by
  after_results_simp

set_option maxRecDepth 65536 in
set_option maxHeartbeats 4000000 in
theorem after_arg3 (V : Valuation τ sig (Elt F)) :
    after ops V (Proc.devRef .tc main_arg3) = V (Proc.devRef .tc main_arg3) := by
  after_results_simp

set_option maxRecDepth 65536 in
set_option maxHeartbeats 4000000 in
theorem after_arg4 (V : Valuation τ sig (Elt F)) :
    after ops V (Proc.devRef .tc main_arg4) = V (Proc.devRef .tc main_arg4) := by
  after_results_simp

set_option maxRecDepth 65536 in
set_option maxHeartbeats 4000000 in
theorem after_arg5 (V : Valuation τ sig (Elt F)) :
    after ops V (Proc.devRef .tc main_arg5) = V (Proc.devRef .tc main_arg5) := by
  after_results_simp

set_option maxRecDepth 65536 in
set_option maxHeartbeats 4000000 in
theorem after_arg6 (V : Valuation τ sig (Elt F)) :
    after ops V (Proc.devRef .tc main_arg6) = V (Proc.devRef .tc main_arg6) := by
  after_results_simp

set_option maxRecDepth 65536 in
set_option maxHeartbeats 4000000 in
theorem after_arg7 (V : Valuation τ sig (Elt F)) :
    after ops V (Proc.devRef .tc main_arg7) = V (Proc.devRef .tc main_arg7) := by
  after_results_simp

set_option maxRecDepth 65536 in
set_option maxHeartbeats 4000000 in
theorem after_arg8 (V : Valuation τ sig (Elt F)) :
    after ops V (Proc.devRef .tc main_arg8) = V (Proc.devRef .tc main_arg8) := by
  after_results_simp

set_option maxRecDepth 65536 in
set_option maxHeartbeats 4000000 in
theorem after_arg9 (V : Valuation τ sig (Elt F)) :
    after ops V (Proc.devRef .tc main_arg9) = V (Proc.devRef .tc main_arg9) := by
  after_results_simp

/-- The run with the ten arguments read back: each ends as it started. -/
theorem run_args (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc),
        r.2.mem ((c.tc : Thread nD τ).loc b) = after ops (launchContents m c) (Proc.devRef .tc b))
      ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h => ⟨h, fun c => ⟨(h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _)⟩⟩)
    (run m ρ)

/-- The reference's frame at the ideal instance: it runs to its end, faults nowhere, and its
    argument arrays end unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h => h.2) (run_args m ρ)

end Cert.ReferenceIdeal.HandRun

end
-- ==== Proof.RefAfter.lean ====
import proofs.«146633_j61375082660584_2_alg».proof.Proof.RefRun

/-!
# Reading the fold of a line of operations one operation at a time

The contents after a line `l₁ ++ l₂` are those after `l₂` started from the contents after `l₁`.
So what an operation in the middle of the line leaves in its result buffer can be read with the
contents before it as an unknown: only the operations after it matter, and they write other
buffers.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

/-- The fold over a concatenation is the fold over the second list from the fold over the first. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

/-- A line cut after its first `k` operations. -/
theorem after_take_drop {τ : Topo} {sig : RefSig} {Val : EltTy → Type} (l : List (HloOp τ sig Val)) (k : Nat)
    (V : Valuation τ sig Val) : after l V = after (l.drop k) (after (l.take k) V) := by
  rw [← after_append, List.take_append_drop]

variable {F : FTy → Type} [FloatOps F]

/-- What buffer `r` holds after the whole line, started from the contents `V`. -/
abbrev A (V : Valuation τ sig (Elt F)) (r : Ref sig .tc) : r.ty.Contents (Elt F) :=
  after ops V (Proc.devRef .tc r)

end Cert.ReferenceIdeal.HandRun

end
-- ==== Proof.RefRec0.lean ====
import proofs.«146633_j61375082660584_2_alg».proof.Proof.RefAfter

/-!
# What each operation of the reference leaves in its result buffer

Every buffer of the line is written by exactly one operation and read only by later ones.  So
after the whole line, the result buffer of an operation holds that operation's function of what
its operand buffers hold after the whole line.  One such equation per operation; the contents
before the operation stay an unknown throughout.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem rec_main_v0 (V : Valuation τ sig (Elt F)) :
    A V main_v0 = ((extractStridedSlice S1x1024 ![16383, 0] · slices_S16384x1024_S1x1024_16383_0) : (⟨S16384x1024, .f32⟩ : BufTy).Contents (Elt F) → (⟨S1x1024, .f32⟩ : BufTy).Contents (Elt F)) (A V main_arg3) := by
  unfold A
  rw [after_take_drop ops 0 V]
  generalize after (List.take 0 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v1 (V : Valuation τ sig (Elt F)) :
    A V main_v1 = ((transpose S768x1 [1, 0] · transposes_S1x768_S768x1_1_0) : (⟨S1x768, .f32⟩ : BufTy).Contents (Elt F) → (⟨S768x1, .f32⟩ : BufTy).Contents (Elt F)) (A V main_arg0) := by
  unfold A
  rw [after_take_drop ops 1 V]
  generalize after (List.take 1 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v2 (V : Valuation τ sig (Elt F)) :
    A V main_v2 = ((fun l r => Host.dotGeneral dot_S16384x768_S768x1_S16384x1_1_0_0_1_n_n none l r) : (⟨S16384x768, .f32⟩ : BufTy).Contents (Elt F) → (⟨S768x1, .f32⟩ : BufTy).Contents (Elt F) → (⟨S16384x1, .f32⟩ : BufTy).Contents (Elt F)) (A V main_arg2) (A V main_v1) := by
  unfold A
  rw [after_take_drop ops 2 V]
  generalize after (List.take 2 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_cst (V : Valuation τ sig (Elt F)) :
    A V main_cst = (constant S_ .f32 0xFF800000#32 : (⟨S_, .f32⟩ : BufTy).Contents (Elt F)) := by
  unfold A
  rw [after_take_drop ops 3 V]
  generalize after (List.take 3 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v3 (V : Valuation τ sig (Elt F)) :
    A V main_v3 = ((fun x v => Host.reduce FloatOps.maximumf x v reducesTo_S16384x1_S1_d0 h_S_) : (⟨S16384x1, .f32⟩ : BufTy).Contents (Elt F) → (⟨S_, .f32⟩ : BufTy).Contents (Elt F) → (⟨S1, .f32⟩ : BufTy).Contents (Elt F)) (A V main_v2) (A V main_cst) := by
  unfold A
  rw [after_take_drop ops 4 V]
  generalize after (List.take 4 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_cst_0 (V : Valuation τ sig (Elt F)) :
    A V main_cst_0 = (constant S_ .f32 0xFF800000#32 : (⟨S_, .f32⟩ : BufTy).Contents (Elt F)) := by
  unfold A
  rw [after_take_drop ops 5 V]
  generalize after (List.take 5 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v4 (V : Valuation τ sig (Elt F)) :
    A V main_v4 = (broadcastInDim S1 ![] bcast_S_S1 : (⟨S_, .f32⟩ : BufTy).Contents (Elt F) → (⟨S1, .f32⟩ : BufTy).Contents (Elt F)) (A V main_cst_0) := by
  unfold A
  rw [after_take_drop ops 6 V]
  generalize after (List.take 6 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v5 (V : Valuation τ sig (Elt F)) :
    A V main_v5 = (maximumf : (⟨S1, .f32⟩ : BufTy).Contents (Elt F) → (⟨S1, .f32⟩ : BufTy).Contents (Elt F) → (⟨S1, .f32⟩ : BufTy).Contents (Elt F)) (A V main_v4) (A V main_v3) := by
  unfold A
  rw [after_take_drop ops 7 V]
  generalize after (List.take 7 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v6 (V : Valuation τ sig (Elt F)) :
    A V main_v6 = (broadcastInDim S1x1 ![1] bcast_S1_S1x1_1 : (⟨S1, .f32⟩ : BufTy).Contents (Elt F) → (⟨S1x1, .f32⟩ : BufTy).Contents (Elt F)) (A V main_v5) := by
  unfold A
  rw [after_take_drop ops 8 V]
  generalize after (List.take 8 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v7 (V : Valuation τ sig (Elt F)) :
    A V main_v7 = (broadcastInDim S16384x1 ![0, 1] bcast_S1x1_S16384x1_0_1 : (⟨S1x1, .f32⟩ : BufTy).Contents (Elt F) → (⟨S16384x1, .f32⟩ : BufTy).Contents (Elt F)) (A V main_v6) := by
  unfold A
  rw [after_take_drop ops 9 V]
  generalize after (List.take 9 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v8 (V : Valuation τ sig (Elt F)) :
    A V main_v8 = (subf : (⟨S16384x1, .f32⟩ : BufTy).Contents (Elt F) → (⟨S16384x1, .f32⟩ : BufTy).Contents (Elt F) → (⟨S16384x1, .f32⟩ : BufTy).Contents (Elt F)) (A V main_v2) (A V main_v7) := by
  unfold A
  rw [after_take_drop ops 10 V]
  generalize after (List.take 10 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v9 (V : Valuation τ sig (Elt F)) :
    A V main_v9 = (Host.exp : (⟨S16384x1, .f32⟩ : BufTy).Contents (Elt F) → (⟨S16384x1, .f32⟩ : BufTy).Contents (Elt F)) (A V main_v8) := by
  unfold A
  rw [after_take_drop ops 11 V]
  generalize after (List.take 11 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_cst_1 (V : Valuation τ sig (Elt F)) :
    A V main_cst_1 = (constant S_ .f32 0x00000000#32 : (⟨S_, .f32⟩ : BufTy).Contents (Elt F)) := by
  unfold A
  rw [after_take_drop ops 12 V]
  generalize after (List.take 12 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v10 (V : Valuation τ sig (Elt F)) :
    A V main_v10 = ((fun x v => Host.reduceAdd x v reducesTo_S16384x1_S1_d0 h_S_) : (⟨S16384x1, .f32⟩ : BufTy).Contents (Elt F) → (⟨S_, .f32⟩ : BufTy).Contents (Elt F) → (⟨S1, .f32⟩ : BufTy).Contents (Elt F)) (A V main_v9) (A V main_cst_1) := by
  unfold A
  rw [after_take_drop ops 13 V]
  generalize after (List.take 13 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v11 (V : Valuation τ sig (Elt F)) :
    A V main_v11 = (broadcastInDim S1x1 ![1] bcast_S1_S1x1_1 : (⟨S1, .f32⟩ : BufTy).Contents (Elt F) → (⟨S1x1, .f32⟩ : BufTy).Contents (Elt F)) (A V main_v10) := by
  unfold A
  rw [after_take_drop ops 14 V]
  generalize after (List.take 14 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

end Cert.ReferenceIdeal.HandRun

end
-- ==== Proof.RefRec1.lean ====
import proofs.«146633_j61375082660584_2_alg».proof.Proof.RefAfter

/-!
# What each operation of the reference leaves in its result buffer

Every buffer of the line is written by exactly one operation and read only by later ones.  So
after the whole line, the result buffer of an operation holds that operation's function of what
its operand buffers hold after the whole line.  One such equation per operation; the contents
before the operation stay an unknown throughout.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem rec_main_v12 (V : Valuation τ sig (Elt F)) :
    A V main_v12 = (broadcastInDim S16384x1 ![0, 1] bcast_S1x1_S16384x1_0_1 : (⟨S1x1, .f32⟩ : BufTy).Contents (Elt F) → (⟨S16384x1, .f32⟩ : BufTy).Contents (Elt F)) (A V main_v11) := by
  unfold A
  rw [after_take_drop ops 15 V]
  generalize after (List.take 15 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v13 (V : Valuation τ sig (Elt F)) :
    A V main_v13 = (Host.divf : (⟨S16384x1, .f32⟩ : BufTy).Contents (Elt F) → (⟨S16384x1, .f32⟩ : BufTy).Contents (Elt F) → (⟨S16384x1, .f32⟩ : BufTy).Contents (Elt F)) (A V main_v9) (A V main_v12) := by
  unfold A
  rw [after_take_drop ops 16 V]
  generalize after (List.take 16 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v14 (V : Valuation τ sig (Elt F)) :
    A V main_v14 = ((transpose S1x16384 [1, 0] · transposes_S16384x1_S1x16384_1_0) : (⟨S16384x1, .f32⟩ : BufTy).Contents (Elt F) → (⟨S1x16384, .f32⟩ : BufTy).Contents (Elt F)) (A V main_v13) := by
  unfold A
  rw [after_take_drop ops 17 V]
  generalize after (List.take 17 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v15 (V : Valuation τ sig (Elt F)) :
    A V main_v15 = ((fun l r => Host.dotGeneral dot_S1x16384_S16384x1024_S1x1024_1_0_0_1_n_n none l r) : (⟨S1x16384, .f32⟩ : BufTy).Contents (Elt F) → (⟨S16384x1024, .f32⟩ : BufTy).Contents (Elt F) → (⟨S1x1024, .f32⟩ : BufTy).Contents (Elt F)) (A V main_v14) (A V main_arg3) := by
  unfold A
  rw [after_take_drop ops 18 V]
  generalize after (List.take 18 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v16 (V : Valuation τ sig (Elt F)) :
    A V main_v16 = ((fun a b => concatenate S1x1792 1 [⟨S1x768, a⟩, ⟨S1x1024, b⟩] concatenates_S1x768_S1x1024_S1x1792_d1) : (⟨S1x768, .f32⟩ : BufTy).Contents (Elt F) → (⟨S1x1024, .f32⟩ : BufTy).Contents (Elt F) → (⟨S1x1792, .f32⟩ : BufTy).Contents (Elt F)) (A V main_arg0) (A V main_v15) := by
  unfold A
  rw [after_take_drop ops 19 V]
  generalize after (List.take 19 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v17 (V : Valuation τ sig (Elt F)) :
    A V main_v17 = ((transpose S1792x1 [1, 0] · transposes_S1x1792_S1792x1_1_0) : (⟨S1x1792, .f32⟩ : BufTy).Contents (Elt F) → (⟨S1792x1, .f32⟩ : BufTy).Contents (Elt F)) (A V main_arg8) := by
  unfold A
  rw [after_take_drop ops 20 V]
  generalize after (List.take 20 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v18 (V : Valuation τ sig (Elt F)) :
    A V main_v18 = ((fun l r => Host.dotGeneral dot_S1x1792_S1792x1_S1x1_1_0_0_1_n_n none l r) : (⟨S1x1792, .f32⟩ : BufTy).Contents (Elt F) → (⟨S1792x1, .f32⟩ : BufTy).Contents (Elt F) → (⟨S1x1, .f32⟩ : BufTy).Contents (Elt F)) (A V main_v16) (A V main_v17) := by
  unfold A
  rw [after_take_drop ops 21 V]
  generalize after (List.take 21 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v19 (V : Valuation τ sig (Elt F)) :
    A V main_v19 = (broadcastInDim S1x1 ![1] bcast_S1_S1x1_1 : (⟨S1, .f32⟩ : BufTy).Contents (Elt F) → (⟨S1x1, .f32⟩ : BufTy).Contents (Elt F)) (A V main_arg9) := by
  unfold A
  rw [after_take_drop ops 22 V]
  generalize after (List.take 22 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v20 (V : Valuation τ sig (Elt F)) :
    A V main_v20 = (addf : (⟨S1x1, .f32⟩ : BufTy).Contents (Elt F) → (⟨S1x1, .f32⟩ : BufTy).Contents (Elt F) → (⟨S1x1, .f32⟩ : BufTy).Contents (Elt F)) (A V main_v18) (A V main_v19) := by
  unfold A
  rw [after_take_drop ops 23 V]
  generalize after (List.take 23 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_cst_2 (V : Valuation τ sig (Elt F)) :
    A V main_cst_2 = (constant S_ .f32 0x00000000#32 : (⟨S_, .f32⟩ : BufTy).Contents (Elt F)) := by
  unfold A
  rw [after_take_drop ops 24 V]
  generalize after (List.take 24 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v21 (V : Valuation τ sig (Elt F)) :
    A V main_v21 = (broadcastInDim S1x768 ![] bcast_S_S1x768 : (⟨S_, .f32⟩ : BufTy).Contents (Elt F) → (⟨S1x768, .f32⟩ : BufTy).Contents (Elt F)) (A V main_cst_2) := by
  unfold A
  rw [after_take_drop ops 25 V]
  generalize after (List.take 25 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_cst_3 (V : Valuation τ sig (Elt F)) :
    A V main_cst_3 = (constant S_ .f32 0x3F000000#32 : (⟨S_, .f32⟩ : BufTy).Contents (Elt F)) := by
  unfold A
  rw [after_take_drop ops 26 V]
  generalize after (List.take 26 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v22 (V : Valuation τ sig (Elt F)) :
    A V main_v22 = (broadcastInDim S1 ![] bcast_S_S1 : (⟨S_, .f32⟩ : BufTy).Contents (Elt F) → (⟨S1, .f32⟩ : BufTy).Contents (Elt F)) (A V main_cst_3) := by
  unfold A
  rw [after_take_drop ops 27 V]
  generalize after (List.take 27 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v23 (V : Valuation τ sig (Elt F)) :
    A V main_v23 = (cmpf .oge : (⟨S1, .f32⟩ : BufTy).Contents (Elt F) → (⟨S1, .f32⟩ : BufTy).Contents (Elt F) → (⟨S1, .i1⟩ : BufTy).Contents (Elt F)) (A V main_arg1) (A V main_v22) := by
  unfold A
  rw [after_take_drop ops 28 V]
  generalize after (List.take 28 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v24 (V : Valuation τ sig (Elt F)) :
    A V main_v24 = ((fun a b => concatenate S1x1536 1 [⟨S1x768, a⟩, ⟨S1x768, b⟩] concatenates_S1x768_S1x768_S1x1536_d1) : (⟨S1x768, .f32⟩ : BufTy).Contents (Elt F) → (⟨S1x768, .f32⟩ : BufTy).Contents (Elt F) → (⟨S1x1536, .f32⟩ : BufTy).Contents (Elt F)) (A V main_arg0) (A V main_v21) := by
  unfold A
  rw [after_take_drop ops 29 V]
  generalize after (List.take 29 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

end Cert.ReferenceIdeal.HandRun

end
-- ==== Proof.RefRec2.lean ====
import proofs.«146633_j61375082660584_2_alg».proof.Proof.RefAfter

/-!
# What each operation of the reference leaves in its result buffer

Every buffer of the line is written by exactly one operation and read only by later ones.  So
after the whole line, the result buffer of an operation holds that operation's function of what
its operand buffers hold after the whole line.  One such equation per operation; the contents
before the operation stay an unknown throughout.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem rec_main_v25 (V : Valuation τ sig (Elt F)) :
    A V main_v25 = ((fun a b => concatenate S1x1536 1 [⟨S1x768, a⟩, ⟨S1x768, b⟩] concatenates_S1x768_S1x768_S1x1536_d1) : (⟨S1x768, .f32⟩ : BufTy).Contents (Elt F) → (⟨S1x768, .f32⟩ : BufTy).Contents (Elt F) → (⟨S1x1536, .f32⟩ : BufTy).Contents (Elt F)) (A V main_v21) (A V main_arg0) := by
  unfold A
  rw [after_take_drop ops 30 V]
  generalize after (List.take 30 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_call0_v0 (V : Valuation τ sig (Elt F)) :
    A V main_call0_v0 = (broadcastInDim S1x1536 ![1] bcast_S1_S1x1536_1 : (⟨S1, .i1⟩ : BufTy).Contents (Elt F) → (⟨S1x1536, .i1⟩ : BufTy).Contents (Elt F)) (A V main_v23) := by
  unfold A
  rw [after_take_drop ops 31 V]
  generalize after (List.take 31 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v26 (V : Valuation τ sig (Elt F)) :
    A V main_v26 = (select : (⟨S1x1536, .i1⟩ : BufTy).Contents (Elt F) → (⟨S1x1536, .f32⟩ : BufTy).Contents (Elt F) → (⟨S1x1536, .f32⟩ : BufTy).Contents (Elt F) → (⟨S1x1536, .f32⟩ : BufTy).Contents (Elt F)) (A V main_call0_v0) (A V main_v24) (A V main_v25) := by
  unfold A
  rw [after_take_drop ops 32 V]
  generalize after (List.take 32 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v27 (V : Valuation τ sig (Elt F)) :
    A V main_v27 = ((transpose S1536x3072 [1, 0] · transposes_S3072x1536_S1536x3072_1_0) : (⟨S3072x1536, .f32⟩ : BufTy).Contents (Elt F) → (⟨S1536x3072, .f32⟩ : BufTy).Contents (Elt F)) (A V main_arg4) := by
  unfold A
  rw [after_take_drop ops 33 V]
  generalize after (List.take 33 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v28 (V : Valuation τ sig (Elt F)) :
    A V main_v28 = ((fun l r => Host.dotGeneral dot_S1x1536_S1536x3072_S1x3072_1_0_0_1_n_n none l r) : (⟨S1x1536, .f32⟩ : BufTy).Contents (Elt F) → (⟨S1536x3072, .f32⟩ : BufTy).Contents (Elt F) → (⟨S1x3072, .f32⟩ : BufTy).Contents (Elt F)) (A V main_v26) (A V main_v27) := by
  unfold A
  rw [after_take_drop ops 34 V]
  generalize after (List.take 34 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v29 (V : Valuation τ sig (Elt F)) :
    A V main_v29 = (broadcastInDim S1x3072 ![1] bcast_S3072_S1x3072_1 : (⟨S3072, .f32⟩ : BufTy).Contents (Elt F) → (⟨S1x3072, .f32⟩ : BufTy).Contents (Elt F)) (A V main_arg6) := by
  unfold A
  rw [after_take_drop ops 35 V]
  generalize after (List.take 35 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v30 (V : Valuation τ sig (Elt F)) :
    A V main_v30 = (addf : (⟨S1x3072, .f32⟩ : BufTy).Contents (Elt F) → (⟨S1x3072, .f32⟩ : BufTy).Contents (Elt F) → (⟨S1x3072, .f32⟩ : BufTy).Contents (Elt F)) (A V main_v28) (A V main_v29) := by
  unfold A
  rw [after_take_drop ops 36 V]
  generalize after (List.take 36 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v31 (V : Valuation τ sig (Elt F)) :
    A V main_v31 = ((transpose S1024x3072 [1, 0] · transposes_S3072x1024_S1024x3072_1_0) : (⟨S3072x1024, .f32⟩ : BufTy).Contents (Elt F) → (⟨S1024x3072, .f32⟩ : BufTy).Contents (Elt F)) (A V main_arg5) := by
  unfold A
  rw [after_take_drop ops 37 V]
  generalize after (List.take 37 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v32 (V : Valuation τ sig (Elt F)) :
    A V main_v32 = ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)) (A V main_v0) (A V main_v31) := by
  unfold A
  rw [after_take_drop ops 38 V]
  generalize after (List.take 38 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v33 (V : Valuation τ sig (Elt F)) :
    A V main_v33 = (broadcastInDim S1x3072 ![1] bcast_S3072_S1x3072_1 : (⟨S3072, .f32⟩ : BufTy).Contents (Elt F) → (⟨S1x3072, .f32⟩ : BufTy).Contents (Elt F)) (A V main_arg7) := by
  unfold A
  rw [after_take_drop ops 39 V]
  generalize after (List.take 39 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v34 (V : Valuation τ sig (Elt F)) :
    A V main_v34 = (addf : (⟨S1x3072, .f32⟩ : BufTy).Contents (Elt F) → (⟨S1x3072, .f32⟩ : BufTy).Contents (Elt F) → (⟨S1x3072, .f32⟩ : BufTy).Contents (Elt F)) (A V main_v32) (A V main_v33) := by
  unfold A
  rw [after_take_drop ops 40 V]
  generalize after (List.take 40 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v35 (V : Valuation τ sig (Elt F)) :
    A V main_v35 = ((extractStridedSlice S1x1024 ![0, 0] · slices_S1x3072_S1x1024_0_0) : (⟨S1x3072, .f32⟩ : BufTy).Contents (Elt F) → (⟨S1x1024, .f32⟩ : BufTy).Contents (Elt F)) (A V main_v30) := by
  unfold A
  rw [after_take_drop ops 41 V]
  generalize after (List.take 41 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v36 (V : Valuation τ sig (Elt F)) :
    A V main_v36 = ((extractStridedSlice S1x1024 ![0, 1024] · slices_S1x3072_S1x1024_0_1024) : (⟨S1x3072, .f32⟩ : BufTy).Contents (Elt F) → (⟨S1x1024, .f32⟩ : BufTy).Contents (Elt F)) (A V main_v30) := by
  unfold A
  rw [after_take_drop ops 42 V]
  generalize after (List.take 42 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v37 (V : Valuation τ sig (Elt F)) :
    A V main_v37 = ((extractStridedSlice S1x1024 ![0, 2048] · slices_S1x3072_S1x1024_0_2048) : (⟨S1x3072, .f32⟩ : BufTy).Contents (Elt F) → (⟨S1x1024, .f32⟩ : BufTy).Contents (Elt F)) (A V main_v30) := by
  unfold A
  rw [after_take_drop ops 43 V]
  generalize after (List.take 43 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v38 (V : Valuation τ sig (Elt F)) :
    A V main_v38 = ((extractStridedSlice S1x1024 ![0, 0] · slices_S1x3072_S1x1024_0_0) : (⟨S1x3072, .f32⟩ : BufTy).Contents (Elt F) → (⟨S1x1024, .f32⟩ : BufTy).Contents (Elt F)) (A V main_v34) := by
  unfold A
  rw [after_take_drop ops 44 V]
  generalize after (List.take 44 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

end Cert.ReferenceIdeal.HandRun

end
-- ==== Proof.RefRec3.lean ====
import proofs.«146633_j61375082660584_2_alg».proof.Proof.RefAfter

/-!
# What each operation of the reference leaves in its result buffer

Every buffer of the line is written by exactly one operation and read only by later ones.  So
after the whole line, the result buffer of an operation holds that operation's function of what
its operand buffers hold after the whole line.  One such equation per operation; the contents
before the operation stay an unknown throughout.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem rec_main_v39 (V : Valuation τ sig (Elt F)) :
    A V main_v39 = ((extractStridedSlice S1x1024 ![0, 1024] · slices_S1x3072_S1x1024_0_1024) : (⟨S1x3072, .f32⟩ : BufTy).Contents (Elt F) → (⟨S1x1024, .f32⟩ : BufTy).Contents (Elt F)) (A V main_v34) := by
  unfold A
  rw [after_take_drop ops 45 V]
  generalize after (List.take 45 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v40 (V : Valuation τ sig (Elt F)) :
    A V main_v40 = ((extractStridedSlice S1x1024 ![0, 2048] · slices_S1x3072_S1x1024_0_2048) : (⟨S1x3072, .f32⟩ : BufTy).Contents (Elt F) → (⟨S1x1024, .f32⟩ : BufTy).Contents (Elt F)) (A V main_v34) := by
  unfold A
  rw [after_take_drop ops 46 V]
  generalize after (List.take 46 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v41 (V : Valuation τ sig (Elt F)) :
    A V main_v41 = (addf : (⟨S1x1024, .f32⟩ : BufTy).Contents (Elt F) → (⟨S1x1024, .f32⟩ : BufTy).Contents (Elt F) → (⟨S1x1024, .f32⟩ : BufTy).Contents (Elt F)) (A V main_v35) (A V main_v38) := by
  unfold A
  rw [after_take_drop ops 47 V]
  generalize after (List.take 47 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v42 (V : Valuation τ sig (Elt F)) :
    A V main_v42 = (Host.negf : (⟨S1x1024, .f32⟩ : BufTy).Contents (Elt F) → (⟨S1x1024, .f32⟩ : BufTy).Contents (Elt F)) (A V main_v41) := by
  unfold A
  rw [after_take_drop ops 48 V]
  generalize after (List.take 48 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v43 (V : Valuation τ sig (Elt F)) :
    A V main_v43 = (Host.exp : (⟨S1x1024, .f32⟩ : BufTy).Contents (Elt F) → (⟨S1x1024, .f32⟩ : BufTy).Contents (Elt F)) (A V main_v42) := by
  unfold A
  rw [after_take_drop ops 49 V]
  generalize after (List.take 49 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_cst_4 (V : Valuation τ sig (Elt F)) :
    A V main_cst_4 = (constant S_ .f32 0x3F800000#32 : (⟨S_, .f32⟩ : BufTy).Contents (Elt F)) := by
  unfold A
  rw [after_take_drop ops 50 V]
  generalize after (List.take 50 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v44 (V : Valuation τ sig (Elt F)) :
    A V main_v44 = (broadcastInDim S1x1024 ![] bcast_S_S1x1024 : (⟨S_, .f32⟩ : BufTy).Contents (Elt F) → (⟨S1x1024, .f32⟩ : BufTy).Contents (Elt F)) (A V main_cst_4) := by
  unfold A
  rw [after_take_drop ops 51 V]
  generalize after (List.take 51 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v45 (V : Valuation τ sig (Elt F)) :
    A V main_v45 = (addf : (⟨S1x1024, .f32⟩ : BufTy).Contents (Elt F) → (⟨S1x1024, .f32⟩ : BufTy).Contents (Elt F) → (⟨S1x1024, .f32⟩ : BufTy).Contents (Elt F)) (A V main_v44) (A V main_v43) := by
  unfold A
  rw [after_take_drop ops 52 V]
  generalize after (List.take 52 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_cst_5 (V : Valuation τ sig (Elt F)) :
    A V main_cst_5 = (constant S_ .f32 0x3F800000#32 : (⟨S_, .f32⟩ : BufTy).Contents (Elt F)) := by
  unfold A
  rw [after_take_drop ops 53 V]
  generalize after (List.take 53 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v46 (V : Valuation τ sig (Elt F)) :
    A V main_v46 = (broadcastInDim S1x1024 ![] bcast_S_S1x1024 : (⟨S_, .f32⟩ : BufTy).Contents (Elt F) → (⟨S1x1024, .f32⟩ : BufTy).Contents (Elt F)) (A V main_cst_5) := by
  unfold A
  rw [after_take_drop ops 54 V]
  generalize after (List.take 54 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v47 (V : Valuation τ sig (Elt F)) :
    A V main_v47 = (Host.divf : (⟨S1x1024, .f32⟩ : BufTy).Contents (Elt F) → (⟨S1x1024, .f32⟩ : BufTy).Contents (Elt F) → (⟨S1x1024, .f32⟩ : BufTy).Contents (Elt F)) (A V main_v46) (A V main_v45) := by
  unfold A
  rw [after_take_drop ops 55 V]
  generalize after (List.take 55 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v48 (V : Valuation τ sig (Elt F)) :
    A V main_v48 = (addf : (⟨S1x1024, .f32⟩ : BufTy).Contents (Elt F) → (⟨S1x1024, .f32⟩ : BufTy).Contents (Elt F) → (⟨S1x1024, .f32⟩ : BufTy).Contents (Elt F)) (A V main_v36) (A V main_v39) := by
  unfold A
  rw [after_take_drop ops 56 V]
  generalize after (List.take 56 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v49 (V : Valuation τ sig (Elt F)) :
    A V main_v49 = (Host.negf : (⟨S1x1024, .f32⟩ : BufTy).Contents (Elt F) → (⟨S1x1024, .f32⟩ : BufTy).Contents (Elt F)) (A V main_v48) := by
  unfold A
  rw [after_take_drop ops 57 V]
  generalize after (List.take 57 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v50 (V : Valuation τ sig (Elt F)) :
    A V main_v50 = (Host.exp : (⟨S1x1024, .f32⟩ : BufTy).Contents (Elt F) → (⟨S1x1024, .f32⟩ : BufTy).Contents (Elt F)) (A V main_v49) := by
  unfold A
  rw [after_take_drop ops 58 V]
  generalize after (List.take 58 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_cst_6 (V : Valuation τ sig (Elt F)) :
    A V main_cst_6 = (constant S_ .f32 0x3F800000#32 : (⟨S_, .f32⟩ : BufTy).Contents (Elt F)) := by
  unfold A
  rw [after_take_drop ops 59 V]
  generalize after (List.take 59 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

end Cert.ReferenceIdeal.HandRun

end
-- ==== Proof.RefRec4.lean ====
import proofs.«146633_j61375082660584_2_alg».proof.Proof.RefAfter

/-!
# What each operation of the reference leaves in its result buffer

Every buffer of the line is written by exactly one operation and read only by later ones.  So
after the whole line, the result buffer of an operation holds that operation's function of what
its operand buffers hold after the whole line.  One such equation per operation; the contents
before the operation stay an unknown throughout.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem rec_main_v51 (V : Valuation τ sig (Elt F)) :
    A V main_v51 = (broadcastInDim S1x1024 ![] bcast_S_S1x1024 : (⟨S_, .f32⟩ : BufTy).Contents (Elt F) → (⟨S1x1024, .f32⟩ : BufTy).Contents (Elt F)) (A V main_cst_6) := by
  unfold A
  rw [after_take_drop ops 60 V]
  generalize after (List.take 60 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v52 (V : Valuation τ sig (Elt F)) :
    A V main_v52 = (addf : (⟨S1x1024, .f32⟩ : BufTy).Contents (Elt F) → (⟨S1x1024, .f32⟩ : BufTy).Contents (Elt F) → (⟨S1x1024, .f32⟩ : BufTy).Contents (Elt F)) (A V main_v51) (A V main_v50) := by
  unfold A
  rw [after_take_drop ops 61 V]
  generalize after (List.take 61 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_cst_7 (V : Valuation τ sig (Elt F)) :
    A V main_cst_7 = (constant S_ .f32 0x3F800000#32 : (⟨S_, .f32⟩ : BufTy).Contents (Elt F)) := by
  unfold A
  rw [after_take_drop ops 62 V]
  generalize after (List.take 62 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v53 (V : Valuation τ sig (Elt F)) :
    A V main_v53 = (broadcastInDim S1x1024 ![] bcast_S_S1x1024 : (⟨S_, .f32⟩ : BufTy).Contents (Elt F) → (⟨S1x1024, .f32⟩ : BufTy).Contents (Elt F)) (A V main_cst_7) := by
  unfold A
  rw [after_take_drop ops 63 V]
  generalize after (List.take 63 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v54 (V : Valuation τ sig (Elt F)) :
    A V main_v54 = (Host.divf : (⟨S1x1024, .f32⟩ : BufTy).Contents (Elt F) → (⟨S1x1024, .f32⟩ : BufTy).Contents (Elt F) → (⟨S1x1024, .f32⟩ : BufTy).Contents (Elt F)) (A V main_v53) (A V main_v52) := by
  unfold A
  rw [after_take_drop ops 64 V]
  generalize after (List.take 64 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v55 (V : Valuation τ sig (Elt F)) :
    A V main_v55 = (mulf : (⟨S1x1024, .f32⟩ : BufTy).Contents (Elt F) → (⟨S1x1024, .f32⟩ : BufTy).Contents (Elt F) → (⟨S1x1024, .f32⟩ : BufTy).Contents (Elt F)) (A V main_v47) (A V main_v40) := by
  unfold A
  rw [after_take_drop ops 65 V]
  generalize after (List.take 65 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v56 (V : Valuation τ sig (Elt F)) :
    A V main_v56 = (addf : (⟨S1x1024, .f32⟩ : BufTy).Contents (Elt F) → (⟨S1x1024, .f32⟩ : BufTy).Contents (Elt F) → (⟨S1x1024, .f32⟩ : BufTy).Contents (Elt F)) (A V main_v37) (A V main_v55) := by
  unfold A
  rw [after_take_drop ops 66 V]
  generalize after (List.take 66 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v57 (V : Valuation τ sig (Elt F)) :
    A V main_v57 = (Host.tanh : (⟨S1x1024, .f32⟩ : BufTy).Contents (Elt F) → (⟨S1x1024, .f32⟩ : BufTy).Contents (Elt F)) (A V main_v56) := by
  unfold A
  rw [after_take_drop ops 67 V]
  generalize after (List.take 67 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_cst_8 (V : Valuation τ sig (Elt F)) :
    A V main_cst_8 = (constant S_ .f32 0x3F800000#32 : (⟨S_, .f32⟩ : BufTy).Contents (Elt F)) := by
  unfold A
  rw [after_take_drop ops 68 V]
  generalize after (List.take 68 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v58 (V : Valuation τ sig (Elt F)) :
    A V main_v58 = (broadcastInDim S1x1024 ![] bcast_S_S1x1024 : (⟨S_, .f32⟩ : BufTy).Contents (Elt F) → (⟨S1x1024, .f32⟩ : BufTy).Contents (Elt F)) (A V main_cst_8) := by
  unfold A
  rw [after_take_drop ops 69 V]
  generalize after (List.take 69 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v59 (V : Valuation τ sig (Elt F)) :
    A V main_v59 = (subf : (⟨S1x1024, .f32⟩ : BufTy).Contents (Elt F) → (⟨S1x1024, .f32⟩ : BufTy).Contents (Elt F) → (⟨S1x1024, .f32⟩ : BufTy).Contents (Elt F)) (A V main_v58) (A V main_v54) := by
  unfold A
  rw [after_take_drop ops 70 V]
  generalize after (List.take 70 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v60 (V : Valuation τ sig (Elt F)) :
    A V main_v60 = (mulf : (⟨S1x1024, .f32⟩ : BufTy).Contents (Elt F) → (⟨S1x1024, .f32⟩ : BufTy).Contents (Elt F) → (⟨S1x1024, .f32⟩ : BufTy).Contents (Elt F)) (A V main_v59) (A V main_v57) := by
  unfold A
  rw [after_take_drop ops 71 V]
  generalize after (List.take 71 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v61 (V : Valuation τ sig (Elt F)) :
    A V main_v61 = (mulf : (⟨S1x1024, .f32⟩ : BufTy).Contents (Elt F) → (⟨S1x1024, .f32⟩ : BufTy).Contents (Elt F) → (⟨S1x1024, .f32⟩ : BufTy).Contents (Elt F)) (A V main_v54) (A V main_v0) := by
  unfold A
  rw [after_take_drop ops 72 V]
  generalize after (List.take 72 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v62 (V : Valuation τ sig (Elt F)) :
    A V main_v62 = (addf : (⟨S1x1024, .f32⟩ : BufTy).Contents (Elt F) → (⟨S1x1024, .f32⟩ : BufTy).Contents (Elt F) → (⟨S1x1024, .f32⟩ : BufTy).Contents (Elt F)) (A V main_v60) (A V main_v61) := by
  unfold A
  rw [after_take_drop ops 73 V]
  generalize after (List.take 73 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

set_option maxRecDepth 65536 in
set_option maxHeartbeats 4000000 in
theorem rec_main_v63 (V : Valuation τ sig (Elt F)) :
    A V main_v63 = shapeCast S1 (A V main_v20) shapeCasts_S1x1_S1 := by
  unfold A
  rw [after_take_drop ops 74 V]
  generalize after (List.take 74 ops) V = W
  simp (disch := decide) only [List.drop_succ_cons, List.drop_zero, after_cons, after_nil,
      nullary_result', unary_result', binary_result', ternary_result', reshape_result',
      nullary_result_ne', unary_result_ne', binary_result_ne', ternary_result_ne', reshape_result_ne'] <;> rfl

end Cert.ReferenceIdeal.HandRun

end
-- ==== Proof.RefDefs.lean ====
import proofs.«146633_j61375082660584_2_alg».proof.Proof.Gen.ReferenceIdeal

/-!
# The reference's intermediate values as functions of its arguments

The attention row: the scores of the 16384 rows against the query, their maximum, the exponentials
of the scores less the maximum, the sum of those, the quotients (the softmax weights), and the
weighted sum of the rows of the hidden states.  The two affine maps of the recurrent cell: the
input one applied to the query padded with zeros on one side or the other (which side is decided
by comparing `result` with one half), the hidden one applied to the last hidden state.  Each
definition is one or two host operations applied to the previous values, so that each can be read
at an index on its own.
-/

noncomputable section

namespace Cert.ReferenceIdeal.Stages

open Cert.ReferenceIdeal Cert.ReferenceIdeal.Gen Idealize.ShloMosaic

variable {F : FTy → Type} [FloatOps F]

/-- The scores: every row of `text_s` against the query (as a column). -/
def scores (x0 : (⟨S1x768, .f32⟩ : BufTy).Contents (Elt F)) (x2 : (⟨S16384x768, .f32⟩ : BufTy).Contents (Elt F)) : (⟨S16384x1, .f32⟩ : BufTy).Contents (Elt F) :=
  Host.dotGeneral dot_S16384x768_S768x1_S16384x1_1_0_0_1_n_n none x2
    (transpose S768x1 [1, 0] x0 transposes_S1x768_S768x1_1_0)

/-- The maximum of the scores (started from, and then once more joined with, minus infinity). -/
def smax (s : (⟨S16384x1, .f32⟩ : BufTy).Contents (Elt F)) : (⟨S1, .f32⟩ : BufTy).Contents (Elt F) :=
  maximumf (broadcastInDim S1 ![] bcast_S_S1 (constant S_ .f32 0xFF800000#32))
    (Host.reduce FloatOps.maximumf s (constant S_ .f32 0xFF800000#32) reducesTo_S16384x1_S1_d0 h_S_)

/-- A one-element row spread down a column of 16384. -/
def spread (M : (⟨S1, .f32⟩ : BufTy).Contents (Elt F)) : (⟨S16384x1, .f32⟩ : BufTy).Contents (Elt F) :=
  broadcastInDim S16384x1 ![0, 1] bcast_S1x1_S16384x1_0_1 (broadcastInDim S1x1 ![1] bcast_S1_S1x1_1 M)

/-- The exponentials of the scores less the level `M`. -/
def shifted (s : (⟨S16384x1, .f32⟩ : BufTy).Contents (Elt F)) (M : (⟨S1, .f32⟩ : BufTy).Contents (Elt F)) : (⟨S16384x1, .f32⟩ : BufTy).Contents (Elt F) :=
  Host.exp (subf s (spread M))

/-- The sum of a column of 16384. -/
def esum (e : (⟨S16384x1, .f32⟩ : BufTy).Contents (Elt F)) : (⟨S1, .f32⟩ : BufTy).Contents (Elt F) :=
  Host.reduceAdd e (constant S_ .f32 0x00000000#32) reducesTo_S16384x1_S1_d0 h_S_

/-- Every element divided by `Z`. -/
def alpha (e : (⟨S16384x1, .f32⟩ : BufTy).Contents (Elt F)) (Z : (⟨S1, .f32⟩ : BufTy).Contents (Elt F)) : (⟨S16384x1, .f32⟩ : BufTy).Contents (Elt F) :=
  Host.divf e (spread Z)

/-- The weights (as a row) against the rows of `hidden_s`. -/
def wsum (a : (⟨S16384x1, .f32⟩ : BufTy).Contents (Elt F)) (x3 : (⟨S16384x1024, .f32⟩ : BufTy).Contents (Elt F)) : (⟨S1x1024, .f32⟩ : BufTy).Contents (Elt F) :=
  Host.dotGeneral dot_S1x16384_S16384x1024_S1x1024_1_0_0_1_n_n none
    (transpose S1x16384 [1, 0] a transposes_S16384x1_S1x16384_1_0) x3

/-- The softmax weights of a column of scores. -/
def weights (s : (⟨S16384x1, .f32⟩ : BufTy).Contents (Elt F)) : (⟨S16384x1, .f32⟩ : BufTy).Contents (Elt F) :=
  alpha (shifted s (smax s)) (esum (shifted s (smax s)))

/-- The attention row. -/
def attn (x0 : (⟨S1x768, .f32⟩ : BufTy).Contents (Elt F)) (x2 : (⟨S16384x768, .f32⟩ : BufTy).Contents (Elt F)) (x3 : (⟨S16384x1024, .f32⟩ : BufTy).Contents (Elt F)) : (⟨S1x1024, .f32⟩ : BufTy).Contents (Elt F) :=
  wsum (weights (scores x0 x2)) x3

/-- The last row of `hidden_s`. -/
def hrow (x3 : (⟨S16384x1024, .f32⟩ : BufTy).Contents (Elt F)) : (⟨S1x1024, .f32⟩ : BufTy).Contents (Elt F) :=
  extractStridedSlice S1x1024 ![16383, 0] x3 slices_S16384x1024_S1x1024_16383_0

/-- A row of 768 zeros. -/
def zeros : (⟨S1x768, .f32⟩ : BufTy).Contents (Elt F) :=
  broadcastInDim S1x768 ![] bcast_S_S1x768 (constant S_ .f32 0x00000000#32)

/-- The comparison of `result` with one half, spread over a row of 1536. -/
def cond (x1 : (⟨S1, .f32⟩ : BufTy).Contents (Elt F)) : (⟨S1x1536, .i1⟩ : BufTy).Contents (Elt F) :=
  broadcastInDim S1x1536 ![1] bcast_S1_S1x1536_1
    (cmpf .oge x1 (broadcastInDim S1 ![] bcast_S_S1 (constant S_ .f32 0x3F000000#32)))

/-- The padded query: the query then zeros where the comparison holds, zeros then the query where not. -/
def xr (x0 : (⟨S1x768, .f32⟩ : BufTy).Contents (Elt F)) (x1 : (⟨S1, .f32⟩ : BufTy).Contents (Elt F)) : (⟨S1x1536, .f32⟩ : BufTy).Contents (Elt F) :=
  select (cond x1)
    (concatenate S1x1536 1 [⟨S1x768, x0⟩, ⟨S1x768, zeros (F := F)⟩] concatenates_S1x768_S1x768_S1x1536_d1)
    (concatenate S1x1536 1 [⟨S1x768, zeros (F := F)⟩, ⟨S1x768, x0⟩] concatenates_S1x768_S1x768_S1x1536_d1)

/-- A row of 1536 against the rows of `W`, plus `b`. -/
def affine1536 (x : (⟨S1x1536, .f32⟩ : BufTy).Contents (Elt F)) (W : (⟨S3072x1536, .f32⟩ : BufTy).Contents (Elt F)) (b : (⟨S3072, .f32⟩ : BufTy).Contents (Elt F)) : (⟨S1x3072, .f32⟩ : BufTy).Contents (Elt F) :=
  addf (Host.dotGeneral dot_S1x1536_S1536x3072_S1x3072_1_0_0_1_n_n none x
      (transpose S1536x3072 [1, 0] W transposes_S3072x1536_S1536x3072_1_0))
    (broadcastInDim S1x3072 ![1] bcast_S3072_S1x3072_1 b)

/-- A row of 1024 against the rows of `W`, plus `b`. -/
def affine1024 (x : (⟨S1x1024, .f32⟩ : BufTy).Contents (Elt F)) (W : (⟨S3072x1024, .f32⟩ : BufTy).Contents (Elt F)) (b : (⟨S3072, .f32⟩ : BufTy).Contents (Elt F)) : (⟨S1x3072, .f32⟩ : BufTy).Contents (Elt F) :=
  addf (Host.dotGeneral dot_S1x1024_S1024x3072_S1x3072_1_0_0_1_n_n none x
      (transpose S1024x3072 [1, 0] W transposes_S3072x1024_S1024x3072_1_0))
    (broadcastInDim S1x3072 ![1] bcast_S3072_S1x3072_1 b)

/-- The input affine map of the cell. -/
def gi (x0 : (⟨S1x768, .f32⟩ : BufTy).Contents (Elt F)) (x1 : (⟨S1, .f32⟩ : BufTy).Contents (Elt F)) (x4 : (⟨S3072x1536, .f32⟩ : BufTy).Contents (Elt F)) (x6 : (⟨S3072, .f32⟩ : BufTy).Contents (Elt F)) : (⟨S1x3072, .f32⟩ : BufTy).Contents (Elt F) :=
  affine1536 (xr x0 x1) x4 x6

/-- The hidden affine map of the cell. -/
def gh (x3 : (⟨S16384x1024, .f32⟩ : BufTy).Contents (Elt F)) (x5 : (⟨S3072x1024, .f32⟩ : BufTy).Contents (Elt F)) (x7 : (⟨S3072, .f32⟩ : BufTy).Contents (Elt F)) : (⟨S1x3072, .f32⟩ : BufTy).Contents (Elt F) :=
  affine1024 (hrow x3) x5 x7

end Cert.ReferenceIdeal.Stages

end
-- ==== Proof.RefTail.lean ====
import proofs.«146633_j61375082660584_2_alg».proof.Proof.Gen.ReferenceIdeal

/-!
# The recurrent cell and the score, as functions of four vectors

After the attention row, the input affine map `gi`, the hidden affine map `gh` and the last hidden
state `h` are known, both programs finish in the same way.  The new hidden state is that of a gated
recurrent cell: with `gi` and `gh` cut in three blocks of 1024,
`r = 1 / (1 + exp (-(gi₀ + gh₀)))`, `z = 1 / (1 + exp (-(gi₁ + gh₁)))`,
`n = tanh (gi₂ + r * gh₂)`, and the result is `(1 - z) * n + z * h`.  The score is the inner
product of the query joined with the attention row against the score weights, plus the bias.
They are written here once, in the host operations themselves, so that two programs that agree
on the four vectors agree on the results without either being opened.
-/

noncomputable section

namespace Cert.ReferenceIdeal.Tail

open Cert.ReferenceIdeal Cert.ReferenceIdeal.Gen Idealize.ShloMosaic

variable {F : FTy → Type} [FloatOps F]

/-- The constant row of ones. -/
def ones : (⟨S1x1024, .f32⟩ : BufTy).Contents (Elt F) :=
  broadcastInDim S1x1024 ![] bcast_S_S1x1024 (constant S_ .f32 0x3F800000#32)

/-- The logistic gate `1 / (1 + exp (-(a + b)))`, coordinate by coordinate. -/
def gate (a b : (⟨S1x1024, .f32⟩ : BufTy).Contents (Elt F)) : (⟨S1x1024, .f32⟩ : BufTy).Contents (Elt F) :=
  Host.divf (ones (F := F)) (addf (ones (F := F)) (Host.exp (Host.negf (addf a b))))

/-- The three blocks of 1024 columns of a row of 3072. -/
def blk0 (g : (⟨S1x3072, .f32⟩ : BufTy).Contents (Elt F)) : (⟨S1x1024, .f32⟩ : BufTy).Contents (Elt F) :=
  extractStridedSlice S1x1024 ![0, 0] g slices_S1x3072_S1x1024_0_0
def blk1 (g : (⟨S1x3072, .f32⟩ : BufTy).Contents (Elt F)) : (⟨S1x1024, .f32⟩ : BufTy).Contents (Elt F) :=
  extractStridedSlice S1x1024 ![0, 1024] g slices_S1x3072_S1x1024_0_1024
def blk2 (g : (⟨S1x3072, .f32⟩ : BufTy).Contents (Elt F)) : (⟨S1x1024, .f32⟩ : BufTy).Contents (Elt F) :=
  extractStridedSlice S1x1024 ![0, 2048] g slices_S1x3072_S1x1024_0_2048

/-- The new hidden state `(1 - z) * n + z * h` from `gi`, `gh` and the last hidden state `h`. -/
def cell (gi gh : (⟨S1x3072, .f32⟩ : BufTy).Contents (Elt F)) (h : (⟨S1x1024, .f32⟩ : BufTy).Contents (Elt F)) :
    (⟨S1x1024, .f32⟩ : BufTy).Contents (Elt F) :=
  addf
    (mulf (subf (ones (F := F)) (gate (blk1 gi) (blk1 gh)))
      (Host.tanh (addf (blk2 gi) (mulf (gate (blk0 gi) (blk0 gh)) (blk2 gh)))))
    (mulf (gate (blk1 gi) (blk1 gh)) h)

/-- The score: the query joined with the attention row, against the score weights, plus the bias. -/
def score (tv : (⟨S1x768, .f32⟩ : BufTy).Contents (Elt F)) (attn : (⟨S1x1024, .f32⟩ : BufTy).Contents (Elt F))
    (sW : (⟨S1x1792, .f32⟩ : BufTy).Contents (Elt F)) (sb : (⟨S1, .f32⟩ : BufTy).Contents (Elt F)) :
    (⟨S1, .f32⟩ : BufTy).Contents (Elt F) :=
  shapeCast S1
    (addf
      (Host.dotGeneral dot_S1x1792_S1792x1_S1x1_1_0_0_1_n_n none
        (concatenate S1x1792 1 [⟨S1x768, tv⟩, ⟨S1x1024, attn⟩] concatenates_S1x768_S1x1024_S1x1792_d1)
        (transpose S1792x1 [1, 0] sW transposes_S1x1792_S1792x1_1_0))
      (broadcastInDim S1x1 ![1] bcast_S1_S1x1_1 sb))
    shapeCasts_S1x1_S1

end Cert.ReferenceIdeal.Tail

end
-- ==== Proof.RefStages.lean ====
import proofs.«146633_j61375082660584_2_alg».proof.Proof.RefRec0
import proofs.«146633_j61375082660584_2_alg».proof.Proof.RefRec1
import proofs.«146633_j61375082660584_2_alg».proof.Proof.RefRec2
import proofs.«146633_j61375082660584_2_alg».proof.Proof.RefRec3
import proofs.«146633_j61375082660584_2_alg».proof.Proof.RefRec4
import proofs.«146633_j61375082660584_2_alg».proof.Proof.RefDefs
import proofs.«146633_j61375082660584_2_alg».proof.Proof.RefTail

/-!
# What the reference's buffers hold, as functions of the arguments

Chaining the one-operation equations: after the whole line the attention buffer holds the
attention row of the arguments, the two affine buffers hold the two affine maps, and the two
results are the score and the recurrent cell of those.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

theorem A_arg0 (V : Valuation τ sig (Elt F)) : A V main_arg0 = V (Proc.devRef .tc main_arg0) := after_arg0 V
theorem A_arg1 (V : Valuation τ sig (Elt F)) : A V main_arg1 = V (Proc.devRef .tc main_arg1) := after_arg1 V
theorem A_arg2 (V : Valuation τ sig (Elt F)) : A V main_arg2 = V (Proc.devRef .tc main_arg2) := after_arg2 V
theorem A_arg3 (V : Valuation τ sig (Elt F)) : A V main_arg3 = V (Proc.devRef .tc main_arg3) := after_arg3 V
theorem A_arg4 (V : Valuation τ sig (Elt F)) : A V main_arg4 = V (Proc.devRef .tc main_arg4) := after_arg4 V
theorem A_arg5 (V : Valuation τ sig (Elt F)) : A V main_arg5 = V (Proc.devRef .tc main_arg5) := after_arg5 V
theorem A_arg6 (V : Valuation τ sig (Elt F)) : A V main_arg6 = V (Proc.devRef .tc main_arg6) := after_arg6 V
theorem A_arg7 (V : Valuation τ sig (Elt F)) : A V main_arg7 = V (Proc.devRef .tc main_arg7) := after_arg7 V
theorem A_arg8 (V : Valuation τ sig (Elt F)) : A V main_arg8 = V (Proc.devRef .tc main_arg8) := after_arg8 V
theorem A_arg9 (V : Valuation τ sig (Elt F)) : A V main_arg9 = V (Proc.devRef .tc main_arg9) := after_arg9 V

set_option maxRecDepth 65536 in
set_option maxHeartbeats 4000000 in
/-- The attention buffer holds the attention row of `text_v`, `text_s`, `hidden_s`. -/
theorem attn_eq (V : Valuation τ sig (Elt F)) :
    A V main_v15 = Stages.attn (V (Proc.devRef .tc main_arg0)) (V (Proc.devRef .tc main_arg2)) (V (Proc.devRef .tc main_arg3)) := by
  rw [rec_main_v15, rec_main_v14, rec_main_v13, rec_main_v12, rec_main_v11, rec_main_v10, rec_main_cst_1, rec_main_v9, rec_main_v8, rec_main_v7, rec_main_v6, rec_main_v5, rec_main_v4, rec_main_cst_0, rec_main_v3, rec_main_cst, rec_main_v2, rec_main_v1, A_arg0, A_arg2, A_arg3]
  rfl

set_option maxRecDepth 65536 in
set_option maxHeartbeats 4000000 in
/-- The last hidden state. -/
theorem h_eq (V : Valuation τ sig (Elt F)) :
    A V main_v0 = Stages.hrow (V (Proc.devRef .tc main_arg3)) := by
  rw [rec_main_v0, A_arg3]
  rfl

set_option maxRecDepth 65536 in
set_option maxHeartbeats 4000000 in
/-- The input affine map. -/
theorem gi_eq (V : Valuation τ sig (Elt F)) :
    A V main_v30 = Stages.gi (V (Proc.devRef .tc main_arg0)) (V (Proc.devRef .tc main_arg1)) (V (Proc.devRef .tc main_arg4)) (V (Proc.devRef .tc main_arg6)) := by
  rw [rec_main_v30, rec_main_v29, rec_main_v28, rec_main_v27, rec_main_v26, rec_main_call0_v0, rec_main_v25, rec_main_v24, rec_main_v23, rec_main_v22, rec_main_cst_3, rec_main_v21, rec_main_cst_2, A_arg0, A_arg1, A_arg4, A_arg6]
  rfl

set_option maxRecDepth 65536 in
set_option maxHeartbeats 4000000 in
/-- The hidden affine map. -/
theorem gh_eq (V : Valuation τ sig (Elt F)) :
    A V main_v34 = Stages.gh (V (Proc.devRef .tc main_arg3)) (V (Proc.devRef .tc main_arg5)) (V (Proc.devRef .tc main_arg7)) := by
  rw [rec_main_v34, rec_main_v33, rec_main_v32, rec_main_v31, rec_main_v0, A_arg3, A_arg5, A_arg7]
  rfl

set_option maxRecDepth 65536 in
set_option maxHeartbeats 4000000 in
/-- The second result is the recurrent cell of the two affine maps and the last hidden state. -/
theorem cell_eq (V : Valuation τ sig (Elt F)) :
    A V main_v62 = Tail.cell (A V main_v30) (A V main_v34) (A V main_v0) := by
  rw [rec_main_v62, rec_main_v61, rec_main_v60, rec_main_v59, rec_main_v58, rec_main_v57, rec_main_v56, rec_main_v55, rec_main_v54, rec_main_v53, rec_main_v52, rec_main_v51, rec_main_v50, rec_main_v49, rec_main_v48, rec_main_v47, rec_main_v46, rec_main_v45, rec_main_v44, rec_main_v43, rec_main_v42, rec_main_v41, rec_main_v40, rec_main_v39, rec_main_v38, rec_main_v37, rec_main_v36, rec_main_v35, rec_main_cst_4, rec_main_cst_5, rec_main_cst_6, rec_main_cst_7, rec_main_cst_8]
  rfl

set_option maxRecDepth 65536 in
set_option maxHeartbeats 4000000 in
/-- The first result is the score of the query joined with the attention row. -/
theorem score_eq (V : Valuation τ sig (Elt F)) :
    A V main_v63 = Tail.score (V (Proc.devRef .tc main_arg0)) (A V main_v15) (V (Proc.devRef .tc main_arg8)) (V (Proc.devRef .tc main_arg9)) := by
  rw [rec_main_v63, rec_main_v20, rec_main_v19, rec_main_v18, rec_main_v17, rec_main_v16, A_arg0, A_arg8, A_arg9]
  rfl

/-- The first result as a function of the arguments. -/
theorem out0_eq (V : Valuation τ sig (Elt F)) :
    after ops V (Proc.devRef .tc main_v63)
      = Tail.score (V (Proc.devRef .tc main_arg0)) (Stages.attn (V (Proc.devRef .tc main_arg0)) (V (Proc.devRef .tc main_arg2)) (V (Proc.devRef .tc main_arg3))) (V (Proc.devRef .tc main_arg8)) (V (Proc.devRef .tc main_arg9)) :=
  (score_eq V).trans (by rw [attn_eq V])

/-- The second result as a function of the arguments. -/
theorem out1_eq (V : Valuation τ sig (Elt F)) :
    after ops V (Proc.devRef .tc main_v62)
      = Tail.cell (Stages.gi (V (Proc.devRef .tc main_arg0)) (V (Proc.devRef .tc main_arg1)) (V (Proc.devRef .tc main_arg4)) (V (Proc.devRef .tc main_arg6))) (Stages.gh (V (Proc.devRef .tc main_arg3)) (V (Proc.devRef .tc main_arg5)) (V (Proc.devRef .tc main_arg7)))
          (Stages.hrow (V (Proc.devRef .tc main_arg3))) :=
  (cell_eq V).trans (by rw [gi_eq V, gh_eq V, h_eq V])

end Cert.ReferenceIdeal.HandRun

end
-- ==== Proof.LibOnlineSoftmax.lean ====
/-
  Online softmax.  A softmax-weighted average  (∑ⱼ exp(sⱼ)·vⱼ) / (∑ⱼ exp(sⱼ))  over a finite index set can be
  computed in one streaming pass over blocks ("tiles") of the index set, keeping three running quantities: a
  reference level m, the sum l of exp(sⱼ − m) over the indices seen so far, and the sums acc of exp(sⱼ − m)·vⱼ.
  When the level moves from m to m', the two sums are rescaled by exp(m − m'), because
  exp(m − m')·exp(s − m) = exp(s − m').  At the end acc / l is the softmax-weighted average, since a common shift of
  all scores cancels between numerator and denominator.

  This file states that on the extended reals, with the streaming pass written in exactly the operations a program
  performs (the level starts at −∞, where exp(−∞) = 0 makes the first rescaling factor vanish), and proves that for
  real scores and values the result is the coercion of the real softmax-weighted average.  Nothing requires the level
  to be the maximum of the scores: any real level per tile gives the same result.
-/
import Idealize.ShloMosaic.PureOps.Ideal

noncomputable section

open scoped BigOperators

namespace OnlineSoftmax

open Idealize.ShloMosaic

/-! ### Over the reals: shift invariance of the softmax-weighted average -/

section Real
variable {ι : Type} [Fintype ι]

/-- A nonempty finite sum of exponentials is positive. -/
theorem sum_exp_pos [Nonempty ι] (s : ι → ℝ) : 0 < ∑ j, Real.exp (s j) :=
  Finset.sum_pos (fun j _ => Real.exp_pos (s j)) Finset.univ_nonempty

/-- Shifting every score by the same `M` multiplies numerator and denominator by `exp (-M)`. -/
theorem softmax_shift [Nonempty ι] (s v : ι → ℝ) (M : ℝ) :
    (∑ j, Real.exp (s j - M) * v j) / (∑ j, Real.exp (s j - M))
      = (∑ j, Real.exp (s j) * v j) / (∑ j, Real.exp (s j)) := by
  have hM : Real.exp (-M) ≠ 0 := (Real.exp_pos _).ne'
  have h1 : ∑ j, Real.exp (s j - M) * v j = Real.exp (-M) * ∑ j, Real.exp (s j) * v j := by
    rw [Finset.mul_sum]
    refine Finset.sum_congr rfl fun j _ => ?_
    rw [sub_eq_add_neg, Real.exp_add]; ring
  have h2 : ∑ j, Real.exp (s j - M) = Real.exp (-M) * ∑ j, Real.exp (s j) := by
    rw [Finset.mul_sum]
    refine Finset.sum_congr rfl fun j _ => ?_
    rw [sub_eq_add_neg, Real.exp_add]; ring
  rw [h1, h2, mul_div_mul_left _ _ hM]

/-- The same with the normalisation done weight by weight. -/
theorem softmax_weights [Nonempty ι] (s v : ι → ℝ) (M : ℝ) :
    ∑ j, (Real.exp (s j - M) / ∑ j', Real.exp (s j' - M)) * v j
      = (∑ j, Real.exp (s j) * v j) / (∑ j, Real.exp (s j)) := by
  rw [← softmax_shift s v M, Finset.sum_div]
  refine Finset.sum_congr rfl fun j _ => ?_
  ring

/-- The coercion of reals into the extended reals commutes with finite sums. -/
theorem coe_sum {κ : Type} (S : Finset κ) (f : κ → ℝ) :
    ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

end Real

/-! ### The streaming pass on the extended reals -/

/-- The coercion of reals into the extended reals commutes with `max`. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The running state for one row: the level `m`, the sum `l` of `exp (s - m)` over the indices seen so
    far, and for each output coordinate `d` the sum `acc d` of `exp (s - m) * v`. -/
structure St (D : Type) where
  m : EReal
  l : EReal
  acc : D → EReal

/-- Before any tile: level `-∞`, empty sums. -/
def init {D : Type} : St D := ⟨⊥, 0, fun _ => 0⟩

/-- One tile of `n` scores `st` and value rows `vt`, with `tm` the level the tile proposes: the new level
    is the larger of the old one and `tm`; both sums are rescaled by `exp (m - m')` and the tile's terms, taken
    at the new level, are added. -/
def step {n : ℕ} {D : Type} (tm : EReal) (st : Fin n → ℝ) (vt : Fin n → D → ℝ) (S : St D) : St D :=
  let m' := max S.m tm
  let α := Ideal.exp (S.m - m')
  ⟨m', α * S.l + ∑ j, Ideal.exp ((st j : EReal) - m'),
    fun d => α * S.acc d + ∑ j, Ideal.exp ((st j : EReal) - m') * ((vt j d : ℝ) : EReal)⟩

/-- The state after the first `t` of `T` tiles. -/
def run {T n : ℕ} {D : Type} (tm : Fin T → ℝ) (s : Fin T → Fin n → ℝ) (v : Fin T → Fin n → D → ℝ) :
    (t : ℕ) → t ≤ T → St D
  | 0, _ => init
  | t + 1, h =>
    step ((tm ⟨t, Nat.lt_of_succ_le h⟩ : ℝ) : EReal) (s ⟨t, Nat.lt_of_succ_le h⟩) (v ⟨t, Nat.lt_of_succ_le h⟩)
      (run tm s v t (Nat.le_of_succ_le h))

section Run
variable {T n : ℕ} {D : Type}

theorem run_zero (tm : Fin T → ℝ) (s : Fin T → Fin n → ℝ) (v : Fin T → Fin n → D → ℝ) (h : 0 ≤ T) :
    run tm s v 0 h = init := rfl

theorem run_succ (tm : Fin T → ℝ) (s : Fin T → Fin n → ℝ) (v : Fin T → Fin n → D → ℝ) (t : ℕ) (h : t + 1 ≤ T) :
    run tm s v (t + 1) h
      = step ((tm ⟨t, Nat.lt_of_succ_le h⟩ : ℝ) : EReal) (s ⟨t, Nat.lt_of_succ_le h⟩) (v ⟨t, Nat.lt_of_succ_le h⟩)
          (run tm s v t (Nat.le_of_succ_le h)) := rfl

/-- The first tile: the old level is `-∞`, the rescaling factor is `exp (-∞) = 0`, and the state becomes the
    tile's own sums at the tile's level. -/
theorem step_init (τ : ℝ) (st : Fin n → ℝ) (vt : Fin n → D → ℝ) :
    (step (τ : EReal) st vt (init : St D)).m = (τ : EReal) ∧
    (step (τ : EReal) st vt (init : St D)).l = ((∑ j, Real.exp (st j - τ) : ℝ) : EReal) ∧
    ∀ d, (step (τ : EReal) st vt (init : St D)).acc d = ((∑ j, Real.exp (st j - τ) * vt j d : ℝ) : EReal) := by
  have hmax : max (⊥ : EReal) (τ : EReal) = (τ : EReal) := max_eq_right bot_le
  refine ⟨hmax, ?_, fun d => ?_⟩
  · show Ideal.exp (⊥ - max (⊥ : EReal) τ) * 0 + ∑ j, Ideal.exp ((st j : EReal) - max (⊥ : EReal) τ) = _
    rw [hmax, mul_zero, zero_add, coe_sum]
    refine Finset.sum_congr rfl fun j _ => ?_
    rw [← EReal.coe_sub, Ideal.exp_coe]
  · show Ideal.exp (⊥ - max (⊥ : EReal) τ) * 0
        + ∑ j, Ideal.exp ((st j : EReal) - max (⊥ : EReal) τ) * ((vt j d : ℝ) : EReal) = _
    rw [hmax, mul_zero, zero_add, coe_sum]
    refine Finset.sum_congr rfl fun j _ => ?_
    rw [← EReal.coe_sub, Ideal.exp_coe, EReal.coe_mul]

/-- A later tile: from a real state `(μ, L, A)` the new level is `max μ τ`, a real, and every operation stays
    inside the reals. -/
theorem step_coe (τ μ L : ℝ) (A : D → ℝ) (st : Fin n → ℝ) (vt : Fin n → D → ℝ) (S : St D)
    (hm : S.m = (μ : EReal)) (hl : S.l = (L : EReal)) (ha : ∀ d, S.acc d = (A d : EReal)) :
    (step (τ : EReal) st vt S).m = ((max μ τ : ℝ) : EReal) ∧
    (step (τ : EReal) st vt S).l
      = ((Real.exp (μ - max μ τ) * L + ∑ j, Real.exp (st j - max μ τ) : ℝ) : EReal) ∧
    ∀ d, (step (τ : EReal) st vt S).acc d
      = ((Real.exp (μ - max μ τ) * A d + ∑ j, Real.exp (st j - max μ τ) * vt j d : ℝ) : EReal) := by
  have hmax : max S.m (τ : EReal) = ((max μ τ : ℝ) : EReal) := by rw [hm, coe_max]
  refine ⟨hmax, ?_, fun d => ?_⟩
  · show Ideal.exp (S.m - max S.m τ) * S.l + ∑ j, Ideal.exp ((st j : EReal) - max S.m τ) = _
    rw [hmax, hm, hl, ← EReal.coe_sub, Ideal.exp_coe, ← EReal.coe_mul, EReal.coe_add, coe_sum]
    congr 1
  · show Ideal.exp (S.m - max S.m τ) * S.acc d
        + ∑ j, Ideal.exp ((st j : EReal) - max S.m τ) * ((vt j d : ℝ) : EReal) = _
    rw [hmax, hm, ha d, ← EReal.coe_sub, Ideal.exp_coe, ← EReal.coe_mul, EReal.coe_add, coe_sum]
    congr 1

/-- The tiles seen after `t + 1` steps are tile `t` and the tiles seen after `t` steps. -/
theorem sum_seen_succ (t : ℕ) (h : t < T) (f : Fin T → ℝ) :
    ∑ t' ∈ Finset.univ.filter (fun t' : Fin T => t'.val < t + 1), f t'
      = f ⟨t, h⟩ + ∑ t' ∈ Finset.univ.filter (fun t' : Fin T => t'.val < t), f t' := by
  have hins : Finset.univ.filter (fun t' : Fin T => t'.val < t + 1)
      = insert (⟨t, h⟩ : Fin T) (Finset.univ.filter (fun t' : Fin T => t'.val < t)) := by
    ext x
    simp only [Finset.mem_filter, Finset.mem_univ, true_and, Finset.mem_insert, Fin.ext_iff]
    omega
  have hnot : (⟨t, h⟩ : Fin T) ∉ Finset.univ.filter (fun t' : Fin T => t'.val < t) := by
    simp only [Finset.mem_filter, Finset.mem_univ, true_and, lt_irrefl, not_false_eq_true]
  rw [hins, Finset.sum_insert hnot]

/-- Moving the level from `μ` to `μ'` rescales a sum of `exp (s - μ) * w` by `exp (μ - μ')`. -/
theorem rescale {κ : Type} (S : Finset κ) (μ μ' : ℝ) (s : κ → Fin n → ℝ) (w : κ → Fin n → ℝ) :
    Real.exp (μ - μ') * ∑ t' ∈ S, ∑ j, Real.exp (s t' j - μ) * w t' j
      = ∑ t' ∈ S, ∑ j, Real.exp (s t' j - μ') * w t' j := by
  rw [Finset.mul_sum]
  refine Finset.sum_congr rfl fun t' _ => ?_
  rw [Finset.mul_sum]
  refine Finset.sum_congr rfl fun j _ => ?_
  rw [← mul_assoc, ← Real.exp_add]
  congr 2; ring

theorem rescale_one {κ : Type} (S : Finset κ) (μ μ' : ℝ) (s : κ → Fin n → ℝ) :
    Real.exp (μ - μ') * ∑ t' ∈ S, ∑ j, Real.exp (s t' j - μ)
      = ∑ t' ∈ S, ∑ j, Real.exp (s t' j - μ') := by
  have := rescale S μ μ' s (fun _ _ => 1)
  simpa only [mul_one] using this

theorem sum_seen_zero (f : Fin T → ℝ) :
    ∑ t' ∈ Finset.univ.filter (fun t' : Fin T => t'.val < 0), f t' = 0 :=
  Finset.sum_eq_zero fun _ hx => absurd (Finset.mem_filter.mp hx).2 (Nat.not_lt_zero _)

/-- After `t ≥ 1` tiles the state is real: the level is a real `μ`, and the two running quantities are the sums
    of `exp (s - μ)` and of `exp (s - μ) * v` over all indices of the tiles seen so far. -/
theorem run_inv (tm : Fin T → ℝ) (s : Fin T → Fin n → ℝ) (v : Fin T → Fin n → D → ℝ)
    (t : ℕ) (h1 : 1 ≤ t) (hT : t ≤ T) :
    ∃ μ : ℝ, (run tm s v t hT).m = (μ : EReal) ∧
      (run tm s v t hT).l
        = ((∑ t' ∈ Finset.univ.filter (fun t' : Fin T => t'.val < t), ∑ j, Real.exp (s t' j - μ) : ℝ) : EReal) ∧
      ∀ d, (run tm s v t hT).acc d
        = ((∑ t' ∈ Finset.univ.filter (fun t' : Fin T => t'.val < t),
              ∑ j, Real.exp (s t' j - μ) * v t' j d : ℝ) : EReal) := by
  induction t with
  | zero => omega
  | succ t ih =>
    have ht : t < T := Nat.lt_of_succ_le hT
    rcases Nat.eq_zero_or_pos t with h0 | hpos
    · subst h0
      obtain ⟨hm, hl, ha⟩ := step_init (D := D) (tm ⟨0, ht⟩) (s ⟨0, ht⟩) (v ⟨0, ht⟩)
      refine ⟨tm ⟨0, ht⟩, ?_, ?_, fun d => ?_⟩
      · rw [run_succ, run_zero]; exact hm
      · rw [run_succ, run_zero, sum_seen_succ 0 ht, sum_seen_zero, add_zero]; exact hl
      · rw [run_succ, run_zero, sum_seen_succ 0 ht, sum_seen_zero, add_zero]; exact ha d
    · obtain ⟨μ, hm, hl, ha⟩ := ih hpos (Nat.le_of_succ_le hT)
      obtain ⟨hm', hl', ha'⟩ := step_coe (tm ⟨t, ht⟩) μ _ _ (s ⟨t, ht⟩) (v ⟨t, ht⟩) _ hm hl ha
      refine ⟨max μ (tm ⟨t, ht⟩), ?_, ?_, fun d => ?_⟩
      · rw [run_succ]; exact hm'
      · rw [run_succ, sum_seen_succ t ht, ← rescale_one _ μ, add_comm]; exact hl'
      · rw [run_succ, sum_seen_succ t ht, ← rescale _ μ, add_comm]; exact ha' d

/-- After all the tiles, `acc / l` is the softmax-weighted average of the value rows over every index of every
    tile: the common level cancels between numerator and denominator. -/
theorem run_final (tm : Fin T → ℝ) (s : Fin T → Fin n → ℝ) (v : Fin T → Fin n → D → ℝ)
    (hT : 0 < T) (hn : 0 < n) (d : D) :
    Ideal.div ((run tm s v T le_rfl).acc d) (run tm s v T le_rfl).l
      = (((∑ t, ∑ j, Real.exp (s t j) * v t j d) / (∑ t, ∑ j, Real.exp (s t j)) : ℝ) : EReal) := by
  obtain ⟨μ, -, hl, ha⟩ := run_inv tm s v T hT le_rfl
  have hall : Finset.univ.filter (fun t' : Fin T => t'.val < T) = Finset.univ :=
    Finset.filter_true_of_mem fun x _ => x.isLt
  rw [hall] at hl ha
  haveI : Nonempty (Fin T × Fin n) := ⟨(⟨0, hT⟩, ⟨0, hn⟩)⟩
  have hpos : 0 < ∑ t, ∑ j, Real.exp (s t j - μ) := by
    have := sum_exp_pos (fun p : Fin T × Fin n => s p.1 p.2 - μ)
    rwa [Fintype.sum_prod_type] at this
  have hshift := softmax_shift (fun p : Fin T × Fin n => s p.1 p.2) (fun p => v p.1 p.2 d) μ
  simp only [Fintype.sum_prod_type] at hshift
  rw [hl, ha d, Ideal.div_coe hpos.ne', ← EReal.coe_mul, ← hshift, mul_one_div]

end Run

/-! ### The two-pass form: normalise each weight, then sum -/

/-- Every weight `exp (s j - M)` is divided by the sum of all of them on the extended reals and the weighted sum
    of the values is taken: for real scores, values and level this is the softmax-weighted average. -/
theorem softmax_row {ι : Type} [Fintype ι] [Nonempty ι] (s v : ι → ℝ) (M : ℝ) :
    ∑ j, Ideal.div (Ideal.exp ((s j : EReal) - (M : EReal))) (∑ j', Ideal.exp ((s j' : EReal) - (M : EReal)))
        * ((v j : ℝ) : EReal)
      = (((∑ j, Real.exp (s j) * v j) / (∑ j, Real.exp (s j)) : ℝ) : EReal) := by
  have hden : ∑ j', Ideal.exp ((s j' : EReal) - (M : EReal)) = ((∑ j', Real.exp (s j' - M) : ℝ) : EReal) := by
    rw [coe_sum]
    refine Finset.sum_congr rfl fun j _ => ?_
    rw [← EReal.coe_sub, Ideal.exp_coe]
  have hpos := sum_exp_pos (fun j => s j - M)
  rw [← softmax_weights s v M, coe_sum, hden]
  refine Finset.sum_congr rfl fun j _ => ?_
  rw [Ideal.div_coe hpos.ne', ← EReal.coe_sub, Ideal.exp_coe, ← EReal.coe_mul, ← EReal.coe_mul, mul_one_div]

/-! ### Tiling a sum: `T * n` indices as `T` tiles of `n` -/

/-- Index `j` of tile `t` is index `t * n + j` of the whole. -/
theorem tile_lt {T n : ℕ} (t : Fin T) (j : Fin n) : t.val * n + j.val < T * n :=
  calc t.val * n + j.val < t.val * n + n := Nat.add_lt_add_left j.isLt _
    _ = (t.val + 1) * n := (Nat.succ_mul _ _).symm
    _ ≤ T * n := Nat.mul_le_mul_right n t.isLt

/-- The tile an index of the whole lies in. -/
theorem tile_div_lt {T n : ℕ} (k : Fin (T * n)) : k.val / n < T :=
  Nat.div_lt_of_lt_mul (Nat.mul_comm T n ▸ k.isLt)

/-- A double sum over tiles and positions is a single sum over the whole, index `k` being position `k % n` of
    tile `k / n`. -/
theorem sum_tiles {T n : ℕ} (hn : 0 < n) {M : Type*} [AddCommMonoid M] (f : Fin T → Fin n → M) :
    ∑ t : Fin T, ∑ j : Fin n, f t j
      = ∑ k : Fin (T * n), f ⟨k.val / n, tile_div_lt k⟩ ⟨k.val % n, Nat.mod_lt _ hn⟩ := by
  refine (Fintype.sum_prod_type' f).symm.trans ?_
  refine (Equiv.sum_comp finProdFinEquiv.symm (fun p : Fin T × Fin n => f p.1 p.2)).symm.trans ?_
  exact Finset.sum_congr rfl fun k _ => rfl

/-- A single sum over the whole is the double sum over tiles and positions. -/
theorem sum_untile {T n : ℕ} {M : Type*} [AddCommMonoid M] (g : Fin (T * n) → M) :
    ∑ k, g k = ∑ t : Fin T, ∑ j : Fin n, g ⟨t.val * n + j.val, tile_lt t j⟩ := by
  refine (Equiv.sum_comp finProdFinEquiv g).symm.trans ?_
  refine (Fintype.sum_prod_type _).trans ?_
  refine Finset.sum_congr rfl fun t _ => Finset.sum_congr rfl fun j _ => ?_
  congr 1
  apply Fin.ext
  rw [finProdFinEquiv_apply_val, Nat.mul_comm, Nat.add_comm]

end OnlineSoftmax

end
-- ==== Proof.RefReadAttn.lean ====
import proofs.«146633_j61375082660584_2_alg».proof.Proof.RefDefs
import proofs.«146633_j61375082660584_2_alg».proof.Proof.LibOnlineSoftmax
import Idealize.ShloMosaic.Lib.Pipeline.Value
import Idealize.ShloMosaic.Lib.ValueIdx
import Idealize.ShloMosaic.PureOps.Ideal.Laws
import Idealize.ShloMosaic.PureOps.Reduce

/-!
# The attention stages read at an index, on the extended reals

With every float operation exact: a score is the inner product of a row with the query; the
level is a real number as soon as the scores are; the shifted exponential, the sum, the quotient
and the weighted sum read coordinate by coordinate.
-/

noncomputable section

open scoped BigOperators

namespace Cert.ReferenceIdeal.Stages

open Cert.ReferenceIdeal Cert.ReferenceIdeal.Gen Idealize.ShloMosaic Idealize.ShloMosaic.ValueIdx

/-! The contraction `dot_S16384x768_S768x1_S16384x1_1_0_0_1_n_n`: the operand indices at a result index and a contraction coordinate. -/
theorem lhs_dotS_0 (i : S16384x1.Idx) (q : dot_S16384x768_S768x1_S16384x1_1_0_0_1_n_n.contr.Idx) :
    (dot_S16384x768_S768x1_S16384x1_1_0_0_1_n_n.lhsIdx i q 0).val = (i 0).val := by
  unfold DotDims.lhsIdx
  rw [dif_neg (show ¬(0 : Fin S16384x768.rank) ∈ dot_S16384x768_S768x1_S16384x1_1_0_0_1_n_n.lhsBatch by decide), dif_pos (show (0 : Fin S16384x768.rank) ∈ dot_S16384x768_S768x1_S16384x1_1_0_0_1_n_n.lhsNonContracting by decide)]
  rfl
theorem lhs_dotS_1 (i : S16384x1.Idx) (q : dot_S16384x768_S768x1_S16384x1_1_0_0_1_n_n.contr.Idx) :
    (dot_S16384x768_S768x1_S16384x1_1_0_0_1_n_n.lhsIdx i q 1).val = (q ⟨0, by decide⟩).val :=
  dot_S16384x768_S768x1_S16384x1_1_0_0_1_n_n.lhsIdx_val_of_single rfl i q
theorem rhs_dotS_0 (i : S16384x1.Idx) (q : dot_S16384x768_S768x1_S16384x1_1_0_0_1_n_n.contr.Idx) :
    (dot_S16384x768_S768x1_S16384x1_1_0_0_1_n_n.rhsIdx i q 0).val = (q ⟨0, by decide⟩).val :=
  dot_S16384x768_S768x1_S16384x1_1_0_0_1_n_n.rhsIdx_val_of_single rfl i q
theorem rhs_dotS_1 (i : S16384x1.Idx) (q : dot_S16384x768_S768x1_S16384x1_1_0_0_1_n_n.contr.Idx) :
    (dot_S16384x768_S768x1_S16384x1_1_0_0_1_n_n.rhsIdx i q 1).val = (i 1).val := by
  unfold DotDims.rhsIdx
  rw [dif_neg (show ¬(1 : Fin S768x1.rank) ∈ dot_S16384x768_S768x1_S16384x1_1_0_0_1_n_n.rhsBatch by decide), dif_pos (show (1 : Fin S768x1.rank) ∈ dot_S16384x768_S768x1_S16384x1_1_0_0_1_n_n.rhsNonContracting by decide)]
  rfl

/-- At the exact instance the contraction is the sum over the 768 contracted coordinates of the products. -/
theorem dotS_apply (x : FVec Ideal S16384x768 .f32) (y : FVec Ideal S768x1 .f32) (i : Fin 16384) (j : Fin 1) :
    Host.dotGeneral (F := Ideal) dot_S16384x768_S768x1_S16384x1_1_0_0_1_n_n none x y (ix2 i j) = ∑ k : Fin 768, x (ix2 i k) * y (ix2 k j) := by
  simp only [Host.dotGeneral]
  rw [Ideal.dotGeneral_apply, ← Equiv.sum_comp (ValueIdx.contrEquiv1 dot_S16384x768_S768x1_S16384x1_1_0_0_1_n_n 768 rfl rfl).symm]
  refine Finset.sum_congr rfl fun k _ => ?_
  have hk := ValueIdx.contrEquiv1_symm_val dot_S16384x768_S768x1_S16384x1_1_0_0_1_n_n 768 rfl rfl k
  have el : dot_S16384x768_S768x1_S16384x1_1_0_0_1_n_n.lhsIdx (ix2 i j) ((ValueIdx.contrEquiv1 dot_S16384x768_S768x1_S16384x1_1_0_0_1_n_n 768 rfl rfl).symm k) = ix2 i k := funext fun a => Fin.ext (by
    match a with
    | ⟨0, _⟩ => exact lhs_dotS_0 _ _
    | ⟨1, _⟩ => exact (lhs_dotS_1 _ _).trans hk)
  have er : dot_S16384x768_S768x1_S16384x1_1_0_0_1_n_n.rhsIdx (ix2 i j) ((ValueIdx.contrEquiv1 dot_S16384x768_S768x1_S16384x1_1_0_0_1_n_n 768 rfl rfl).symm k) = ix2 k j := funext fun a => Fin.ext (by
    match a with
    | ⟨0, _⟩ => exact (rhs_dotS_0 _ _).trans hk
    | ⟨1, _⟩ => exact rhs_dotS_1 _ _)
  rw [el, er]

/-! The contraction `dot_S1x16384_S16384x1024_S1x1024_1_0_0_1_n_n`: the operand indices at a result index and a contraction coordinate. -/
theorem lhs_dotA_0 (i : S1x1024.Idx) (q : dot_S1x16384_S16384x1024_S1x1024_1_0_0_1_n_n.contr.Idx) :
    (dot_S1x16384_S16384x1024_S1x1024_1_0_0_1_n_n.lhsIdx i q 0).val = (i 0).val := by
  unfold DotDims.lhsIdx
  rw [dif_neg (show ¬(0 : Fin S1x16384.rank) ∈ dot_S1x16384_S16384x1024_S1x1024_1_0_0_1_n_n.lhsBatch by decide), dif_pos (show (0 : Fin S1x16384.rank) ∈ dot_S1x16384_S16384x1024_S1x1024_1_0_0_1_n_n.lhsNonContracting by decide)]
  rfl
theorem lhs_dotA_1 (i : S1x1024.Idx) (q : dot_S1x16384_S16384x1024_S1x1024_1_0_0_1_n_n.contr.Idx) :
    (dot_S1x16384_S16384x1024_S1x1024_1_0_0_1_n_n.lhsIdx i q 1).val = (q ⟨0, by decide⟩).val :=
  dot_S1x16384_S16384x1024_S1x1024_1_0_0_1_n_n.lhsIdx_val_of_single rfl i q
theorem rhs_dotA_0 (i : S1x1024.Idx) (q : dot_S1x16384_S16384x1024_S1x1024_1_0_0_1_n_n.contr.Idx) :
    (dot_S1x16384_S16384x1024_S1x1024_1_0_0_1_n_n.rhsIdx i q 0).val = (q ⟨0, by decide⟩).val :=
  dot_S1x16384_S16384x1024_S1x1024_1_0_0_1_n_n.rhsIdx_val_of_single rfl i q
theorem rhs_dotA_1 (i : S1x1024.Idx) (q : dot_S1x16384_S16384x1024_S1x1024_1_0_0_1_n_n.contr.Idx) :
    (dot_S1x16384_S16384x1024_S1x1024_1_0_0_1_n_n.rhsIdx i q 1).val = (i 1).val := by
  unfold DotDims.rhsIdx
  rw [dif_neg (show ¬(1 : Fin S16384x1024.rank) ∈ dot_S1x16384_S16384x1024_S1x1024_1_0_0_1_n_n.rhsBatch by decide), dif_pos (show (1 : Fin S16384x1024.rank) ∈ dot_S1x16384_S16384x1024_S1x1024_1_0_0_1_n_n.rhsNonContracting by decide)]
  rfl

/-- At the exact instance the contraction is the sum over the 16384 contracted coordinates of the products. -/
theorem dotA_apply (x : FVec Ideal S1x16384 .f32) (y : FVec Ideal S16384x1024 .f32) (i : Fin 1) (j : Fin 1024) :
    Host.dotGeneral (F := Ideal) dot_S1x16384_S16384x1024_S1x1024_1_0_0_1_n_n none x y (ix2 i j) = ∑ k : Fin 16384, x (ix2 i k) * y (ix2 k j) := by
  simp only [Host.dotGeneral]
  rw [Ideal.dotGeneral_apply, ← Equiv.sum_comp (ValueIdx.contrEquiv1 dot_S1x16384_S16384x1024_S1x1024_1_0_0_1_n_n 16384 rfl rfl).symm]
  refine Finset.sum_congr rfl fun k _ => ?_
  have hk := ValueIdx.contrEquiv1_symm_val dot_S1x16384_S16384x1024_S1x1024_1_0_0_1_n_n 16384 rfl rfl k
  have el : dot_S1x16384_S16384x1024_S1x1024_1_0_0_1_n_n.lhsIdx (ix2 i j) ((ValueIdx.contrEquiv1 dot_S1x16384_S16384x1024_S1x1024_1_0_0_1_n_n 16384 rfl rfl).symm k) = ix2 i k := funext fun a => Fin.ext (by
    match a with
    | ⟨0, _⟩ => exact lhs_dotA_0 _ _
    | ⟨1, _⟩ => exact (lhs_dotA_1 _ _).trans hk)
  have er : dot_S1x16384_S16384x1024_S1x1024_1_0_0_1_n_n.rhsIdx (ix2 i j) ((ValueIdx.contrEquiv1 dot_S1x16384_S16384x1024_S1x1024_1_0_0_1_n_n 16384 rfl rfl).symm k) = ix2 k j := funext fun a => Fin.ext (by
    match a with
    | ⟨0, _⟩ => exact (rhs_dotA_0 _ _).trans hk
    | ⟨1, _⟩ => exact rhs_dotA_1 _ _)
  rw [el, er]

/-- A score is the inner product of the row with the query. -/
theorem scores_apply (x0 : FVec Ideal S1x768 .f32) (x2 : FVec Ideal S16384x768 .f32) (l : Fin 16384) :
    scores (F := Ideal) x0 x2 (ix2 l (0 : Fin 1)) = ∑ d : Fin 768, x2 (ix2 l d) * x0 (ix2 (0 : Fin 1) d) := by
  unfold scores
  rw [dotS_apply]
  refine Finset.sum_congr rfl fun d _ => ?_
  congr 1
  exact transpose_apply [1, 0] x0 transposes_S1x768_S768x1_1_0 (ix2 d (0 : Fin 1)) (ix2 (0 : Fin 1) d) (fun b => match b with
    | ⟨0, _⟩ => rfl
    | ⟨1, _⟩ => rfl)

/-- Every index of a column of 16384 is a row number and the column 0. -/
theorem col_idx (i : S16384x1.Idx) : i = ix2 (⟨(i 0).val, idx2_lt0 i⟩ : Fin 16384) (0 : Fin 1) := by
  funext a
  match a with
  | ⟨0, _⟩ => rfl
  | ⟨1, _⟩ => exact Fin.ext (by have := idx2_lt1 i; show (i 1).val = 0; omega)

/-- A one-element row spread down the column reads that element everywhere. -/
theorem spread_apply (M : FVec Ideal S1 .f32) (l : Fin 16384) :
    spread (F := Ideal) M (ix2 l (0 : Fin 1)) = M (ix1 (0 : Fin 1)) := by
  unfold spread
  rw [broadcastInDim_apply _ bcast_S1x1_S16384x1_0_1 _ (ix2 l (0 : Fin 1)) (ix2 (0 : Fin 1) (0 : Fin 1)) (fun a => match a with
    | ⟨0, _⟩ => by show 0 = if (1 : Nat) = 1 then 0 else l.val; rw [if_pos rfl]
    | ⟨1, _⟩ => by show 0 = if (1 : Nat) = 1 then 0 else 0; rw [if_pos rfl])]
  exact broadcastInDim_apply _ bcast_S1_S1x1_1 M (ix2 (0 : Fin 1) (0 : Fin 1)) (ix1 (0 : Fin 1)) (fun a => match a with
    | ⟨0, _⟩ => by show 0 = if (1 : Nat) = 1 then 0 else 0; rw [if_pos rfl])

/-- The shifted exponential, coordinate by coordinate. -/
theorem shifted_apply (s : FVec Ideal S16384x1 .f32) (M : FVec Ideal S1 .f32) (l : Fin 16384) :
    shifted (F := Ideal) s M (ix2 l (0 : Fin 1)) = Ideal.exp (s (ix2 l (0 : Fin 1)) - M (ix1 (0 : Fin 1))) := by
  unfold shifted
  show Ideal.exp (s (ix2 l (0 : Fin 1)) - spread (F := Ideal) M (ix2 l (0 : Fin 1))) = _
  rw [spread_apply]

/-- The quotient, coordinate by coordinate. -/
theorem alpha_apply (e : FVec Ideal S16384x1 .f32) (Z : FVec Ideal S1 .f32) (l : Fin 16384) :
    alpha (F := Ideal) e Z (ix2 l (0 : Fin 1)) = Ideal.div (e (ix2 l (0 : Fin 1))) (Z (ix1 (0 : Fin 1))) := by
  unfold alpha
  show Ideal.div (e (ix2 l (0 : Fin 1))) (spread (F := Ideal) Z (ix2 l (0 : Fin 1))) = _
  rw [spread_apply]

/-- The sum of the column. -/
theorem esum_apply (e : FVec Ideal S16384x1 .f32) :
    esum (F := Ideal) e (ix1 (0 : Fin 1)) = ∑ k : Fin 16384, e (ix2 k (0 : Fin 1)) := by
  unfold esum
  simp only [Host.reduceAdd, Ideal.hostReduceAdd_def]
  rw [Ideal.hostReduceAdd_single reducesTo_S16384x1_S1_d0 (by decide)]
  have h0 : (constant (F := Ideal) S_ .f32 0x00000000#32) (Shape.Idx.first h_S_) = 0 := Ideal.ofBits_zero_f32
  rw [h0, zero_add]
  refine Finset.sum_congr rfl fun k _ => ?_
  exact congrArg e (funext fun a => Fin.ext (by match a with | ⟨0, _⟩ => rfl | ⟨1, _⟩ => rfl))

/-- The weighted sum of the rows, coordinate by coordinate. -/
theorem wsum_apply (a : FVec Ideal S16384x1 .f32) (x3 : FVec Ideal S16384x1024 .f32) (j : Fin 1024) :
    wsum (F := Ideal) a x3 (ix2 (0 : Fin 1) j) = ∑ l : Fin 16384, a (ix2 l (0 : Fin 1)) * x3 (ix2 l j) := by
  unfold wsum
  rw [dotA_apply]
  refine Finset.sum_congr rfl fun l _ => ?_
  congr 1
  exact transpose_apply [1, 0] a transposes_S16384x1_S1x16384_1_0 (ix2 (0 : Fin 1) l) (ix2 l (0 : Fin 1)) (fun b => match b with
    | ⟨0, _⟩ => rfl
    | ⟨1, _⟩ => rfl)

/-- A fold of `max` from minus infinity over a nonempty family of real numbers is a real number. -/
theorem fold_max_coe {ι : Type} (S : Finset ι) (f : ι → EReal) (hf : ∀ i, ∃ r : ℝ, f i = (r : EReal)) :
    (S = ∅ ∧ S.fold max ⊥ f = ⊥) ∨ ∃ r : ℝ, S.fold max ⊥ f = (r : EReal) := by
  refine Finset.cons_induction ?_ ?_ S
  · exact Or.inl ⟨rfl, Finset.fold_empty⟩
  · intro a s h ih
    obtain ⟨r, hr⟩ := hf a
    refine Or.inr ?_
    rcases ih with ⟨_, h0⟩ | ⟨r', hr'⟩
    · exact ⟨r, by rw [Finset.fold_cons, hr, h0, max_eq_left bot_le]⟩
    · exact ⟨max r r', by rw [Finset.fold_cons, hr, hr', OnlineSoftmax.coe_max]⟩

/-- The level of a column of real scores is a real number. -/
theorem smax_real (s : FVec Ideal S16384x1 .f32) (hs : ∀ i : S16384x1.Idx, ∃ r : ℝ, s i = (r : EReal)) :
    ∃ M : ℝ, ∀ i : S1.Idx, smax (F := Ideal) s i = (M : EReal) := by
  have hbot : Ideal.ofBits .f32 0xFF800000#32 = (⊥ : EReal) := by simp [Ideal.ofBits, Ideal.ieee]
  have hred : ∃ M : ℝ, ∀ i : S1.Idx,
      Host.reduce FloatOps.maximumf s (constant (F := Ideal) S_ .f32 0xFF800000#32) reducesTo_S16384x1_S1_d0 h_S_ i = (M : EReal) := by
    have key : ∀ i : S1.Idx, ∃ M : ℝ,
        Host.reduce FloatOps.maximumf s (constant (F := Ideal) S_ .f32 0xFF800000#32) reducesTo_S16384x1_S1_d0 h_S_ i = (M : EReal) := by
      intro i
      rw [Host.reduce_eq_fold_single FloatOps.maximumf s _ reducesTo_S16384x1_S1_d0 (by decide) h_S_]
      have hinit : (constant (F := Ideal) S_ .f32 0xFF800000#32) (Shape.Idx.first h_S_) = (⊥ : EReal) := hbot
      rw [hinit]
      rcases fold_max_coe (Finset.univ : Finset (Fin (S16384x1.size 0))) (s ∘ Shape.Reduces.lift (by decide) i)
          (fun k => hs _) with ⟨he, _⟩ | h
      · exact absurd he (Finset.univ_nonempty_iff.mpr ⟨⟨0, by decide⟩⟩).ne_empty
      · exact h
    obtain ⟨M, hM⟩ := key (ix1 (0 : Fin 1))
    refine ⟨M, fun i => ?_⟩
    have hi : i = ix1 (0 : Fin 1) := by
      funext a
      match a with
      | ⟨0, _⟩ => exact Fin.ext (by have := (i 0).isLt; show (i 0).val = 0; change (i 0).val < 1 at this; omega)
    rw [hi]; exact hM
  obtain ⟨M, hM⟩ := hred
  refine ⟨M, fun i => ?_⟩
  unfold smax
  show max (broadcastInDim S1 ![] bcast_S_S1 (constant (F := Ideal) S_ .f32 0xFF800000#32) i) _ = _
  rw [hM i, broadcastInDim_apply _ bcast_S_S1 _ i (fun a => a.elim0) (fun a => a.elim0)]
  show max (Ideal.ofBits .f32 0xFF800000#32) _ = _
  rw [hbot, max_eq_right bot_le]

end Cert.ReferenceIdeal.Stages

end
-- ==== Proof.RefReadGate.lean ====
import proofs.«146633_j61375082660584_2_alg».proof.Proof.RefDefs
import proofs.«146633_j61375082660584_2_alg».proof.Proof.LibOnlineSoftmax
import Idealize.ShloMosaic.Lib.Pipeline.Value
import Idealize.ShloMosaic.Lib.ValueIdx
import Idealize.ShloMosaic.PureOps.Ideal.Laws
import Idealize.ShloMosaic.PureOps.Reduce

/-!
# The two affine maps read at an index, on the extended reals

A row against the rows of a weight matrix plus a bias, coordinate by coordinate; the last row of
`hidden_s`; and the padded query: where the comparison bit is one it is the query then zeros,
where it is zero it is zeros then the query.
-/

noncomputable section

open scoped BigOperators

namespace Cert.ReferenceIdeal.Stages

open Cert.ReferenceIdeal Cert.ReferenceIdeal.Gen Idealize.ShloMosaic Idealize.ShloMosaic.ValueIdx

/-! The contraction `dot_S1x1536_S1536x3072_S1x3072_1_0_0_1_n_n`: the operand indices at a result index and a contraction coordinate. -/
theorem lhs_dotI_0 (i : S1x3072.Idx) (q : dot_S1x1536_S1536x3072_S1x3072_1_0_0_1_n_n.contr.Idx) :
    (dot_S1x1536_S1536x3072_S1x3072_1_0_0_1_n_n.lhsIdx i q 0).val = (i 0).val := by
  unfold DotDims.lhsIdx
  rw [dif_neg (show ¬(0 : Fin S1x1536.rank) ∈ dot_S1x1536_S1536x3072_S1x3072_1_0_0_1_n_n.lhsBatch by decide), dif_pos (show (0 : Fin S1x1536.rank) ∈ dot_S1x1536_S1536x3072_S1x3072_1_0_0_1_n_n.lhsNonContracting by decide)]
  rfl
theorem lhs_dotI_1 (i : S1x3072.Idx) (q : dot_S1x1536_S1536x3072_S1x3072_1_0_0_1_n_n.contr.Idx) :
    (dot_S1x1536_S1536x3072_S1x3072_1_0_0_1_n_n.lhsIdx i q 1).val = (q ⟨0, by decide⟩).val :=
  dot_S1x1536_S1536x3072_S1x3072_1_0_0_1_n_n.lhsIdx_val_of_single rfl i q
theorem rhs_dotI_0 (i : S1x3072.Idx) (q : dot_S1x1536_S1536x3072_S1x3072_1_0_0_1_n_n.contr.Idx) :
    (dot_S1x1536_S1536x3072_S1x3072_1_0_0_1_n_n.rhsIdx i q 0).val = (q ⟨0, by decide⟩).val :=
  dot_S1x1536_S1536x3072_S1x3072_1_0_0_1_n_n.rhsIdx_val_of_single rfl i q
theorem rhs_dotI_1 (i : S1x3072.Idx) (q : dot_S1x1536_S1536x3072_S1x3072_1_0_0_1_n_n.contr.Idx) :
    (dot_S1x1536_S1536x3072_S1x3072_1_0_0_1_n_n.rhsIdx i q 1).val = (i 1).val := by
  unfold DotDims.rhsIdx
  rw [dif_neg (show ¬(1 : Fin S1536x3072.rank) ∈ dot_S1x1536_S1536x3072_S1x3072_1_0_0_1_n_n.rhsBatch by decide), dif_pos (show (1 : Fin S1536x3072.rank) ∈ dot_S1x1536_S1536x3072_S1x3072_1_0_0_1_n_n.rhsNonContracting by decide)]
  rfl

/-- At the exact instance the contraction is the sum over the 1536 contracted coordinates of the products. -/
theorem dotI_apply (x : FVec Ideal S1x1536 .f32) (y : FVec Ideal S1536x3072 .f32) (i : Fin 1) (j : Fin 3072) :
    Host.dotGeneral (F := Ideal) dot_S1x1536_S1536x3072_S1x3072_1_0_0_1_n_n none x y (ix2 i j) = ∑ k : Fin 1536, x (ix2 i k) * y (ix2 k j) := by
  simp only [Host.dotGeneral]
  rw [Ideal.dotGeneral_apply, ← Equiv.sum_comp (ValueIdx.contrEquiv1 dot_S1x1536_S1536x3072_S1x3072_1_0_0_1_n_n 1536 rfl rfl).symm]
  refine Finset.sum_congr rfl fun k _ => ?_
  have hk := ValueIdx.contrEquiv1_symm_val dot_S1x1536_S1536x3072_S1x3072_1_0_0_1_n_n 1536 rfl rfl k
  have el : dot_S1x1536_S1536x3072_S1x3072_1_0_0_1_n_n.lhsIdx (ix2 i j) ((ValueIdx.contrEquiv1 dot_S1x1536_S1536x3072_S1x3072_1_0_0_1_n_n 1536 rfl rfl).symm k) = ix2 i k := funext fun a => Fin.ext (by
    match a with
    | ⟨0, _⟩ => exact lhs_dotI_0 _ _
    | ⟨1, _⟩ => exact (lhs_dotI_1 _ _).trans hk)
  have er : dot_S1x1536_S1536x3072_S1x3072_1_0_0_1_n_n.rhsIdx (ix2 i j) ((ValueIdx.contrEquiv1 dot_S1x1536_S1536x3072_S1x3072_1_0_0_1_n_n 1536 rfl rfl).symm k) = ix2 k j := funext fun a => Fin.ext (by
    match a with
    | ⟨0, _⟩ => exact (rhs_dotI_0 _ _).trans hk
    | ⟨1, _⟩ => exact rhs_dotI_1 _ _)
  rw [el, er]

/-! The contraction `dot_S1x1024_S1024x3072_S1x3072_1_0_0_1_n_n`: the operand indices at a result index and a contraction coordinate. -/
theorem lhs_dotH_0 (i : S1x3072.Idx) (q : dot_S1x1024_S1024x3072_S1x3072_1_0_0_1_n_n.contr.Idx) :
    (dot_S1x1024_S1024x3072_S1x3072_1_0_0_1_n_n.lhsIdx i q 0).val = (i 0).val := by
  unfold DotDims.lhsIdx
  rw [dif_neg (show ¬(0 : Fin S1x1024.rank) ∈ dot_S1x1024_S1024x3072_S1x3072_1_0_0_1_n_n.lhsBatch by decide), dif_pos (show (0 : Fin S1x1024.rank) ∈ dot_S1x1024_S1024x3072_S1x3072_1_0_0_1_n_n.lhsNonContracting by decide)]
  rfl
theorem lhs_dotH_1 (i : S1x3072.Idx) (q : dot_S1x1024_S1024x3072_S1x3072_1_0_0_1_n_n.contr.Idx) :
    (dot_S1x1024_S1024x3072_S1x3072_1_0_0_1_n_n.lhsIdx i q 1).val = (q ⟨0, by decide⟩).val :=
  dot_S1x1024_S1024x3072_S1x3072_1_0_0_1_n_n.lhsIdx_val_of_single rfl i q
theorem rhs_dotH_0 (i : S1x3072.Idx) (q : dot_S1x1024_S1024x3072_S1x3072_1_0_0_1_n_n.contr.Idx) :
    (dot_S1x1024_S1024x3072_S1x3072_1_0_0_1_n_n.rhsIdx i q 0).val = (q ⟨0, by decide⟩).val :=
  dot_S1x1024_S1024x3072_S1x3072_1_0_0_1_n_n.rhsIdx_val_of_single rfl i q
theorem rhs_dotH_1 (i : S1x3072.Idx) (q : dot_S1x1024_S1024x3072_S1x3072_1_0_0_1_n_n.contr.Idx) :
    (dot_S1x1024_S1024x3072_S1x3072_1_0_0_1_n_n.rhsIdx i q 1).val = (i 1).val := by
  unfold DotDims.rhsIdx
  rw [dif_neg (show ¬(1 : Fin S1024x3072.rank) ∈ dot_S1x1024_S1024x3072_S1x3072_1_0_0_1_n_n.rhsBatch by decide), dif_pos (show (1 : Fin S1024x3072.rank) ∈ dot_S1x1024_S1024x3072_S1x3072_1_0_0_1_n_n.rhsNonContracting by decide)]
  rfl

/-- At the exact instance the contraction is the sum over the 1024 contracted coordinates of the products. -/
theorem dotH_apply (x : FVec Ideal S1x1024 .f32) (y : FVec Ideal S1024x3072 .f32) (i : Fin 1) (j : Fin 3072) :
    Host.dotGeneral (F := Ideal) dot_S1x1024_S1024x3072_S1x3072_1_0_0_1_n_n none x y (ix2 i j) = ∑ k : Fin 1024, x (ix2 i k) * y (ix2 k j) := by
  simp only [Host.dotGeneral]
  rw [Ideal.dotGeneral_apply, ← Equiv.sum_comp (ValueIdx.contrEquiv1 dot_S1x1024_S1024x3072_S1x3072_1_0_0_1_n_n 1024 rfl rfl).symm]
  refine Finset.sum_congr rfl fun k _ => ?_
  have hk := ValueIdx.contrEquiv1_symm_val dot_S1x1024_S1024x3072_S1x3072_1_0_0_1_n_n 1024 rfl rfl k
  have el : dot_S1x1024_S1024x3072_S1x3072_1_0_0_1_n_n.lhsIdx (ix2 i j) ((ValueIdx.contrEquiv1 dot_S1x1024_S1024x3072_S1x3072_1_0_0_1_n_n 1024 rfl rfl).symm k) = ix2 i k := funext fun a => Fin.ext (by
    match a with
    | ⟨0, _⟩ => exact lhs_dotH_0 _ _
    | ⟨1, _⟩ => exact (lhs_dotH_1 _ _).trans hk)
  have er : dot_S1x1024_S1024x3072_S1x3072_1_0_0_1_n_n.rhsIdx (ix2 i j) ((ValueIdx.contrEquiv1 dot_S1x1024_S1024x3072_S1x3072_1_0_0_1_n_n 1024 rfl rfl).symm k) = ix2 k j := funext fun a => Fin.ext (by
    match a with
    | ⟨0, _⟩ => exact (rhs_dotH_0 _ _).trans hk
    | ⟨1, _⟩ => exact rhs_dotH_1 _ _)
  rw [el, er]

/-- A bias row of 3072 spread on a leading unit axis. -/
theorem bias_apply (b : FVec Ideal S3072 .f32) (i : Fin 3072) :
    broadcastInDim S1x3072 ![1] bcast_S3072_S1x3072_1 b (ix2 (0 : Fin 1) i) = b (ix1 i) :=
  broadcastInDim_apply _ bcast_S3072_S1x3072_1 b (ix2 (0 : Fin 1) i) (ix1 i) (fun a => match a with
    | ⟨0, _⟩ => by show i.val = if (3072 : Nat) = 1 then 0 else i.val; rw [if_neg (by decide)])

/-- The input affine map, coordinate by coordinate. -/
theorem affine1536_apply (x : FVec Ideal S1x1536 .f32) (W : FVec Ideal S3072x1536 .f32) (b : FVec Ideal S3072 .f32) (i : Fin 3072) :
    affine1536 (F := Ideal) x W b (ix2 (0 : Fin 1) i)
      = (∑ k : Fin 1536, x (ix2 (0 : Fin 1) k) * W (ix2 i k)) + b (ix1 i) := by
  unfold affine1536
  show Host.dotGeneral (F := Ideal) dot_S1x1536_S1536x3072_S1x3072_1_0_0_1_n_n none x _ (ix2 (0 : Fin 1) i)
      + broadcastInDim S1x3072 ![1] bcast_S3072_S1x3072_1 b (ix2 (0 : Fin 1) i) = _
  rw [dotI_apply, bias_apply]
  congr 1
  refine Finset.sum_congr rfl fun k _ => ?_
  congr 1
  exact transpose_apply [1, 0] W transposes_S3072x1536_S1536x3072_1_0 (ix2 k i) (ix2 i k) (fun b => match b with
    | ⟨0, _⟩ => rfl
    | ⟨1, _⟩ => rfl)

/-- The hidden affine map, coordinate by coordinate. -/
theorem affine1024_apply (x : FVec Ideal S1x1024 .f32) (W : FVec Ideal S3072x1024 .f32) (b : FVec Ideal S3072 .f32) (i : Fin 3072) :
    affine1024 (F := Ideal) x W b (ix2 (0 : Fin 1) i)
      = (∑ k : Fin 1024, x (ix2 (0 : Fin 1) k) * W (ix2 i k)) + b (ix1 i) := by
  unfold affine1024
  show Host.dotGeneral (F := Ideal) dot_S1x1024_S1024x3072_S1x3072_1_0_0_1_n_n none x _ (ix2 (0 : Fin 1) i)
      + broadcastInDim S1x3072 ![1] bcast_S3072_S1x3072_1 b (ix2 (0 : Fin 1) i) = _
  rw [dotH_apply, bias_apply]
  congr 1
  refine Finset.sum_congr rfl fun k _ => ?_
  congr 1
  exact transpose_apply [1, 0] W transposes_S3072x1024_S1024x3072_1_0 (ix2 k i) (ix2 i k) (fun b => match b with
    | ⟨0, _⟩ => rfl
    | ⟨1, _⟩ => rfl)

/-- The last row of `hidden_s`. -/
theorem hrow_apply (x3 : FVec Ideal S16384x1024 .f32) (k : Fin 1024) :
    hrow (F := Ideal) x3 (ix2 (0 : Fin 1) k) = x3 (ix2 (⟨16383, by decide⟩ : Fin 16384) k) := by
  unfold hrow
  exact extractStridedSlice_apply ![16383, 0] x3 slices_S16384x1024_S1x1024_16383_0 (ix2 (0 : Fin 1) k)
    (ix2 (⟨16383, by decide⟩ : Fin 16384) k) (fun a => match a with
    | ⟨0, _⟩ => by show 16383 = 16383 + 0; rfl
    | ⟨1, _⟩ => by show k.val = 0 + k.val; omega)

/-- The row of zeros. -/
theorem zeros_apply (d : Fin 768) : zeros (F := Ideal) (ix2 (0 : Fin 1) d) = 0 := by
  unfold zeros
  rw [broadcastInDim_apply _ bcast_S_S1x768 _ (ix2 (0 : Fin 1) d) (fun a => a.elim0) (fun a => a.elim0)]
  exact Ideal.ofBits_zero_f32

/-- The comparison bit, the same in every column. -/
theorem cond_apply (x1 : FVec Ideal S1 .f32) (e : Fin 1536) :
    cond (F := Ideal) x1 (ix2 (0 : Fin 1) e)
      = Ideal.cmp .oge (x1 (ix1 (0 : Fin 1))) (Ideal.ofBits .f32 0x3F000000#32) := by
  unfold cond
  rw [broadcastInDim_apply _ bcast_S1_S1x1536_1 _ (ix2 (0 : Fin 1) e) (ix1 (0 : Fin 1)) (fun a => match a with
    | ⟨0, _⟩ => by show 0 = if (1 : Nat) = 1 then 0 else e.val; rw [if_pos rfl])]
  show Ideal.cmp .oge (x1 (ix1 (0 : Fin 1)))
      (broadcastInDim S1 ![] bcast_S_S1 (constant (F := Ideal) S_ .f32 0x3F000000#32) (ix1 (0 : Fin 1))) = _
  rw [broadcastInDim_apply _ bcast_S_S1 _ (ix1 (0 : Fin 1)) (fun a => a.elim0) (fun a => a.elim0)]
  rfl

/-- Two rows of 768 joined: a column below 768 reads the first. -/
theorem join_left (a b : FVec Ideal S1x768 .f32) (e : Fin 1536) (h : e.val < 768) :
    concatenate S1x1536 1 [⟨S1x768, a⟩, ⟨S1x768, b⟩] concatenates_S1x768_S1x768_S1x1536_d1 (ix2 (0 : Fin 1) e)
      = a (ix2 (0 : Fin 1) (⟨e.val, h⟩ : Fin 768)) :=
  concatenate_pair_apply_left 1 a b concatenates_S1x768_S1x768_S1x1536_d1 (ix2 (0 : Fin 1) e) rfl
    (ix2 (0 : Fin 1) (⟨e.val, h⟩ : Fin 768)) (fun c => match c with
    | ⟨0, _⟩ => rfl
    | ⟨1, _⟩ => rfl)

/-- Two rows of 768 joined: a column from 768 on reads the second, 768 columns earlier. -/
theorem join_right (a b : FVec Ideal S1x768 .f32) (e : Fin 1536) (h : 768 ≤ e.val) :
    concatenate S1x1536 1 [⟨S1x768, a⟩, ⟨S1x768, b⟩] concatenates_S1x768_S1x768_S1x1536_d1 (ix2 (0 : Fin 1) e)
      = b (ix2 (0 : Fin 1) (⟨e.val - 768, by have := e.isLt; omega⟩ : Fin 768)) :=
  concatenate_pair_apply_right 1 a b concatenates_S1x768_S1x768_S1x1536_d1 (ix2 (0 : Fin 1) e) rfl rfl
    (ix2 (0 : Fin 1) (⟨e.val - 768, by have := e.isLt; omega⟩ : Fin 768)) (fun c => match c with
    | ⟨0, _⟩ => fun _ => rfl
    | ⟨1, _⟩ => fun hne => absurd rfl hne)
    (by show (e.val - 768) + 768 = e.val; omega)

/-- The padded query where the comparison bit is one: the query, then zeros. -/
theorem xr_apply_one (x0 : FVec Ideal S1x768 .f32) (x1 : FVec Ideal S1 .f32) (e : Fin 1536)
    (hc : Ideal.cmp .oge (x1 (ix1 (0 : Fin 1))) (Ideal.ofBits .f32 0x3F000000#32) = 1#1) :
    xr (F := Ideal) x0 x1 (ix2 (0 : Fin 1) e)
      = if h : e.val < 768 then x0 (ix2 (0 : Fin 1) (⟨e.val, h⟩ : Fin 768)) else 0 := by
  unfold xr
  rw [select_apply, cond_apply, hc, select_one]
  by_cases h : e.val < 768
  · rw [dif_pos h, join_left _ _ e h]
  · rw [dif_neg h, join_right _ _ e (Nat.le_of_not_lt h), zeros_apply]

/-- The padded query where the comparison bit is zero: zeros, then the query. -/
theorem xr_apply_zero (x0 : FVec Ideal S1x768 .f32) (x1 : FVec Ideal S1 .f32) (e : Fin 1536)
    (hc : Ideal.cmp .oge (x1 (ix1 (0 : Fin 1))) (Ideal.ofBits .f32 0x3F000000#32) = 0#1) :
    xr (F := Ideal) x0 x1 (ix2 (0 : Fin 1) e)
      = if h : e.val < 768 then 0
        else x0 (ix2 (0 : Fin 1) (⟨e.val - 768, by have := e.isLt; omega⟩ : Fin 768)) := by
  unfold xr
  rw [select_apply, cond_apply, hc, select_zero]
  by_cases h : e.val < 768
  · rw [dif_pos h, join_left _ _ e h, zeros_apply]
  · rw [dif_neg h, join_right _ _ e (Nat.le_of_not_lt h)]

end Cert.ReferenceIdeal.Stages

end
-- ==== Proof.Spec.lean ====
/-
  The mathematical content of the two programs, over the reals.

  A query vector `tv` is scored against each of 16384 rows of `ts`; the softmax of the scores weights the rows of
  `hs` into an attention vector.  Two affine maps feed a recurrent cell: the input one reads `tv` through one of the
  two 768-column halves of its weight matrix (which half is decided by comparing `res` with one half), the hidden
  one reads the last row of `hs`.

  The softmax-weighted average is written here in its shift-free form (∑ exp(s)·v) / (∑ exp(s)); both the two-pass
  form with the maximum subtracted and the streaming form with a running level are equal to it.
-/
import Idealize.ShloMosaic.PureOps.Ideal
import proofs.«146633_j61375082660584_2_alg».proof.Proof.LibOnlineSoftmax

noncomputable section

open scoped BigOperators

namespace Cert.Spec

open Idealize.ShloMosaic

/-- The score of row `l`: its inner product with the query. -/
def score (tv : Fin 768 → ℝ) (ts : Fin 16384 → Fin 768 → ℝ) (l : Fin 16384) : ℝ :=
  ∑ d, ts l d * tv d

/-- Coordinate `j` of the attention vector: the softmax-weighted average of column `j` of `hs`. -/
def attn (tv : Fin 768 → ℝ) (ts : Fin 16384 → Fin 768 → ℝ) (hs : Fin 16384 → Fin 1024 → ℝ)
    (j : Fin 1024) : ℝ :=
  (∑ l, Real.exp (score tv ts l) * hs l j) / (∑ l, Real.exp (score tv ts l))

/-- Which 768-column half of the input weights is live: the first when `res` is at least one half. -/
def sel (res : ℝ) : Fin 2 := if (0.5 : ℝ) ≤ res then 0 else 1

/-- Row `i` of the input affine map, reading the query through the live half of the weights. -/
def gi (tv : Fin 768 → ℝ) (res : ℝ) (Wih : Fin 3072 → Fin 1536 → ℝ) (bih : Fin 3072 → ℝ)
    (i : Fin 3072) : ℝ :=
  (∑ d : Fin 768, tv d * Wih i ⟨(sel res).val * 768 + d.val, by
      have h1 := (sel res).isLt; have h2 := d.isLt; omega⟩) + bih i

/-- Row `i` of the hidden affine map, reading the last row of `hs`. -/
def gh (hs : Fin 16384 → Fin 1024 → ℝ) (Whh : Fin 3072 → Fin 1024 → ℝ) (bhh : Fin 3072 → ℝ)
    (i : Fin 3072) : ℝ :=
  (∑ k : Fin 1024, hs ⟨16383, by decide⟩ k * Whh i k) + bhh i

/-- Two streaming passes, each over one half of the rows, end in states `S0` and `S1` at their own levels.  They
    are brought to the common level `max S0.m S1.m`, each rescaled by `exp (m - M)`, added, and the quotient of the
    accumulated values by the accumulated weights is taken. -/
def combine (S0 S1 : OnlineSoftmax.St (Fin 1024)) (j : Fin 1024) : EReal :=
  let M := max S0.m S1.m
  let c0 := Ideal.exp (S0.m - M)
  let c1 := Ideal.exp (S1.m - M)
  Ideal.div (c0 * S0.acc j + c1 * S1.acc j) (c0 * S0.l + c1 * S1.l)

end Cert.Spec

end
-- ==== Proof.GateLaw.lean ====
/-
  The input affine map through a half-zero input.

  The padded input of length 1536 = 768 + 768 carries the query in one half and zeros in the other; which half is
  live is decided by comparing a real `res` with one half.  A product with a zero entry vanishes on the extended reals
  whatever the other factor is (0 * ±∞ = 0 there), so the inner product of the padded input with any row of 1536
  weights is the inner product of the query with the live 768 weights of that row — no finiteness of the weights is
  needed for this step.
-/
import Idealize.ShloMosaic.PureOps.Ideal
import proofs.«146633_j61375082660584_2_alg».proof.Proof.LibOnlineSoftmax
import proofs.«146633_j61375082660584_2_alg».proof.Proof.Spec

noncomputable section

open scoped BigOperators

namespace Cert.GateLaw

open Idealize.ShloMosaic

/-! ### The comparison with one half -/

/-- The single-precision word `0x3F000000` denotes one half. -/
theorem half_eq : Ideal.ofBits .f32 0x3F000000#32 = ((0.5 : ℝ) : EReal) := by
  simp [Ideal.ofBits, Ideal.ieee, -EReal.coe_mul]; norm_num

theorem sel_cases (res : ℝ) : Spec.sel res = 0 ∨ Spec.sel res = 1 := by
  unfold Spec.sel
  by_cases h : (0.5 : ℝ) ≤ res
  · left; rw [if_pos h]
  · right; rw [if_neg h]

theorem sel_eq_zero_iff (res : ℝ) : Spec.sel res = 0 ↔ (0.5 : ℝ) ≤ res := by
  unfold Spec.sel
  by_cases h : (0.5 : ℝ) ≤ res
  · rw [if_pos h]; exact ⟨fun _ => h, fun _ => rfl⟩
  · rw [if_neg h]; exact ⟨fun h' => absurd h' (by decide), fun h' => absurd h' h⟩

/-- "at least one half", read on the extended reals for a real `res`, is the bit that is set exactly when the first
    half is live. -/
theorem cmp_half (res : ℝ) :
    Ideal.cmp .oge (res : EReal) (Ideal.ofBits .f32 0x3F000000#32)
      = if Spec.sel res = 0 then 1#1 else 0#1 := by
  rw [half_eq]
  show BitVec.ofBool (decide (((0.5 : ℝ) : EReal) ≤ (res : EReal))) = _
  by_cases h : (0.5 : ℝ) ≤ res
  · rw [if_pos ((sel_eq_zero_iff res).mpr h), decide_eq_true (EReal.coe_le_coe_iff.mpr h)]; rfl
  · rw [if_neg (fun h' => h ((sel_eq_zero_iff res).mp h')),
      decide_eq_false (fun h' => h (EReal.coe_le_coe_iff.mp h'))]; rfl

/-- An index of a pair is its first or its second. -/
theorem fin2_cases (a : Fin 2) : a = 0 ∨ a = 1 := by
  obtain ⟨n, hn⟩ := a
  have h01 : n = 0 ∨ n = 1 := by omega
  rcases h01 with rfl | rfl
  · exact Or.inl rfl
  · exact Or.inr rfl

/-! ### A sum over 1536 entries as its two halves -/

theorem sum_halves {M : Type*} [AddCommMonoid M] (f : Fin 1536 → M) :
    ∑ e, f e = (∑ d : Fin 768, f ⟨d.val, by have := d.isLt; omega⟩)
      + ∑ d : Fin 768, f ⟨768 + d.val, by have := d.isLt; omega⟩ :=
  Fin.sum_univ_add (a := 768) (b := 768) f

/-- The live index of the padded input for query coordinate `d`. -/
def live (sel : Fin 2) (d : Fin 768) : Fin 1536 :=
  ⟨sel.val * 768 + d.val, by have h1 := sel.isLt; have h2 := d.isLt; omega⟩

@[simp] theorem live_val (sel : Fin 2) (d : Fin 768) : (live sel d).val = sel.val * 768 + d.val := rfl

/-- If `x` carries `tv` in the half that `sel` names and zeros in the other half, its inner product with any
    `w` is the inner product of `tv` with the live half of `w`. -/
theorem gate_sum (sel : Fin 2) (tv : Fin 768 → EReal) (x w : Fin 1536 → EReal)
    (hlive : ∀ (e : Fin 1536) (d : Fin 768), e.val = sel.val * 768 + d.val → x e = tv d)
    (hdead : ∀ (e : Fin 1536) (d : Fin 768), e.val = (1 - sel.val) * 768 + d.val → x e = 0) :
    ∑ e, x e * w e = ∑ d : Fin 768, tv d * w (live sel d) := by
  rw [sum_halves]
  rcases fin2_cases sel with rfl | rfl
  · have h2 : ∑ d : Fin 768, x ⟨768 + d.val, by have := d.isLt; omega⟩ * w ⟨768 + d.val, by have := d.isLt; omega⟩
        = 0 :=
      Finset.sum_eq_zero fun d _ => by
        rw [hdead ⟨768 + d.val, by have := d.isLt; omega⟩ d
          (show 768 + d.val = (1 - 0) * 768 + d.val by omega), zero_mul]
    rw [h2, add_zero]
    refine Finset.sum_congr rfl fun d _ => ?_
    rw [hlive ⟨d.val, by have := d.isLt; omega⟩ d (show d.val = 0 * 768 + d.val by omega)]
    exact congrArg (fun e => tv d * w e) (Fin.ext (show d.val = 0 * 768 + d.val by omega))
  · have h1 : ∑ d : Fin 768, x ⟨d.val, by have := d.isLt; omega⟩ * w ⟨d.val, by have := d.isLt; omega⟩ = 0 :=
      Finset.sum_eq_zero fun d _ => by
        rw [hdead ⟨d.val, by have := d.isLt; omega⟩ d
          (show d.val = (1 - 1) * 768 + d.val by omega), zero_mul]
    rw [h1, zero_add]
    refine Finset.sum_congr rfl fun d _ => ?_
    rw [hlive ⟨768 + d.val, by have := d.isLt; omega⟩ d (show 768 + d.val = 1 * 768 + d.val by omega)]
    exact congrArg (fun e => tv d * w e) (Fin.ext (show 768 + d.val = 1 * 768 + d.val by omega))

/-- The padded input in closed form: `[tv, 0]` when `sel = 0`, `[0, tv]` otherwise. -/
def xr (sel : Fin 2) (tv : Fin 768 → EReal) (e : Fin 1536) : EReal :=
  if sel = 0 then (if h : e.val < 768 then tv ⟨e.val, h⟩ else 0)
  else (if h : e.val < 768 then 0 else tv ⟨e.val - 768, by have := e.isLt; omega⟩)

theorem xr_sum (sel : Fin 2) (tv : Fin 768 → EReal) (w : Fin 1536 → EReal) :
    ∑ e, xr sel tv e * w e = ∑ d : Fin 768, tv d * w (live sel d) := by
  refine gate_sum sel tv (xr sel tv) w (fun e d h => ?_) (fun e d h => ?_)
  · have hd := d.isLt
    rcases fin2_cases sel with rfl | rfl
    · have he : e.val < 768 := by rw [h]; show 0 * 768 + d.val < 768; omega
      unfold xr
      rw [if_pos rfl, dif_pos he]
      exact congrArg tv (Fin.ext (by rw [h]; show 0 * 768 + d.val = d.val; omega))
    · have he : ¬ e.val < 768 := by rw [h]; show ¬ (1 * 768 + d.val < 768); omega
      unfold xr
      rw [if_neg (by decide), dif_neg he]
      exact congrArg tv (Fin.ext (by show e.val - 768 = d.val; rw [h]; show 1 * 768 + d.val - 768 = d.val; omega))
  · have hd := d.isLt
    rcases fin2_cases sel with rfl | rfl
    · have he : ¬ e.val < 768 := by rw [h]; show ¬ ((1 - 0) * 768 + d.val < 768); omega
      unfold xr
      rw [if_pos rfl, dif_neg he]
    · have he : e.val < 768 := by rw [h]; show (1 - 1) * 768 + d.val < 768; omega
      unfold xr
      rw [if_neg (by decide), dif_pos he]

/-! ### The two affine maps as coercions of their real values -/

/-- The inner product over the live half plus the bias is the real value `Spec.gi`. -/
theorem gi_live_coe (tv : Fin 768 → ℝ) (res : ℝ) (Wih : Fin 3072 → Fin 1536 → ℝ) (bih : Fin 3072 → ℝ)
    (i : Fin 3072) :
    (∑ d : Fin 768, ((tv d : ℝ) : EReal) * ((Wih i (live (Spec.sel res) d) : ℝ) : EReal))
        + ((bih i : ℝ) : EReal)
      = ((Spec.gi tv res Wih bih i : ℝ) : EReal) := by
  unfold Spec.gi
  rw [EReal.coe_add, OnlineSoftmax.coe_sum]
  refine congrArg (fun z => z + ((bih i : ℝ) : EReal)) (Finset.sum_congr rfl fun d _ => ?_)
  exact (EReal.coe_mul _ _).symm

/-- The inner product of any half-zero padded input with a real row of weights, plus the bias, is `Spec.gi`. -/
theorem gi_padded_coe (tv : Fin 768 → ℝ) (res : ℝ) (Wih : Fin 3072 → Fin 1536 → ℝ) (bih : Fin 3072 → ℝ)
    (i : Fin 3072) (x : Fin 1536 → EReal)
    (hlive : ∀ (e : Fin 1536) (d : Fin 768), e.val = (Spec.sel res).val * 768 + d.val → x e = ((tv d : ℝ) : EReal))
    (hdead : ∀ (e : Fin 1536) (d : Fin 768), e.val = (1 - (Spec.sel res).val) * 768 + d.val → x e = 0) :
    (∑ e, x e * ((Wih i e : ℝ) : EReal)) + ((bih i : ℝ) : EReal)
      = ((Spec.gi tv res Wih bih i : ℝ) : EReal) := by
  rw [gate_sum (Spec.sel res) (fun d => ((tv d : ℝ) : EReal)) x (fun e => ((Wih i e : ℝ) : EReal)) hlive hdead]
  exact gi_live_coe tv res Wih bih i

/-- The hidden affine map on the last row, as a coercion. -/
theorem gh_coe (hs : Fin 16384 → Fin 1024 → ℝ) (Whh : Fin 3072 → Fin 1024 → ℝ) (bhh : Fin 3072 → ℝ)
    (i : Fin 3072) :
    (∑ k : Fin 1024, ((hs ⟨16383, by decide⟩ k : ℝ) : EReal) * ((Whh i k : ℝ) : EReal)) + ((bhh i : ℝ) : EReal)
      = ((Spec.gh hs Whh bhh i : ℝ) : EReal) := by
  unfold Spec.gh
  rw [EReal.coe_add, OnlineSoftmax.coe_sum]
  refine congrArg (fun z => z + ((bhh i : ℝ) : EReal)) (Finset.sum_congr rfl fun k _ => ?_)
  exact (EReal.coe_mul _ _).symm

end Cert.GateLaw

end
-- ==== Proof.RefValue.lean ====
import proofs.«146633_j61375082660584_2_alg».proof.Proof.RefReadAttn
import proofs.«146633_j61375082660584_2_alg».proof.Proof.RefReadGate
import proofs.«146633_j61375082660584_2_alg».proof.Proof.Spec
import proofs.«146633_j61375082660584_2_alg».proof.Proof.GateLaw

/-!
# The reference's values on real inputs

When every entry of every argument is a real number, the attention row, the two affine maps and
the last hidden state of the reference are the real quantities of the specification, coordinate
by coordinate.  The attention row is the two-pass softmax average: the scores are real, so their
maximum is a real level, and the average does not depend on the level.  The input affine map
reads the padded query, whose dead half is zero and contributes nothing.
-/

noncomputable section

open scoped BigOperators

namespace Cert.ReferenceIdeal.Stages

open Cert.ReferenceIdeal Cert.ReferenceIdeal.Gen Idealize.ShloMosaic Idealize.ShloMosaic.ValueIdx

/-- A softmax weight, coordinate by coordinate. -/
theorem weights_apply (s : FVec Ideal S16384x1 .f32) (l : Fin 16384) :
    weights (F := Ideal) s (ix2 l (0 : Fin 1))
      = Ideal.div (Ideal.exp (s (ix2 l (0 : Fin 1)) - smax (F := Ideal) s (ix1 (0 : Fin 1))))
          (∑ k : Fin 16384, Ideal.exp (s (ix2 k (0 : Fin 1)) - smax (F := Ideal) s (ix1 (0 : Fin 1)))) := by
  unfold weights
  rw [alpha_apply, shifted_apply, esum_apply]
  exact congrArg (Ideal.div _) (Finset.sum_congr rfl fun k _ => shifted_apply _ _ k)

/-- The attention row, coordinate by coordinate. -/
theorem attn_apply (x0 : FVec Ideal S1x768 .f32) (x2 : FVec Ideal S16384x768 .f32) (x3 : FVec Ideal S16384x1024 .f32) (j : Fin 1024) :
    attn (F := Ideal) x0 x2 x3 (ix2 (0 : Fin 1) j)
      = ∑ l : Fin 16384, weights (F := Ideal) (scores (F := Ideal) x0 x2) (ix2 l (0 : Fin 1)) * x3 (ix2 l j) := by
  unfold attn
  exact wsum_apply _ _ j

/-- On real inputs a score is the real score. -/
theorem scores_value (x0 : FVec Ideal S1x768 .f32) (x2 : FVec Ideal S16384x768 .f32)
    (tv : Fin 768 → ℝ) (ts : Fin 16384 → Fin 768 → ℝ)
    (h0 : ∀ d : Fin 768, x0 (ix2 (0 : Fin 1) d) = ((tv d : ℝ) : EReal))
    (h2 : ∀ (l : Fin 16384) (d : Fin 768), x2 (ix2 l d) = ((ts l d : ℝ) : EReal)) (l : Fin 16384) :
    scores (F := Ideal) x0 x2 (ix2 l (0 : Fin 1)) = ((Cert.Spec.score tv ts l : ℝ) : EReal) := by
  rw [scores_apply]
  unfold Cert.Spec.score
  rw [OnlineSoftmax.coe_sum]
  refine Finset.sum_congr rfl fun d _ => ?_
  rw [h2, h0, EReal.coe_mul]

/-- On real inputs the attention row is the real softmax-weighted average. -/
theorem attn_value (x0 : FVec Ideal S1x768 .f32) (x2 : FVec Ideal S16384x768 .f32) (x3 : FVec Ideal S16384x1024 .f32)
    (tv : Fin 768 → ℝ) (ts : Fin 16384 → Fin 768 → ℝ) (hs : Fin 16384 → Fin 1024 → ℝ)
    (h0 : ∀ d : Fin 768, x0 (ix2 (0 : Fin 1) d) = ((tv d : ℝ) : EReal))
    (h2 : ∀ (l : Fin 16384) (d : Fin 768), x2 (ix2 l d) = ((ts l d : ℝ) : EReal))
    (h3 : ∀ (l : Fin 16384) (j : Fin 1024), x3 (ix2 l j) = ((hs l j : ℝ) : EReal)) (j : Fin 1024) :
    attn (F := Ideal) x0 x2 x3 (ix2 (0 : Fin 1) j) = ((Cert.Spec.attn tv ts hs j : ℝ) : EReal) := by
  have hsc := scores_value x0 x2 tv ts h0 h2
  have hall : ∀ i : S16384x1.Idx, ∃ r : ℝ, scores (F := Ideal) x0 x2 i = (r : EReal) := fun i =>
    ⟨Cert.Spec.score tv ts ⟨(i 0).val, idx2_lt0 i⟩,
      (congrArg (scores (F := Ideal) x0 x2) (col_idx i)).trans (hsc _)⟩
  obtain ⟨M, hM⟩ := smax_real (scores (F := Ideal) x0 x2) hall
  rw [attn_apply]
  have hterm : ∀ l : Fin 16384,
      weights (F := Ideal) (scores (F := Ideal) x0 x2) (ix2 l (0 : Fin 1)) * x3 (ix2 l j)
        = Ideal.div (Ideal.exp (((Cert.Spec.score tv ts l : ℝ) : EReal) - (M : EReal)))
            (∑ k : Fin 16384, Ideal.exp (((Cert.Spec.score tv ts k : ℝ) : EReal) - (M : EReal)))
          * ((hs l j : ℝ) : EReal) := by
    intro l
    rw [weights_apply, h3]
    simp only [hM, hsc]
  rw [Finset.sum_congr rfl fun l _ => hterm l]
  unfold Cert.Spec.attn
  exact OnlineSoftmax.softmax_row (fun l => Cert.Spec.score tv ts l) (fun l => hs l j) M

/-- On real inputs the last hidden state is the last row of `hs`. -/
theorem hrow_value (x3 : FVec Ideal S16384x1024 .f32) (hs : Fin 16384 → Fin 1024 → ℝ)
    (h3 : ∀ (l : Fin 16384) (j : Fin 1024), x3 (ix2 l j) = ((hs l j : ℝ) : EReal)) (k : Fin 1024) :
    hrow (F := Ideal) x3 (ix2 (0 : Fin 1) k) = ((hs ⟨16383, by decide⟩ k : ℝ) : EReal) := by
  rw [hrow_apply, h3]

/-- On real inputs the hidden affine map is the real one. -/
theorem gh_value (x3 : FVec Ideal S16384x1024 .f32) (x5 : FVec Ideal S3072x1024 .f32) (x7 : FVec Ideal S3072 .f32)
    (hs : Fin 16384 → Fin 1024 → ℝ) (Whh : Fin 3072 → Fin 1024 → ℝ) (bhh : Fin 3072 → ℝ)
    (h3 : ∀ (l : Fin 16384) (j : Fin 1024), x3 (ix2 l j) = ((hs l j : ℝ) : EReal))
    (h5 : ∀ (i : Fin 3072) (k : Fin 1024), x5 (ix2 i k) = ((Whh i k : ℝ) : EReal))
    (h7 : ∀ i : Fin 3072, x7 (ix1 i) = ((bhh i : ℝ) : EReal)) (i : Fin 3072) :
    gh (F := Ideal) x3 x5 x7 (ix2 (0 : Fin 1) i) = ((Cert.Spec.gh hs Whh bhh i : ℝ) : EReal) := by
  unfold gh
  rw [affine1024_apply, h7]
  have hsum : (∑ k : Fin 1024, hrow (F := Ideal) x3 (ix2 (0 : Fin 1) k) * x5 (ix2 i k))
      = ∑ k : Fin 1024, ((hs ⟨16383, by decide⟩ k : ℝ) : EReal) * ((Whh i k : ℝ) : EReal) :=
    Finset.sum_congr rfl fun k _ => by rw [hrow_value x3 hs h3 k, h5]
  rw [hsum]
  exact Cert.GateLaw.gh_coe hs Whh bhh i

/-- On real inputs the input affine map is the real one: the live half of the padded query is the
    query, the dead half is zero. -/
theorem gi_value (x0 : FVec Ideal S1x768 .f32) (x1 : FVec Ideal S1 .f32) (x4 : FVec Ideal S3072x1536 .f32) (x6 : FVec Ideal S3072 .f32)
    (tv : Fin 768 → ℝ) (res : ℝ) (Wih : Fin 3072 → Fin 1536 → ℝ) (bih : Fin 3072 → ℝ)
    (h0 : ∀ d : Fin 768, x0 (ix2 (0 : Fin 1) d) = ((tv d : ℝ) : EReal))
    (h1 : x1 (ix1 (0 : Fin 1)) = ((res : ℝ) : EReal))
    (h4 : ∀ (i : Fin 3072) (e : Fin 1536), x4 (ix2 i e) = ((Wih i e : ℝ) : EReal))
    (h6 : ∀ i : Fin 3072, x6 (ix1 i) = ((bih i : ℝ) : EReal)) (i : Fin 3072) :
    gi (F := Ideal) x0 x1 x4 x6 (ix2 (0 : Fin 1) i) = ((Cert.Spec.gi tv res Wih bih i : ℝ) : EReal) := by
  unfold gi
  rw [affine1536_apply, h6]
  have hsum : (∑ k : Fin 1536, xr (F := Ideal) x0 x1 (ix2 (0 : Fin 1) k) * x4 (ix2 i k))
      = ∑ k : Fin 1536, (fun e : Fin 1536 => xr (F := Ideal) x0 x1 (ix2 (0 : Fin 1) e)) k * ((Wih i k : ℝ) : EReal) :=
    Finset.sum_congr rfl fun k _ => by rw [h4]
  rw [hsum]
  have hc := Cert.GateLaw.cmp_half res
  rw [← h1] at hc
  refine Cert.GateLaw.gi_padded_coe tv res Wih bih i _ ?_ ?_
  · intro e d he
    show xr (F := Ideal) x0 x1 (ix2 (0 : Fin 1) e) = _
    rcases Cert.GateLaw.sel_cases res with hsel | hsel
    · have hv : (Cert.Spec.sel res).val = 0 := by rw [hsel]; rfl
      rw [hv] at he
      rw [if_pos hsel] at hc
      have hlt : e.val < 768 := by have := d.isLt; omega
      rw [xr_apply_one x0 x1 e hc, dif_pos hlt]
      have hd : (⟨e.val, hlt⟩ : Fin 768) = d := Fin.ext (by show e.val = d.val; omega)
      rw [hd, h0]
    · have hv : (Cert.Spec.sel res).val = 1 := by rw [hsel]; rfl
      rw [hv] at he
      rw [if_neg (by rw [hsel]; decide)] at hc
      have hge : ¬ e.val < 768 := by omega
      rw [xr_apply_zero x0 x1 e hc, dif_neg hge]
      have hd : (⟨e.val - 768, by have := e.isLt; omega⟩ : Fin 768) = d := Fin.ext (by show e.val - 768 = d.val; omega)
      rw [hd, h0]
  · intro e d he
    show xr (F := Ideal) x0 x1 (ix2 (0 : Fin 1) e) = _
    rcases Cert.GateLaw.sel_cases res with hsel | hsel
    · have hv : (Cert.Spec.sel res).val = 0 := by rw [hsel]; rfl
      rw [hv] at he
      rw [if_pos hsel] at hc
      have hge : ¬ e.val < 768 := by omega
      rw [xr_apply_one x0 x1 e hc, dif_neg hge]
    · have hv : (Cert.Spec.sel res).val = 1 := by rw [hsel]; rfl
      rw [hv] at he
      rw [if_neg (by rw [hsel]; decide)] at hc
      have hlt : e.val < 768 := by have := d.isLt; omega
      rw [xr_apply_zero x0 x1 e hc, dif_pos hlt]

/-- Two rows with a leading unit axis that agree at every column are equal. -/
theorem row_ext {n : Nat} {α : Type} (f g : (⟨2, ![1, n]⟩ : Shape).Idx → α)
    (h : ∀ j : Fin n, f (ix2 (0 : Fin 1) j) = g (ix2 (0 : Fin 1) j)) : f = g := by
  funext i
  have hi : i = ix2 (0 : Fin 1) (⟨(i 1).val, idx2_lt1 i⟩ : Fin n) := by
    funext a
    match a with
    | ⟨0, _⟩ => exact Fin.ext (by have := idx2_lt0 i; show (i 0).val = 0; omega)
    | ⟨1, _⟩ => rfl
  rw [hi]
  exact h _

end Cert.ReferenceIdeal.Stages

end
-- ==== Proof.KHostTail.lean ====
import proofs.«146633_j61375082660584_2_alg».proof.Proof.Gen.KernelIdeal.Launch
import proofs.«146633_j61375082660584_2_alg».proof.Proof.RefTail
import Idealize.ShloMosaic.Lib.StableHlo.Run

/-!
# The kernel's last stretch of host operations

After the second region the kernel takes row 0 of each of the region's two result arrays as the
input and hidden affine maps, and from there performs the recurrent cell and the score exactly as
the reference does.  Read over arbitrary contents before the stretch, the two results are the
shared cell and score functions of those rows, the attention row, the last hidden state and the
arguments.
-/

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- Row 0 of an array of 8 rows of 3072. -/
def row0 (g : (⟨S8x3072, .f32⟩ : BufTy).Contents (Elt F)) : (⟨S1x3072, .f32⟩ : BufTy).Contents (Elt F) :=
  extractStridedSlice S1x3072 ![0, 0] g slices_S8x3072_S1x3072_0_0

set_option maxRecDepth 65536 in
set_option maxHeartbeats 8000000 in
/-- The second result is the recurrent cell of row 0 of the two region results and the last hidden state. -/
theorem cell_eq (W : Valuation τ sig (Elt F)) :
    after hostOps2 W (Proc.devRef .tc main_v66)
      = Cert.ReferenceIdeal.Tail.cell (row0 (W (Proc.devRef .tc main_v36_0))) (row0 (W (Proc.devRef .tc main_v36_1)))
          (W (Proc.devRef .tc main_v0)) := by
  after_results_simp <;> rfl

set_option maxRecDepth 65536 in
set_option maxHeartbeats 8000000 in
/-- The first result is the score of the query joined with the attention row. -/
theorem score_eq (W : Valuation τ sig (Elt F)) :
    after hostOps2 W (Proc.devRef .tc main_v72)
      = Cert.ReferenceIdeal.Tail.score (W (Proc.devRef .tc main_arg0)) (W (Proc.devRef .tc main_v29))
          (W (Proc.devRef .tc main_arg8)) (W (Proc.devRef .tc main_arg9)) := by
  after_results_simp <;> rfl

end Cert.KernelIdeal.Host

end
-- ==== Proof.KHostTable.lean ====
import proofs.«146633_j61375082660584_2_alg».proof.Proof.Gen.KernelIdeal.Launch
import proofs.«146633_j61375082660584_2_alg».proof.Proof.RefTail
import Idealize.ShloMosaic.Lib.StableHlo.Run
import proofs.«146633_j61375082660584_2_alg».proof.Proof.Gen.KernelIdeal.Regions
import proofs.«146633_j61375082660584_2_alg».proof.Proof.Spec
import proofs.«146633_j61375082660584_2_alg».proof.Proof.GateLaw
import Idealize.ShloMosaic.Lib.Pipeline.Value
import Idealize.ShloMosaic.Lib.ValueIdx
import Idealize.ShloMosaic.PureOps.Ideal.Laws
/-!
# The table word, the reshaped biases, the last hidden state, and what survives each stretch

The one word of the prefetched table is the outlined selection between the constants 0 and 1 on
the comparison of `result` with one half: on a real `result` it is 0 exactly when the first
768-column half of the input weights is live.  The two biases are reshaped to a leading unit
axis, and the last hidden state is row 16383 of `hidden_s`.  A buffer that a stretch of host
operations does not write is unchanged by it.
-/

noncomputable section

namespace Cert.KernelIdeal.Host

open Cert.KernelIdeal Cert.KernelIdeal.Gen Idealize.ShloMosaic Idealize.ShloMosaic.TcCoe Idealize.SL.Sem Idealize.ShloMosaic.StableHlo

open Idealize.ShloMosaic.ValueIdx

variable {F : FTy → Type} [FloatOps F]

/-- The table's one word as a function of `result`. -/
def tableWord (x1 : (⟨S1, .f32⟩ : BufTy).Contents (Elt F)) : (⟨S1, .i32⟩ : BufTy).Contents (Elt F) :=
  select (cmpf .oge x1 (broadcastInDim S1 ![] bcast_S_S1 (constant S_ .f32 0x3F000000#32)))
    (broadcastInDim S1 ![] bcast_S_S1 (constantI S_ 32 0#32))
    (broadcastInDim S1 ![] bcast_S_S1 (constantI S_ 32 1#32))

set_option maxRecDepth 65536 in
set_option maxHeartbeats 8000000 in
/-- After the three stretches between the regions the table buffer holds that word. -/
theorem table_eq (W : Valuation τ sig (Elt F)) :
    after hostOps1_2 (after hostOps1_1 (after hostOps1 W)) (Proc.devRef .tc main_v33)
      = tableWord (W (Proc.devRef .tc main_arg1)) := by
  after_results_simp <;> rfl

set_option maxRecDepth 65536 in
set_option maxHeartbeats 8000000 in
/-- The two biases with a leading unit axis. -/
theorem bias_ih_eq (W : Valuation τ sig (Elt F)) :
    after hostOps1_2 W (Proc.devRef .tc main_v34) = shapeCast S1x3072 (W (Proc.devRef .tc main_arg6)) shapeCasts_S3072_S1x3072 := by
  after_results_simp <;> rfl

set_option maxRecDepth 65536 in
set_option maxHeartbeats 8000000 in
theorem bias_hh_eq (W : Valuation τ sig (Elt F)) :
    after hostOps1_2 W (Proc.devRef .tc main_v35) = shapeCast S1x3072 (W (Proc.devRef .tc main_arg7)) shapeCasts_S3072_S1x3072 := by
  after_results_simp <;> rfl

set_option maxRecDepth 65536 in
/-- The last hidden state. -/
theorem h_eq (W : Valuation τ sig (Elt F)) :
    after hostOps0 W (Proc.devRef .tc main_v0)
      = extractStridedSlice S1x1024 ![16383, 0] (W (Proc.devRef .tc main_arg3)) slices_S16384x1024_S1x1024_16383_0 := by
  after_results_simp <;> rfl

/-! ## Read at an index on the extended reals -/

/-- On a real `result` the table word is 0 when the first half of the weights is live, 1 when the second. -/
theorem tableWord_apply (x1 : FVec Ideal S1 .f32) (res : ℝ) (h1 : x1 (ValueIdx.ix1 (0 : Fin 1)) = ((res : ℝ) : EReal)) :
    tableWord (F := Ideal) x1 (ValueIdx.ix1 (0 : Fin 1)) = if Cert.Spec.sel res = 0 then 0#32 else 1#32 := by
  unfold tableWord
  rw [select_apply]
  have hc : cmpf (F := Ideal) .oge x1 (broadcastInDim S1 ![] bcast_S_S1 (constant (F := Ideal) S_ .f32 0x3F000000#32)) (ValueIdx.ix1 (0 : Fin 1))
      = if Cert.Spec.sel res = 0 then 1#1 else 0#1 := by
    show Ideal.cmp .oge (x1 (ValueIdx.ix1 (0 : Fin 1)))
        (broadcastInDim S1 ![] bcast_S_S1 (constant (F := Ideal) S_ .f32 0x3F000000#32) (ValueIdx.ix1 (0 : Fin 1))) = _
    rw [broadcastInDim_apply _ bcast_S_S1 _ (ValueIdx.ix1 (0 : Fin 1)) ValueIdx.ix0 (fun a => a.elim0), h1]
    exact Cert.GateLaw.cmp_half res
  rw [hc, broadcastInDim_apply _ bcast_S_S1 (constantI S_ 32 0#32) (ValueIdx.ix1 (0 : Fin 1)) ValueIdx.ix0 (fun a => a.elim0),
    broadcastInDim_apply _ bcast_S_S1 (constantI S_ 32 1#32) (ValueIdx.ix1 (0 : Fin 1)) ValueIdx.ix0 (fun a => a.elim0)]
  by_cases hsel : Cert.Spec.sel res = 0
  · rw [if_pos hsel, if_pos hsel, select_one]; rfl
  · rw [if_neg hsel, if_neg hsel, select_zero]; rfl

/-- So the word is 0 exactly when the first half is live. -/
theorem tableWord_eq_zero_iff (x1 : FVec Ideal S1 .f32) (res : ℝ) (h1 : x1 (ValueIdx.ix1 (0 : Fin 1)) = ((res : ℝ) : EReal)) :
    tableWord (F := Ideal) x1 (ValueIdx.ix1 (0 : Fin 1)) = 0#32 ↔ Cert.Spec.sel res = 0 := by
  rw [tableWord_apply x1 res h1]
  by_cases hsel : Cert.Spec.sel res = 0
  · rw [if_pos hsel]; exact ⟨fun _ => hsel, fun _ => rfl⟩
  · rw [if_neg hsel]; exact ⟨fun h => absurd h (by decide), fun h => absurd h hsel⟩

/-- A bias with a leading unit axis reads the bias. -/
theorem bias_apply (b : FVec Ideal S3072 .f32) (i : Fin 3072) :
    shapeCast S1x3072 b shapeCasts_S3072_S1x3072 (ValueIdx.ix2 (0 : Fin 1) i) = b (ValueIdx.ix1 i) :=
  shapeCast_apply b shapeCasts_S3072_S1x3072 (ValueIdx.ix2 (0 : Fin 1) i) (ValueIdx.ix1 i) (by
    rw [Shape.rowMajor_val_two, Shape.rowMajor_val_one]; show i.val = 0 * 3072 + i.val; omega)

/-- The last hidden state reads row 16383. -/
theorem h_apply (x3 : FVec Ideal S16384x1024 .f32) (k : Fin 1024) :
    extractStridedSlice S1x1024 ![16383, 0] x3 slices_S16384x1024_S1x1024_16383_0 (ValueIdx.ix2 (0 : Fin 1) k)
      = x3 (ValueIdx.ix2 (⟨16383, by decide⟩ : Fin 16384) k) :=
  extractStridedSlice_apply ![16383, 0] x3 slices_S16384x1024_S1x1024_16383_0 (ValueIdx.ix2 (0 : Fin 1) k)
    (ValueIdx.ix2 (⟨16383, by decide⟩ : Fin 16384) k) (fun a => match a with
    | ⟨0, _⟩ => by show 16383 = 16383 + 0; rfl
    | ⟨1, _⟩ => by show k.val = 0 + k.val; omega)

/-! ## What each stretch leaves alone -/

/-- A buffer outside a stretch's written buffers is unchanged by it. -/
theorem keep0 (W : Valuation τ sig (Elt F)) (r : Ref sig .tc) (h : r ∉ hostOps0_W) :
    after hostOps0 W (Proc.devRef .tc r) = W (Proc.devRef .tc r) := after_of_writes_sub hostOps0 W hostOps0_writes h
theorem keep1 (W : Valuation τ sig (Elt F)) (r : Ref sig .tc) (h : r ∉ hostOps1_W) :
    after hostOps1 W (Proc.devRef .tc r) = W (Proc.devRef .tc r) := after_of_writes_sub hostOps1 W hostOps1_writes h
theorem keep1_1 (W : Valuation τ sig (Elt F)) (r : Ref sig .tc) (h : r ∉ hostOps1_1_W) :
    after hostOps1_1 W (Proc.devRef .tc r) = W (Proc.devRef .tc r) := after_of_writes_sub hostOps1_1 W hostOps1_1_writes h
theorem keep1_2 (W : Valuation τ sig (Elt F)) (r : Ref sig .tc) (h : r ∉ hostOps1_2_W) :
    after hostOps1_2 W (Proc.devRef .tc r) = W (Proc.devRef .tc r) := after_of_writes_sub hostOps1_2 W hostOps1_2_writes h
theorem keep2 (W : Valuation τ sig (Elt F)) (r : Ref sig .tc) (h : r ∉ hostOps2_W) :
    after hostOps2 W (Proc.devRef .tc r) = W (Proc.devRef .tc r) := after_of_writes_sub hostOps2 W hostOps2_writes h

/-- The attention row survives the two short stretches after the combine. -/
theorem attn_kept (W : Valuation τ sig (Elt F)) :
    after hostOps1_2 (after hostOps1_1 W) (Proc.devRef .tc main_v29) = W (Proc.devRef .tc main_v29) := by
  rw [keep1_2 _ main_v29 (by decide), keep1_1 _ main_v29 (by decide)]

/-- The last hidden state survives the three stretches between the regions. -/
theorem h_kept (W : Valuation τ sig (Elt F)) :
    after hostOps1_2 (after hostOps1_1 (after hostOps1 W)) (Proc.devRef .tc main_v0) = W (Proc.devRef .tc main_v0) := by
  rw [keep1_2 _ main_v0 (by decide), keep1_1 _ main_v0 (by decide), keep1 _ main_v0 (by decide)]

/-- The table word and the reshaped biases are not written by the last stretch. -/
theorem table_kept (W : Valuation τ sig (Elt F)) :
    after hostOps2 W (Proc.devRef .tc main_v33) = W (Proc.devRef .tc main_v33) := keep2 W main_v33 (by decide)

end Cert.KernelIdeal.Host

end
-- ==== Proof.KHostRow.lean ====
import proofs.«146633_j61375082660584_2_alg».proof.Proof.KHostTail
import Idealize.ShloMosaic.Lib.Pipeline.Value
import Idealize.ShloMosaic.Lib.ValueIdx

/-!
# Row 0 of a region result read at a column
-/

noncomputable section

namespace Cert.KernelIdeal.Host

open Cert.KernelIdeal Cert.KernelIdeal.Gen Idealize.ShloMosaic

/-- Row 0 of an array of 8 rows reads the array's row 0. -/
theorem row0_apply {F : FTy → Type} [FloatOps F] (g : (⟨S8x3072, .f32⟩ : BufTy).Contents (Elt F)) (i : Fin 3072) :
    row0 g (ValueIdx.ix2 (0 : Fin 1) i) = g (ValueIdx.ix2 (0 : Fin 8) i) := by
  unfold row0
  exact extractStridedSlice_apply ![0, 0] g slices_S8x3072_S1x3072_0_0 (ValueIdx.ix2 (0 : Fin 1) i)
    (ValueIdx.ix2 (0 : Fin 8) i) (fun b => match b with
    | ⟨0, _⟩ => by show 0 = 0 + 0; rfl
    | ⟨1, _⟩ => by show i.val = 0 + i.val; omega)

end Cert.KernelIdeal.Host

end
-- ==== Proof.Finite.lean ====
/-
  From the precondition to real numbers.

  The precondition is the conjunction, over the ten float arguments, of "every entry has absolute value below +∞".
  On the extended reals  max x (−x) < +∞  excludes both infinities, so every entry of every argument is the coercion
  of a real number.
-/
import Idealize.ShloMosaic.PureOps.Ideal
import Idealize.ShloMosaic.Lib.ValueIdx
import Idealize.ShloMosaic.Lib.ReduceAll
import proofs.«146633_j61375082660584_2_alg».proof.Pre_finite_inputs

noncomputable section

namespace Cert.Finite

open Idealize.ShloMosaic

/-- The scalar shape has one index. -/
instance : Subsingleton (⟨0, ![]⟩ : Shape).Idx := ⟨fun _ _ => funext fun d => d.elim0⟩

/-- The single-precision word `0x7F800000` denotes +∞. -/
theorem inf_eq : Ideal.ofBits .f32 0x7F800000#32 = (⊤ : EReal) := by simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [inf_eq] at h
  have hlt : max x (-x) < ⊤ := by
    by_contra hn
    have h0 : Ideal.cmp .olt (max x (-x)) ⊤ = 0#1 := by
      show BitVec.ofBool (decide (max x (-x) < ⊤)) = _
      rw [decide_eq_false hn]; rfl
    rw [h0] at h
    exact absurd h (by decide)
  induction x using EReal.rec with
  | bot => exact absurd hlt (by simp)
  | top => exact absurd hlt (by simp)
  | coe r => exact ⟨r, rfl⟩

/-- One conjunct of the precondition: "all entries of `a` have absolute value below +∞" makes every entry real. -/
theorem real_of_all {s : Shape} {axes : List (Fin s.rank)} (a : FVec Ideal s .f32)
    (bc : (⟨0, ![]⟩ : Shape).BroadcastsInDim s (![] : Fin 0 → Fin s.rank))
    (red : s.ReducesTo axes (⟨0, ![]⟩ : Shape)) (h0 : 0 < (⟨0, ![]⟩ : Shape).numel)
    (e : Host.reduce IntOp.andi
          (cmpf .olt (Host.absf a) (broadcastInDim s ![] bc (constant (F := Ideal) ⟨0, ![]⟩ .f32 0x7F800000#32)))
          (constantI ⟨0, ![]⟩ 1 1#1) red h0 ValueIdx.ix0 = 1#1) (i : s.Idx) :
    ∃ r : ℝ, a i = (r : EReal) :=
  real_of_abs_lt (a i) (Host.reduce_andi_all _ _ red h0 ValueIdx.ix0 e i)

/-- A conjunction of two one-bit words that is 1 has both conjuncts 1, read at an index. -/
theorem andi_split {s : Shape} (x y : IVec s 1) (i : s.Idx) (h : andi x y i = 1#1) : x i = 1#1 ∧ y i = 1#1 :=
  IntOp.andi_eq_one.1 h

open Cert.Pre_finite_inputs in
/-- Under the precondition every entry of every argument is the coercion of a real number. -/
theorem reals_of_pre [Cert.Pre_finite_inputs.Facts]
    (a0 : FVec Ideal S1x768 .f32) (a1 : FVec Ideal S1 .f32) (a2 : FVec Ideal S16384x768 .f32)
    (a3 : FVec Ideal S16384x1024 .f32) (a4 : FVec Ideal S3072x1536 .f32) (a5 : FVec Ideal S3072x1024 .f32)
    (a6 : FVec Ideal S3072 .f32) (a7 : FVec Ideal S3072 .f32) (a8 : FVec Ideal S1x1792 .f32)
    (a9 : FVec Ideal S1 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) := by
  have h0 := congrFun h ValueIdx.ix0
  dsimp only [Cert.Pre_finite_inputs.fn, Cert.Pre_finite_inputs.fn_part1, Cert.Pre_finite_inputs.fn_part2] at h0
  obtain ⟨h0, e9⟩ := andi_split _ _ _ h0
  obtain ⟨h0, e8⟩ := andi_split _ _ _ h0
  obtain ⟨h0, e7⟩ := andi_split _ _ _ h0
  obtain ⟨h0, e6⟩ := andi_split _ _ _ h0
  obtain ⟨h0, e5⟩ := andi_split _ _ _ h0
  obtain ⟨h0, e4⟩ := andi_split _ _ _ h0
  obtain ⟨h0, e3⟩ := andi_split _ _ _ h0
  obtain ⟨h0, e2⟩ := andi_split _ _ _ h0
  obtain ⟨e0, e1⟩ := andi_split _ _ _ h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7,
    real_of_all a8 _ _ _ e8, real_of_all a9 _ _ _ e9⟩

/-- Entrywise real witnesses collected into one real array. -/
theorem exists_real_fun {ι : Type} (a : ι → EReal) (h : ∀ i, ∃ r : ℝ, a i = (r : EReal)) :
    ∃ f : ι → ℝ, a = fun i => ((f i : ℝ) : EReal) := by
  choose f hf using h
  exact ⟨f, funext hf⟩

open Cert.Pre_finite_inputs in
/-- Under the precondition every argument is the entrywise coercion of a real array. -/
theorem funs_of_pre [Cert.Pre_finite_inputs.Facts]
    (a0 : FVec Ideal S1x768 .f32) (a1 : FVec Ideal S1 .f32) (a2 : FVec Ideal S16384x768 .f32)
    (a3 : FVec Ideal S16384x1024 .f32) (a4 : FVec Ideal S3072x1536 .f32) (a5 : FVec Ideal S3072x1024 .f32)
    (a6 : FVec Ideal S3072 .f32) (a7 : FVec Ideal S3072 .f32) (a8 : FVec Ideal S1x1792 .f32)
    (a9 : FVec Ideal S1 .f32)
    (h : Cert.Pre_finite_inputs.fn (F := Ideal) a0 a1 a2 a3 a4 a5 a6 a7 a8 a9 = fun _ => 1#1) :
    (∃ f : S1x768.Idx → ℝ, a0 = fun i => ((f i : ℝ) : EReal)) ∧
    (∃ f : S1.Idx → ℝ, a1 = fun i => ((f i : ℝ) : EReal)) ∧
    (∃ f : S16384x768.Idx → ℝ, a2 = fun i => ((f i : ℝ) : EReal)) ∧
    (∃ f : S16384x1024.Idx → ℝ, a3 = fun i => ((f i : ℝ) : EReal)) ∧
    (∃ f : S3072x1536.Idx → ℝ, a4 = fun i => ((f i : ℝ) : EReal)) ∧
    (∃ f : S3072x1024.Idx → ℝ, a5 = fun i => ((f i : ℝ) : EReal)) ∧
    (∃ f : S3072.Idx → ℝ, a6 = fun i => ((f i : ℝ) : EReal)) ∧
    (∃ f : S3072.Idx → ℝ, a7 = fun i => ((f i : ℝ) : EReal)) ∧
    (∃ f : S1x1792.Idx → ℝ, a8 = fun i => ((f i : ℝ) : EReal)) ∧
    (∃ f : S1.Idx → ℝ, a9 = fun i => ((f i : ℝ) : EReal)) := by
  obtain ⟨h0, h1, h2, h3, h4, h5, h6, h7, h8, h9⟩ := reals_of_pre a0 a1 a2 a3 a4 a5 a6 a7 a8 a9 h
  exact ⟨exists_real_fun a0 h0, exists_real_fun a1 h1, exists_real_fun a2 h2, exists_real_fun a3 h3,
    exists_real_fun a4 h4, exists_real_fun a5 h5, exists_real_fun a6 h6, exists_real_fun a7 h7,
    exists_real_fun a8 h8, exists_real_fun a9 h9⟩

end Cert.Finite

end
-- ==== Proof.IdealAttnArrays.lean ====
/-
  The attention region: what the write-backs leave in the three result arrays.

  The pipeline writes output window w back at the last tile of each half: at grid point 3 into rows 0 … 7 and at grid
  point 7 into rows 8 … 15 of the result array.  So row r of the array holds, for r < 8, what the body left in the
  window's staging buffer at point 3 and, for r ≥ 8, what it left at point 7 (in both cases at sublane r mod 8).  The
  host reads rows 0 and 8 only.
-/
import proofs.«146633_j61375082660584_2_alg».proof.Proof.Gen.KernelIdeal.Launch
import proofs.«146633_j61375082660584_2_alg».proof.Proof.Gen.KernelIdeal.Skeleton
import proofs.«146633_j61375082660584_2_alg».proof.Proof.Gen.KernelIdeal.Points
import proofs.«146633_j61375082660584_2_alg».proof.Proof.IdealAttnData
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx (ix2 eq_ix2)

variable (V : (c : Dev nD) → (b : Ref sig .tc) → Buf (Elt F) ((c : Thread nD τ).loc b))

/-! ## Result array of window 3 -/

theorem idx3_lo : win0_3.index t0_3 (0 : Fin 2) = 0 ∧ win0_3.index t0_3 (1 : Fin 2) = 0 := by decide
theorem idx3_hi : win0_3.index t0_7 (0 : Fin 2) = 1 ∧ win0_3.index t0_7 (1 : Fin 2) = 0 := by decide
theorem flush3_only : ∀ t : Fin cfg0.N, (cfg0.win 3).flush t = true → t = t0_3 ∨ t = t0_7 := by decide +kernel

/-- The array the write-backs of window 3 build, as one function of its index. -/
def built3 (c : Dev nD) : (⟨2, ![16, 1024]⟩ : Shape).Idx → Elt F .f32 := fun i =>
  if (i 0).val < 8 then (attnDat V c).after 3 t0_3 (ix2 (⟨(i 0).val % 8, Nat.mod_lt _ (by decide)⟩ : Fin 8) (i 1))
  else (attnDat V c).after 3 t0_7 (ix2 (⟨(i 0).val % 8, Nat.mod_lt _ (by decide)⟩ : Fin 8) (i 1))

/-- What a write-back of window 3 writes is the matching block of `built3`. -/
theorem flushed3_eq (c : Dev nD) (t : Fin cfg0.N) (hf : (cfg0.win 3).flush t = true) :
    (attnDat V c).flushed 3 t = ((cfg0.win 3).blk t).view.read (Elt F) (built3 V c) := by
  rcases flush3_only t hf with rfl | rfl
  · funext y
    show (attnDat V c).after 3 t0_3 y = built3 V c (((cfg0.win 3).blk t0_3).view.emb y)
    obtain ⟨e0, e1⟩ := idx3_lo
    have hy0 : (y 0).val < 8 := (y 0).isLt
    have hy1 : (y 1).val < 1024 := (y 1).isLt
    have c0 : ((((cfg0.win 3).blk t0_3).view.emb y) 0).val = (y 0).val := by
      show win0_3.index t0_3 (0 : Fin 2) * 8 + 1 * (y 0).val = (y 0).val; omega
    have c1 : ((((cfg0.win 3).blk t0_3).view.emb y) 1).val = (y 1).val := by
      show win0_3.index t0_3 (1 : Fin 2) * 1024 + 1 * (y 1).val = (y 1).val; omega
    unfold built3
    rw [if_pos (by rw [c0]; exact hy0)]
    congr 1
    funext a; apply Fin.ext
    match a with
    | ⟨0, _⟩ => show (y 0).val = ((((cfg0.win 3).blk t0_3).view.emb y) 0).val % 8; rw [c0]; omega
    | ⟨1, _⟩ => show (y 1).val = ((((cfg0.win 3).blk t0_3).view.emb y) 1).val; rw [c1]
  · funext y
    show (attnDat V c).after 3 t0_7 y = built3 V c (((cfg0.win 3).blk t0_7).view.emb y)
    obtain ⟨e0, e1⟩ := idx3_hi
    have hy0 : (y 0).val < 8 := (y 0).isLt
    have hy1 : (y 1).val < 1024 := (y 1).isLt
    have c0 : ((((cfg0.win 3).blk t0_7).view.emb y) 0).val = 8 + (y 0).val := by
      show win0_3.index t0_7 (0 : Fin 2) * 8 + 1 * (y 0).val = 8 + (y 0).val; omega
    have c1 : ((((cfg0.win 3).blk t0_7).view.emb y) 1).val = (y 1).val := by
      show win0_3.index t0_7 (1 : Fin 2) * 1024 + 1 * (y 1).val = (y 1).val; omega
    unfold built3
    rw [if_neg (by rw [c0]; omega)]
    congr 1
    funext a; apply Fin.ext
    match a with
    | ⟨0, _⟩ => show (y 0).val = ((((cfg0.win 3).blk t0_7).view.emb y) 0).val % 8; rw [c0]; omega
    | ⟨1, _⟩ => show (y 1).val = ((((cfg0.win 3).blk t0_7).view.emb y) 1).val; rw [c1]

/-- An index of the array is in point `t`'s block iff each coordinate is in the block's range on its axis. -/
theorem mem_blk3 (t : Fin cfg0.N) (i : (⟨2, ![16, 1024]⟩ : Shape).Idx) :
    i ∈ ((cfg0.win 3).blk t).view.set ↔ ∀ a : Fin 2, win0_3.index t a * (⟨2, ![8, 1024]⟩ : Shape).size a ≤ (i a).val ∧ (i a).val < win0_3.index t a * (⟨2, ![8, 1024]⟩ : Shape).size a + (⟨2, ![8, 1024]⟩ : Shape).size a := by
  show i ∈ ((View.whole main_v1_0).slice (win0_3.rect t)).set ↔ _
  rw [View.set_slice_whole, Rect.mem_set_unit]
  exact Iff.rfl

/-- Row 0 of the result array holds sublane 0 of what the body left at the last tile of the first half, -/
theorem row0_3 (c : Dev nD) (j : Fin 1024) :
    (attnDat V c).arrAt 3 cfg0.N (ix2 (0 : Fin 16) j) = (attnDat V c).after 3 t0_3 (ix2 (0 : Fin 8) j) := by
  rw [(attnDat V c).arrAt_eq_piecewise 3 (built3 V c) (flushed3_eq V c) (ix2 (0 : Fin 16) j)]
  rw [if_pos ⟨t0_3, by decide, (mem_blk3 t0_3 _).mpr (fun a => by
    obtain ⟨e0, e1⟩ := idx3_lo
    match a with
    | ⟨0, _⟩ => show win0_3.index t0_3 (0 : Fin 2) * 8 ≤ 0 ∧ 0 < win0_3.index t0_3 (0 : Fin 2) * 8 + 8; omega
    | ⟨1, _⟩ => show win0_3.index t0_3 (1 : Fin 2) * 1024 ≤ j.val ∧ j.val < win0_3.index t0_3 (1 : Fin 2) * 1024 + 1024; have := j.isLt; omega)⟩]
  unfold built3
  rw [if_pos (by show (0 : ℕ) < 8; decide)]
  rfl

/-- and row 8 that of the second half. -/
theorem row8_3 (c : Dev nD) (j : Fin 1024) :
    (attnDat V c).arrAt 3 cfg0.N (ix2 (8 : Fin 16) j) = (attnDat V c).after 3 t0_7 (ix2 (0 : Fin 8) j) := by
  rw [(attnDat V c).arrAt_eq_piecewise 3 (built3 V c) (flushed3_eq V c) (ix2 (8 : Fin 16) j)]
  rw [if_pos ⟨t0_7, by decide, (mem_blk3 t0_7 _).mpr (fun a => by
    obtain ⟨e0, e1⟩ := idx3_hi
    match a with
    | ⟨0, _⟩ => show win0_3.index t0_7 (0 : Fin 2) * 8 ≤ 8 ∧ 8 < win0_3.index t0_7 (0 : Fin 2) * 8 + 8; omega
    | ⟨1, _⟩ => show win0_3.index t0_7 (1 : Fin 2) * 1024 ≤ j.val ∧ j.val < win0_3.index t0_7 (1 : Fin 2) * 1024 + 1024; have := j.isLt; omega)⟩]
  unfold built3
  rw [if_neg (by show ¬ ((8 : ℕ) < 8); decide)]
  rfl

/-! ## Result array of window 4 -/

theorem idx4_lo : win0_4.index t0_3 (0 : Fin 2) = 0 ∧ win0_4.index t0_3 (1 : Fin 2) = 0 := by decide
theorem idx4_hi : win0_4.index t0_7 (0 : Fin 2) = 1 ∧ win0_4.index t0_7 (1 : Fin 2) = 0 := by decide
theorem flush4_only : ∀ t : Fin cfg0.N, (cfg0.win 4).flush t = true → t = t0_3 ∨ t = t0_7 := by decide +kernel

/-- The array the write-backs of window 4 build, as one function of its index. -/
def built4 (c : Dev nD) : (⟨2, ![16, 128]⟩ : Shape).Idx → Elt F .f32 := fun i =>
  if (i 0).val < 8 then (attnDat V c).after 4 t0_3 (ix2 (⟨(i 0).val % 8, Nat.mod_lt _ (by decide)⟩ : Fin 8) (i 1))
  else (attnDat V c).after 4 t0_7 (ix2 (⟨(i 0).val % 8, Nat.mod_lt _ (by decide)⟩ : Fin 8) (i 1))

/-- What a write-back of window 4 writes is the matching block of `built4`. -/
theorem flushed4_eq (c : Dev nD) (t : Fin cfg0.N) (hf : (cfg0.win 4).flush t = true) :
    (attnDat V c).flushed 4 t = ((cfg0.win 4).blk t).view.read (Elt F) (built4 V c) := by
  rcases flush4_only t hf with rfl | rfl
  · funext y
    show (attnDat V c).after 4 t0_3 y = built4 V c (((cfg0.win 4).blk t0_3).view.emb y)
    obtain ⟨e0, e1⟩ := idx4_lo
    have hy0 : (y 0).val < 8 := (y 0).isLt
    have hy1 : (y 1).val < 128 := (y 1).isLt
    have c0 : ((((cfg0.win 4).blk t0_3).view.emb y) 0).val = (y 0).val := by
      show win0_4.index t0_3 (0 : Fin 2) * 8 + 1 * (y 0).val = (y 0).val; omega
    have c1 : ((((cfg0.win 4).blk t0_3).view.emb y) 1).val = (y 1).val := by
      show win0_4.index t0_3 (1 : Fin 2) * 128 + 1 * (y 1).val = (y 1).val; omega
    unfold built4
    rw [if_pos (by rw [c0]; exact hy0)]
    congr 1
    funext a; apply Fin.ext
    match a with
    | ⟨0, _⟩ => show (y 0).val = ((((cfg0.win 4).blk t0_3).view.emb y) 0).val % 8; rw [c0]; omega
    | ⟨1, _⟩ => show (y 1).val = ((((cfg0.win 4).blk t0_3).view.emb y) 1).val; rw [c1]
  · funext y
    show (attnDat V c).after 4 t0_7 y = built4 V c (((cfg0.win 4).blk t0_7).view.emb y)
    obtain ⟨e0, e1⟩ := idx4_hi
    have hy0 : (y 0).val < 8 := (y 0).isLt
    have hy1 : (y 1).val < 128 := (y 1).isLt
    have c0 : ((((cfg0.win 4).blk t0_7).view.emb y) 0).val = 8 + (y 0).val := by
      show win0_4.index t0_7 (0 : Fin 2) * 8 + 1 * (y 0).val = 8 + (y 0).val; omega
    have c1 : ((((cfg0.win 4).blk t0_7).view.emb y) 1).val = (y 1).val := by
      show win0_4.index t0_7 (1 : Fin 2) * 128 + 1 * (y 1).val = (y 1).val; omega
    unfold built4
    rw [if_neg (by rw [c0]; omega)]
    congr 1
    funext a; apply Fin.ext
    match a with
    | ⟨0, _⟩ => show (y 0).val = ((((cfg0.win 4).blk t0_7).view.emb y) 0).val % 8; rw [c0]; omega
    | ⟨1, _⟩ => show (y 1).val = ((((cfg0.win 4).blk t0_7).view.emb y) 1).val; rw [c1]

/-- An index of the array is in point `t`'s block iff each coordinate is in the block's range on its axis. -/
theorem mem_blk4 (t : Fin cfg0.N) (i : (⟨2, ![16, 128]⟩ : Shape).Idx) :
    i ∈ ((cfg0.win 4).blk t).view.set ↔ ∀ a : Fin 2, win0_4.index t a * (⟨2, ![8, 128]⟩ : Shape).size a ≤ (i a).val ∧ (i a).val < win0_4.index t a * (⟨2, ![8, 128]⟩ : Shape).size a + (⟨2, ![8, 128]⟩ : Shape).size a := by
  show i ∈ ((View.whole main_v1_1).slice (win0_4.rect t)).set ↔ _
  rw [View.set_slice_whole, Rect.mem_set_unit]
  exact Iff.rfl

/-- Row 0 of the result array holds sublane 0 of what the body left at the last tile of the first half, -/
theorem row0_4 (c : Dev nD) (j : Fin 128) :
    (attnDat V c).arrAt 4 cfg0.N (ix2 (0 : Fin 16) j) = (attnDat V c).after 4 t0_3 (ix2 (0 : Fin 8) j) := by
  rw [(attnDat V c).arrAt_eq_piecewise 4 (built4 V c) (flushed4_eq V c) (ix2 (0 : Fin 16) j)]
  rw [if_pos ⟨t0_3, by decide, (mem_blk4 t0_3 _).mpr (fun a => by
    obtain ⟨e0, e1⟩ := idx4_lo
    match a with
    | ⟨0, _⟩ => show win0_4.index t0_3 (0 : Fin 2) * 8 ≤ 0 ∧ 0 < win0_4.index t0_3 (0 : Fin 2) * 8 + 8; omega
    | ⟨1, _⟩ => show win0_4.index t0_3 (1 : Fin 2) * 128 ≤ j.val ∧ j.val < win0_4.index t0_3 (1 : Fin 2) * 128 + 128; have := j.isLt; omega)⟩]
  unfold built4
  rw [if_pos (by show (0 : ℕ) < 8; decide)]
  rfl

/-- and row 8 that of the second half. -/
theorem row8_4 (c : Dev nD) (j : Fin 128) :
    (attnDat V c).arrAt 4 cfg0.N (ix2 (8 : Fin 16) j) = (attnDat V c).after 4 t0_7 (ix2 (0 : Fin 8) j) := by
  rw [(attnDat V c).arrAt_eq_piecewise 4 (built4 V c) (flushed4_eq V c) (ix2 (8 : Fin 16) j)]
  rw [if_pos ⟨t0_7, by decide, (mem_blk4 t0_7 _).mpr (fun a => by
    obtain ⟨e0, e1⟩ := idx4_hi
    match a with
    | ⟨0, _⟩ => show win0_4.index t0_7 (0 : Fin 2) * 8 ≤ 8 ∧ 8 < win0_4.index t0_7 (0 : Fin 2) * 8 + 8; omega
    | ⟨1, _⟩ => show win0_4.index t0_7 (1 : Fin 2) * 128 ≤ j.val ∧ j.val < win0_4.index t0_7 (1 : Fin 2) * 128 + 128; have := j.isLt; omega)⟩]
  unfold built4
  rw [if_neg (by show ¬ ((8 : ℕ) < 8); decide)]
  rfl

/-! ## Result array of window 5 -/

theorem idx5_lo : win0_5.index t0_3 (0 : Fin 2) = 0 ∧ win0_5.index t0_3 (1 : Fin 2) = 0 := by decide
theorem idx5_hi : win0_5.index t0_7 (0 : Fin 2) = 1 ∧ win0_5.index t0_7 (1 : Fin 2) = 0 := by decide
theorem flush5_only : ∀ t : Fin cfg0.N, (cfg0.win 5).flush t = true → t = t0_3 ∨ t = t0_7 := by decide +kernel

/-- The array the write-backs of window 5 build, as one function of its index. -/
def built5 (c : Dev nD) : (⟨2, ![16, 128]⟩ : Shape).Idx → Elt F .f32 := fun i =>
  if (i 0).val < 8 then (attnDat V c).after 5 t0_3 (ix2 (⟨(i 0).val % 8, Nat.mod_lt _ (by decide)⟩ : Fin 8) (i 1))
  else (attnDat V c).after 5 t0_7 (ix2 (⟨(i 0).val % 8, Nat.mod_lt _ (by decide)⟩ : Fin 8) (i 1))

/-- What a write-back of window 5 writes is the matching block of `built5`. -/
theorem flushed5_eq (c : Dev nD) (t : Fin cfg0.N) (hf : (cfg0.win 5).flush t = true) :
    (attnDat V c).flushed 5 t = ((cfg0.win 5).blk t).view.read (Elt F) (built5 V c) := by
  rcases flush5_only t hf with rfl | rfl
  · funext y
    show (attnDat V c).after 5 t0_3 y = built5 V c (((cfg0.win 5).blk t0_3).view.emb y)
    obtain ⟨e0, e1⟩ := idx5_lo
    have hy0 : (y 0).val < 8 := (y 0).isLt
    have hy1 : (y 1).val < 128 := (y 1).isLt
    have c0 : ((((cfg0.win 5).blk t0_3).view.emb y) 0).val = (y 0).val := by
      show win0_5.index t0_3 (0 : Fin 2) * 8 + 1 * (y 0).val = (y 0).val; omega
    have c1 : ((((cfg0.win 5).blk t0_3).view.emb y) 1).val = (y 1).val := by
      show win0_5.index t0_3 (1 : Fin 2) * 128 + 1 * (y 1).val = (y 1).val; omega
    unfold built5
    rw [if_pos (by rw [c0]; exact hy0)]
    congr 1
    funext a; apply Fin.ext
    match a with
    | ⟨0, _⟩ => show (y 0).val = ((((cfg0.win 5).blk t0_3).view.emb y) 0).val % 8; rw [c0]; omega
    | ⟨1, _⟩ => show (y 1).val = ((((cfg0.win 5).blk t0_3).view.emb y) 1).val; rw [c1]
  · funext y
    show (attnDat V c).after 5 t0_7 y = built5 V c (((cfg0.win 5).blk t0_7).view.emb y)
    obtain ⟨e0, e1⟩ := idx5_hi
    have hy0 : (y 0).val < 8 := (y 0).isLt
    have hy1 : (y 1).val < 128 := (y 1).isLt
    have c0 : ((((cfg0.win 5).blk t0_7).view.emb y) 0).val = 8 + (y 0).val := by
      show win0_5.index t0_7 (0 : Fin 2) * 8 + 1 * (y 0).val = 8 + (y 0).val; omega
    have c1 : ((((cfg0.win 5).blk t0_7).view.emb y) 1).val = (y 1).val := by
      show win0_5.index t0_7 (1 : Fin 2) * 128 + 1 * (y 1).val = (y 1).val; omega
    unfold built5
    rw [if_neg (by rw [c0]; omega)]
    congr 1
    funext a; apply Fin.ext
    match a with
    | ⟨0, _⟩ => show (y 0).val = ((((cfg0.win 5).blk t0_7).view.emb y) 0).val % 8; rw [c0]; omega
    | ⟨1, _⟩ => show (y 1).val = ((((cfg0.win 5).blk t0_7).view.emb y) 1).val; rw [c1]

/-- An index of the array is in point `t`'s block iff each coordinate is in the block's range on its axis. -/
theorem mem_blk5 (t : Fin cfg0.N) (i : (⟨2, ![16, 128]⟩ : Shape).Idx) :
    i ∈ ((cfg0.win 5).blk t).view.set ↔ ∀ a : Fin 2, win0_5.index t a * (⟨2, ![8, 128]⟩ : Shape).size a ≤ (i a).val ∧ (i a).val < win0_5.index t a * (⟨2, ![8, 128]⟩ : Shape).size a + (⟨2, ![8, 128]⟩ : Shape).size a := by
  show i ∈ ((View.whole main_v1_2).slice (win0_5.rect t)).set ↔ _
  rw [View.set_slice_whole, Rect.mem_set_unit]
  exact Iff.rfl

/-- Row 0 of the result array holds sublane 0 of what the body left at the last tile of the first half, -/
theorem row0_5 (c : Dev nD) (j : Fin 128) :
    (attnDat V c).arrAt 5 cfg0.N (ix2 (0 : Fin 16) j) = (attnDat V c).after 5 t0_3 (ix2 (0 : Fin 8) j) := by
  rw [(attnDat V c).arrAt_eq_piecewise 5 (built5 V c) (flushed5_eq V c) (ix2 (0 : Fin 16) j)]
  rw [if_pos ⟨t0_3, by decide, (mem_blk5 t0_3 _).mpr (fun a => by
    obtain ⟨e0, e1⟩ := idx5_lo
    match a with
    | ⟨0, _⟩ => show win0_5.index t0_3 (0 : Fin 2) * 8 ≤ 0 ∧ 0 < win0_5.index t0_3 (0 : Fin 2) * 8 + 8; omega
    | ⟨1, _⟩ => show win0_5.index t0_3 (1 : Fin 2) * 128 ≤ j.val ∧ j.val < win0_5.index t0_3 (1 : Fin 2) * 128 + 128; have := j.isLt; omega)⟩]
  unfold built5
  rw [if_pos (by show (0 : ℕ) < 8; decide)]
  rfl

/-- and row 8 that of the second half. -/
theorem row8_5 (c : Dev nD) (j : Fin 128) :
    (attnDat V c).arrAt 5 cfg0.N (ix2 (8 : Fin 16) j) = (attnDat V c).after 5 t0_7 (ix2 (0 : Fin 8) j) := by
  rw [(attnDat V c).arrAt_eq_piecewise 5 (built5 V c) (flushed5_eq V c) (ix2 (8 : Fin 16) j)]
  rw [if_pos ⟨t0_7, by decide, (mem_blk5 t0_7 _).mpr (fun a => by
    obtain ⟨e0, e1⟩ := idx5_hi
    match a with
    | ⟨0, _⟩ => show win0_5.index t0_7 (0 : Fin 2) * 8 ≤ 8 ∧ 8 < win0_5.index t0_7 (0 : Fin 2) * 8 + 8; omega
    | ⟨1, _⟩ => show win0_5.index t0_7 (1 : Fin 2) * 128 ≤ j.val ∧ j.val < win0_5.index t0_7 (1 : Fin 2) * 128 + 128; have := j.isLt; omega)⟩]
  unfold built5
  rw [if_neg (by show ¬ ((8 : ℕ) < 8); decide)]
  rfl

end Cert.KernelIdeal.Attn

end
-- ==== Proof.KHostCombine.lean ====
import proofs.«146633_j61375082660584_2_alg».proof.Proof.Gen.KernelIdeal.Launch
import proofs.«146633_j61375082660584_2_alg».proof.Proof.RefTail
import Idealize.ShloMosaic.Lib.StableHlo.Run
import proofs.«146633_j61375082660584_2_alg».proof.Proof.Spec
import Idealize.ShloMosaic.Lib.Pipeline.Value
import Idealize.ShloMosaic.Lib.ValueIdx
import Idealize.ShloMosaic.PureOps.Ideal.Laws
/-!
# The kernel's combine of the two halves

The first region leaves, in rows 0 and 8 of three arrays, the final running accumulators, levels
and sums of the two halves of the rows.  The host brings the two halves to the common level (the
larger of the two), rescales each by the exponential of its level less the common one, adds, and
divides the accumulated values by the accumulated weights.  This is read here first over
arbitrary contents of the three arrays, then coordinate by coordinate on the extended reals.
-/

noncomputable section

namespace Cert.KernelIdeal.Host

open Cert.KernelIdeal Cert.KernelIdeal.Gen Idealize.ShloMosaic Idealize.ShloMosaic.TcCoe Idealize.SL.Sem Idealize.ShloMosaic.StableHlo

open Idealize.ShloMosaic.ValueIdx

variable {F : FTy → Type} [FloatOps F]

/-- Rows 0 and 8 of the accumulator array, as vectors of 1024. -/
def accRow0 (a : (⟨S16x1024, .f32⟩ : BufTy).Contents (Elt F)) : (⟨S1024, .f32⟩ : BufTy).Contents (Elt F) :=
  shapeCast S1024 (extractStridedSlice S1x1024 ![0, 0] a slices_S16x1024_S1x1024_0_0) shapeCasts_S1x1024_S1024
def accRow8 (a : (⟨S16x1024, .f32⟩ : BufTy).Contents (Elt F)) : (⟨S1024, .f32⟩ : BufTy).Contents (Elt F) :=
  shapeCast S1024 (extractStridedSlice S1x1024 ![8, 0] a slices_S16x1024_S1x1024_8_0) shapeCasts_S1x1024_S1024

/-- The words at (0, 0) and (8, 0) of a level or sum array, as scalars. -/
def word0 (x : (⟨S16x128, .f32⟩ : BufTy).Contents (Elt F)) : (⟨S_, .f32⟩ : BufTy).Contents (Elt F) :=
  shapeCast S_ (extractStridedSlice S1x1 ![0, 0] x slices_S16x128_S1x1_0_0) shapeCasts_S1x1_S_
def word8 (x : (⟨S16x128, .f32⟩ : BufTy).Contents (Elt F)) : (⟨S_, .f32⟩ : BufTy).Contents (Elt F) :=
  shapeCast S_ (extractStridedSlice S1x1 ![8, 0] x slices_S16x128_S1x1_8_0) shapeCasts_S1x1_S_

/-- The common level, and the two rescaling factors. -/
def lvl (mA : (⟨S16x128, .f32⟩ : BufTy).Contents (Elt F)) : (⟨S_, .f32⟩ : BufTy).Contents (Elt F) :=
  maximumf (word0 mA) (word8 mA)
def fac0 (mA : (⟨S16x128, .f32⟩ : BufTy).Contents (Elt F)) : (⟨S_, .f32⟩ : BufTy).Contents (Elt F) :=
  Host.exp (subf (word0 mA) (lvl mA))
def fac8 (mA : (⟨S16x128, .f32⟩ : BufTy).Contents (Elt F)) : (⟨S_, .f32⟩ : BufTy).Contents (Elt F) :=
  Host.exp (subf (word8 mA) (lvl mA))

/-- The combined sum of weights and the combined accumulator. -/
def den (mA lA : (⟨S16x128, .f32⟩ : BufTy).Contents (Elt F)) : (⟨S_, .f32⟩ : BufTy).Contents (Elt F) :=
  addf (mulf (fac0 mA) (word0 lA)) (mulf (fac8 mA) (word8 lA))
def num (accA : (⟨S16x1024, .f32⟩ : BufTy).Contents (Elt F)) (mA : (⟨S16x128, .f32⟩ : BufTy).Contents (Elt F)) :
    (⟨S1024, .f32⟩ : BufTy).Contents (Elt F) :=
  addf (mulf (broadcastInDim S1024 ![] bcast_S_S1024 (fac0 mA)) (accRow0 accA))
    (mulf (broadcastInDim S1024 ![] bcast_S_S1024 (fac8 mA)) (accRow8 accA))

/-- The attention row the host computes from the three arrays. -/
def hostCombine (accA : (⟨S16x1024, .f32⟩ : BufTy).Contents (Elt F)) (mA lA : (⟨S16x128, .f32⟩ : BufTy).Contents (Elt F)) :
    (⟨S1x1024, .f32⟩ : BufTy).Contents (Elt F) :=
  broadcastInDim S1x1024 ![1] bcast_S1024_S1x1024_1
    (Host.divf (num accA mA) (broadcastInDim S1024 ![] bcast_S_S1024 (den mA lA)))

set_option maxRecDepth 65536 in
set_option maxHeartbeats 8000000 in
/-- After the stretch the attention buffer holds the combine of the three arrays. -/
theorem combine_eq (W : Valuation τ sig (Elt F)) :
    after hostOps1 W (Proc.devRef .tc main_v29)
      = hostCombine (W (Proc.devRef .tc main_v1_0)) (W (Proc.devRef .tc main_v1_1)) (W (Proc.devRef .tc main_v1_2)) := by
  after_results_simp <;> rfl

/-! ## Read coordinate by coordinate on the extended reals -/

theorem accRow0_apply (a : FVec Ideal S16x1024 .f32) (j : Fin 1024) :
    accRow0 (F := Ideal) a (ValueIdx.ix1 j) = a (ValueIdx.ix2 (0 : Fin 16) j) := by
  unfold accRow0
  rw [shapeCast_apply _ shapeCasts_S1x1024_S1024 (ValueIdx.ix1 j) (ValueIdx.ix2 (0 : Fin 1) j) (by
    rw [Shape.rowMajor_val_two, Shape.rowMajor_val_one]; show 0 * 1024 + j.val = j.val; omega)]
  exact extractStridedSlice_apply ![0, 0] a slices_S16x1024_S1x1024_0_0 (ValueIdx.ix2 (0 : Fin 1) j) (ValueIdx.ix2 (0 : Fin 16) j) (fun b => match b with
    | ⟨0, _⟩ => by show 0 = 0 + 0; rfl
    | ⟨1, _⟩ => by show j.val = 0 + j.val; omega)

theorem accRow8_apply (a : FVec Ideal S16x1024 .f32) (j : Fin 1024) :
    accRow8 (F := Ideal) a (ValueIdx.ix1 j) = a (ValueIdx.ix2 (8 : Fin 16) j) := by
  unfold accRow8
  rw [shapeCast_apply _ shapeCasts_S1x1024_S1024 (ValueIdx.ix1 j) (ValueIdx.ix2 (0 : Fin 1) j) (by
    rw [Shape.rowMajor_val_two, Shape.rowMajor_val_one]; show 0 * 1024 + j.val = j.val; omega)]
  exact extractStridedSlice_apply ![8, 0] a slices_S16x1024_S1x1024_8_0 (ValueIdx.ix2 (0 : Fin 1) j) (ValueIdx.ix2 (8 : Fin 16) j) (fun b => match b with
    | ⟨0, _⟩ => by show 8 = 8 + 0; rfl
    | ⟨1, _⟩ => by show j.val = 0 + j.val; omega)

theorem word0_apply (x : FVec Ideal S16x128 .f32) :
    word0 (F := Ideal) x ValueIdx.ix0 = x (ValueIdx.ix2 (0 : Fin 16) (0 : Fin 128)) := by
  unfold word0
  rw [shapeCast_apply _ shapeCasts_S1x1_S_ ValueIdx.ix0 (ValueIdx.ix2 (0 : Fin 1) (0 : Fin 1)) (by
    rw [Shape.rowMajor_val_two]
    have h := (S_.rowMajor ValueIdx.ix0).isLt
    have h1 : S_.numel = 1 := by decide
    show 0 * 1 + 0 = _; omega)]
  exact extractStridedSlice_apply ![0, 0] x slices_S16x128_S1x1_0_0 (ValueIdx.ix2 (0 : Fin 1) (0 : Fin 1)) (ValueIdx.ix2 (0 : Fin 16) (0 : Fin 128)) (fun b => match b with
    | ⟨0, _⟩ => by show 0 = 0 + 0; rfl
    | ⟨1, _⟩ => by show 0 = 0 + 0; rfl)

theorem word8_apply (x : FVec Ideal S16x128 .f32) :
    word8 (F := Ideal) x ValueIdx.ix0 = x (ValueIdx.ix2 (8 : Fin 16) (0 : Fin 128)) := by
  unfold word8
  rw [shapeCast_apply _ shapeCasts_S1x1_S_ ValueIdx.ix0 (ValueIdx.ix2 (0 : Fin 1) (0 : Fin 1)) (by
    rw [Shape.rowMajor_val_two]
    have h := (S_.rowMajor ValueIdx.ix0).isLt
    have h1 : S_.numel = 1 := by decide
    show 0 * 1 + 0 = _; omega)]
  exact extractStridedSlice_apply ![8, 0] x slices_S16x128_S1x1_8_0 (ValueIdx.ix2 (0 : Fin 1) (0 : Fin 1)) (ValueIdx.ix2 (8 : Fin 16) (0 : Fin 128)) (fun b => match b with
    | ⟨0, _⟩ => by show 8 = 8 + 0; rfl
    | ⟨1, _⟩ => by show 0 = 0 + 0; rfl)

/-- A scalar spread over a vector of 1024 reads the scalar everywhere. -/
theorem spread1024_apply (x : FVec Ideal S_ .f32) (j : Fin 1024) :
    broadcastInDim S1024 ![] bcast_S_S1024 x (ValueIdx.ix1 j) = x ValueIdx.ix0 :=
  broadcastInDim_apply _ bcast_S_S1024 x (ValueIdx.ix1 j) ValueIdx.ix0 (fun a => a.elim0)

/-- The combine, coordinate by coordinate: the two halves' final states brought to the common level. -/
theorem hostCombine_apply (accA : FVec Ideal S16x1024 .f32) (mA lA : FVec Ideal S16x128 .f32) (j : Fin 1024) :
    hostCombine (F := Ideal) accA mA lA (ValueIdx.ix2 (0 : Fin 1) j)
      = Cert.Spec.combine
          ⟨mA (ValueIdx.ix2 (0 : Fin 16) (0 : Fin 128)), lA (ValueIdx.ix2 (0 : Fin 16) (0 : Fin 128)), fun j => accA (ValueIdx.ix2 (0 : Fin 16) j)⟩
          ⟨mA (ValueIdx.ix2 (8 : Fin 16) (0 : Fin 128)), lA (ValueIdx.ix2 (8 : Fin 16) (0 : Fin 128)), fun j => accA (ValueIdx.ix2 (8 : Fin 16) j)⟩ j := by
  unfold hostCombine
  rw [broadcastInDim_apply _ bcast_S1024_S1x1024_1 _ (ValueIdx.ix2 (0 : Fin 1) j) (ValueIdx.ix1 j) (fun a => match a with
    | ⟨0, _⟩ => by show j.val = if (1024 : Nat) = 1 then 0 else j.val; rw [if_neg (by decide)])]
  show Ideal.div
      (broadcastInDim S1024 ![] bcast_S_S1024 (fac0 (F := Ideal) mA) (ValueIdx.ix1 j) * accRow0 (F := Ideal) accA (ValueIdx.ix1 j)
        + broadcastInDim S1024 ![] bcast_S_S1024 (fac8 (F := Ideal) mA) (ValueIdx.ix1 j) * accRow8 (F := Ideal) accA (ValueIdx.ix1 j))
      (broadcastInDim S1024 ![] bcast_S_S1024 (den (F := Ideal) mA lA) (ValueIdx.ix1 j)) = _
  rw [spread1024_apply, spread1024_apply, spread1024_apply, accRow0_apply, accRow8_apply]
  show Ideal.div
      (Ideal.exp (word0 (F := Ideal) mA ValueIdx.ix0 - max (word0 (F := Ideal) mA ValueIdx.ix0) (word8 (F := Ideal) mA ValueIdx.ix0)) * accA (ValueIdx.ix2 (0 : Fin 16) j)
        + Ideal.exp (word8 (F := Ideal) mA ValueIdx.ix0 - max (word0 (F := Ideal) mA ValueIdx.ix0) (word8 (F := Ideal) mA ValueIdx.ix0)) * accA (ValueIdx.ix2 (8 : Fin 16) j))
      (Ideal.exp (word0 (F := Ideal) mA ValueIdx.ix0 - max (word0 (F := Ideal) mA ValueIdx.ix0) (word8 (F := Ideal) mA ValueIdx.ix0)) * word0 (F := Ideal) lA ValueIdx.ix0
        + Ideal.exp (word8 (F := Ideal) mA ValueIdx.ix0 - max (word0 (F := Ideal) mA ValueIdx.ix0) (word8 (F := Ideal) mA ValueIdx.ix0)) * word8 (F := Ideal) lA ValueIdx.ix0) = _
  rw [word0_apply mA, word8_apply mA, word0_apply lA, word8_apply lA]
  rfl

end Cert.KernelIdeal.Host

end
-- ==== Proof.MatmulRead.lean ====
/-
  A matrix product read at an index.

  For a row-by-row product (both operands contracted along their second axis: A is m×k, B is n×k) the entry (a, b) of
  the product into a zero accumulator is ∑_c A(a,c)·B(b,c); for the plain product (A is m×k, B is k×n) it is
  ∑_c A(a,c)·B(c,b).  On the extended reals, with no rounding and no order of summation left.
-/
import Idealize.ShloMosaic.PureOps.Ideal
import Idealize.ShloMosaic.PureOps.Ideal.Laws
import Idealize.ShloMosaic.Lib.ValueIdx

noncomputable section

open scoped BigOperators

namespace Cert.MatmulRead

open Idealize.ShloMosaic Idealize.ShloMosaic.ValueIdx

variable {m k n : Nat} {φ₁ φ₂ : FTy}

/-- Rows against rows: contraction along axis 1 of both operands. -/
theorem matmul_rows_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims _ _ _) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- Rows against columns: the plain product. -/
theorem matmul_plain_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.MatmulRead

end
-- ==== Proof.AttnPayload.lean ====
/-
  One tile of the attention region, read as one step of the streaming softmax pass.

  The body of the first region scores the 2048 rows of its tile against the query (a row-by-row product), takes the
  larger of the running level and the tile's maximum as the new level, rescales the running sum and the running
  accumulator by exp(old level − new level), and adds the tile's weights exp(score − new level) and the
  weight-by-value products.  For real scores and values and a state read off the scratch vectors this is exactly one
  step of the streaming pass, the tile proposing its maximum as its level.
-/
import Idealize.ShloMosaic.PureOps.Ideal
import Idealize.ShloMosaic.PureOps.Ideal.Laws
import Idealize.ShloMosaic.Lib.ValueIdx
import Idealize.ShloMosaic.Lib.Pipeline.Value
import proofs.«146633_j61375082660584_2_alg».proof.Proof.Gen.KernelIdeal.Skeleton
import proofs.«146633_j61375082660584_2_alg».proof.Proof.LibOnlineSoftmax
import proofs.«146633_j61375082660584_2_alg».proof.Proof.MatmulRead

noncomputable section

open scoped BigOperators

namespace Cert.KernelIdeal.AttnValue

open Idealize.ShloMosaic Idealize.ShloMosaic.ValueIdx Cert.KernelIdeal

/-! ### Indices of the one-entry shapes -/

/-- The 1×1 shape has the one index (0, 0). -/
theorem idx11 (i : S1x1.Idx) : i = ix2 (0 : Fin 1) (0 : Fin 1) := by
  funext a
  match a with
  | ⟨0, _⟩ => exact Subsingleton.elim (α := Fin 1) _ _
  | ⟨1, _⟩ => exact Subsingleton.elim (α := Fin 1) _ _

/-- The one-entry vector shape has the one index 0. -/
theorem idx1 (i : S1.Idx) : i = ValueIdx.ix1 (0 : Fin 1) := by
  funext a
  match a with
  | ⟨0, _⟩ => exact Subsingleton.elim (α := Fin 1) _ _

/-! ### The maximum of a tile, as a real -/

/-- The largest of the 2048 scores of a tile. -/
def tileMax (s : Fin 2048 → ℝ) : ℝ := Finset.univ.sup' ⟨⟨0, by norm_num⟩, Finset.mem_univ _⟩ s

/-- Folding `max` from −∞ over coerced reals gives the coercion of their largest. -/
theorem fold_max_coe {ι : Type} [DecidableEq ι] (S : Finset ι) (h : S.Nonempty) (f : ι → ℝ) :
    S.fold max (⊥ : EReal) (fun k => ((f k : ℝ) : EReal)) = ((S.sup' h f : ℝ) : EReal) := by
  have h1 : S.fold max (⊥ : EReal) (fun k => ((f k : ℝ) : EReal)) = S.sup (fun k => ((f k : ℝ) : EReal)) := rfl
  rw [h1, ← Finset.sup'_eq_sup h]
  exact (Finset.comp_sup'_eq_sup'_comp h (fun x : ℝ => (x : EReal)) OnlineSoftmax.coe_max).symm

/-- The single-precision word `0xFF800000` denotes −∞. -/
theorem neg_inf_eq : Ideal.ofBits .f32 0xFF800000#32 = (⊥ : EReal) := by simp [Ideal.ofBits, Ideal.ieee]

/-! ### The two reductions along a row of 2048 -/

theorem lift_row (h : S1x2048.Reduces [1] S1) (k : Fin 2048) :
    h.lift (ValueIdx.ix1 (0 : Fin 1)) k = ix2 (0 : Fin 1) k := by
  funext c
  apply Fin.ext
  match c with
  | ⟨0, _⟩ => rfl
  | ⟨1, _⟩ => rfl

/-- The sum along the row. -/
theorem rowsum_apply (src : FVec Ideal S1x2048 .f32) (h : S1x2048.Reduces [1] S1) (hφ : FKind.Formats .f32)
    (hacc : (0x00000000#32 : BitVec 32) = FKind.add.neutral .f32 hφ) :
    multiReduction (F := Ideal) .add [1] S1 src 0x00000000#32 h hφ hacc (ValueIdx.ix1 (0 : Fin 1))
      = ∑ k : Fin 2048, src (ix2 (0 : Fin 1) k) := by
  refine (Ideal.multiReduction_add_single src 0x00000000#32 h hφ hacc (ValueIdx.ix1 (0 : Fin 1))).trans ?_
  exact Finset.sum_congr rfl fun k _ => congrArg src (lift_row h k)

/-- The maximum along the row, from −∞. -/
theorem rowmax_apply (src : FVec Ideal S1x2048 .f32) (h : S1x2048.Reduces [1] S1) (hφ : FKind.Formats .f32)
    (hacc : (0xFF800000#32 : BitVec 32) = FKind.maximumf.neutral .f32 hφ) :
    multiReduction (F := Ideal) .maximumf [1] S1 src 0xFF800000#32 h hφ hacc (ValueIdx.ix1 (0 : Fin 1))
      = (Finset.univ : Finset (Fin 2048)).fold max (⊥ : EReal) (fun k => src (ix2 (0 : Fin 1) k)) := by
  refine (Ideal.multiReduction_maximumf_single src 0xFF800000#32 h hφ hacc (ValueIdx.ix1 (0 : Fin 1))).trans ?_
  have e1 : FloatOps.ofBits (F := Ideal) .f32 0xFF800000#32 = (⊥ : EReal) := neg_inf_eq
  have e2 : (src ∘ h.lift (ValueIdx.ix1 (0 : Fin 1))) = fun k : Fin 2048 => src (ix2 (0 : Fin 1) k) :=
    funext fun k => congrArg src (lift_row h k)
  show Finset.fold max (FloatOps.ofBits (F := Ideal) .f32 0xFF800000#32)
      (src ∘ h.lift (ValueIdx.ix1 (0 : Fin 1))) (Finset.univ : Finset (Fin 2048)) = _
  rw [e1, e2]
  rfl

/-- A one-entry vector viewed as a 1×1 vector. -/
theorem cast11_apply (v : FVec Ideal S1 .f32) (h : S1.ShapeCasts S1x1) :
    shapeCast S1x1 v h (ix2 (0 : Fin 1) (0 : Fin 1)) = v (ValueIdx.ix1 (0 : Fin 1)) := by
  unfold shapeCast
  exact congrArg v (idx1 _)

/-! ### The payloads at an index -/

section Reads
variable (x0 : Vec Ideal S1x768 .f32) (x1 : Vec Ideal S2048x768 .f32) (x2 : Vec Ideal S2048x1024 .f32)
  (m l : Vec Ideal S1x1 .f32) (acc : Vec Ideal S1x1024 .f32)

/-- The scores of the tile: the query against each of the 2048 rows. -/
theorem k0_pay9_apply (k : Fin 2048) :
    Gen.k0_pay9 x0 x1 (ix2 (0 : Fin 1) k) = ∑ d : Fin 768, x0 (ix2 (0 : Fin 1) d) * x1 (ix2 k d) := by
  unfold Gen.k0_pay9
  show FloatOps.matmul (⟨[1], [1], [0], [0], [], [], Facts₀.dot_S1x768_S2048x768_S1x2048_1_1_0_0_n_n_wf⟩ :
        DotDims S1x768 S2048x768 S1x2048) none x0 x1 (constant (F := Ideal) S1x2048 .f32 0x00000000#32)
        (ix2 (0 : Fin 1) k) = _
  rw [Cert.MatmulRead.matmul_rows_apply]

/-- The new level: the larger of the old level and the largest score of the tile. -/
theorem k0_pay10_apply :
    Gen.k0_pay10 x0 x1 m (ix2 (0 : Fin 1) (0 : Fin 1))
      = max (m (ix2 (0 : Fin 1) (0 : Fin 1)))
          ((Finset.univ : Finset (Fin 2048)).fold max (⊥ : EReal)
            (fun k => Gen.k0_pay9 x0 x1 (ix2 (0 : Fin 1) k))) := by
  unfold Gen.k0_pay10
  show max (m (ix2 (0 : Fin 1) (0 : Fin 1)))
      (shapeCast S1x1 (multiReduction (F := Ideal) .maximumf [1] S1 (Gen.k0_pay9 x0 x1) 0xFF800000#32
        Facts₀.reduces_S1x2048_S1 (.inl rfl) rfl) Facts₀.shapeCasts_S1_S1x1 (ix2 (0 : Fin 1) (0 : Fin 1))) = _
  exact congrArg (max (m (ix2 (0 : Fin 1) (0 : Fin 1)))) ((cast11_apply _ _).trans (rowmax_apply _ _ _ _))

/-- The rescaling factor: exp (old level − new level). -/
theorem k0_pay11_apply :
    Gen.k0_pay11 x0 x1 m (ix2 (0 : Fin 1) (0 : Fin 1))
      = Ideal.exp (m (ix2 (0 : Fin 1) (0 : Fin 1)) - Gen.k0_pay10 x0 x1 m (ix2 (0 : Fin 1) (0 : Fin 1))) := by
  unfold Gen.k0_pay11
  rfl

/-- The weights of the tile: exp (score − new level). -/
theorem k0_pay12_apply (k : Fin 2048) :
    Gen.k0_pay12 x0 x1 m (ix2 (0 : Fin 1) k)
      = Ideal.exp (Gen.k0_pay9 x0 x1 (ix2 (0 : Fin 1) k)
          - Gen.k0_pay10 x0 x1 m (ix2 (0 : Fin 1) (0 : Fin 1))) := by
  unfold Gen.k0_pay12
  show Ideal.exp (Gen.k0_pay9 x0 x1 (ix2 (0 : Fin 1) k)
      - broadcastTo S1x2048 (Gen.k0_pay10 x0 x1 m) Facts₀.broadcasts_S1x1_S1x2048 (ix2 (0 : Fin 1) k)) = _
  rw [broadcastTo_apply (Gen.k0_pay10 x0 x1 m) Facts₀.broadcasts_S1x1_S1x2048 (ix2 (0 : Fin 1) k)
    (ix2 (0 : Fin 1) (0 : Fin 1)) (fun a => by
      match a with
      | ⟨0, _⟩ => rfl
      | ⟨1, _⟩ => rfl)]

/-- The new running sum. -/
theorem k0_pay13_apply :
    Gen.k0_pay13 x0 x1 m l (ix2 (0 : Fin 1) (0 : Fin 1))
      = Gen.k0_pay11 x0 x1 m (ix2 (0 : Fin 1) (0 : Fin 1)) * l (ix2 (0 : Fin 1) (0 : Fin 1))
        + ∑ k : Fin 2048, Gen.k0_pay12 x0 x1 m (ix2 (0 : Fin 1) k) := by
  unfold Gen.k0_pay13
  show shapeCast S1x1 (addf (mulf (Gen.k0_pay11 x0 x1 m) l)
      (shapeCast S1x1 (multiReduction (F := Ideal) .add [1] S1 (Gen.k0_pay12 x0 x1 m) 0x00000000#32
        Facts₀.reduces_S1x2048_S1 (.inl rfl) rfl) Facts₀.shapeCasts_S1_S1x1)) Facts₀.shapeCasts_S1x1_S1x1
      (ix2 (0 : Fin 1) (0 : Fin 1)) = _
  rw [shapeCast_self]
  exact congrArg (Gen.k0_pay11 x0 x1 m (ix2 (0 : Fin 1) (0 : Fin 1)) * l (ix2 (0 : Fin 1) (0 : Fin 1)) + ·)
    ((cast11_apply _ _).trans (rowsum_apply _ _ _ _))

/-- The new running accumulator. -/
theorem k0_pay14_apply (j : Fin 1024) :
    Gen.k0_pay14 x0 x1 x2 m acc (ix2 (0 : Fin 1) j)
      = Gen.k0_pay11 x0 x1 m (ix2 (0 : Fin 1) (0 : Fin 1)) * acc (ix2 (0 : Fin 1) j)
        + ∑ k : Fin 2048, Gen.k0_pay12 x0 x1 m (ix2 (0 : Fin 1) k) * x2 (ix2 k j) := by
  unfold Gen.k0_pay14
  show broadcastTo S1x1024 (Gen.k0_pay11 x0 x1 m) Facts₀.broadcasts_S1x1_S1x1024 (ix2 (0 : Fin 1) j)
        * acc (ix2 (0 : Fin 1) j)
      + FloatOps.matmul (φ₁ := .bf16) (φ₂ := .bf16)
          (⟨[1], [0], [0], [1], [], [], Facts₀.dot_S1x2048_S2048x1024_S1x1024_1_0_0_1_n_n_wf⟩ :
          DotDims S1x2048 S2048x1024 S1x1024) none (Gen.k0_pay12 x0 x1 m) x2
          (constant (F := Ideal) S1x1024 .f32 0x00000000#32) (ix2 (0 : Fin 1) j) = _
  rw [broadcastTo_apply (Gen.k0_pay11 x0 x1 m) Facts₀.broadcasts_S1x1_S1x1024 (ix2 (0 : Fin 1) j)
    (ix2 (0 : Fin 1) (0 : Fin 1)) (fun a => by
      match a with
      | ⟨0, _⟩ => rfl
      | ⟨1, _⟩ => rfl), Cert.MatmulRead.matmul_plain_apply]

/-- The two re-castings to the same shape are the identity. -/
theorem k0_pay1_eq (v : FVec Ideal S1x1024 .f32) : Gen.k0_pay1 v = v := by
  unfold Gen.k0_pay1
  exact shapeCast_self _ _

theorem k0_pay2_eq (v : FVec Ideal S1x1 .f32) : Gen.k0_pay2 v = v := by
  unfold Gen.k0_pay2
  exact shapeCast_self _ _

/-- The write-out repeats the accumulator row eight times … -/
theorem k0_pay3_apply (a : Vec Ideal S1x1024 .f32) (r : Fin 8) (j : Fin 1024) :
    Gen.k0_pay3 a (ix2 r j) = a (ix2 (0 : Fin 1) j) := by
  unfold Gen.k0_pay3
  refine (broadcastTo_apply _ _ (ix2 r j) (ix2 (0 : Fin 1) j) ?_).trans ?_
  · intro c
    match c with
    | ⟨0, _⟩ => rfl
    | ⟨1, _⟩ => rfl
  rw [shapeCast_self]

/-- … and the level and the sum over a whole 8×128 block. -/
theorem k0_pay4_apply (v : Vec Ideal S1x1 .f32) (r : Fin 8) (p : Fin 128) :
    Gen.k0_pay4 v (ix2 r p) = v (ix2 (0 : Fin 1) (0 : Fin 1)) := by
  unfold Gen.k0_pay4
  refine (broadcastTo_apply _ _ (ix2 r p) (ix2 (0 : Fin 1) (0 : Fin 1)) ?_).trans ?_
  · intro c
    match c with
    | ⟨0, _⟩ => rfl
    | ⟨1, _⟩ => rfl
  rw [shapeCast_self]

theorem k0_pay5_apply (v : Vec Ideal S1x1 .f32) (r : Fin 8) (p : Fin 128) :
    Gen.k0_pay5 v (ix2 r p) = v (ix2 (0 : Fin 1) (0 : Fin 1)) := by
  unfold Gen.k0_pay5
  refine (broadcastTo_apply _ _ (ix2 r p) (ix2 (0 : Fin 1) (0 : Fin 1)) ?_).trans ?_
  · intro c
    match c with
    | ⟨0, _⟩ => rfl
    | ⟨1, _⟩ => rfl
  rw [shapeCast_self]

/-- The reset values: level −∞, sum 0, accumulator 0. -/
theorem k0_pay6_apply (i : S1x1.Idx) : Gen.k0_pay6 (F := Ideal) i = (⊥ : EReal) := by
  unfold Gen.k0_pay6
  rw [shapeCast_self]
  exact neg_inf_eq

theorem k0_pay7_apply (i : S1x1.Idx) : Gen.k0_pay7 (F := Ideal) i = (0 : EReal) := by
  unfold Gen.k0_pay7
  rw [shapeCast_self]
  exact Ideal.ofBits_zero_f32

theorem k0_pay8_apply (i : S1x1024.Idx) : Gen.k0_pay8 (F := Ideal) i = (0 : EReal) := by
  unfold Gen.k0_pay8
  rw [shapeCast_self]
  exact Ideal.ofBits_zero_f32

end Reads

/-! ### One tile is one step of the streaming pass -/

/-- The real scores of a tile: the query against each row. -/
def tileScore (q : Fin 768 → ℝ) (ks : Fin 2048 → Fin 768 → ℝ) (k : Fin 2048) : ℝ := ∑ d, q d * ks k d

section Step
variable (x0 : Vec Ideal S1x768 .f32) (x1 : Vec Ideal S2048x768 .f32) (x2 : Vec Ideal S2048x1024 .f32)
  (m l : Vec Ideal S1x1 .f32) (acc : Vec Ideal S1x1024 .f32)
  (q : Fin 768 → ℝ) (ks : Fin 2048 → Fin 768 → ℝ) (vs : Fin 2048 → Fin 1024 → ℝ)
  (S : OnlineSoftmax.St (Fin 1024))

/-- For a real query and real rows the scores are the coercions of the real scores. -/
theorem pay9_coe (hx0 : ∀ d, x0 (ix2 (0 : Fin 1) d) = ((q d : ℝ) : EReal))
    (hx1 : ∀ k d, x1 (ix2 k d) = ((ks k d : ℝ) : EReal)) (k : Fin 2048) :
    Gen.k0_pay9 x0 x1 (ix2 (0 : Fin 1) k) = ((tileScore q ks k : ℝ) : EReal) := by
  rw [k0_pay9_apply, tileScore, OnlineSoftmax.coe_sum]
  refine Finset.sum_congr rfl fun d _ => ?_
  rw [hx0, hx1, EReal.coe_mul]

/-- The new level is the step's level, the tile proposing its largest score. -/
theorem pay10_step (hx0 : ∀ d, x0 (ix2 (0 : Fin 1) d) = ((q d : ℝ) : EReal))
    (hx1 : ∀ k d, x1 (ix2 k d) = ((ks k d : ℝ) : EReal))
    (hm : m (ix2 (0 : Fin 1) (0 : Fin 1)) = S.m) :
    Gen.k0_pay10 x0 x1 m (ix2 (0 : Fin 1) (0 : Fin 1))
      = (OnlineSoftmax.step ((tileMax (tileScore q ks) : ℝ) : EReal) (tileScore q ks) vs S).m := by
  have hf : (fun k : Fin 2048 => Gen.k0_pay9 x0 x1 (ix2 (0 : Fin 1) k))
      = fun k => ((tileScore q ks k : ℝ) : EReal) := funext (pay9_coe x0 x1 q ks hx0 hx1)
  rw [k0_pay10_apply, hm, hf]
  exact congrArg (max S.m) (fold_max_coe _ _ _)

/-- The tile's weights, at the step's new level. -/
theorem pay12_step (hx0 : ∀ d, x0 (ix2 (0 : Fin 1) d) = ((q d : ℝ) : EReal))
    (hx1 : ∀ k d, x1 (ix2 k d) = ((ks k d : ℝ) : EReal))
    (hm : m (ix2 (0 : Fin 1) (0 : Fin 1)) = S.m) (k : Fin 2048) :
    Gen.k0_pay12 x0 x1 m (ix2 (0 : Fin 1) k)
      = Ideal.exp (((tileScore q ks k : ℝ) : EReal)
          - (OnlineSoftmax.step ((tileMax (tileScore q ks) : ℝ) : EReal) (tileScore q ks) vs S).m) := by
  rw [k0_pay12_apply, pay9_coe x0 x1 q ks hx0 hx1, pay10_step x0 x1 m q ks vs S hx0 hx1 hm]

/-- The rescaling factor, at the step's new level. -/
theorem pay11_step (hx0 : ∀ d, x0 (ix2 (0 : Fin 1) d) = ((q d : ℝ) : EReal))
    (hx1 : ∀ k d, x1 (ix2 k d) = ((ks k d : ℝ) : EReal))
    (hm : m (ix2 (0 : Fin 1) (0 : Fin 1)) = S.m) :
    Gen.k0_pay11 x0 x1 m (ix2 (0 : Fin 1) (0 : Fin 1))
      = Ideal.exp (S.m
          - (OnlineSoftmax.step ((tileMax (tileScore q ks) : ℝ) : EReal) (tileScore q ks) vs S).m) := by
  rw [k0_pay11_apply, pay10_step x0 x1 m q ks vs S hx0 hx1 hm, hm]

/-- The new running sum is the step's. -/
theorem pay13_step (hx0 : ∀ d, x0 (ix2 (0 : Fin 1) d) = ((q d : ℝ) : EReal))
    (hx1 : ∀ k d, x1 (ix2 k d) = ((ks k d : ℝ) : EReal))
    (hm : m (ix2 (0 : Fin 1) (0 : Fin 1)) = S.m) (hl : l (ix2 (0 : Fin 1) (0 : Fin 1)) = S.l) :
    Gen.k0_pay13 x0 x1 m l (ix2 (0 : Fin 1) (0 : Fin 1))
      = (OnlineSoftmax.step ((tileMax (tileScore q ks) : ℝ) : EReal) (tileScore q ks) vs S).l := by
  rw [k0_pay13_apply, pay11_step x0 x1 m q ks vs S hx0 hx1 hm, hl,
    Finset.sum_congr rfl fun k _ => pay12_step x0 x1 m q ks vs S hx0 hx1 hm k]
  rfl

/-- The new running accumulator is the step's. -/
theorem pay14_step (hx0 : ∀ d, x0 (ix2 (0 : Fin 1) d) = ((q d : ℝ) : EReal))
    (hx1 : ∀ k d, x1 (ix2 k d) = ((ks k d : ℝ) : EReal))
    (hx2 : ∀ k j, x2 (ix2 k j) = ((vs k j : ℝ) : EReal))
    (hm : m (ix2 (0 : Fin 1) (0 : Fin 1)) = S.m) (hacc : ∀ j, acc (ix2 (0 : Fin 1) j) = S.acc j)
    (j : Fin 1024) :
    Gen.k0_pay14 x0 x1 x2 m acc (ix2 (0 : Fin 1) j)
      = (OnlineSoftmax.step ((tileMax (tileScore q ks) : ℝ) : EReal) (tileScore q ks) vs S).acc j := by
  rw [k0_pay14_apply, pay11_step x0 x1 m q ks vs S hx0 hx1 hm, hacc,
    Finset.sum_congr rfl fun k _ => by
      rw [pay12_step x0 x1 m q ks vs S hx0 hx1 hm k, hx2]]
  rfl

/-- The three stored values of a tile, as the step of the streaming pass. -/
theorem tile_step (hx0 : ∀ d, x0 (ix2 (0 : Fin 1) d) = ((q d : ℝ) : EReal))
    (hx1 : ∀ k d, x1 (ix2 k d) = ((ks k d : ℝ) : EReal))
    (hx2 : ∀ k j, x2 (ix2 k j) = ((vs k j : ℝ) : EReal))
    (hm : m (ix2 (0 : Fin 1) (0 : Fin 1)) = S.m) (hl : l (ix2 (0 : Fin 1) (0 : Fin 1)) = S.l)
    (hacc : ∀ j, acc (ix2 (0 : Fin 1) j) = S.acc j) :
    Gen.k0_pay2 (Gen.k0_pay10 x0 x1 m) (ix2 (0 : Fin 1) (0 : Fin 1))
        = (OnlineSoftmax.step ((tileMax (tileScore q ks) : ℝ) : EReal) (tileScore q ks) vs S).m ∧
    Gen.k0_pay13 x0 x1 m l (ix2 (0 : Fin 1) (0 : Fin 1))
        = (OnlineSoftmax.step ((tileMax (tileScore q ks) : ℝ) : EReal) (tileScore q ks) vs S).l ∧
    ∀ j : Fin 1024, Gen.k0_pay1 (Gen.k0_pay14 x0 x1 x2 m acc) (ix2 (0 : Fin 1) j)
        = (OnlineSoftmax.step ((tileMax (tileScore q ks) : ℝ) : EReal) (tileScore q ks) vs S).acc j := by
  refine ⟨?_, pay13_step x0 x1 m l q ks vs S hx0 hx1 hm hl, fun j => ?_⟩
  · rw [k0_pay2_eq]; exact pay10_step x0 x1 m q ks vs S hx0 hx1 hm
  · rw [k0_pay1_eq]; exact pay14_step x0 x1 x2 m acc q ks vs S hx0 hx1 hx2 hm hacc j

end Step

end Cert.KernelIdeal.AttnValue

end
-- ==== Proof.AttentionLaw.lean ====
/-
  The attention vector from two streaming passes.

  The 16384 rows are cut into two halves of four tiles of 2048 rows.  Each half is swept by a streaming softmax pass
  that ends in a state (m, l, acc) at a level of its own.  The two final states are brought to the common level
  M = max m₀ m₁: by  exp(m_c − M)·exp(s − m_c) = exp(s − M)  the rescaled sums are the sums of exp(s − M) and of
  exp(s − M)·v over the half, their sums over the two halves are the sums over all rows, and in the quotient the common
  shift M cancels.  Hence the combined quotient is the softmax-weighted average over all 16384 rows.
-/
import Idealize.ShloMosaic.PureOps.Ideal
import proofs.«146633_j61375082660584_2_alg».proof.Proof.LibOnlineSoftmax
import proofs.«146633_j61375082660584_2_alg».proof.Proof.Spec

noncomputable section

open scoped BigOperators

namespace Cert.AttentionLaw

open Idealize.ShloMosaic OnlineSoftmax

/-! ### Over the reals -/

section Law
variable (tm : Fin 2 → Fin 4 → ℝ) (s : Fin 2 → Fin 4 → Fin 2048 → ℝ)
  (v : Fin 2 → Fin 4 → Fin 2048 → Fin 1024 → ℝ)

instance : Nonempty (Fin 2 × Fin 4 × Fin 2048) :=
  ⟨(⟨0, by norm_num⟩, ⟨0, by norm_num⟩, ⟨0, by norm_num⟩)⟩

/-- The sums over the two halves, both taken at a common level `M`, add up to the sums over everything, and the
    level cancels in the quotient. -/
theorem halves_quot (M : ℝ) (j : Fin 1024) :
    ((∑ t, ∑ k, Real.exp (s 0 t k - M) * v 0 t k j) + (∑ t, ∑ k, Real.exp (s 1 t k - M) * v 1 t k j))
        / ((∑ t, ∑ k, Real.exp (s 0 t k - M)) + (∑ t, ∑ k, Real.exp (s 1 t k - M)))
      = (∑ c, ∑ t, ∑ k, Real.exp (s c t k) * v c t k j) / (∑ c, ∑ t, ∑ k, Real.exp (s c t k)) := by
  have h := softmax_shift (fun p : Fin 2 × Fin 4 × Fin 2048 => s p.1 p.2.1 p.2.2)
    (fun p => v p.1 p.2.1 p.2.2 j) M
  simp only [Fintype.sum_prod_type, Fin.sum_univ_two] at h ⊢
  exact h

/-- The weights at a common level have a positive sum. -/
theorem halves_pos (M : ℝ) :
    0 < (∑ t, ∑ k, Real.exp (s 0 t k - M)) + (∑ t, ∑ k, Real.exp (s 1 t k - M)) := by
  have h := sum_exp_pos (fun p : Fin 2 × Fin 4 × Fin 2048 => s p.1 p.2.1 p.2.2 - M)
  simp only [Fintype.sum_prod_type, Fin.sum_univ_two] at h
  exact h

/-- After its four tiles a half's state is real: a level `μ`, and the sums of `exp (s - μ)` and of
    `exp (s - μ) * v` over the whole half. -/
theorem half_final (c : Fin 2) :
    ∃ μ : ℝ, (run (tm c) (s c) (v c) 4 le_rfl).m = (μ : EReal) ∧
      (run (tm c) (s c) (v c) 4 le_rfl).l = ((∑ t, ∑ k, Real.exp (s c t k - μ) : ℝ) : EReal) ∧
      ∀ j, (run (tm c) (s c) (v c) 4 le_rfl).acc j
        = ((∑ t, ∑ k, Real.exp (s c t k - μ) * v c t k j : ℝ) : EReal) := by
  obtain ⟨μ, hm, hl, ha⟩ := run_inv (tm c) (s c) (v c) 4 (by norm_num) le_rfl
  have hall : Finset.univ.filter (fun t' : Fin 4 => t'.val < 4) = Finset.univ :=
    Finset.filter_true_of_mem fun x _ => x.isLt
  rw [hall] at hl ha
  exact ⟨μ, hm, hl, ha⟩

/-- The combine of two real states at levels `μ0`, `μ1`, in real arithmetic. -/
theorem combine_coe (S0 S1 : St (Fin 1024)) (μ0 μ1 L0 L1 A0 A1 : ℝ) (j : Fin 1024)
    (hm0 : S0.m = (μ0 : EReal)) (hm1 : S1.m = (μ1 : EReal))
    (hl0 : S0.l = (L0 : EReal)) (hl1 : S1.l = (L1 : EReal))
    (ha0 : S0.acc j = (A0 : EReal)) (ha1 : S1.acc j = (A1 : EReal))
    (hpos : Real.exp (μ0 - max μ0 μ1) * L0 + Real.exp (μ1 - max μ0 μ1) * L1 ≠ 0) :
    Spec.combine S0 S1 j
      = (((Real.exp (μ0 - max μ0 μ1) * A0 + Real.exp (μ1 - max μ0 μ1) * A1)
          / (Real.exp (μ0 - max μ0 μ1) * L0 + Real.exp (μ1 - max μ0 μ1) * L1) : ℝ) : EReal) := by
  have hmax : max S0.m S1.m = ((max μ0 μ1 : ℝ) : EReal) := by rw [hm0, hm1, coe_max]
  show Ideal.div (Ideal.exp (S0.m - max S0.m S1.m) * S0.acc j + Ideal.exp (S1.m - max S0.m S1.m) * S1.acc j)
      (Ideal.exp (S0.m - max S0.m S1.m) * S0.l + Ideal.exp (S1.m - max S0.m S1.m) * S1.l) = _
  rw [hmax, hm0, hm1, hl0, hl1, ha0, ha1, ← EReal.coe_sub, ← EReal.coe_sub, Ideal.exp_coe, Ideal.exp_coe,
    ← EReal.coe_mul, ← EReal.coe_mul, ← EReal.coe_mul, ← EReal.coe_mul, ← EReal.coe_add, ← EReal.coe_add,
    Ideal.div_coe hpos, ← EReal.coe_mul, mul_one_div]

/-- The two halves combined give the softmax-weighted average over all tiles of both halves. -/
theorem combine_run (j : Fin 1024) :
    Spec.combine (run (tm 0) (s 0) (v 0) 4 le_rfl) (run (tm 1) (s 1) (v 1) 4 le_rfl) j
      = (((∑ c, ∑ t, ∑ k, Real.exp (s c t k) * v c t k j) / (∑ c, ∑ t, ∑ k, Real.exp (s c t k)) : ℝ) : EReal) := by
  obtain ⟨μ0, hm0, hl0, ha0⟩ := half_final tm s v 0
  obtain ⟨μ1, hm1, hl1, ha1⟩ := half_final tm s v 1
  have r0 := rescale Finset.univ μ0 (max μ0 μ1) (s 0) (fun t k => v 0 t k j)
  have r1 := rescale Finset.univ μ1 (max μ0 μ1) (s 1) (fun t k => v 1 t k j)
  have q0 := rescale_one Finset.univ μ0 (max μ0 μ1) (s 0)
  have q1 := rescale_one Finset.univ μ1 (max μ0 μ1) (s 1)
  have hpos := halves_pos s (max μ0 μ1)
  rw [combine_coe _ _ μ0 μ1 _ _ _ _ j hm0 hm1 hl0 hl1 (ha0 j) (ha1 j) (by rw [q0, q1]; exact hpos.ne'),
    r0, r1, q0, q1, halves_quot s v (max μ0 μ1) j]

end Law

/-! ### The 16384 rows as two halves of four tiles of 2048 -/

/-- Row `k` of tile `t` of half `c`. -/
def row (c : Fin 2) (t : Fin 4) (k : Fin 2048) : Fin 16384 :=
  ⟨c.val * 8192 + t.val * 2048 + k.val, by
    have h1 := c.isLt; have h2 := t.isLt; have h3 := k.isLt; omega⟩

@[simp] theorem row_val (c : Fin 2) (t : Fin 4) (k : Fin 2048) :
    (row c t k).val = c.val * 8192 + t.val * 2048 + k.val := rfl

/-- A sum over the 16384 rows is the triple sum over halves, tiles and positions. -/
theorem sum_rows {M : Type*} [AddCommMonoid M] (g : Fin 16384 → M) :
    ∑ l, g l = ∑ c : Fin 2, ∑ t : Fin 4, ∑ k : Fin 2048, g (row c t k) := by
  have h1 : ∑ l, g l
      = ∑ c : Fin 2, ∑ r : Fin 8192, g ⟨c.val * 8192 + r.val, tile_lt (T := 2) (n := 8192) c r⟩ :=
    sum_untile (T := 2) (n := 8192) g
  rw [h1]
  refine Finset.sum_congr rfl fun c _ => ?_
  have h2 : ∑ r : Fin 8192, g ⟨c.val * 8192 + r.val, tile_lt (T := 2) (n := 8192) c r⟩
      = ∑ t : Fin 4, ∑ k : Fin 2048,
          g ⟨c.val * 8192 + (t.val * 2048 + k.val),
            tile_lt (T := 2) (n := 8192) c ⟨t.val * 2048 + k.val, tile_lt (T := 4) (n := 2048) t k⟩⟩ :=
    sum_untile (T := 4) (n := 2048)
      (fun r : Fin (4 * 2048) => g ⟨c.val * 8192 + r.val, tile_lt (T := 2) (n := 8192) c r⟩)
  rw [h2]
  refine Finset.sum_congr rfl fun t _ => Finset.sum_congr rfl fun k _ => ?_
  exact congrArg g (Fin.ext (Nat.add_assoc (c.val * 8192) (t.val * 2048) k.val).symm)

/-- The two halves' streaming passes over the scores and value rows of the 16384 rows, combined, give the
    attention vector. -/
theorem combine_attn (tm : Fin 2 → Fin 4 → ℝ) (tv : Fin 768 → ℝ) (ts : Fin 16384 → Fin 768 → ℝ)
    (hs : Fin 16384 → Fin 1024 → ℝ) (j : Fin 1024) :
    Spec.combine
        (run (tm 0) (fun t k => Spec.score tv ts (row 0 t k)) (fun t k j' => hs (row 0 t k) j') 4 le_rfl)
        (run (tm 1) (fun t k => Spec.score tv ts (row 1 t k)) (fun t k j' => hs (row 1 t k) j') 4 le_rfl) j
      = ((Spec.attn tv ts hs j : ℝ) : EReal) := by
  have h := combine_run tm (fun c t k => Spec.score tv ts (row c t k)) (fun c t k j' => hs (row c t k) j') j
  rw [h, Spec.attn, sum_rows (fun l => Real.exp (Spec.score tv ts l) * hs l j),
    sum_rows (fun l => Real.exp (Spec.score tv ts l))]

end Cert.AttentionLaw

end
-- ==== Proof.AttnState.lean ====
/-
  The running state of the attention region is the streaming softmax pass.

  Grid point t = 4·h + p of the first region holds, in its three input blocks, the query row, rows
  2048·t … 2048·t + 2047 of the keys and the same rows of the values: tile p of half h of the 16384 history rows.
  The state the scratch buffers hold after point 4·h + p is therefore the state of the streaming pass over half h after
  its first p + 1 tiles, each tile proposing its largest score as its level; after the last tile of each half it is the
  pass's final state, and combining the two halves' final states gives the attention vector.
-/
import proofs.«146633_j61375082660584_2_alg».proof.Proof.IdealAttnData
import proofs.«146633_j61375082660584_2_alg».proof.Proof.AttnPayload
import proofs.«146633_j61375082660584_2_alg».proof.Proof.AttentionLaw
import proofs.«146633_j61375082660584_2_alg».proof.Proof.Spec
import Idealize.ShloMosaic.Lib.Decide

set_option maxRecDepth 16384

noncomputable section

open scoped BigOperators

namespace Cert.KernelIdeal.AttnValue

open Idealize.ShloMosaic Idealize.ShloMosaic.TcCoe Idealize.ShloMosaic.ValueIdx
open Cert.KernelIdeal Cert.KernelIdeal.Gen Cert.KernelIdeal.Attn

variable (V : (c : Dev nD) → (b : Ref sig .tc) → Buf (Elt Ideal) ((c : Thread nD τ).loc b))

/-! ### The blocks -/

/-- The block indices of the three input windows, decided over the grid: the query's block never moves, the key and
    value blocks are block `t` of their arrays. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem pt_lt (t : Fin cfg0.N) : t.val < 8 := lt_of_lt_of_eq t.isLt N_0

/-- The history row that entry `k` of the tile at grid point `t` holds. -/
def rowAt (t : Fin cfg0.N) (k : Fin 2048) : Fin 16384 :=
  ⟨t.val * 2048 + k.val, by have h1 := pt_lt t; have h2 := k.isLt; omega⟩

theorem tile0_apply (c : Dev nD) (t : Fin cfg0.N) (d : Fin 768) :
    tile V c 0 t (ix2 (0 : Fin 1) d) = V c main_arg0 (ix2 (0 : Fin 1) d) := by
  obtain ⟨e0, e1, -, -, -, -⟩ := idx_facts t
  show V c main_arg0 (((cfg0.win 0).blk t).view.emb (ix2 (0 : Fin 1) d)) = _
  refine congrArg (V c main_arg0) ?_
  funext a; apply Fin.ext
  match a with
  | ⟨0, _⟩ => show win0_0.index t (0 : Fin 2) * 1 + 1 * 0 = 0; omega
  | ⟨1, _⟩ => show win0_0.index t (1 : Fin 2) * 768 + 1 * d.val = d.val; omega

theorem tile1_apply (c : Dev nD) (t : Fin cfg0.N) (k : Fin 2048) (d : Fin 768) :
    tile V c 1 t (ix2 k d) = V c main_arg2 (ix2 (rowAt t k) d) := by
  obtain ⟨-, -, e0, e1, -, -⟩ := idx_facts t
  show V c main_arg2 (((cfg0.win 1).blk t).view.emb (ix2 k d)) = _
  refine congrArg (V c main_arg2) ?_
  funext a; apply Fin.ext
  match a with
  | ⟨0, _⟩ => show win0_1.index t (0 : Fin 2) * 2048 + 1 * k.val = t.val * 2048 + k.val; omega
  | ⟨1, _⟩ => show win0_1.index t (1 : Fin 2) * 768 + 1 * d.val = d.val; omega

theorem tile2_apply (c : Dev nD) (t : Fin cfg0.N) (k : Fin 2048) (j : Fin 1024) :
    tile V c 2 t (ix2 k j) = V c main_arg3 (ix2 (rowAt t k) j) := by
  obtain ⟨-, -, -, -, e0, e1⟩ := idx_facts t
  show V c main_arg3 (((cfg0.win 2).blk t).view.emb (ix2 k j)) = _
  refine congrArg (V c main_arg3) ?_
  funext a; apply Fin.ext
  match a with
  | ⟨0, _⟩ => show win0_2.index t (0 : Fin 2) * 2048 + 1 * k.val = t.val * 2048 + k.val; omega
  | ⟨1, _⟩ => show win0_2.index t (1 : Fin 2) * 1024 + 1 * j.val = j.val; omega

/-- Grid point 4·h + p holds tile `p` of half `h`. -/
theorem rowAt_eq_row (h : Fin 2) (p : Fin 4) (hn : 4 * h.val + p.val < cfg0.N) (k : Fin 2048) :
    rowAt ⟨4 * h.val + p.val, hn⟩ k = AttentionLaw.row h p k :=
  Fin.ext (by
    show (4 * h.val + p.val) * 2048 + k.val = h.val * 8192 + p.val * 2048 + k.val
    omega)

/-! ### The scores, values and levels of the tiles -/

section State
variable (tv : Fin 768 → ℝ) (ts : Fin 16384 → Fin 768 → ℝ) (hs : Fin 16384 → Fin 1024 → ℝ)

/-- The scores of tile `p` of half `h`. -/
def sc (h : Fin 2) (p : Fin 4) : Fin 2048 → ℝ := tileScore tv (fun k d => ts (AttentionLaw.row h p k) d)

/-- The value rows of tile `p` of half `h`. -/
def vl (h : Fin 2) (p : Fin 4) : Fin 2048 → Fin 1024 → ℝ := fun k j => hs (AttentionLaw.row h p k) j

/-- The level tile `p` of half `h` proposes: its largest score. -/
def lv (h : Fin 2) (p : Fin 4) : ℝ := tileMax (sc tv ts h p)

theorem sc_eq_score (h : Fin 2) (p : Fin 4) (k : Fin 2048) :
    sc tv ts h p k = Spec.score tv ts (AttentionLaw.row h p k) := by
  unfold sc tileScore Spec.score
  exact Finset.sum_congr rfl fun d _ => mul_comm _ _

theorem sc_eq (h : Fin 2) : sc tv ts h = fun p k => Spec.score tv ts (AttentionLaw.row h p k) :=
  funext fun p => funext fun k => sc_eq_score tv ts h p k

/-- The three scratch vectors hold the state `S`. -/
def Holds (st : Vec Ideal S1x1 .f32 × Vec Ideal S1x1 .f32 × Vec Ideal S1x1024 .f32)
    (S : OnlineSoftmax.St (Fin 1024)) : Prop :=
  st.1 (ix2 (0 : Fin 1) (0 : Fin 1)) = S.m ∧ st.2.1 (ix2 (0 : Fin 1) (0 : Fin 1)) = S.l
    ∧ ∀ j : Fin 1024, st.2.2 (ix2 (0 : Fin 1) j) = S.acc j

theorem stateAfter_congr (c : Dev nD) {n n' : ℕ} (e : n = n') (hn : n < cfg0.N) (hn' : n' < cfg0.N) :
    stateAfter V c n hn = stateAfter V c n' hn' := by
  subst e; rfl

variable {tv ts hs}

/-- The three input blocks at a grid point t = 4·h + p, for arrays that are coerced reals. -/
theorem tile_reads (c : Dev nD)
    (h0 : ∀ d, (V c main_arg0 (ix2 (0 : Fin 1) d) : EReal) = ((tv d : ℝ) : EReal))
    (h2 : ∀ l d, (V c main_arg2 (ix2 l d) : EReal) = ((ts l d : ℝ) : EReal))
    (h3 : ∀ l j, (V c main_arg3 (ix2 l j) : EReal) = ((hs l j : ℝ) : EReal))
    (h : Fin 2) (p : Fin 4) (t : Fin cfg0.N) (ht : t.val = 4 * h.val + p.val) :
    (∀ d, (tile V c 0 t : Vec Ideal S1x768 .f32) (ix2 (0 : Fin 1) d) = ((tv d : ℝ) : EReal)) ∧
    (∀ k d, (tile V c 1 t : Vec Ideal S2048x768 .f32) (ix2 k d)
        = ((ts (AttentionLaw.row h p k) d : ℝ) : EReal)) ∧
    (∀ k j, (tile V c 2 t : Vec Ideal S2048x1024 .f32) (ix2 k j)
        = ((hs (AttentionLaw.row h p k) j : ℝ) : EReal)) := by
  have hrow : ∀ k, rowAt t k = AttentionLaw.row h p k := fun k => Fin.ext (by
    show t.val * 2048 + k.val = h.val * 8192 + p.val * 2048 + k.val
    omega)
  refine ⟨fun d => ?_, fun k d => ?_, fun k j => ?_⟩
  · exact (tile0_apply V c t d).trans (h0 d)
  · exact (tile1_apply V c t k d).trans ((congrArg (fun r => (V c main_arg2 (ix2 r d) : EReal)) (hrow k)).trans (h2 _ d))
  · exact (tile2_apply V c t k j).trans ((congrArg (fun r => (V c main_arg3 (ix2 r j) : EReal)) (hrow k)).trans (h3 _ j))

/-- A first tile: from the reset state the scratch vectors come to hold one step from the empty state. -/
theorem holds_first (x0 : Vec Ideal S1x768 .f32) (x1 : Vec Ideal S2048x768 .f32) (x2 : Vec Ideal S2048x1024 .f32)
    (q : Fin 768 → ℝ) (ks : Fin 2048 → Fin 768 → ℝ) (vs : Fin 2048 → Fin 1024 → ℝ)
    (hx0 : ∀ d, x0 (ix2 (0 : Fin 1) d) = ((q d : ℝ) : EReal))
    (hx1 : ∀ k d, x1 (ix2 k d) = ((ks k d : ℝ) : EReal))
    (hx2 : ∀ k j, x2 (ix2 k j) = ((vs k j : ℝ) : EReal)) :
    Holds (mFirst x0 x1, lFirst x0 x1, accFirst x0 x1 x2)
      (OnlineSoftmax.step ((tileMax (tileScore q ks) : ℝ) : EReal) (tileScore q ks) vs OnlineSoftmax.init) :=
  tile_step x0 x1 x2 (k0_pay6 (F := Ideal)) (k0_pay7 (F := Ideal)) (k0_pay8 (F := Ideal)) q ks vs
    OnlineSoftmax.init hx0 hx1 hx2 (k0_pay6_apply _) (k0_pay7_apply _) (fun j => k0_pay8_apply _)

/-- A later tile: from a held state the scratch vectors come to hold one more step. -/
theorem holds_next (x0 : Vec Ideal S1x768 .f32) (x1 : Vec Ideal S2048x768 .f32) (x2 : Vec Ideal S2048x1024 .f32)
    (st : Vec Ideal S1x1 .f32 × Vec Ideal S1x1 .f32 × Vec Ideal S1x1024 .f32) (S : OnlineSoftmax.St (Fin 1024))
    (q : Fin 768 → ℝ) (ks : Fin 2048 → Fin 768 → ℝ) (vs : Fin 2048 → Fin 1024 → ℝ)
    (hx0 : ∀ d, x0 (ix2 (0 : Fin 1) d) = ((q d : ℝ) : EReal))
    (hx1 : ∀ k d, x1 (ix2 k d) = ((ks k d : ℝ) : EReal))
    (hx2 : ∀ k j, x2 (ix2 k j) = ((vs k j : ℝ) : EReal)) (H : Holds st S) :
    Holds (mNext x0 x1 st.1, lNext x0 x1 st.1 st.2.1, accNext x0 x1 x2 st.1 st.2.2)
      (OnlineSoftmax.step ((tileMax (tileScore q ks) : ℝ) : EReal) (tileScore q ks) vs S) :=
  tile_step x0 x1 x2 st.1 st.2.1 st.2.2 q ks vs S hx0 hx1 hx2 H.1 H.2.1 H.2.2

/-- After point t = 4·h + p the scratch vectors hold the streaming pass over half `h` after p + 1 tiles. -/
theorem state_run (c : Dev nD)
    (h0 : ∀ d, (V c main_arg0 (ix2 (0 : Fin 1) d) : EReal) = ((tv d : ℝ) : EReal))
    (h2 : ∀ l d, (V c main_arg2 (ix2 l d) : EReal) = ((ts l d : ℝ) : EReal))
    (h3 : ∀ l j, (V c main_arg3 (ix2 l j) : EReal) = ((hs l j : ℝ) : EReal))
    (h : Fin 2) : ∀ (p : ℕ) (hp : p < 4) (t : Fin cfg0.N) (ht : t.val = 4 * h.val + p),
      Holds (stateAfter V c t.val t.isLt)
        (OnlineSoftmax.run (lv tv ts h) (sc tv ts h) (vl hs h) (p + 1) (by omega))
  | 0, hp, t, ht => by
    obtain ⟨hx0, hx1, hx2⟩ := tile_reads V c h0 h2 h3 h ⟨0, hp⟩ t ht
    rw [stateAfter_first V c t (by omega), OnlineSoftmax.run_succ, OnlineSoftmax.run_zero]
    exact holds_first _ _ _ tv (fun k d => ts (AttentionLaw.row h ⟨0, hp⟩ k) d) (vl hs h ⟨0, hp⟩) hx0 hx1 hx2
  | p + 1, hp, t, ht => by
    have IH := state_run c h0 h2 h3 h p (by omega)
      ⟨t.val - 1, Nat.lt_of_le_of_lt (Nat.sub_le _ _) t.isLt⟩ (by show t.val - 1 = 4 * h.val + p; omega)
    obtain ⟨hx0, hx1, hx2⟩ := tile_reads V c h0 h2 h3 h ⟨p + 1, hp⟩ t ht
    rw [stateAfter_next V c t (by omega), OnlineSoftmax.run_succ]
    exact holds_next _ _ _ _ _ tv (fun k d => ts (AttentionLaw.row h ⟨p + 1, hp⟩ k) d) (vl hs h ⟨p + 1, hp⟩)
      hx0 hx1 hx2 IH

/-- A state the scratch vectors hold, as a state of the pass. -/
theorem St_eq {st : Vec Ideal S1x1 .f32 × Vec Ideal S1x1 .f32 × Vec Ideal S1x1024 .f32}
    {S : OnlineSoftmax.St (Fin 1024)} (H : Holds st S) :
    (⟨st.1 (ix2 (0 : Fin 1) (0 : Fin 1)), st.2.1 (ix2 (0 : Fin 1) (0 : Fin 1)),
      fun j => st.2.2 (ix2 (0 : Fin 1) j)⟩ : OnlineSoftmax.St (Fin 1024)) = S := by
  obtain ⟨h1, h2, h3⟩ := H
  rw [h1, h2, show (fun j : Fin 1024 => st.2.2 (ix2 (0 : Fin 1) j)) = S.acc from funext h3]

/-- After the last tile of half `h` the scratch vectors hold the pass's final state over that half. -/
theorem state_final (c : Dev nD)
    (h0 : ∀ d, (V c main_arg0 (ix2 (0 : Fin 1) d) : EReal) = ((tv d : ℝ) : EReal))
    (h2 : ∀ l d, (V c main_arg2 (ix2 l d) : EReal) = ((ts l d : ℝ) : EReal))
    (h3 : ∀ l j, (V c main_arg3 (ix2 l j) : EReal) = ((hs l j : ℝ) : EReal))
    (h : Fin 2) (n : ℕ) (hn : n < cfg0.N) (e : n = 4 * h.val + 3) :
    Holds (stateAfter V c n hn) (OnlineSoftmax.run (lv tv ts h) (sc tv ts h) (vl hs h) 4 le_rfl) :=
  state_run V c h0 h2 h3 h 3 (by omega) ⟨n, hn⟩ e

/-- The two halves' final states, combined, are the attention vector. -/
theorem combine_state (c : Dev nD)
    (h0 : ∀ d, (V c main_arg0 (ix2 (0 : Fin 1) d) : EReal) = ((tv d : ℝ) : EReal))
    (h2 : ∀ l d, (V c main_arg2 (ix2 l d) : EReal) = ((ts l d : ℝ) : EReal))
    (h3 : ∀ l j, (V c main_arg3 (ix2 l j) : EReal) = ((hs l j : ℝ) : EReal))
    (hn3 : 3 < cfg0.N) (hn7 : 7 < cfg0.N) (j : Fin 1024) :
    Spec.combine
        ⟨(stateAfter V c 3 hn3).1 (ix2 (0 : Fin 1) (0 : Fin 1)), (stateAfter V c 3 hn3).2.1 (ix2 (0 : Fin 1) (0 : Fin 1)),
          fun j' => (stateAfter V c 3 hn3).2.2 (ix2 (0 : Fin 1) j')⟩
        ⟨(stateAfter V c 7 hn7).1 (ix2 (0 : Fin 1) (0 : Fin 1)), (stateAfter V c 7 hn7).2.1 (ix2 (0 : Fin 1) (0 : Fin 1)),
          fun j' => (stateAfter V c 7 hn7).2.2 (ix2 (0 : Fin 1) j')⟩ j
      = ((Spec.attn tv ts hs j : ℝ) : EReal) := by
  have H0 := state_final V c h0 h2 h3 (0 : Fin 2) 3 hn3 rfl
  have H1 := state_final V c h0 h2 h3 (1 : Fin 2) 7 hn7 rfl
  rw [St_eq H0, St_eq H1, sc_eq, sc_eq]
  exact AttentionLaw.combine_attn (lv tv ts) tv ts hs j

end State

end Cert.KernelIdeal.AttnValue

end
-- ==== Proof.BridgeAttn.lean ====
/-
  The attention row the kernel computes is the attention vector.

  The first region leaves the two halves' final running states in rows 0 and 8 of its three result arrays; the host
  combines them; the combined row survives the stretches and the region that follow.  With the query, the keys and the
  values the coercions of real arrays, the combined row is the coercion of the real attention vector.  The last hidden
  row, sliced off before the first region and read by the second through an input window, also survives to the
  second region's exit.
-/
import proofs.«146633_j61375082660584_2_alg».proof.Proof.IdealRunFold
import proofs.«146633_j61375082660584_2_alg».proof.Proof.IdealAttnArrays
import proofs.«146633_j61375082660584_2_alg».proof.Proof.KHostCombine
import proofs.«146633_j61375082660584_2_alg».proof.Proof.KHostTable
import proofs.«146633_j61375082660584_2_alg».proof.Proof.AttnState
import proofs.«146633_j61375082660584_2_alg».proof.Proof.Spec

set_option maxRecDepth 16384

noncomputable section

namespace Cert.KernelIdeal.Bridge

open Idealize.ShloMosaic Idealize.ShloMosaic.TcCoe
open Idealize.SL.Sem
open Idealize.ShloMosaic.ValueIdx (ix2)
open Cert.KernelIdeal
open Cert.KernelIdeal.Gen hiding V0 V1 V2 V3 V4 V5 V6 V7 segs seg0 seg2 seg3 seg4 seg6
open Cert.KernelIdeal.Attn Cert.KernelIdeal.AttnValue

variable (m : (ℓ : Loc nD τ sig) → Buf (Elt Ideal) ℓ) (ρ : Dev nD → PrngReg)

/-- An argument array as the first region finds it is the launch array. -/
theorem T1_arg0 (c : Dev nD) : Run.T1 m ρ c main_arg0 = m ((c : Thread nD τ).loc main_arg0) :=
  Host.keep0 (Run.W0 m ρ c) main_arg0 (by decide)
theorem T1_arg2 (c : Dev nD) : Run.T1 m ρ c main_arg2 = m ((c : Thread nD τ).loc main_arg2) :=
  Host.keep0 (Run.W0 m ρ c) main_arg2 (by decide)
theorem T1_arg3 (c : Dev nD) : Run.T1 m ρ c main_arg3 = m ((c : Thread nD τ).loc main_arg3) :=
  Host.keep0 (Run.W0 m ρ c) main_arg3 (by decide)

section Attn
variable {tv : Fin 768 → ℝ} {ts : Fin 16384 → Fin 768 → ℝ} {hs : Fin 16384 → Fin 1024 → ℝ}

/-- Rows 0 and 8 of the three result arrays hold the two halves' final states. -/
theorem acc_row0 (c : Dev nD) (j : Fin 1024) :
    (attnDat (Run.T1 m ρ) c).arrAt 3 cfg0.N (ix2 (0 : Fin 16) j)
      = (stateAfter (Run.T1 m ρ) c 3 t0_3.isLt).2.2 (ix2 (0 : Fin 1) j) :=
  (row0_3 (Run.T1 m ρ) c j).trans
    ((congrFun (after_3 (Run.T1 m ρ) c t0_3) (ix2 (0 : Fin 8) j)).trans (k0_pay3_apply _ (0 : Fin 8) j))
theorem acc_row8 (c : Dev nD) (j : Fin 1024) :
    (attnDat (Run.T1 m ρ) c).arrAt 3 cfg0.N (ix2 (8 : Fin 16) j)
      = (stateAfter (Run.T1 m ρ) c 7 t0_7.isLt).2.2 (ix2 (0 : Fin 1) j) :=
  (row8_3 (Run.T1 m ρ) c j).trans
    ((congrFun (after_3 (Run.T1 m ρ) c t0_7) (ix2 (0 : Fin 8) j)).trans (k0_pay3_apply _ (0 : Fin 8) j))
theorem max_row0 (c : Dev nD) :
    (attnDat (Run.T1 m ρ) c).arrAt 4 cfg0.N (ix2 (0 : Fin 16) (0 : Fin 128))
      = (stateAfter (Run.T1 m ρ) c 3 t0_3.isLt).1 (ix2 (0 : Fin 1) (0 : Fin 1)) :=
  (row0_4 (Run.T1 m ρ) c 0).trans
    ((congrFun (after_4 (Run.T1 m ρ) c t0_3) (ix2 (0 : Fin 8) (0 : Fin 128))).trans (k0_pay4_apply _ (0 : Fin 8) (0 : Fin 128)))
theorem max_row8 (c : Dev nD) :
    (attnDat (Run.T1 m ρ) c).arrAt 4 cfg0.N (ix2 (8 : Fin 16) (0 : Fin 128))
      = (stateAfter (Run.T1 m ρ) c 7 t0_7.isLt).1 (ix2 (0 : Fin 1) (0 : Fin 1)) :=
  (row8_4 (Run.T1 m ρ) c 0).trans
    ((congrFun (after_4 (Run.T1 m ρ) c t0_7) (ix2 (0 : Fin 8) (0 : Fin 128))).trans (k0_pay4_apply _ (0 : Fin 8) (0 : Fin 128)))
theorem sum_row0 (c : Dev nD) :
    (attnDat (Run.T1 m ρ) c).arrAt 5 cfg0.N (ix2 (0 : Fin 16) (0 : Fin 128))
      = (stateAfter (Run.T1 m ρ) c 3 t0_3.isLt).2.1 (ix2 (0 : Fin 1) (0 : Fin 1)) :=
  (row0_5 (Run.T1 m ρ) c 0).trans
    ((congrFun (after_5 (Run.T1 m ρ) c t0_3) (ix2 (0 : Fin 8) (0 : Fin 128))).trans (k0_pay5_apply _ (0 : Fin 8) (0 : Fin 128)))
theorem sum_row8 (c : Dev nD) :
    (attnDat (Run.T1 m ρ) c).arrAt 5 cfg0.N (ix2 (8 : Fin 16) (0 : Fin 128))
      = (stateAfter (Run.T1 m ρ) c 7 t0_7.isLt).2.1 (ix2 (0 : Fin 1) (0 : Fin 1)) :=
  (row8_5 (Run.T1 m ρ) c 0).trans
    ((congrFun (after_5 (Run.T1 m ρ) c t0_7) (ix2 (0 : Fin 8) (0 : Fin 128))).trans (k0_pay5_apply _ (0 : Fin 8) (0 : Fin 128)))

/-- The attention row at the second region's exit is the attention vector. -/
theorem attn_row (c : Dev nD)
    (h0 : ∀ d, (m ((c : Thread nD τ).loc main_arg0) (ix2 (0 : Fin 1) d) : EReal) = ((tv d : ℝ) : EReal))
    (h2 : ∀ l d, (m ((c : Thread nD τ).loc main_arg2) (ix2 l d) : EReal) = ((ts l d : ℝ) : EReal))
    (h3 : ∀ l j, (m ((c : Thread nD τ).loc main_arg3) (ix2 l j) : EReal) = ((hs l j : ℝ) : EReal))
    (j : Fin 1024) :
    (Run.W6 m ρ c (Proc.devRef .tc main_v29) (ix2 (0 : Fin 1) j) : EReal) = ((Spec.attn tv ts hs j : ℝ) : EReal) := by
  have e6 : Run.W6 m ρ c (Proc.devRef .tc main_v29) = Run.W5 m ρ c (Proc.devRef .tc main_v29) :=
    Run.W6_of_ne m ρ c main_v29 (by decide)
  have e5 : Run.W5 m ρ c (Proc.devRef .tc main_v29) = Run.W3 m ρ c (Proc.devRef .tc main_v29) :=
    Host.attn_kept (Run.W3 m ρ c)
  have e3 : Run.W3 m ρ c (Proc.devRef .tc main_v29)
      = Host.hostCombine (Run.W2 m ρ c (Proc.devRef .tc main_v1_0)) (Run.W2 m ρ c (Proc.devRef .tc main_v1_1))
          (Run.W2 m ρ c (Proc.devRef .tc main_v1_2)) := Host.combine_eq (Run.W2 m ρ c)
  have a3 : Run.W2 m ρ c (Proc.devRef .tc main_v1_0) = (attnDat (Run.T1 m ρ) c).arrAt 3 cfg0.N := Run.W2_arr m ρ c 3
  have a4 : Run.W2 m ρ c (Proc.devRef .tc main_v1_1) = (attnDat (Run.T1 m ρ) c).arrAt 4 cfg0.N := Run.W2_arr m ρ c 4
  have a5 : Run.W2 m ρ c (Proc.devRef .tc main_v1_2) = (attnDat (Run.T1 m ρ) c).arrAt 5 cfg0.N := Run.W2_arr m ρ c 5
  have g0 : ∀ d, (Run.T1 m ρ c main_arg0 (ix2 (0 : Fin 1) d) : EReal) = ((tv d : ℝ) : EReal) := fun d =>
    (congrFun (T1_arg0 m ρ c) _).trans (h0 d)
  have g2 : ∀ l d, (Run.T1 m ρ c main_arg2 (ix2 l d) : EReal) = ((ts l d : ℝ) : EReal) := fun l d =>
    (congrFun (T1_arg2 m ρ c) _).trans (h2 l d)
  have g3 : ∀ l j, (Run.T1 m ρ c main_arg3 (ix2 l j) : EReal) = ((hs l j : ℝ) : EReal) := fun l j =>
    (congrFun (T1_arg3 m ρ c) _).trans (h3 l j)
  rw [e6, e5, e3, a3, a4, a5, Host.hostCombine_apply, max_row0, max_row8, sum_row0, sum_row8,
    show (fun j' : Fin 1024 => (attnDat (Run.T1 m ρ) c).arrAt 3 cfg0.N (ix2 (0 : Fin 16) j'))
      = fun j' => (stateAfter (Run.T1 m ρ) c 3 t0_3.isLt).2.2 (ix2 (0 : Fin 1) j') from funext (acc_row0 m ρ c),
    show (fun j' : Fin 1024 => (attnDat (Run.T1 m ρ) c).arrAt 3 cfg0.N (ix2 (8 : Fin 16) j'))
      = fun j' => (stateAfter (Run.T1 m ρ) c 7 t0_7.isLt).2.2 (ix2 (0 : Fin 1) j') from funext (acc_row8 m ρ c)]
  exact combine_state (Run.T1 m ρ) c g0 g2 g3 t0_3.isLt t0_7.isLt j

end Attn

/-- The last hidden row at the second region's exit is row 16383 of the hidden states. -/
theorem hidden_row (c : Dev nD) (k : Fin 1024) :
    Run.W6 m ρ c (Proc.devRef .tc main_v0) (ix2 (0 : Fin 1) k)
      = m ((c : Thread nD τ).loc main_arg3) (ix2 (⟨16383, by decide⟩ : Fin 16384) k) := by
  have e6 : Run.W6 m ρ c (Proc.devRef .tc main_v0) = Run.W5 m ρ c (Proc.devRef .tc main_v0) :=
    (Run.W6_arr m ρ c 1).trans (((Gates.gateDat (Run.T5 m ρ) (Run.selAdm m ρ) c).arrAt_in 1 rfl _).trans
      (Gates.gateDat_A (Run.T5 m ρ) (Run.selAdm m ρ) c 1))
  have e5 : Run.W5 m ρ c (Proc.devRef .tc main_v0) = Run.W2 m ρ c (Proc.devRef .tc main_v0) :=
    Host.h_kept (Run.W2 m ρ c)
  have e2 : Run.W2 m ρ c (Proc.devRef .tc main_v0) = Run.W1 m ρ c (Proc.devRef .tc main_v0) :=
    Run.W2_of_ne m ρ c main_v0 (by decide)
  have e1 : Run.W1 m ρ c (Proc.devRef .tc main_v0)
      = extractStridedSlice S1x1024 ![16383, 0] (Run.W0 m ρ c (Proc.devRef .tc main_arg3))
          slices_S16384x1024_S1x1024_16383_0 := Host.h_eq (Run.W0 m ρ c)
  rw [e6, e5, e2, e1, Host.h_apply]

end Cert.KernelIdeal.Bridge

end
-- ==== Proof.IdealGateArrays.lean ====
/-
  The gate region: what the write-backs leave in its two result arrays.

  The region runs over three grid points, one per gate (reset, update, new); at point g the pipeline writes each output
  window back into columns 1024·g … 1024·g + 1023 of its 8 × 3072 result array.  So entry (r, 1024·g + i) of the array is
  entry (r, i) of what the body left in the window's staging buffer at point g.
-/
import proofs.«146633_j61375082660584_2_alg».proof.Proof.Gen.KernelIdeal.Launch
import proofs.«146633_j61375082660584_2_alg».proof.Proof.Gen.KernelIdeal.Skeleton
import proofs.«146633_j61375082660584_2_alg».proof.Proof.Gen.KernelIdeal.Points
import proofs.«146633_j61375082660584_2_alg».proof.Proof.IdealGates
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx (ix2 eq_ix2)

variable (V : (c : Dev nD) → (b : Ref sig .tc) → Buf (Elt F) ((c : Thread nD τ).loc b))
variable (a : (pcfg1 (F := F)).Adm)

theorem gate_points (t : Fin (cfg1 a).N) : t.val < 3 := lt_of_lt_of_eq t.isLt (show (cfg1 a).N = 3 from N_1)

/-! ## Result array of window 6 -/

/-- Output window 6's block index at point `t` is (0, t): all 8 rows, column block `t`. -/
theorem gidx6 (t : Fin (cfg1 a).N) : ((cfg1 a).win 6).index t (0 : Fin 2) = 0 ∧ ((cfg1 a).win 6).index t (1 : Fin 2) = t.val := by
  show cc1_transform_6 (grid1.coords t) (0 : Fin 2) = 0 ∧ cc1_transform_6 (grid1.coords t) (1 : Fin 2) = t.val
  exact (by decide +kernel : ∀ t : Fin grid1.N, cc1_transform_6 (grid1.coords t) (0 : Fin 2) = 0 ∧ cc1_transform_6 (grid1.coords t) (1 : Fin 2) = t.val) t
/-- It is written back at every point. -/
theorem gflush6 (t : Fin (cfg1 a).N) : ((cfg1 a).win 6).flush t = true := by
  rw [Pipeline.Window.flush_eq_flushOf]
  exact (by decide +kernel : ∀ t : Fin grid1.N, Pipeline.Window.flushOf grid1 true cc1_transform_6 t = true) t

/-- The array index under index `y` of the block at point `t`: row `y 0`, column `1024·t + y 1`. -/
def under6 (t : Fin (cfg1 a).N) (y : (⟨2, ![8, 1024]⟩ : Shape).Idx) : (⟨2, ![8, 3072]⟩ : Shape).Idx :=
  (((cfg1 a).win 6).blk t).view.emb y
theorem under6_eq (t : Fin (cfg1 a).N) (y : (⟨2, ![8, 1024]⟩ : Shape).Idx) :
    under6 a t y = ix2 (y 0) (⟨t.val * 1024 + (y 1).val, by have := gate_points a t; have h : (y 1).val < 1024 := (y 1).isLt; omega⟩ : Fin 3072) := by
  obtain ⟨e0, e1⟩ := gidx6 a t
  funext b; apply Fin.ext
  match b with
  | ⟨0, _⟩ => show ((cfg1 a).win 6).index t (0 : Fin 2) * 8 + 1 * (y 0).val = (y 0).val; omega
  | ⟨1, _⟩ => show ((cfg1 a).win 6).index t (1 : Fin 2) * 1024 + 1 * (y 1).val = t.val * 1024 + (y 1).val; omega

/-- The array the write-backs of window 6 build, as one function of its index. -/
def gbuilt6 (c : Dev nD) : (⟨2, ![8, 3072]⟩ : Shape).Idx → Elt F .f32 := fun i =>
  (gateDat V a c).after 6 ⟨(i 1).val / 1024, by have h : (i 1).val < 3072 := (i 1).isLt; show (i 1).val / 1024 < 3; omega⟩
    (ix2 (i 0) (⟨(i 1).val % 1024, Nat.mod_lt _ (by decide)⟩ : Fin 1024))

theorem gbuilt6_under (c : Dev nD) (t : Fin (cfg1 a).N) (y : (⟨2, ![8, 1024]⟩ : Shape).Idx) :
    gbuilt6 V a c (under6 a t y) = (gateDat V a c).after 6 t y := by
  have ht := gate_points a t
  have hy1 : (y 1).val < 1024 := (y 1).isLt
  have key : ∀ (p : Fin (cfg1 a).N) (z : (⟨2, ![8, 1024]⟩ : Shape).Idx), p = t → z = y →
      (gateDat V a c).after 6 p z = (gateDat V a c).after 6 t y := by rintro _ _ rfl rfl; rfl
  rw [under6_eq]
  unfold gbuilt6
  refine key _ _ (Fin.ext ?_) ?_
  · show (t.val * 1024 + (y 1).val) / 1024 = t.val; omega
  · funext b; apply Fin.ext
    match b with
    | ⟨0, _⟩ => rfl
    | ⟨1, _⟩ => show (t.val * 1024 + (y 1).val) % 1024 = (y 1).val; omega

theorem gflushed6_eq (c : Dev nD) (t : Fin (cfg1 a).N) (hf : ((cfg1 a).win 6).flush t = true) :
    (gateDat V a c).flushed 6 t = (((cfg1 a).win 6).blk t).view.read (Elt F) (gbuilt6 V a c) := by
  refine funext (fun (y : (⟨2, ![8, 1024]⟩ : Shape).Idx) => ?_)
  show (gateDat V a c).after 6 t y = gbuilt6 V a c (under6 a t y)
  exact (gbuilt6_under V a c t y).symm

set_option maxHeartbeats 4000000 in
/-- Entry (r, 1024·g + i) of the result array is entry (r, i) of what the body left at point g. -/
theorem garr6 (c : Dev nD) (t : Fin (cfg1 a).N) (r : Fin 8) (i : Fin 1024) :
    (gateDat V a c).arrAt 6 (cfg1 a).N (ix2 r (⟨t.val * 1024 + i.val, by have := gate_points a t; have := i.isLt; omega⟩ : Fin 3072))
      = (gateDat V a c).after 6 t (ix2 r i) := by
  have h := congrFun ((gateDat V a c).read_blk_arrAt 6 (show Buf (Elt F) (((cfg1 a).win 6).arr.view.loc (c.tc : Thread nD τ)) from gbuilt6 V a c) (gflushed6_eq V a c) t (gflush6 a t)) (ix2 r i)
  have hu : under6 a t (ix2 r i) = ix2 r (⟨t.val * 1024 + i.val, by have := gate_points a t; have := i.isLt; omega⟩ : Fin 3072) := under6_eq a t (ix2 r i)
  have h' : (gateDat V a c).arrAt 6 (cfg1 a).N (under6 a t (ix2 r i)) = gbuilt6 V a c (under6 a t (ix2 r i)) := h
  rw [hu] at h'
  rw [h', ← hu]
  exact gbuilt6_under V a c t (ix2 r i)

/-! ## Result array of window 7 -/

/-- Output window 7's block index at point `t` is (0, t): all 8 rows, column block `t`. -/
theorem gidx7 (t : Fin (cfg1 a).N) : ((cfg1 a).win 7).index t (0 : Fin 2) = 0 ∧ ((cfg1 a).win 7).index t (1 : Fin 2) = t.val := by
  show cc1_transform_7 (grid1.coords t) (0 : Fin 2) = 0 ∧ cc1_transform_7 (grid1.coords t) (1 : Fin 2) = t.val
  exact (by decide +kernel : ∀ t : Fin grid1.N, cc1_transform_7 (grid1.coords t) (0 : Fin 2) = 0 ∧ cc1_transform_7 (grid1.coords t) (1 : Fin 2) = t.val) t
/-- It is written back at every point. -/
theorem gflush7 (t : Fin (cfg1 a).N) : ((cfg1 a).win 7).flush t = true := by
  rw [Pipeline.Window.flush_eq_flushOf]
  exact (by decide +kernel : ∀ t : Fin grid1.N, Pipeline.Window.flushOf grid1 true cc1_transform_7 t = true) t

/-- The array index under index `y` of the block at point `t`: row `y 0`, column `1024·t + y 1`. -/
def under7 (t : Fin (cfg1 a).N) (y : (⟨2, ![8, 1024]⟩ : Shape).Idx) : (⟨2, ![8, 3072]⟩ : Shape).Idx :=
  (((cfg1 a).win 7).blk t).view.emb y
theorem under7_eq (t : Fin (cfg1 a).N) (y : (⟨2, ![8, 1024]⟩ : Shape).Idx) :
    under7 a t y = ix2 (y 0) (⟨t.val * 1024 + (y 1).val, by have := gate_points a t; have h : (y 1).val < 1024 := (y 1).isLt; omega⟩ : Fin 3072) := by
  obtain ⟨e0, e1⟩ := gidx7 a t
  funext b; apply Fin.ext
  match b with
  | ⟨0, _⟩ => show ((cfg1 a).win 7).index t (0 : Fin 2) * 8 + 1 * (y 0).val = (y 0).val; omega
  | ⟨1, _⟩ => show ((cfg1 a).win 7).index t (1 : Fin 2) * 1024 + 1 * (y 1).val = t.val * 1024 + (y 1).val; omega

/-- The array the write-backs of window 7 build, as one function of its index. -/
def gbuilt7 (c : Dev nD) : (⟨2, ![8, 3072]⟩ : Shape).Idx → Elt F .f32 := fun i =>
  (gateDat V a c).after 7 ⟨(i 1).val / 1024, by have h : (i 1).val < 3072 := (i 1).isLt; show (i 1).val / 1024 < 3; omega⟩
    (ix2 (i 0) (⟨(i 1).val % 1024, Nat.mod_lt _ (by decide)⟩ : Fin 1024))

theorem gbuilt7_under (c : Dev nD) (t : Fin (cfg1 a).N) (y : (⟨2, ![8, 1024]⟩ : Shape).Idx) :
    gbuilt7 V a c (under7 a t y) = (gateDat V a c).after 7 t y := by
  have ht := gate_points a t
  have hy1 : (y 1).val < 1024 := (y 1).isLt
  have key : ∀ (p : Fin (cfg1 a).N) (z : (⟨2, ![8, 1024]⟩ : Shape).Idx), p = t → z = y →
      (gateDat V a c).after 7 p z = (gateDat V a c).after 7 t y := by rintro _ _ rfl rfl; rfl
  rw [under7_eq]
  unfold gbuilt7
  refine key _ _ (Fin.ext ?_) ?_
  · show (t.val * 1024 + (y 1).val) / 1024 = t.val; omega
  · funext b; apply Fin.ext
    match b with
    | ⟨0, _⟩ => rfl
    | ⟨1, _⟩ => show (t.val * 1024 + (y 1).val) % 1024 = (y 1).val; omega

theorem gflushed7_eq (c : Dev nD) (t : Fin (cfg1 a).N) (hf : ((cfg1 a).win 7).flush t = true) :
    (gateDat V a c).flushed 7 t = (((cfg1 a).win 7).blk t).view.read (Elt F) (gbuilt7 V a c) := by
  refine funext (fun (y : (⟨2, ![8, 1024]⟩ : Shape).Idx) => ?_)
  show (gateDat V a c).after 7 t y = gbuilt7 V a c (under7 a t y)
  exact (gbuilt7_under V a c t y).symm

set_option maxHeartbeats 4000000 in
/-- Entry (r, 1024·g + i) of the result array is entry (r, i) of what the body left at point g. -/
theorem garr7 (c : Dev nD) (t : Fin (cfg1 a).N) (r : Fin 8) (i : Fin 1024) :
    (gateDat V a c).arrAt 7 (cfg1 a).N (ix2 r (⟨t.val * 1024 + i.val, by have := gate_points a t; have := i.isLt; omega⟩ : Fin 3072))
      = (gateDat V a c).after 7 t (ix2 r i) := by
  have h := congrFun ((gateDat V a c).read_blk_arrAt 7 (show Buf (Elt F) (((cfg1 a).win 7).arr.view.loc (c.tc : Thread nD τ)) from gbuilt7 V a c) (gflushed7_eq V a c) t (gflush7 a t)) (ix2 r i)
  have hu : under7 a t (ix2 r i) = ix2 r (⟨t.val * 1024 + i.val, by have := gate_points a t; have := i.isLt; omega⟩ : Fin 3072) := under7_eq a t (ix2 r i)
  have h' : (gateDat V a c).arrAt 7 (cfg1 a).N (under7 a t (ix2 r i)) = gbuilt7 V a c (under7 a t (ix2 r i)) := h
  rw [hu] at h'
  rw [h', ← hu]
  exact gbuilt7_under V a c t (ix2 r i)

end Cert.KernelIdeal.Gates

end
-- ==== Proof.IdealRunGateOut.lean ====
/-
  The gate-row region's two result arrays as the region leaves them: the region runs over three row blocks and writes
  each output window back into columns 1024·g … 1024·g + 1023 of its 8 × 3072 result array, so entry (r, 1024·g + i) of
  either array at the region's exit is entry (r, i) of what the body left in that window's staging buffer at block g —
  the input-side (hidden-side) gate rows of block g's input blocks.
-/
import proofs.«146633_j61375082660584_2_alg».proof.Proof.IdealRunFold
import proofs.«146633_j61375082660584_2_alg».proof.Proof.IdealGateArrays
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal
open Cert.KernelIdeal.Gen hiding V0 V1 V2 V3 V4 V5 V6 V7 segs seg0 seg2 seg3 seg4 seg6

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx (ix2)

/-- The input-side result array at the gate-row region's exit, entry by entry. -/
theorem W6_gi (c : Dev nD) (t : Fin (cfg1 (selAdm m ρ)).N) (r : Fin 8) (i : Fin 1024) :
    W6 m ρ c (Proc.devRef .tc main_v36_0) (ix2 r (⟨t.val * 1024 + i.val, by have := Gates.gate_points (selAdm m ρ) t; have := i.isLt; omega⟩ : Fin 3072))
      = (Gates.gateDat (T5 m ρ) (selAdm m ρ) c).after 6 t (ix2 r i) :=
  (congrFun (W6_arr m ρ c 6) _).trans (Gates.garr6 (T5 m ρ) (selAdm m ρ) c t r i)

/-- The hidden-side result array at the gate-row region's exit, entry by entry. -/
theorem W6_gh (c : Dev nD) (t : Fin (cfg1 (selAdm m ρ)).N) (r : Fin 8) (i : Fin 1024) :
    W6 m ρ c (Proc.devRef .tc main_v36_1) (ix2 r (⟨t.val * 1024 + i.val, by have := Gates.gate_points (selAdm m ρ) t; have := i.isLt; omega⟩ : Fin 3072))
      = (Gates.gateDat (T5 m ρ) (selAdm m ρ) c).after 7 t (ix2 r i) :=
  (congrFun (W6_arr m ρ c 7) _).trans (Gates.garr7 (T5 m ρ) (selAdm m ρ) c t r i)

/-- The same with what the body leaves spelled out: the gate rows of block `t`'s input blocks. -/
theorem W6_gi_rows (c : Dev nD) (t : Fin (cfg1 (selAdm m ρ)).N) (r : Fin 8) (i : Fin 1024) :
    W6 m ρ c (Proc.devRef .tc main_v36_0) (ix2 r (⟨t.val * 1024 + i.val, by have := Gates.gate_points (selAdm m ρ) t; have := i.isLt; omega⟩ : Fin 3072))
      = Gates.giRows (Gates.gateBlk (T5 m ρ) (selAdm m ρ) c 0 t) (Gates.gateBlk (T5 m ρ) (selAdm m ρ) c 2 t) (Gates.gateBlk (T5 m ρ) (selAdm m ρ) c 4 t) (ix2 r i) :=
  (W6_gi m ρ c t r i).trans (congrFun (Gates.gateDat_after_6 (T5 m ρ) (selAdm m ρ) c t) _)
theorem W6_gh_rows (c : Dev nD) (t : Fin (cfg1 (selAdm m ρ)).N) (r : Fin 8) (i : Fin 1024) :
    W6 m ρ c (Proc.devRef .tc main_v36_1) (ix2 r (⟨t.val * 1024 + i.val, by have := Gates.gate_points (selAdm m ρ) t; have := i.isLt; omega⟩ : Fin 3072))
      = Gates.ghRows (Gates.gateBlk (T5 m ρ) (selAdm m ρ) c 1 t) (Gates.gateBlk (T5 m ρ) (selAdm m ρ) c 3 t) (Gates.gateBlk (T5 m ρ) (selAdm m ρ) c 5 t) (ix2 r i) :=
  (W6_gh m ρ c t r i).trans (congrFun (Gates.gateDat_after_7 (T5 m ρ) (selAdm m ρ) c t) _)

end Cert.KernelIdeal.Run

end
-- ==== Proof.GatePayload.lean ====
/-
  The two gate products of the second region, read at an index.

  The region's body multiplies the query row with the rows of a 1024×768 block of input weights and the last hidden
  row with the rows of a 1024×1024 block of hidden weights, adds the bias rows, and repeats the resulting row eight
  times.  At an index (r, i) both stored values are an inner product plus a bias entry, whatever the row r.
-/
import Idealize.ShloMosaic.PureOps.Ideal
import Idealize.ShloMosaic.PureOps.Ideal.Laws
import Idealize.ShloMosaic.Lib.ValueIdx
import Idealize.ShloMosaic.Lib.Pipeline.Value
import proofs.«146633_j61375082660584_2_alg».proof.Proof.Gen.KernelIdeal.Skeleton
import proofs.«146633_j61375082660584_2_alg».proof.Proof.MatmulRead

noncomputable section

open scoped BigOperators

namespace Cert.KernelIdeal.GateValue

open Idealize.ShloMosaic Idealize.ShloMosaic.ValueIdx Cert.KernelIdeal

/-- The input gate product: entry (r, i) is the inner product of the query with row `i` of the weight block, plus
    the bias entry `i`. -/
theorem k1_pay1_apply (v0 : Vec Ideal S1x768 .f32) (v5 : Vec Ideal S1024x768 .f32) (v10 : Vec Ideal S1x1024 .f32)
    (r : Fin 8) (i : Fin 1024) :
    Gen.k1_pay1 v0 v5 v10 (ix2 r i)
      = (∑ d : Fin 768, v0 (ix2 0 d) * v5 (ix2 i d)) + v10 (ix2 0 i) := by
  unfold Gen.k1_pay1
  refine (broadcastTo_apply _ _ (ix2 r i) (ix2 (0 : Fin 1) i) ?_).trans ?_
  · intro a
    match a with
    | ⟨0, _⟩ => rfl
    | ⟨1, _⟩ => rfl
  rw [shapeCast_self, shapeCast_self]
  show FloatOps.matmul (⟨[1], [1], [0], [0], [], [], Facts₀.dot_S1x768_S1024x768_S1x1024_1_1_0_0_n_n_wf⟩ :
        DotDims S1x768 S1024x768 S1x1024) none v0 v5 (constant (F := Ideal) S1x1024 .f32 0x00000000#32) (ix2 0 i)
      + v10 (ix2 0 i) = _
  rw [Cert.MatmulRead.matmul_rows_apply]

/-- The hidden gate product: entry (r, i) is the inner product of the hidden row with row `i` of the weight block,
    plus the bias entry `i`. -/
theorem k1_pay2_apply (v2 : Vec Ideal S1x1024 .f32) (v7 : Vec Ideal S1024x1024 .f32) (v14 : Vec Ideal S1x1024 .f32)
    (r : Fin 8) (i : Fin 1024) :
    Gen.k1_pay2 v2 v7 v14 (ix2 r i)
      = (∑ k : Fin 1024, v2 (ix2 0 k) * v7 (ix2 i k)) + v14 (ix2 0 i) := by
  unfold Gen.k1_pay2
  refine (broadcastTo_apply _ _ (ix2 r i) (ix2 (0 : Fin 1) i) ?_).trans ?_
  · intro a
    match a with
    | ⟨0, _⟩ => rfl
    | ⟨1, _⟩ => rfl
  rw [shapeCast_self, shapeCast_self, shapeCast_self]
  show FloatOps.matmul (⟨[1], [1], [0], [0], [], [], Facts₀.dot_S1x1024_S1024x1024_S1x1024_1_1_0_0_n_n_wf⟩ :
        DotDims S1x1024 S1024x1024 S1x1024) none v2 v7 (constant (F := Ideal) S1x1024 .f32 0x00000000#32) (ix2 0 i)
      + v14 (ix2 0 i) = _
  rw [Cert.MatmulRead.matmul_rows_apply]

end Cert.KernelIdeal.GateValue

end
-- ==== Proof.GateValue.lean ====
import proofs.«146633_j61375082660584_2_alg».proof.Proof.IdealGates
import proofs.«146633_j61375082660584_2_alg».proof.Proof.GatePayload
import proofs.«146633_j61375082660584_2_alg».proof.Proof.Spec
import Idealize.ShloMosaic.Lib.Pipeline.Value
import Idealize.ShloMosaic.Lib.ValueIdx

/-!
# The gate region's two results at a grid point, on the extended reals

At grid point `g` of the three, the region's body finds in its staging buffers the query, the
last hidden state, the block of 1024 rows `g` of the input weights restricted to the 768 columns
the table word picks, the block of 1024 rows `g` of the hidden weights, and the 1024 entries `g`
of the two biases.  What it leaves in the two output buffers is, in every one of the 8 rows, the
inner products of the query (of the hidden state) with those weight rows plus the bias entries.
Here each block is read back as entries of the arrays the region was entered with.
-/

set_option maxRecDepth 16384

noncomputable section

open scoped BigOperators

namespace Cert.KernelIdeal.GateValue2

open Idealize.ShloMosaic Idealize.ShloMosaic.TcCoe
open Idealize.SL.Sem
open Idealize.ShloMosaic.Pipeline (Dat Cfg Window)
open Cert.KernelIdeal Cert.KernelIdeal.Gen Cert.KernelIdeal.Gates
open Idealize.ShloMosaic.ValueIdx (ix2 eq_ix2)

variable (V : (c : Dev nD) → (b : Ref sig .tc) → Buf (Elt Ideal) ((c : Thread nD τ).loc b))
variable (a : (pcfg1 (F := Ideal)).Adm)

theorem hz2 : (![0, 0] : Fin 2 → Nat) = fun _ => 0 := by funext b; fin_cases b <;> rfl

theorem gate_points (t : Fin (cfg1 a).N) : t.val < 3 := lt_of_lt_of_eq t.isLt (show (cfg1 a).N = 3 from N_1)

/-- One store of the whole output buffer leaves its payload, and the loads of whole buffers read them. -/
theorem giRows_eq (x : Vec Ideal S1x768 .f32) (w : Vec Ideal S1024x768 .f32) (b : Vec Ideal S1x1024 .f32) :
    giRows x w b = k1_pay1 x w b := by
  unfold giRows
  rw [View.canon_unit_zero (S := S8x1024) hz2, View.ld_unit_zero (S := S1x768) hz2,
    View.ld_unit_zero (S := S1024x768) hz2, View.ld_unit_zero (S := S1x1024) hz2]

theorem ghRows_eq (h : Vec Ideal S1x1024 .f32) (u : Vec Ideal S1024x1024 .f32) (b : Vec Ideal S1x1024 .f32) :
    ghRows h u b = k1_pay2 h u b := by
  unfold ghRows
  rw [View.canon_unit_zero (S := S8x1024) hz2, View.ld_unit_zero (S := S1x1024) hz2,
    View.ld_unit_zero (S := S1024x1024) hz2, View.ld_unit_zero (S := S1x1024) hz2]

/-! ## The table word -/

/-- The table's one word, as a natural number: the column block of the input weights. -/
def word : Nat := (a.1.at 0 (Rect.unit (s := S1) ![0] S1.size inb_S1_S1_0) numel1_S1).toNat

/-- The admissible table keeps the block inside the 1536 columns. -/
theorem word_bound : (word a + 1) * 768 ≤ 1536 :=
  (a.2 (grid1.coords ⟨0, by decide⟩)).elim fun h _ => h 1

/-- The word is the table's entry at its one index. -/
theorem word_eq : word a = (a.1 0 (ValueIdx.ix1 (0 : Fin 1))).toNat := by
  unfold word
  show (a.1 0 ((Rect.unit (s := S1) ![0] S1.size inb_S1_S1_0).emb (Shape.Idx.first _))).toNat = _
  refine congrArg (fun j => (a.1 0 j).toNat) (funext fun b => ?_)
  match b with
  | ⟨0, _⟩ => first | rfl | exact Fin.ext rfl

/-- With a table entry that is 0 or 1 by the side the comparison picks, the word is that side. -/
theorem word_of_table (res : ℝ)
    (h : a.1 0 (ValueIdx.ix1 (0 : Fin 1)) = if Cert.Spec.sel res = 0 then 0#32 else 1#32) :
    word a = (Cert.Spec.sel res).val := by
  rw [word_eq, h]
  rcases (show Cert.Spec.sel res = 0 ∨ Cert.Spec.sel res = 1 from by
      have := (Cert.Spec.sel res).isLt
      rcases hv : (Cert.Spec.sel res).val with _ | _ | n
      · exact Or.inl (Fin.ext hv)
      · exact Or.inr (Fin.ext hv)
      · omega) with h0 | h1
  · rw [if_pos h0, h0]; rfl
  · rw [if_neg (by rw [h1]; decide), h1]; rfl

/-! ## The block indices of the six input windows -/

theorem gidx0 (t : Fin (cfg1 a).N) : ((cfg1 a).win 0).index t (0 : Fin 2) = 0 ∧ ((cfg1 a).win 0).index t (1 : Fin 2) = 0 := by
  show cc1_transform_0 (grid1.coords t) (0 : Fin 2) = 0 ∧ cc1_transform_0 (grid1.coords t) (1 : Fin 2) = 0
  exact (by decide +kernel : ∀ t : Fin grid1.N, cc1_transform_0 (grid1.coords t) (0 : Fin 2) = 0 ∧ cc1_transform_0 (grid1.coords t) (1 : Fin 2) = 0) t

theorem gidx1 (t : Fin (cfg1 a).N) : ((cfg1 a).win 1).index t (0 : Fin 2) = 0 ∧ ((cfg1 a).win 1).index t (1 : Fin 2) = 0 := by
  show cc1_transform_1 (grid1.coords t) (0 : Fin 2) = 0 ∧ cc1_transform_1 (grid1.coords t) (1 : Fin 2) = 0
  exact (by decide +kernel : ∀ t : Fin grid1.N, cc1_transform_1 (grid1.coords t) (0 : Fin 2) = 0 ∧ cc1_transform_1 (grid1.coords t) (1 : Fin 2) = 0) t

theorem gidx2 (t : Fin (cfg1 a).N) : ((cfg1 a).win 2).index t (0 : Fin 2) = t.val ∧ ((cfg1 a).win 2).index t (1 : Fin 2) = word a := by
  show cc1_transform_2 inb_S1_S1_0 numel1_S1 a.1 (grid1.coords t) (0 : Fin 2) = t.val
    ∧ cc1_transform_2 inb_S1_S1_0 numel1_S1 a.1 (grid1.coords t) (1 : Fin 2) = word a
  refine ⟨?_, rfl⟩
  show (BitVec.ofNat 32 ((grid1.coords t) 0).val).toNat = t.val
  exact (by decide +kernel : ∀ t : Fin grid1.N, (BitVec.ofNat 32 ((grid1.coords t) 0).val).toNat = t.val) t
theorem gidx3 (t : Fin (cfg1 a).N) : ((cfg1 a).win 3).index t (0 : Fin 2) = t.val ∧ ((cfg1 a).win 3).index t (1 : Fin 2) = 0 := by
  show cc1_transform_3 (grid1.coords t) (0 : Fin 2) = t.val ∧ cc1_transform_3 (grid1.coords t) (1 : Fin 2) = 0
  exact (by decide +kernel : ∀ t : Fin grid1.N, cc1_transform_3 (grid1.coords t) (0 : Fin 2) = t.val ∧ cc1_transform_3 (grid1.coords t) (1 : Fin 2) = 0) t

theorem gidx4 (t : Fin (cfg1 a).N) : ((cfg1 a).win 4).index t (0 : Fin 2) = 0 ∧ ((cfg1 a).win 4).index t (1 : Fin 2) = t.val := by
  show cc1_transform_4 (grid1.coords t) (0 : Fin 2) = 0 ∧ cc1_transform_4 (grid1.coords t) (1 : Fin 2) = t.val
  exact (by decide +kernel : ∀ t : Fin grid1.N, cc1_transform_4 (grid1.coords t) (0 : Fin 2) = 0 ∧ cc1_transform_4 (grid1.coords t) (1 : Fin 2) = t.val) t

theorem gidx5 (t : Fin (cfg1 a).N) : ((cfg1 a).win 5).index t (0 : Fin 2) = 0 ∧ ((cfg1 a).win 5).index t (1 : Fin 2) = t.val := by
  show cc1_transform_5 (grid1.coords t) (0 : Fin 2) = 0 ∧ cc1_transform_5 (grid1.coords t) (1 : Fin 2) = t.val
  exact (by decide +kernel : ∀ t : Fin grid1.N, cc1_transform_5 (grid1.coords t) (0 : Fin 2) = 0 ∧ cc1_transform_5 (grid1.coords t) (1 : Fin 2) = t.val) t

/-! ## The array index under a block index -/

/-- The array index under index `y` of window 0's block at point `t`. -/
def under0 (t : Fin (cfg1 a).N) (y : (⟨2, ![1, 768]⟩ : Shape).Idx) : (⟨2, ![1, 768]⟩ : Shape).Idx :=
  (((cfg1 a).win 0).blk t).view.emb y
theorem under0_eq (t : Fin (cfg1 a).N) (y : (⟨2, ![1, 768]⟩ : Shape).Idx) :
    under0 a t y = ix2 (⟨(y 0).val, (y 0).isLt⟩ : Fin 1) (⟨(y 1).val, (y 1).isLt⟩ : Fin 768) := by
  obtain ⟨e0, e1⟩ := gidx0 a t
  funext b; apply Fin.ext
  match b with
  | ⟨0, _⟩ => show ((cfg1 a).win 0).index t (0 : Fin 2) * 1 + 1 * (y 0).val = (y 0).val; omega
  | ⟨1, _⟩ => show ((cfg1 a).win 0).index t (1 : Fin 2) * 768 + 1 * (y 1).val = (y 1).val; omega

/-- The array index under index `y` of window 1's block at point `t`. -/
def under1 (t : Fin (cfg1 a).N) (y : (⟨2, ![1, 1024]⟩ : Shape).Idx) : (⟨2, ![1, 1024]⟩ : Shape).Idx :=
  (((cfg1 a).win 1).blk t).view.emb y
theorem under1_eq (t : Fin (cfg1 a).N) (y : (⟨2, ![1, 1024]⟩ : Shape).Idx) :
    under1 a t y = ix2 (⟨(y 0).val, (y 0).isLt⟩ : Fin 1) (⟨(y 1).val, (y 1).isLt⟩ : Fin 1024) := by
  obtain ⟨e0, e1⟩ := gidx1 a t
  funext b; apply Fin.ext
  match b with
  | ⟨0, _⟩ => show ((cfg1 a).win 1).index t (0 : Fin 2) * 1 + 1 * (y 0).val = (y 0).val; omega
  | ⟨1, _⟩ => show ((cfg1 a).win 1).index t (1 : Fin 2) * 1024 + 1 * (y 1).val = (y 1).val; omega

/-- The array index under index `y` of window 2's block at point `t`. -/
def under2 (t : Fin (cfg1 a).N) (y : (⟨2, ![1024, 768]⟩ : Shape).Idx) : (⟨2, ![3072, 1536]⟩ : Shape).Idx :=
  (((cfg1 a).win 2).blk t).view.emb y
theorem under2_eq (t : Fin (cfg1 a).N) (y : (⟨2, ![1024, 768]⟩ : Shape).Idx) :
    under2 a t y = ix2 (⟨t.val * 1024 + (y 0).val, by have := gate_points a t; have h : (y 0).val < 1024 := (y 0).isLt; omega⟩ : Fin 3072) (⟨word a * 768 + (y 1).val, by have := word_bound a; have h : (y 1).val < 768 := (y 1).isLt; omega⟩ : Fin 1536) := by
  obtain ⟨e0, e1⟩ := gidx2 a t
  funext b; apply Fin.ext
  match b with
  | ⟨0, _⟩ => show ((cfg1 a).win 2).index t (0 : Fin 2) * 1024 + 1 * (y 0).val = t.val * 1024 + (y 0).val; omega
  | ⟨1, _⟩ => show ((cfg1 a).win 2).index t (1 : Fin 2) * 768 + 1 * (y 1).val = word a * 768 + (y 1).val; omega

/-- The array index under index `y` of window 3's block at point `t`. -/
def under3 (t : Fin (cfg1 a).N) (y : (⟨2, ![1024, 1024]⟩ : Shape).Idx) : (⟨2, ![3072, 1024]⟩ : Shape).Idx :=
  (((cfg1 a).win 3).blk t).view.emb y
theorem under3_eq (t : Fin (cfg1 a).N) (y : (⟨2, ![1024, 1024]⟩ : Shape).Idx) :
    under3 a t y = ix2 (⟨t.val * 1024 + (y 0).val, by have := gate_points a t; have h : (y 0).val < 1024 := (y 0).isLt; omega⟩ : Fin 3072) (⟨(y 1).val, (y 1).isLt⟩ : Fin 1024) := by
  obtain ⟨e0, e1⟩ := gidx3 a t
  funext b; apply Fin.ext
  match b with
  | ⟨0, _⟩ => show ((cfg1 a).win 3).index t (0 : Fin 2) * 1024 + 1 * (y 0).val = t.val * 1024 + (y 0).val; omega
  | ⟨1, _⟩ => show ((cfg1 a).win 3).index t (1 : Fin 2) * 1024 + 1 * (y 1).val = (y 1).val; omega

/-- The array index under index `y` of window 4's block at point `t`. -/
def under4 (t : Fin (cfg1 a).N) (y : (⟨2, ![1, 1024]⟩ : Shape).Idx) : (⟨2, ![1, 3072]⟩ : Shape).Idx :=
  (((cfg1 a).win 4).blk t).view.emb y
theorem under4_eq (t : Fin (cfg1 a).N) (y : (⟨2, ![1, 1024]⟩ : Shape).Idx) :
    under4 a t y = ix2 (⟨(y 0).val, (y 0).isLt⟩ : Fin 1) (⟨t.val * 1024 + (y 1).val, by have := gate_points a t; have h : (y 1).val < 1024 := (y 1).isLt; omega⟩ : Fin 3072) := by
  obtain ⟨e0, e1⟩ := gidx4 a t
  funext b; apply Fin.ext
  match b with
  | ⟨0, _⟩ => show ((cfg1 a).win 4).index t (0 : Fin 2) * 1 + 1 * (y 0).val = (y 0).val; omega
  | ⟨1, _⟩ => show ((cfg1 a).win 4).index t (1 : Fin 2) * 1024 + 1 * (y 1).val = t.val * 1024 + (y 1).val; omega

/-- The array index under index `y` of window 5's block at point `t`. -/
def under5 (t : Fin (cfg1 a).N) (y : (⟨2, ![1, 1024]⟩ : Shape).Idx) : (⟨2, ![1, 3072]⟩ : Shape).Idx :=
  (((cfg1 a).win 5).blk t).view.emb y
theorem under5_eq (t : Fin (cfg1 a).N) (y : (⟨2, ![1, 1024]⟩ : Shape).Idx) :
    under5 a t y = ix2 (⟨(y 0).val, (y 0).isLt⟩ : Fin 1) (⟨t.val * 1024 + (y 1).val, by have := gate_points a t; have h : (y 1).val < 1024 := (y 1).isLt; omega⟩ : Fin 3072) := by
  obtain ⟨e0, e1⟩ := gidx5 a t
  funext b; apply Fin.ext
  match b with
  | ⟨0, _⟩ => show ((cfg1 a).win 5).index t (0 : Fin 2) * 1 + 1 * (y 0).val = (y 0).val; omega
  | ⟨1, _⟩ => show ((cfg1 a).win 5).index t (1 : Fin 2) * 1024 + 1 * (y 1).val = t.val * 1024 + (y 1).val; omega

/-! ## The arrays the region is entered with, and the six input blocks, at their shapes -/

abbrev aTv (c : Dev nD) : Vec Ideal S1x768 .f32 := V c main_arg0
abbrev aH (c : Dev nD) : Vec Ideal S1x1024 .f32 := V c main_v0
abbrev aWih (c : Dev nD) : Vec Ideal S3072x1536 .f32 := V c main_arg4
abbrev aWhh (c : Dev nD) : Vec Ideal S3072x1024 .f32 := V c main_arg5
abbrev aBih (c : Dev nD) : Vec Ideal S1x3072 .f32 := V c main_v34
abbrev aBhh (c : Dev nD) : Vec Ideal S1x3072 .f32 := V c main_v35

def bTv (c : Dev nD) (t : Fin (cfg1 a).N) : Vec Ideal S1x768 .f32 := gateBlk V a c 0 t
def bH (c : Dev nD) (t : Fin (cfg1 a).N) : Vec Ideal S1x1024 .f32 := gateBlk V a c 1 t
def bWih (c : Dev nD) (t : Fin (cfg1 a).N) : Vec Ideal S1024x768 .f32 := gateBlk V a c 2 t
def bWhh (c : Dev nD) (t : Fin (cfg1 a).N) : Vec Ideal S1024x1024 .f32 := gateBlk V a c 3 t
def bBih (c : Dev nD) (t : Fin (cfg1 a).N) : Vec Ideal S1x1024 .f32 := gateBlk V a c 4 t
def bBhh (c : Dev nD) (t : Fin (cfg1 a).N) : Vec Ideal S1x1024 .f32 := gateBlk V a c 5 t

/-! ## Each input block as entries of its array -/

theorem bTv_apply (c : Dev nD) (t : Fin (cfg1 a).N) (d : Fin 768) :
    bTv V a c t (ix2 (0 : Fin 1) d) = aTv V c (ix2 (0 : Fin 1) d) := by
  show V c (Pipeline.arrRef spec1 0) (under0 a t (ix2 (0 : Fin 1) d)) = _
  rw [under0_eq]

theorem bH_apply (c : Dev nD) (t : Fin (cfg1 a).N) (k : Fin 1024) :
    bH V a c t (ix2 (0 : Fin 1) k) = aH V c (ix2 (0 : Fin 1) k) := by
  show V c (Pipeline.arrRef spec1 1) (under1 a t (ix2 (0 : Fin 1) k)) = _
  rw [under1_eq]

theorem bWih_apply (c : Dev nD) (t : Fin (cfg1 a).N) (i : Fin 1024) (d : Fin 768) :
    bWih V a c t (ix2 i d)
      = aWih V c (ix2 (⟨t.val * 1024 + i.val, by have := gate_points a t; have := i.isLt; omega⟩ : Fin 3072)
          (⟨word a * 768 + d.val, by have := word_bound a; have := d.isLt; omega⟩ : Fin 1536)) := by
  show V c (Pipeline.arrRef spec1 2) (under2 a t (ix2 i d)) = _
  rw [under2_eq]

theorem bWhh_apply (c : Dev nD) (t : Fin (cfg1 a).N) (i k : Fin 1024) :
    bWhh V a c t (ix2 i k)
      = aWhh V c (ix2 (⟨t.val * 1024 + i.val, by have := gate_points a t; have := i.isLt; omega⟩ : Fin 3072) k) := by
  show V c (Pipeline.arrRef spec1 3) (under3 a t (ix2 i k)) = _
  rw [under3_eq]

theorem bBih_apply (c : Dev nD) (t : Fin (cfg1 a).N) (i : Fin 1024) :
    bBih V a c t (ix2 (0 : Fin 1) i)
      = aBih V c (ix2 (0 : Fin 1) (⟨t.val * 1024 + i.val, by have := gate_points a t; have := i.isLt; omega⟩ : Fin 3072)) := by
  show V c (Pipeline.arrRef spec1 4) (under4 a t (ix2 (0 : Fin 1) i)) = _
  rw [under4_eq]

theorem bBhh_apply (c : Dev nD) (t : Fin (cfg1 a).N) (i : Fin 1024) :
    bBhh V a c t (ix2 (0 : Fin 1) i)
      = aBhh V c (ix2 (0 : Fin 1) (⟨t.val * 1024 + i.val, by have := gate_points a t; have := i.isLt; omega⟩ : Fin 3072)) := by
  show V c (Pipeline.arrRef spec1 5) (under5 a t (ix2 (0 : Fin 1) i)) = _
  rw [under5_eq]

/-! ## The two results at a grid point -/

/-- What the body leaves in the two output buffers, as the payloads of the blocks. -/
theorem after6_eq (c : Dev nD) (t : Fin (cfg1 a).N) :
    (gateDat V a c).after 6 t = k1_pay1 (bTv V a c t) (bWih V a c t) (bBih V a c t) :=
  (gateDat_after_6 V a c t).trans (giRows_eq (bTv V a c t) (bWih V a c t) (bBih V a c t))
theorem after7_eq (c : Dev nD) (t : Fin (cfg1 a).N) :
    (gateDat V a c).after 7 t = k1_pay2 (bH V a c t) (bWhh V a c t) (bBhh V a c t) :=
  (gateDat_after_7 V a c t).trans (ghRows_eq (bH V a c t) (bWhh V a c t) (bBhh V a c t))

/-- Entry (r, i) of what the body leaves in the first output buffer at point `t`: the query against
    row `1024·t + i` of the input weights, read through the 768 columns from `768·word`, plus the bias. -/
theorem gi_after (c : Dev nD) (t : Fin (cfg1 a).N) (r : Fin 8) (i : Fin 1024) :
    (gateDat V a c).after 6 t (ix2 r i)
      = (∑ d : Fin 768, aTv V c (ix2 (0 : Fin 1) d)
            * aWih V c (ix2 (⟨t.val * 1024 + i.val, by have := gate_points a t; have := i.isLt; omega⟩ : Fin 3072)
                (⟨word a * 768 + d.val, by have := word_bound a; have := d.isLt; omega⟩ : Fin 1536)))
        + aBih V c (ix2 (0 : Fin 1) (⟨t.val * 1024 + i.val, by have := gate_points a t; have := i.isLt; omega⟩ : Fin 3072)) := by
  refine (congrFun (after6_eq V a c t) (ix2 r i)).trans ?_
  rw [Cert.KernelIdeal.GateValue.k1_pay1_apply, bBih_apply]
  refine congrArg (· + _) (Finset.sum_congr rfl fun d _ => ?_)
  rw [bTv_apply, bWih_apply]

/-- Entry (r, i) of what the body leaves in the second output buffer at point `t`: the last hidden
    state against row `1024·t + i` of the hidden weights, plus the bias. -/
theorem gh_after (c : Dev nD) (t : Fin (cfg1 a).N) (r : Fin 8) (i : Fin 1024) :
    (gateDat V a c).after 7 t (ix2 r i)
      = (∑ k : Fin 1024, aH V c (ix2 (0 : Fin 1) k)
            * aWhh V c (ix2 (⟨t.val * 1024 + i.val, by have := gate_points a t; have := i.isLt; omega⟩ : Fin 3072) k))
        + aBhh V c (ix2 (0 : Fin 1) (⟨t.val * 1024 + i.val, by have := gate_points a t; have := i.isLt; omega⟩ : Fin 3072)) := by
  refine (congrFun (after7_eq V a c t) (ix2 r i)).trans ?_
  rw [Cert.KernelIdeal.GateValue.k1_pay2_apply, bBhh_apply]
  refine congrArg (· + _) (Finset.sum_congr rfl fun k _ => ?_)
  rw [bH_apply, bWhh_apply]

end Cert.KernelIdeal.GateValue2

end
-- ==== Proof.BridgeGate.lean ====
import proofs.«146633_j61375082660584_2_alg».proof.Proof.IdealRunFold
import proofs.«146633_j61375082660584_2_alg».proof.Proof.IdealRunGateOut
import proofs.«146633_j61375082660584_2_alg».proof.Proof.GateValue
import proofs.«146633_j61375082660584_2_alg».proof.Proof.KHostTable
import proofs.«146633_j61375082660584_2_alg».proof.Proof.KHostRow
import proofs.«146633_j61375082660584_2_alg».proof.Proof.GateLaw
import proofs.«146633_j61375082660584_2_alg».proof.Proof.Spec

/-!
# The two affine maps the kernel computes are the specification's

Row 0 of each of the second region's two result arrays, at column `i`, is what the body left at
grid point `i / 1024` in entry `i % 1024`: the inner product of the query (of the last hidden
state) with row `i` of the weights, through the 768 columns the table word picks, plus the bias.
The operands are the launch arrays: no stretch before the region writes an argument, the biases
are the arguments with a leading unit axis, the last hidden state is row 16383 of `hidden_s`, and
the table word is 0 or 1 by the comparison of `result` with one half.  On real inputs the two
rows are therefore the real affine maps.
-/

set_option maxRecDepth 16384

noncomputable section

open scoped BigOperators

namespace Cert.KernelIdeal.Bridge

open Idealize.ShloMosaic Idealize.ShloMosaic.TcCoe
open Idealize.SL.Sem
open Idealize.ShloMosaic.ValueIdx (ix2)
open Cert.KernelIdeal
open Cert.KernelIdeal.Gen hiding V0 V1 V2 V3 V4 V5 V6 V7 segs seg0 seg2 seg3 seg4 seg6

variable (m : (ℓ : Loc nD τ sig) → Buf (Elt Ideal) ℓ) (ρ : Dev nD → PrngReg)

/-! ## The second region's operands are the launch arrays -/

theorem T5_gate_arg0 (c : Dev nD) : Run.T5 m ρ c main_arg0 = m ((c : Thread nD τ).loc main_arg0) :=
  calc Run.W5 m ρ c (Proc.devRef .tc main_arg0)
    _ = Run.W4 m ρ c (Proc.devRef .tc main_arg0) := StableHlo.after_of_writes_sub hostOps1_2 _ hostOps1_2_writes (by decide)
    _ = Run.W3 m ρ c (Proc.devRef .tc main_arg0) := StableHlo.after_of_writes_sub hostOps1_1 _ hostOps1_1_writes (by decide)
    _ = Run.W2 m ρ c (Proc.devRef .tc main_arg0) := StableHlo.after_of_writes_sub hostOps1 _ hostOps1_writes (by decide)
    _ = Run.W1 m ρ c (Proc.devRef .tc main_arg0) := (Run.W2_arr m ρ c 0).trans (((Attn.attnDat (Run.T1 m ρ) c).arrAt_in 0 rfl _).trans (Attn.A_eq (Run.T1 m ρ) c 0))
    _ = Run.W0 m ρ c (Proc.devRef .tc main_arg0) := StableHlo.after_of_writes_sub hostOps0 _ hostOps0_writes (by decide)
    _ = m ((c : Thread nD τ).loc main_arg0) := rfl
theorem T5_gate_arg1 (c : Dev nD) : Run.T5 m ρ c main_arg1 = m ((c : Thread nD τ).loc main_arg1) :=
  calc Run.W5 m ρ c (Proc.devRef .tc main_arg1)
    _ = Run.W4 m ρ c (Proc.devRef .tc main_arg1) := StableHlo.after_of_writes_sub hostOps1_2 _ hostOps1_2_writes (by decide)
    _ = Run.W3 m ρ c (Proc.devRef .tc main_arg1) := StableHlo.after_of_writes_sub hostOps1_1 _ hostOps1_1_writes (by decide)
    _ = Run.W2 m ρ c (Proc.devRef .tc main_arg1) := StableHlo.after_of_writes_sub hostOps1 _ hostOps1_writes (by decide)
    _ = Run.W1 m ρ c (Proc.devRef .tc main_arg1) := Run.W2_of_ne m ρ c main_arg1 (by decide)
    _ = Run.W0 m ρ c (Proc.devRef .tc main_arg1) := StableHlo.after_of_writes_sub hostOps0 _ hostOps0_writes (by decide)
    _ = m ((c : Thread nD τ).loc main_arg1) := rfl
theorem T5_gate_arg4 (c : Dev nD) : Run.T5 m ρ c main_arg4 = m ((c : Thread nD τ).loc main_arg4) :=
  calc Run.W5 m ρ c (Proc.devRef .tc main_arg4)
    _ = Run.W4 m ρ c (Proc.devRef .tc main_arg4) := StableHlo.after_of_writes_sub hostOps1_2 _ hostOps1_2_writes (by decide)
    _ = Run.W3 m ρ c (Proc.devRef .tc main_arg4) := StableHlo.after_of_writes_sub hostOps1_1 _ hostOps1_1_writes (by decide)
    _ = Run.W2 m ρ c (Proc.devRef .tc main_arg4) := StableHlo.after_of_writes_sub hostOps1 _ hostOps1_writes (by decide)
    _ = Run.W1 m ρ c (Proc.devRef .tc main_arg4) := Run.W2_of_ne m ρ c main_arg4 (by decide)
    _ = Run.W0 m ρ c (Proc.devRef .tc main_arg4) := StableHlo.after_of_writes_sub hostOps0 _ hostOps0_writes (by decide)
    _ = m ((c : Thread nD τ).loc main_arg4) := rfl
theorem T5_gate_arg5 (c : Dev nD) : Run.T5 m ρ c main_arg5 = m ((c : Thread nD τ).loc main_arg5) :=
  calc Run.W5 m ρ c (Proc.devRef .tc main_arg5)
    _ = Run.W4 m ρ c (Proc.devRef .tc main_arg5) := StableHlo.after_of_writes_sub hostOps1_2 _ hostOps1_2_writes (by decide)
    _ = Run.W3 m ρ c (Proc.devRef .tc main_arg5) := StableHlo.after_of_writes_sub hostOps1_1 _ hostOps1_1_writes (by decide)
    _ = Run.W2 m ρ c (Proc.devRef .tc main_arg5) := StableHlo.after_of_writes_sub hostOps1 _ hostOps1_writes (by decide)
    _ = Run.W1 m ρ c (Proc.devRef .tc main_arg5) := Run.W2_of_ne m ρ c main_arg5 (by decide)
    _ = Run.W0 m ρ c (Proc.devRef .tc main_arg5) := StableHlo.after_of_writes_sub hostOps0 _ hostOps0_writes (by decide)
    _ = m ((c : Thread nD τ).loc main_arg5) := rfl

/-- The arguments as the stretch that reshapes the biases finds them. -/
theorem W4_gate_arg6 (c : Dev nD) : Run.W4 m ρ c (Proc.devRef .tc main_arg6) = m ((c : Thread nD τ).loc main_arg6) :=
  calc Run.W4 m ρ c (Proc.devRef .tc main_arg6)
    _ = Run.W3 m ρ c (Proc.devRef .tc main_arg6) := StableHlo.after_of_writes_sub hostOps1_1 _ hostOps1_1_writes (by decide)
    _ = Run.W2 m ρ c (Proc.devRef .tc main_arg6) := StableHlo.after_of_writes_sub hostOps1 _ hostOps1_writes (by decide)
    _ = Run.W1 m ρ c (Proc.devRef .tc main_arg6) := Run.W2_of_ne m ρ c main_arg6 (by decide)
    _ = Run.W0 m ρ c (Proc.devRef .tc main_arg6) := StableHlo.after_of_writes_sub hostOps0 _ hostOps0_writes (by decide)
    _ = m ((c : Thread nD τ).loc main_arg6) := rfl
theorem W4_gate_arg7 (c : Dev nD) : Run.W4 m ρ c (Proc.devRef .tc main_arg7) = m ((c : Thread nD τ).loc main_arg7) :=
  calc Run.W4 m ρ c (Proc.devRef .tc main_arg7)
    _ = Run.W3 m ρ c (Proc.devRef .tc main_arg7) := StableHlo.after_of_writes_sub hostOps1_1 _ hostOps1_1_writes (by decide)
    _ = Run.W2 m ρ c (Proc.devRef .tc main_arg7) := StableHlo.after_of_writes_sub hostOps1 _ hostOps1_writes (by decide)
    _ = Run.W1 m ρ c (Proc.devRef .tc main_arg7) := Run.W2_of_ne m ρ c main_arg7 (by decide)
    _ = Run.W0 m ρ c (Proc.devRef .tc main_arg7) := StableHlo.after_of_writes_sub hostOps0 _ hostOps0_writes (by decide)
    _ = m ((c : Thread nD τ).loc main_arg7) := rfl

/-- The two biases as the region finds them, at a column. -/
theorem T5_bias_ih (c : Dev nD) (i : Fin 3072) :
    (Run.T5 m ρ c main_v34 : FVec Ideal S1x3072 .f32) (ix2 (0 : Fin 1) i)
      = (m ((c : Thread nD τ).loc main_arg6) : FVec Ideal S3072 .f32) (ValueIdx.ix1 i) := by
  show (StableHlo.after hostOps1_2 (Run.W4 m ρ c) (Proc.devRef .tc main_v34) : FVec Ideal S1x3072 .f32) (ix2 (0 : Fin 1) i) = _
  rw [Host.bias_ih_eq (Run.W4 m ρ c), W4_gate_arg6 m ρ c]
  exact Host.bias_apply _ i
theorem T5_bias_hh (c : Dev nD) (i : Fin 3072) :
    (Run.T5 m ρ c main_v35 : FVec Ideal S1x3072 .f32) (ix2 (0 : Fin 1) i)
      = (m ((c : Thread nD τ).loc main_arg7) : FVec Ideal S3072 .f32) (ValueIdx.ix1 i) := by
  show (StableHlo.after hostOps1_2 (Run.W4 m ρ c) (Proc.devRef .tc main_v35) : FVec Ideal S1x3072 .f32) (ix2 (0 : Fin 1) i) = _
  rw [Host.bias_hh_eq (Run.W4 m ρ c), W4_gate_arg7 m ρ c]
  exact Host.bias_apply _ i

/-- The last hidden state as the region finds it, at a column: row 16383 of `hidden_s`. -/
theorem T5_last_hidden (c : Dev nD) (k : Fin 1024) :
    (Run.T5 m ρ c main_v0 : FVec Ideal S1x1024 .f32) (ix2 (0 : Fin 1) k)
      = (m ((c : Thread nD τ).loc main_arg3) : FVec Ideal S16384x1024 .f32) (ix2 (⟨16383, by decide⟩ : Fin 16384) k) := by
  have e : Run.T5 m ρ c main_v0
      = extractStridedSlice S1x1024 ![16383, 0] (m ((c : Thread nD τ).loc main_arg3)) slices_S16384x1024_S1x1024_16383_0 :=
    calc Run.W5 m ρ c (Proc.devRef .tc main_v0)
      _ = Run.W2 m ρ c (Proc.devRef .tc main_v0) := Host.h_kept (Run.W2 m ρ c)
      _ = Run.W1 m ρ c (Proc.devRef .tc main_v0) := Run.W2_of_ne m ρ c main_v0 (by decide)
      _ = _ := Host.h_eq (Run.W0 m ρ c)
  rw [e]
  exact Host.h_apply _ k

/-! ## The table word -/

theorem W2_gate_arg1 : Run.W2 m ρ (0 : Dev nD) (Proc.devRef .tc main_arg1) = m (((0 : Dev nD) : Thread nD τ).loc main_arg1) :=
  calc Run.W2 m ρ 0 (Proc.devRef .tc main_arg1)
    _ = Run.W1 m ρ 0 (Proc.devRef .tc main_arg1) := Run.W2_of_ne m ρ 0 main_arg1 (by decide)
    _ = Run.W0 m ρ 0 (Proc.devRef .tc main_arg1) := StableHlo.after_of_writes_sub hostOps0 _ hostOps0_writes (by decide)
    _ = m (((0 : Dev nD) : Thread nD τ).loc main_arg1) := rfl

/-- The table buffer as the second region finds it holds the word chosen by the comparison. -/
theorem table_word_eq : Run.W5 m ρ (0 : Dev nD) (Proc.devRef .tc main_v33)
      = Host.tableWord (m (((0 : Dev nD) : Thread nD τ).loc main_arg1)) :=
  (Host.table_eq (Run.W2 m ρ 0)).trans (congrArg Host.tableWord (W2_gate_arg1 m ρ))

/-- The table the region's index maps read is that buffer. -/
theorem sel_entry : (Run.selAdm m ρ).1 0 = Run.W5 m ρ (0 : Dev nD) (Proc.devRef .tc main_v33) :=
  (show (Run.selAdm m ρ).1 0 = Run.selTable m ρ 0 from rfl).trans
    ((Run.T5_pre m ρ 0 0).symm.trans
      (show Run.W5 m ρ 0 (Proc.devRef .tc (pre1.ref 0)) = Run.W5 m ρ 0 (Proc.devRef .tc main_v33) from rfl))

/-- On a real `result` the word the second region reads is the live half's number. -/
theorem gate_word (res : ℝ)
    (h1 : (m (((0 : Dev nD) : Thread nD τ).loc main_arg1) : FVec Ideal S1 .f32) (ValueIdx.ix1 (0 : Fin 1)) = ((res : ℝ) : EReal)) :
    GateValue2.word (Run.selAdm m ρ) = (Cert.Spec.sel res).val := by
  refine GateValue2.word_of_table (Run.selAdm m ρ) res ?_
  rw [sel_entry m ρ, table_word_eq m ρ]
  exact Host.tableWord_apply _ res h1

/-! ## The two rows -/

/-- Every column of 3072 is a grid point and an entry of its block of 1024. -/
theorem gate_split (i : Fin 3072) :
    ∃ (t : Fin (cfg1 (Run.selAdm m ρ)).N) (i' : Fin 1024),
      i = (⟨t.val * 1024 + i'.val, by have := GateValue2.gate_points (Run.selAdm m ρ) t; have := i'.isLt; omega⟩ : Fin 3072) := by
  have hN : (cfg1 (Run.selAdm m ρ)).N = 3 := N_1
  have hi3 := i.isLt
  exact ⟨⟨i.val / 1024, by rw [hN]; omega⟩, ⟨i.val % 1024, Nat.mod_lt _ (by decide)⟩,
    Fin.ext (by show i.val = i.val / 1024 * 1024 + i.val % 1024; omega)⟩

set_option maxHeartbeats 1000000 in
/-- On real inputs, row 0 of the first result array is the real input affine map. -/
theorem gi_row (c : Dev nD) {tv : Fin 768 → ℝ} {res : ℝ} {Wih : Fin 3072 → Fin 1536 → ℝ} {bih : Fin 3072 → ℝ}
    (h0 : ∀ d : Fin 768, (m ((c : Thread nD τ).loc main_arg0) : FVec Ideal S1x768 .f32) (ix2 (0 : Fin 1) d) = ((tv d : ℝ) : EReal))
    (h1 : (m ((c : Thread nD τ).loc main_arg1) : FVec Ideal S1 .f32) (ValueIdx.ix1 (0 : Fin 1)) = ((res : ℝ) : EReal))
    (h4 : ∀ (r : Fin 3072) (e : Fin 1536), (m ((c : Thread nD τ).loc main_arg4) : FVec Ideal S3072x1536 .f32) (ix2 r e) = ((Wih r e : ℝ) : EReal))
    (h6 : ∀ r : Fin 3072, (m ((c : Thread nD τ).loc main_arg6) : FVec Ideal S3072 .f32) (ValueIdx.ix1 r) = ((bih r : ℝ) : EReal))
    (i : Fin 3072) :
    Host.row0 (Run.W6 m ρ c (Proc.devRef .tc main_v36_0)) (ix2 (0 : Fin 1) i)
      = ((Cert.Spec.gi tv res Wih bih i : ℝ) : EReal) := by
  obtain rfl : c = 0 := Subsingleton.elim _ _
  obtain ⟨t, i', rfl⟩ := gate_split m ρ i
  have e0 : ∀ d : Fin 768, GateValue2.aTv (Run.T5 m ρ) 0 (ix2 (0 : Fin 1) d) = ((tv d : ℝ) : EReal) := fun d => by
    show (Run.T5 m ρ 0 main_arg0 : FVec Ideal S1x768 .f32) (ix2 (0 : Fin 1) d) = _
    rw [T5_gate_arg0 m ρ 0]; exact h0 d
  have e4 : ∀ (r : Fin 3072) (e : Fin 1536), GateValue2.aWih (Run.T5 m ρ) 0 (ix2 r e) = ((Wih r e : ℝ) : EReal) := fun r e => by
    show (Run.T5 m ρ 0 main_arg4 : FVec Ideal S3072x1536 .f32) (ix2 r e) = _
    rw [T5_gate_arg4 m ρ 0]; exact h4 r e
  have e6 : ∀ r : Fin 3072, GateValue2.aBih (Run.T5 m ρ) 0 (ix2 (0 : Fin 1) r) = ((bih r : ℝ) : EReal) := fun r =>
    (T5_bias_ih m ρ 0 r).trans (h6 r)
  have hw := gate_word m ρ res h1
  have hl : ∀ d : Fin 768,
      (⟨GateValue2.word (Run.selAdm m ρ) * 768 + d.val, by
          have := GateValue2.word_bound (Run.selAdm m ρ); have := d.isLt; omega⟩ : Fin 1536)
        = Cert.GateLaw.live (Cert.Spec.sel res) d := fun d =>
    Fin.ext (by
      show GateValue2.word (Run.selAdm m ρ) * 768 + d.val = (Cert.Spec.sel res).val * 768 + d.val
      rw [hw])
  rw [Host.row0_apply, Run.W6_gi m ρ 0 t 0 i', GateValue2.gi_after (Run.T5 m ρ) (Run.selAdm m ρ) 0 t 0 i', e6]
  refine Eq.trans ?_ (Cert.GateLaw.gi_live_coe tv res Wih bih _)
  refine congrArg (· + _) (Finset.sum_congr rfl fun d _ => ?_)
  rw [e0 d, e4, hl d]

/-- On real inputs, row 0 of the second result array is the real hidden affine map. -/
theorem gh_row_alt (c : Dev nD) {hs : Fin 16384 → Fin 1024 → ℝ} {Whh : Fin 3072 → Fin 1024 → ℝ} {bhh : Fin 3072 → ℝ}
    (h3 : ∀ (l : Fin 16384) (j : Fin 1024), (m ((c : Thread nD τ).loc main_arg3) : FVec Ideal S16384x1024 .f32) (ix2 l j) = ((hs l j : ℝ) : EReal))
    (h5 : ∀ (r : Fin 3072) (k : Fin 1024), (m ((c : Thread nD τ).loc main_arg5) : FVec Ideal S3072x1024 .f32) (ix2 r k) = ((Whh r k : ℝ) : EReal))
    (h7 : ∀ r : Fin 3072, (m ((c : Thread nD τ).loc main_arg7) : FVec Ideal S3072 .f32) (ValueIdx.ix1 r) = ((bhh r : ℝ) : EReal))
    (i : Fin 3072) :
    Host.row0 (Run.W6 m ρ c (Proc.devRef .tc main_v36_1)) (ix2 (0 : Fin 1) i)
      = ((Cert.Spec.gh hs Whh bhh i : ℝ) : EReal) := by
  obtain rfl : c = 0 := Subsingleton.elim _ _
  obtain ⟨t, i', rfl⟩ := gate_split m ρ i
  have eh : ∀ k : Fin 1024, GateValue2.aH (Run.T5 m ρ) 0 (ix2 (0 : Fin 1) k) = ((hs ⟨16383, by decide⟩ k : ℝ) : EReal) := fun k =>
    (T5_last_hidden m ρ 0 k).trans (h3 _ k)
  have e5 : ∀ (r : Fin 3072) (k : Fin 1024), GateValue2.aWhh (Run.T5 m ρ) 0 (ix2 r k) = ((Whh r k : ℝ) : EReal) := fun r k => by
    show (Run.T5 m ρ 0 main_arg5 : FVec Ideal S3072x1024 .f32) (ix2 r k) = _
    rw [T5_gate_arg5 m ρ 0]; exact h5 r k
  have e7 : ∀ r : Fin 3072, GateValue2.aBhh (Run.T5 m ρ) 0 (ix2 (0 : Fin 1) r) = ((bhh r : ℝ) : EReal) := fun r =>
    (T5_bias_hh m ρ 0 r).trans (h7 r)
  rw [Host.row0_apply, Run.W6_gh m ρ 0 t 0 i', GateValue2.gh_after (Run.T5 m ρ) (Run.selAdm m ρ) 0 t 0 i', e7]
  refine Eq.trans ?_ (Cert.GateLaw.gh_coe hs Whh bhh _)
  refine congrArg (· + _) (Finset.sum_congr rfl fun k _ => ?_)
  rw [eh k, e5]

end Cert.KernelIdeal.Bridge

end
-- ==== Proof.Final.lean ====
/-
  The two results agree.

  Both programs end with the same operations: the score is the concatenation of the query row with the attention row,
  contracted with the score weights, plus the score bias; the new hidden state is the gated-recurrent cell applied to
  the input-side gate rows, the hidden-side gate rows and the last hidden row.  So the two results are equal as soon as
  the kernel's attention row, input-side gate rows and hidden-side gate rows are the reference's.  Under the
  precondition every argument entry is a real number; then the kernel's attention row (two halves, each a streaming
  softmax over four tiles, recombined on the host) and the reference's (a softmax over all rows) are both the real
  softmax-weighted average of the value rows, the kernel's input-side gate rows (the live half of the input weights
  only) and the reference's (the input padded with zeros against all the weights) are the same sums, and the
  hidden-side gate rows and the last hidden row are computed alike.
-/
import proofs.«146633_j61375082660584_2_alg».proof.Defs
import proofs.«146633_j61375082660584_2_alg».proof.Proof.Gen.Kernel
import proofs.«146633_j61375082660584_2_alg».proof.Proof.Gen.KernelIdeal
import proofs.«146633_j61375082660584_2_alg».proof.Proof.Gen.ReferenceIdeal
import proofs.«146633_j61375082660584_2_alg».proof.Proof.Gen.Pre_finite_inputs
import proofs.«146633_j61375082660584_2_alg».proof.Proof.IdealRun
import proofs.«146633_j61375082660584_2_alg».proof.Proof.RefRun
import proofs.«146633_j61375082660584_2_alg».proof.Proof.RefStages
import proofs.«146633_j61375082660584_2_alg».proof.Proof.RefValue
import proofs.«146633_j61375082660584_2_alg».proof.Proof.KHostTail
import proofs.«146633_j61375082660584_2_alg».proof.Proof.KHostTable
import proofs.«146633_j61375082660584_2_alg».proof.Proof.KHostRow
import proofs.«146633_j61375082660584_2_alg».proof.Proof.Finite
import proofs.«146633_j61375082660584_2_alg».proof.Proof.BridgeAttn
import proofs.«146633_j61375082660584_2_alg».proof.Proof.BridgeGate

set_option maxRecDepth 16384

noncomputable section

namespace Cert.Bridge

open Idealize.ShloMosaic Idealize.ShloMosaic.TcCoe Idealize.SL.Sem
open Idealize.ShloMosaic.ValueIdx (ix1 ix2)

variable (m : (ℓ : Loc Cert.KernelIdeal.nD Cert.KernelIdeal.τ Cert.KernelIdeal.sig) → Buf (Elt Ideal) ℓ) (ρ : Dev Cert.KernelIdeal.nD → PrngReg)

/-- The query row, the score weights and the score bias reach the last stretch of host operations as launched. -/
theorem W6_arg (c : Dev Cert.KernelIdeal.nD) :
    Cert.KernelIdeal.Run.W6 m ρ c (Proc.devRef .tc Cert.KernelIdeal.main_arg0) = m ((c.tc : Thread Cert.KernelIdeal.nD Cert.KernelIdeal.τ).loc Cert.KernelIdeal.main_arg0)
    ∧ Cert.KernelIdeal.Run.W6 m ρ c (Proc.devRef .tc Cert.KernelIdeal.main_arg8) = m ((c.tc : Thread Cert.KernelIdeal.nD Cert.KernelIdeal.τ).loc Cert.KernelIdeal.main_arg8)
    ∧ Cert.KernelIdeal.Run.W6 m ρ c (Proc.devRef .tc Cert.KernelIdeal.main_arg9) = m ((c.tc : Thread Cert.KernelIdeal.nD Cert.KernelIdeal.τ).loc Cert.KernelIdeal.main_arg9) :=
  ⟨(Cert.KernelIdeal.Host.keep2 _ Cert.KernelIdeal.main_arg0 (by decide)).symm.trans (Cert.KernelIdeal.Run.W7_main_arg0 m ρ c),
   (Cert.KernelIdeal.Host.keep2 _ Cert.KernelIdeal.main_arg8 (by decide)).symm.trans (Cert.KernelIdeal.Run.W7_main_arg8 m ρ c),
   (Cert.KernelIdeal.Host.keep2 _ Cert.KernelIdeal.main_arg9 (by decide)).symm.trans (Cert.KernelIdeal.Run.W7_main_arg9 m ρ c)⟩

/-- The scores agree: the same last operations on the query row, the score weights, the score bias, and on attention
    rows that are both the softmax-weighted average of the value rows. -/
theorem score_agrees [Cert.Pre_finite_inputs.Facts]
    (m' : (ℓ : Loc Cert.ReferenceIdeal.nD Cert.ReferenceIdeal.τ Cert.ReferenceIdeal.sig) → Buf (Elt Ideal) ℓ) (c : Dev Cert.KernelIdeal.nD)
    (hp : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = fun _ => 1#1)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    StableHlo.after Cert.ReferenceIdeal.HandRun.ops (StableHlo.launchContents m' c) (Proc.devRef .tc Cert.ReferenceIdeal.main_v63)
      = Cert.KernelIdeal.Run.W7 m ρ c (Proc.devRef .tc Cert.KernelIdeal.main_v72) := by
  obtain ⟨⟨f0, e0⟩, -, ⟨f2, e2⟩, ⟨f3, e3⟩, -⟩ := Cert.Finite.funs_of_pre _ _ _ _ _ _ _ _ _ _ hp
  obtain ⟨w0, w8, w9⟩ := W6_arg m ρ c
  rw [Cert.ReferenceIdeal.HandRun.out0_eq, Cert.KernelIdeal.Run.W7_v72, Cert.KernelIdeal.Host.score_eq, w0, w8, w9]
  show Cert.ReferenceIdeal.Tail.score (m' ((c.tc : Thread Cert.ReferenceIdeal.nD Cert.ReferenceIdeal.τ).loc Cert.ReferenceIdeal.main_arg0))
      (Cert.ReferenceIdeal.Stages.attn (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
      (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
  rw [a0, a2, a3, a8, a9]
  have h0 : ∀ d : Fin 768, m ((c.tc : Thread Cert.KernelIdeal.nD Cert.KernelIdeal.τ).loc Cert.KernelIdeal.main_arg0) (ix2 (0 : Fin 1) d) = ((f0 (ix2 (0 : Fin 1) d) : ℝ) : EReal) := fun d => congrFun e0 _
  have h2 : ∀ (l : Fin 16384) (d : Fin 768), m ((c.tc : Thread Cert.KernelIdeal.nD Cert.KernelIdeal.τ).loc Cert.KernelIdeal.main_arg2) (ix2 l d) = ((f2 (ix2 l d) : ℝ) : EReal) := fun l d => congrFun e2 _
  have h3 : ∀ (l : Fin 16384) (j : Fin 1024), m ((c.tc : Thread Cert.KernelIdeal.nD Cert.KernelIdeal.τ).loc Cert.KernelIdeal.main_arg3) (ix2 l j) = ((f3 (ix2 l j) : ℝ) : EReal) := fun l j => congrFun e3 _
  have hattn : Cert.ReferenceIdeal.Stages.attn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      = Cert.KernelIdeal.Run.W6 m ρ c (Proc.devRef .tc Cert.KernelIdeal.main_v29) :=
    Cert.ReferenceIdeal.Stages.row_ext _ _ fun j =>
      (Cert.ReferenceIdeal.Stages.attn_value _ _ _ (fun d => f0 (ix2 (0 : Fin 1) d)) (fun l d => f2 (ix2 l d)) (fun l j => f3 (ix2 l j)) h0 h2 h3 j).trans
        (Cert.KernelIdeal.Bridge.attn_row m ρ c h0 h2 h3 j).symm
  rw [hattn]

/-- The new hidden states agree: the same cell applied to gate rows and a last hidden row that agree. -/
theorem cell_agrees [Cert.Pre_finite_inputs.Facts]
    (m' : (ℓ : Loc Cert.ReferenceIdeal.nD Cert.ReferenceIdeal.τ Cert.ReferenceIdeal.sig) → Buf (Elt Ideal) ℓ) (c : Dev Cert.KernelIdeal.nD)
    (hp : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = fun _ => 1#1)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    StableHlo.after Cert.ReferenceIdeal.HandRun.ops (StableHlo.launchContents m' c) (Proc.devRef .tc Cert.ReferenceIdeal.main_v62)
      = Cert.KernelIdeal.Run.W7 m ρ c (Proc.devRef .tc Cert.KernelIdeal.main_v66) := by
  obtain ⟨⟨f0, e0⟩, ⟨f1, e1⟩, -, ⟨f3, e3⟩, ⟨f4, e4⟩, ⟨f5, e5⟩, ⟨f6, e6⟩, ⟨f7, e7⟩, -⟩ := Cert.Finite.funs_of_pre _ _ _ _ _ _ _ _ _ _ hp
  rw [Cert.ReferenceIdeal.HandRun.out1_eq, Cert.KernelIdeal.Run.W7_v66, Cert.KernelIdeal.Host.cell_eq]
  show Cert.ReferenceIdeal.Tail.cell (Cert.ReferenceIdeal.Stages.gi (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg6)))
      (Cert.ReferenceIdeal.Stages.gh (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7))) (Cert.ReferenceIdeal.Stages.hrow (m' ((c.tc : Thread Cert.ReferenceIdeal.nD Cert.ReferenceIdeal.τ).loc Cert.ReferenceIdeal.main_arg3))) = _
  rw [a0, a1, a3, a4, a5, a6, a7]
  have h0 : ∀ d : Fin 768, m ((c.tc : Thread Cert.KernelIdeal.nD Cert.KernelIdeal.τ).loc Cert.KernelIdeal.main_arg0) (ix2 (0 : Fin 1) d) = ((f0 (ix2 (0 : Fin 1) d) : ℝ) : EReal) := fun d => congrFun e0 _
  have h1 : m ((c.tc : Thread Cert.KernelIdeal.nD Cert.KernelIdeal.τ).loc Cert.KernelIdeal.main_arg1) (ix1 (0 : Fin 1)) = ((f1 (ix1 (0 : Fin 1)) : ℝ) : EReal) := congrFun e1 _
  have h3 : ∀ (l : Fin 16384) (j : Fin 1024), m ((c.tc : Thread Cert.KernelIdeal.nD Cert.KernelIdeal.τ).loc Cert.KernelIdeal.main_arg3) (ix2 l j) = ((f3 (ix2 l j) : ℝ) : EReal) := fun l j => congrFun e3 _
  have h4 : ∀ (i : Fin 3072) (e : Fin 1536), m ((c.tc : Thread Cert.KernelIdeal.nD Cert.KernelIdeal.τ).loc Cert.KernelIdeal.main_arg4) (ix2 i e) = ((f4 (ix2 i e) : ℝ) : EReal) := fun i e => congrFun e4 _
  have h5 : ∀ (i : Fin 3072) (k : Fin 1024), m ((c.tc : Thread Cert.KernelIdeal.nD Cert.KernelIdeal.τ).loc Cert.KernelIdeal.main_arg5) (ix2 i k) = ((f5 (ix2 i k) : ℝ) : EReal) := fun i k => congrFun e5 _
  have h6 : ∀ i : Fin 3072, m ((c.tc : Thread Cert.KernelIdeal.nD Cert.KernelIdeal.τ).loc Cert.KernelIdeal.main_arg6) (ix1 i) = ((f6 (ix1 i) : ℝ) : EReal) := fun i => congrFun e6 _
  have h7 : ∀ i : Fin 3072, m ((c.tc : Thread Cert.KernelIdeal.nD Cert.KernelIdeal.τ).loc Cert.KernelIdeal.main_arg7) (ix1 i) = ((f7 (ix1 i) : ℝ) : EReal) := fun i => congrFun e7 _
  have hgi : Cert.ReferenceIdeal.Stages.gi (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg6))
      = Cert.KernelIdeal.Host.row0 (Cert.KernelIdeal.Run.W6 m ρ c (Proc.devRef .tc Cert.KernelIdeal.main_v36_0)) :=
    Cert.ReferenceIdeal.Stages.row_ext _ _ fun i =>
      (Cert.ReferenceIdeal.Stages.gi_value _ _ _ _ (fun d => f0 (ix2 (0 : Fin 1) d)) (f1 (ix1 (0 : Fin 1))) (fun i e => f4 (ix2 i e)) (fun i => f6 (ix1 i)) h0 h1 h4 h6 i).trans
        (Cert.KernelIdeal.Bridge.gi_row m ρ c h0 h1 h4 h6 i).symm
  have hgh : Cert.ReferenceIdeal.Stages.gh (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7))
      = Cert.KernelIdeal.Host.row0 (Cert.KernelIdeal.Run.W6 m ρ c (Proc.devRef .tc Cert.KernelIdeal.main_v36_1)) :=
    Cert.ReferenceIdeal.Stages.row_ext _ _ fun i =>
      (Cert.ReferenceIdeal.Stages.gh_value _ _ _ (fun l j => f3 (ix2 l j)) (fun i k => f5 (ix2 i k)) (fun i => f7 (ix1 i)) h3 h5 h7 i).trans
        (Cert.KernelIdeal.Bridge.gh_row_alt m ρ c h3 h5 h7 i).symm
  have hh : Cert.ReferenceIdeal.Stages.hrow (F := Ideal) (m ((c.tc : Thread Cert.KernelIdeal.nD Cert.KernelIdeal.τ).loc Cert.KernelIdeal.main_arg3)) = Cert.KernelIdeal.Run.W6 m ρ c (Proc.devRef .tc Cert.KernelIdeal.main_v0) :=
    Cert.ReferenceIdeal.Stages.row_ext _ _ fun k =>
      (Cert.ReferenceIdeal.Stages.hrow_value _ (fun l j => f3 (ix2 l j)) h3 k).trans
        ((h3 _ k).symm.trans (Cert.KernelIdeal.Bridge.hidden_row m ρ c k).symm)
  rw [hgi, hgh, hh]

end Cert.Bridge

namespace Cert.Proof

open Idealize.ShloMosaic Idealize.ShloMosaic.TcCoe Idealize.SL.Sem

/-- At the exact instance both programs run to the end from memories that agree on the arguments, leave the arguments
    unchanged, and end with equal results: the kernel's run names its two results, and the reference's are the same. -/
theorem algebraic : @Cert.algebraic_KernelIdeal_ReferenceIdeal Cert.KernelIdeal.Gen.facts Cert.ReferenceIdeal.Gen.facts Cert.Pre_finite_inputs.Gen.facts := by
  haveI := Cert.Pre_finite_inputs.Gen.facts
  intro m ρ m' ρ' hpre hagree
  refine ⟨fun c => Cert.KernelIdeal.Run.W7 m ρ c (Proc.devRef .tc Cert.KernelIdeal.main_v72), fun c => Cert.KernelIdeal.Run.W7 m ρ c (Proc.devRef .tc Cert.KernelIdeal.main_v66),
    Cert.KernelIdeal.Run.run_values m ρ, ?_⟩
  refine (θ_run Cert.ReferenceIdeal.defs _ _).mono (fun r h c => ?_) (Cert.ReferenceIdeal.HandRun.run_args (F := Ideal) m' ρ')
  obtain ⟨hall, hargs⟩ := h
  obtain ⟨a0, a1, a2, a3, a4, a5, a6, a7, a8, a9⟩ := hagree c
  exact ⟨(hall c Cert.ReferenceIdeal.main_v63).trans (Cert.Bridge.score_agrees m ρ m' c (hpre c) a0 a2 a3 a8 a9),
    (hall c Cert.ReferenceIdeal.main_v62).trans (Cert.Bridge.cell_agrees m ρ m' c (hpre c) a0 a1 a3 a4 a5 a6 a7), hargs c⟩

end Cert.Proof

end
-- ==== Proof.lean ====
/-
  The certificate of a sequence model's step: attention over the history, a score, and a gated-recurrent cell.

  The kernel computes, from a query row, 16384 key rows and value rows, two weight matrices and biases, (i) the
  softmax-weighted average of the value rows, where the weights are the softmax of the keys' inner products with the
  query — in one region over a 2 × 4 grid: each half of the rows is swept in four tiles of 2048 rows keeping a running
  maximum, a running sum and a running weighted sum, and the two halves are recombined on the host —, (ii) in a second
  region over the three gates, the input-side and hidden-side gate rows, the input-side weights restricted to the half
  of their columns that the zero-padded input leaves live, chosen by a one-word table computed from the correctness
  flag —, and (iii) on the host the score and the cell's output.  The reference computes the same with a plain softmax
  and the zero-padded input against all the columns.

  Five statements are proved.  Each of the three programs runs to the end, faults nowhere and leaves its arguments as
  they were: for the two kernel programs, at any interpretation of the floating-point operations, by following the
  program through its two regions — in the first the invariant carries the running state from tile to tile, in the
  second it carries the table, whose word is 0 or 1 whatever the flag, so every block it selects lies inside the weight
  array — ; for the reference, by running its operations in order.  The idealized kernel is the kernel's own text read
  over the extended reals (the idealizing pass rewrote nothing).  And over the extended reals, under the precondition
  that every argument entry is finite, the idealized kernel and the idealized reference end with equal results: both
  results are the same last operations applied to an attention row, gate rows and a last hidden row that agree — the
  streaming, rescaled, two-half softmax-weighted sum is the plain one on real scores, and the zero half of the padded
  input contributes nothing to the gate sums.
-/
import proofs.«146633_j61375082660584_2_alg».proof.Defs
import proofs.«146633_j61375082660584_2_alg».proof.Proof.Gen.Kernel
import proofs.«146633_j61375082660584_2_alg».proof.Proof.Gen.KernelIdeal
import proofs.«146633_j61375082660584_2_alg».proof.Proof.Gen.ReferenceIdeal
import proofs.«146633_j61375082660584_2_alg».proof.Proof.Gen.Pre_finite_inputs
import proofs.«146633_j61375082660584_2_alg».proof.Proof.KernelRun
import proofs.«146633_j61375082660584_2_alg».proof.Proof.IdealRun
import proofs.«146633_j61375082660584_2_alg».proof.Proof.RefRun
import proofs.«146633_j61375082660584_2_alg».proof.Proof.Final
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Run.frame m ρ,
    fun m ρ _ => Cert.KernelIdeal.Run.frame m ρ,
    fun m ρ _ => Cert.ReferenceIdeal.HandRun.frame m ρ,
    trivial,
    Cert.Proof.algebraic⟩

end Cert.Proof

end
